-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v77) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64000x64 : Shape := ⟨2, ![64000, 64]⟩
abbrev S1000000 : Shape := ⟨1, ![1000000]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x64 : Shape := ⟨2, ![512, 64]⟩
abbrev S64x64000 : Shape := ⟨2, ![64, 64000]⟩
abbrev S64000 : Shape := ⟨1, ![64000]⟩
abbrev S64x32 : Shape := ⟨2, ![64, 32]⟩
abbrev S32 : Shape := ⟨1, ![32]⟩
abbrev S_ : Shape := ⟨0, ![]⟩

class Facts : Prop where
  bcast_S_S64000x64 : S_.BroadcastsInDim S64000x64 (![] : Fin 0 → Fin S64000x64.rank)
  reducesTo_S64000x64_S_d0_1 : S64000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64000x512 : S_.BroadcastsInDim S64000x512 (![] : Fin 0 → Fin S64000x512.rank)
  reducesTo_S64000x512_S_d0_1 : S64000x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64x64000 : S_.BroadcastsInDim S64x64000 (![] : Fin 0 → Fin S64x64000.rank)
  reducesTo_S64x64000_S_d0_1 : S64x64000.ReducesTo [0, 1] S_
  bcast_S_S64000 : S_.BroadcastsInDim S64000 (![] : Fin 0 → Fin S64000.rank)
  reducesTo_S64000_S_d0 : S64000.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64000 .f32) (main_arg14 : FVec F S64x32 .f32) (main_arg15 : FVec F S32 .f32) (main_v48 : IVec S_ 1) (main_v49 : FVec F S64x64000 .f32) (main_v50 : FVec F S64x64000 .f32) : IVec S_ 1 :=
  let main_v51 : IVec S64x64000 1 := cmpf .olt main_v49 main_v50
  let main_c_19 : IVec S_ 1 := constantI S_ 1 1#1
  let main_v52 : IVec S_ 1 := (fun x v => Host.reduce IntOp.andi x v reducesTo_S64x64000_S_d0_1 h_S_) main_v51 main_c_19
  let main_v53 : IVec S_ 1 := andi main_v48 main_v52
  let main_v54 : FVec F S64000 .f32 := Host.absf main_arg13
  let main_cst_20 : FVec F S_ .f32 := constant S_ .f32 0x7F800000#32
  let main_v55 : FVec F S64000 .f32 := broadcastInDim S64000 ![] bcast_S_S64000 main_cst_20
  let main_v56 : IVec S64000 1 := cmpf .olt main_v54 main_v55
  let main_c_21 : IVec S_ 1 := constantI S_ 1 1#1
  let main_v57 : IVec S_ 1 := (fun x v => Host.reduce IntOp.andi x v reducesTo_S64000_S_d0 h_S_) main_v56 main_c_21
  let main_v58 : IVec S_ 1 := andi main_v53 main_v57
  let main_v59 : FVec F S64x32 .f32 := Host.absf main_arg14
  let main_cst_22 : FVec F S_ .f32 := constant S_ .f32 0x7F800000#32
  let main_v60 : FVec F S64x32 .f32 := broadcastInDim S64x32 ![] bcast_S_S64x32 main_cst_22
  let main_v61 : IVec S64x32 1 := cmpf .olt main_v59 main_v60
  let main_c_23 : IVec S_ 1 := constantI S_ 1 1#1
  let main_v62 : IVec S_ 1 := (fun x v => Host.reduce IntOp.andi x v reducesTo_S64x32_S_d0_1 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg9 : FVec F S64 .f32) (main_arg10 : FVec F S512x64 .f32) (main_arg11 : FVec F S64 .f32) (main_arg12 : FVec F S64x64000 .f32) (main_arg13 : FVec F S64000 .f32) (main_arg14 : FVec F S64x32 .f32) (main_arg15 : FVec F S32 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x64 .f32 := Host.absf main_arg10
  let main_cst_14 : FVec F S_ .f32 := constant S_ .f32 0x7F800000#32
  let main_v40 : FVec F S512x64 .f32 := broadcastInDim S512x64 ![] bcast_S_S512x64 main_cst_14
  let main_v41 : IVec S512x64 1 := cmpf .olt main_v39 main_v40
  let main_c_15 : IVec S_ 1 := constantI S_ 1 1#1
  let main_v42 : IVec S_ 1 := (fun x v => Host.reduce IntOp.andi x v reducesTo_S512x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64000 .f32 := Host.absf main_arg12
  let main_cst_18 : FVec F S_ .f32 := constant S_ .f32 0x7F800000#32
  let main_v50 : FVec F S64x64000 .f32 := broadcastInDim S64x64000 ![] bcast_S_S64x64000 main_cst_18
  fn_part3 (F := F) main_arg13 main_arg14 main_arg15 main_v48 main_v49 main_v50

def fn_part1 {F : FTy → Type} [FloatOps F] (main_arg6 : FVec F S64000x512 .f32) (main_arg7 : FVec F S512 .f32) (main_arg8 : FVec F S512x64 .f32) (main_arg9 : FVec F S64 .f32) (main_arg10 : FVec F S512x64 .f32) (main_arg11 : FVec F S64 .f32) (main_arg12 : FVec F S64x64000 .f32) (main_arg13 : FVec F S64000 .f32) (main_arg14 : FVec F S64x32 .f32) (main_arg15 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64000x512 .f32 := Host.absf main_arg6
  let main_cst_6 : FVec F S_ .f32 := constant S_ .f32 0x7F800000#32
  let main_v20 : FVec F S64000x512 .f32 := broadcastInDim S64000x512 ![] bcast_S_S64000x512 main_cst_6
  let main_v21 : IVec S64000x512 1 := cmpf .olt main_v19 main_v20
  let main_c_7 : IVec S_ 1 := constantI S_ 1 1#1
  let main_v22 : IVec S_ 1 := (fun x v => Host.reduce IntOp.andi x v reducesTo_S64000x512_S_d0_1 h_S_) main_v21 main_c_7
  let main_v23 : IVec S_ 1 := andi main_v18 main_v22
  let main_v24 : FVec F S512 .f32 := Host.absf main_arg7
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x64 .f32 := Host.absf main_arg8
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S64000x64 .f32) (main_arg1 : IVec S1000000 32) (main_arg2 : IVec S1000000 32) (main_arg3 : FVec F S64x64 .f32) (main_arg4 : FVec F S64x64 .f32) (main_arg5 : FVec F S64 .f32) (main_arg6 : FVec F S64000x512 .f32) (main_arg7 : FVec F S512 .f32) (main_arg8 : FVec F S512x64 .f32) (main_arg9 : FVec F S64 .f32) (main_arg10 : FVec F S512x64 .f32) (main_arg11 : FVec F S64 .f32) (main_arg12 : FVec F S64x64000 .f32) (main_arg13 : FVec F S64000 .f32) (main_arg14 : FVec F S64x32 .f32) (main_arg15 : FVec F S32 .f32) : IVec S_ 1 :=
  let main_v0 : FVec F S64000x64 .f32 := Host.absf main_arg0
  let main_cst : FVec F S_ .f32 := constant S_ .f32 0x7F800000#32
  let main_v1 : FVec F S64000x64 .f32 := broadcastInDim S64000x64 ![] bcast_S_S64000x64 main_cst
  let main_v2 : IVec S64000x64 1 := cmpf .olt main_v0 main_v1
  let main_c : IVec S_ 1 := constantI S_ 1 1#1
  let main_v3 : IVec S_ 1 := (fun x v => Host.reduce IntOp.andi x v reducesTo_S64000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S64000x64 : Shape := ⟨2, ![64000, 64]⟩
abbrev S1000000 : Shape := ⟨1, ![1000000]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x64 : Shape := ⟨2, ![512, 64]⟩
abbrev S64x64000 : Shape := ⟨2, ![64, 64000]⟩
abbrev S64000 : Shape := ⟨1, ![64000]⟩
abbrev S64x32 : Shape := ⟨2, ![64, 32]⟩
abbrev S32 : Shape := ⟨1, ![32]⟩
abbrev S1x64 : Shape := ⟨2, ![1, 64]⟩
abbrev S8000x64 : Shape := ⟨2, ![8000, 64]⟩
abbrev S1064000 : Shape := ⟨1, ![1064000]⟩
abbrev S_ : Shape := ⟨0, ![]⟩
abbrev S1064000x1 : Shape := ⟨2, ![1064000, 1]⟩
abbrev S64000x1 : Shape := ⟨2, ![64000, 1]⟩
abbrev S1064000x64 : Shape := ⟨2, ![1064000, 64]⟩
abbrev S1x512 : Shape := ⟨2, ![1, 512]⟩
abbrev S64x512 : Shape := ⟨2, ![64, 512]⟩
abbrev S64x3200 : Shape := ⟨2, ![64, 3200]⟩
abbrev S3200x512 : Shape := ⟨2, ![3200, 512]⟩
abbrev S1x64000 : Shape := ⟨2, ![1, 64000]⟩
abbrev S64x6400 : Shape := ⟨2, ![64, 6400]⟩
abbrev S1x6400 : Shape := ⟨2, ![1, 6400]⟩
abbrev S1x32 : Shape := ⟨2, ![1, 32]⟩
abbrev S64000x32 : Shape := ⟨2, ![64000, 32]⟩
abbrev S8000x32 : Shape := ⟨2, ![8000, 32]⟩
abbrev S1000000x1 : Shape := ⟨2, ![1000000, 1]⟩
abbrev S1000000x32 : Shape := ⟨2, ![1000000, 32]⟩

abbrev nBuf : Space → Nat
  | .hbm => 110
  | .vmem => 39
  | .smem => 0
  | _ => 0

abbrev bufTy : (tb : Table) → Fin (tcTables nBuf tb) → BufTy
  | .hbm, ⟨0, _⟩ => ⟨S64000x64, .f32⟩
  | .hbm, ⟨1, _⟩ => ⟨S1000000, .i32⟩
  | .hbm, ⟨2, _⟩ => ⟨S1000000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64000x512, .f32⟩
  | .hbm, ⟨7, _⟩ => ⟨S512, .f32⟩
  | .hbm, ⟨8, _⟩ => ⟨S512x64, .f32⟩
  | .hbm, ⟨9, _⟩ => ⟨S64, .f32⟩
  | .hbm, ⟨10, _⟩ => ⟨S512x64, .f32⟩
  | .hbm, ⟨11, _⟩ => ⟨S64, .f32⟩
  | .hbm, ⟨12, _⟩ => ⟨S64x64000, .f32⟩
  | .hbm, ⟨13, _⟩ => ⟨S64000, .f32⟩
  | .hbm, ⟨14, _⟩ => ⟨S64x32, .f32⟩
  | .hbm, ⟨15, _⟩ => ⟨S32, .f32⟩
  | .hbm, ⟨16, _⟩ => ⟨S1x64, .f32⟩
  | .hbm, ⟨17, _⟩ => ⟨S64000x64, .f32⟩
  | .hbm, ⟨18, _⟩ => ⟨S64000, .i32⟩
  | .hbm, ⟨19, _⟩ => ⟨S1064000, .i32⟩
  | .hbm, ⟨20, _⟩ => ⟨S1064000, .i32⟩
  | .hbm, ⟨21, _⟩ => ⟨S_, .f32⟩
  | .hbm, ⟨22, _⟩ => ⟨S1064000, .f32⟩
  | .hbm, ⟨23, _⟩ => ⟨S_, .f32⟩
  | .hbm, ⟨24, _⟩ => ⟨S64000, .f32⟩
  | .hbm, ⟨25, _⟩ => ⟨S1064000x1, .i32⟩
  | .hbm, ⟨26, _⟩ => ⟨S64000, .f32⟩
  | .hbm, ⟨27, _⟩ => ⟨S_, .f32⟩
  | .hbm, ⟨28, _⟩ => ⟨S64000, .f32⟩
  | .hbm, ⟨29, _⟩ => ⟨S1064000x1, .i32⟩
  | .hbm, ⟨30, _⟩ => ⟨S64000, .f32⟩
  | .hbm, ⟨31, _⟩ => ⟨S_, .f32⟩
  | .hbm, ⟨32, _⟩ => ⟨S64000, .f32⟩
  | .hbm, ⟨33, _⟩ => ⟨S64000, .f32⟩
  | .hbm, ⟨34, _⟩ => ⟨S64000, .f32⟩
  | .hbm, ⟨35, _⟩ => ⟨S64000x1, .f32⟩
  | .hbm, ⟨36, _⟩ => ⟨S64000x64, .f32⟩
  | .hbm, ⟨37, _⟩ => ⟨S64000x64, .f32⟩
  | .hbm, ⟨38, _⟩ => ⟨S_, .i32⟩
  | .hbm, ⟨39, _⟩ => ⟨S1064000, .i32⟩
  | .hbm, ⟨40, _⟩ => ⟨S1064000, .i1⟩
  | .hbm, ⟨41, _⟩ => ⟨S_, .i32⟩
  | .hbm, ⟨42, _⟩ => ⟨S1064000, .i32⟩
  | .hbm, ⟨43, _⟩ => ⟨S1064000, .i32⟩
  | .hbm, ⟨44, _⟩ => ⟨S1064000, .i32⟩
  | .hbm, ⟨45, _⟩ => ⟨S1064000x1, .i32⟩
  | .hbm, ⟨46, _⟩ => ⟨S1064000x64, .f32⟩
  | .hbm, ⟨47, _⟩ => ⟨S_, .f32⟩
  | .hbm, ⟨48, _⟩ => ⟨S64000x64, .f32⟩
  | .hbm, ⟨49, _⟩ => ⟨S1064000x1, .i32⟩
  | .hbm, ⟨50, _⟩ => ⟨S64000x64, .f32⟩
  | .hbm, ⟨51, _⟩ => ⟨S_, .f32⟩
  | .hbm, ⟨52, _⟩ => ⟨S64000, .f32⟩
  | .hbm, ⟨53, _⟩ => ⟨S64000, .f32⟩
  | .hbm, ⟨54, _⟩ => ⟨S64000, .f32⟩
  | .hbm, ⟨55, _⟩ => ⟨S64000x1, .f32⟩
  | .hbm, ⟨56, _⟩ => ⟨S64000x64, .f32⟩
  | .hbm, ⟨57, _⟩ => ⟨S64000x64, .f32⟩
  | .hbm, ⟨58, _⟩ => ⟨S64x64000, .f32⟩
  | .hbm, ⟨59, _⟩ => ⟨S1x512, .f32⟩
  | .hbm, ⟨60, _⟩ => ⟨S64x512, .f32⟩
  | .hbm, ⟨61, _⟩ => ⟨S1x64, .f32⟩
  | .hbm, ⟨62, _⟩ => ⟨S64x64, .f32⟩
  | .hbm, ⟨63, _⟩ => ⟨S1x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S1x64000, .f32⟩
  | .hbm, ⟨69, _⟩ => ⟨S64x64000, .f32⟩
  | .hbm, ⟨70, _⟩ => ⟨S64000x64, .f32⟩
  | .hbm, ⟨71, _⟩ => ⟨S1x32, .f32⟩
  | .hbm, ⟨72, _⟩ => ⟨S64000x32, .f32⟩
  | .hbm, ⟨73, _⟩ => ⟨S_, .f32⟩
  | .hbm, ⟨74, _⟩ => ⟨S1000000, .f32⟩
  | .hbm, ⟨75, _⟩ => ⟨S_, .f32⟩
  | .hbm, ⟨76, _⟩ => ⟨S64000, .f32⟩
  | .hbm, ⟨77, _⟩ => ⟨S1000000x1, .i32⟩
  | .hbm, ⟨78, _⟩ => ⟨S64000, .f32⟩
  | .hbm, ⟨79, _⟩ => ⟨S_, .f32⟩
  | .hbm, ⟨80, _⟩ => ⟨S64000, .f32⟩
  | .hbm, ⟨81, _⟩ => ⟨S1000000x1, .i32⟩
  | .hbm, ⟨82, _⟩ => ⟨S64000, .f32⟩
  | .hbm, ⟨83, _⟩ => ⟨S_, .f32⟩
  | .hbm, ⟨84, _⟩ => ⟨S64000, .f32⟩
  | .hbm, ⟨85, _⟩ => ⟨S64000, .f32⟩
  | .hbm, ⟨86, _⟩ => ⟨S64000, .f32⟩
  | .hbm, ⟨87, _⟩ => ⟨S64000x1, .f32⟩
  | .hbm, ⟨88, _⟩ => ⟨S64000x32, .f32⟩
  | .hbm, ⟨89, _⟩ => ⟨S64000x32, .f32⟩
  | .hbm, ⟨90, _⟩ => ⟨S_, .i32⟩
  | .hbm, ⟨91, _⟩ => ⟨S1000000, .i32⟩
  | .hbm, ⟨92, _⟩ => ⟨S1000000, .i1⟩
  | .hbm, ⟨93, _⟩ => ⟨S_, .i32⟩
  | .hbm, ⟨94, _⟩ => ⟨S1000000, .i32⟩
  | .hbm, ⟨95, _⟩ => ⟨S1000000, .i32⟩
  | .hbm, ⟨96, _⟩ => ⟨S1000000, .i32⟩
  | .hbm, ⟨97, _⟩ => ⟨S1000000x1, .i32⟩
  | .hbm, ⟨98, _⟩ => ⟨S1000000x32, .f32⟩
  | .hbm, ⟨99, _⟩ => ⟨S_, .f32⟩
  | .hbm, ⟨100, _⟩ => ⟨S64000x32, .f32⟩
  | .hbm, ⟨101, _⟩ => ⟨S1000000x1, .i32⟩
  | .hbm, ⟨102, _⟩ => ⟨S64000x32, .f32⟩
  | .hbm, ⟨103, _⟩ => ⟨S_, .f32⟩
  | .hbm, ⟨104, _⟩ => ⟨S64000, .f32⟩
  | .hbm, ⟨105, _⟩ => ⟨S64000, .f32⟩
  | .hbm, ⟨106, _⟩ => ⟨S64000, .f32⟩
  | .hbm, ⟨107, _⟩ => ⟨S64000x1, .f32⟩
  | .hbm, ⟨108, _⟩ => ⟨S64000x32, .f32⟩
  | .hbm, ⟨109, _⟩ => ⟨S64000x32, .f32⟩
  | .local _ .vmem, ⟨0, _⟩ => ⟨S8000x64, .f32⟩
  | .local _ .vmem, ⟨1, _⟩ => ⟨S8000x64, .f32⟩
  | .local _ .vmem, ⟨2, _⟩ => ⟨S64x64, .f32⟩
  | .local _ .vmem, ⟨3, _⟩ => ⟨S1x64, .f32⟩
  | .local _ .vmem, ⟨4, _⟩ => ⟨S8000x64, .f32⟩
  | .local _ .vmem, ⟨5, _⟩ => ⟨S8000x64, .f32⟩
  | .local _ .vmem, ⟨6, _⟩ => ⟨S8000x64, .f32⟩
  | .local _ .vmem, ⟨7, _⟩ => ⟨S64x3200, .f32⟩
  | .local _ .vmem, ⟨8, _⟩ => ⟨S64x3200, .f32⟩
  | .local _ .vmem, ⟨9, _⟩ => ⟨S3200x512, .f32⟩
  | .local _ .vmem, ⟨10, _⟩ => ⟨S3200x512, .f32⟩
  | .local _ .vmem, ⟨11, _⟩ => ⟨S1x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S512x64, .f32⟩
  | .local _ .vmem, ⟨16, _⟩ => ⟨S1x64, .f32⟩
  | .local _ .vmem, ⟨17, _⟩ => ⟨S64x64, .f32⟩
  | .local _ .vmem, ⟨18, _⟩ => ⟨S64x64, .f32⟩
  | .local _ .vmem, ⟨19, _⟩ => ⟨S64x512, .f32⟩
  | .local _ .vmem, ⟨20, _⟩ => ⟨S512x64, .f32⟩
  | .local _ .vmem, ⟨21, _⟩ => ⟨S1x64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S64x6400, .f32⟩
  | .local _ .vmem, ⟨26, _⟩ => ⟨S64x6400, .f32⟩
  | .local _ .vmem, ⟨27, _⟩ => ⟨S1x6400, .f32⟩
  | .local _ .vmem, ⟨28, _⟩ => ⟨S1x6400, .f32⟩
  | .local _ .vmem, ⟨29, _⟩ => ⟨S64x6400, .f32⟩
  | .local _ .vmem, ⟨30, _⟩ => ⟨S64x6400, .f32⟩
  | .local _ .vmem, ⟨31, _⟩ => ⟨S64x6400, .f32⟩
  | .local _ .vmem, ⟨32, _⟩ => ⟨S8000x64, .f32⟩
  | .local _ .vmem, ⟨33, _⟩ => ⟨S8000x64, .f32⟩
  | .local _ .vmem, ⟨34, _⟩ => ⟨S64x32, .f32⟩
  | .local _ .vmem, ⟨35, _⟩ => ⟨S1x32, .f32⟩
  | .local _ .vmem, ⟨36, _⟩ => ⟨S8000x32, .f32⟩
  | .local _ .vmem, ⟨37, _⟩ => ⟨S8000x32, .f32⟩
  | .local _ .vmem, ⟨38, _⟩ => ⟨S8000x32, .f32⟩
  | _, _ => ⟨S64000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_6 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_8 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_10 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_12 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_scratch0 : Ref sig .tc := ⟨.vmem, 23, rfl⟩
abbrev cc4_stg0_0 : Ref sig .tc := ⟨.vmem, 24, rfl⟩
abbrev cc4_stg1_0 : Ref sig .tc := ⟨.vmem, 25, rfl⟩
abbrev cc4_stg1_1 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg3_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc3_sem0_0 : DmaSem sig := 16
abbrev cc3_sem1_0 : DmaSem sig := 17
abbrev cc3_sem2_0 : DmaSem sig := 18
abbrev cc3_sem3_0 : DmaSem sig := 19
abbrev cc4_sem0_0 : DmaSem sig := 20
abbrev cc4_sem1_0 : DmaSem sig := 21
abbrev cc4_sem1_1 : DmaSem sig := 22
abbrev cc4_sem2_0 : DmaSem sig := 23
abbrev cc4_sem2_1 : DmaSem sig := 24
abbrev cc4_sem3_0 : DmaSem sig := 25
abbrev cc4_sem3_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 2 → Memref sig .tc .vmem S8000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![1, 1, 20], ![false, false, false]⟩

def k1_cond2 (i : grid1.Coords) : BitVec 1 :=
  let arg2 : BitVec 32 := BitVec.ofNat 32 (i 2).val
  let c19_i32 : BitVec 32 := 19#32
  let v14 : BitVec 1 := Scalar.cmpi .eq arg2 c19_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S64x3200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S3200x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true, false]

abbrev stage1_3 : Fin 1 → Memref sig .tc .vmem S64x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true, false]

abbrev grid2 : Pipeline.Grid := ⟨3, ![1, 1, 1], ![false, false, false]⟩

def k2_cond2 (i : grid2.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 1 → Memref sig .tc .vmem S64x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false, true]

abbrev stage2_1 : Fin 1 → Memref sig .tc .vmem S512x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true, false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true, false]

abbrev grid3 : Pipeline.Grid := ⟨3, ![1, 1, 1], ![false, false, false]⟩

def k3_cond2 (i : grid3.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S64x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 1 → Memref sig .tc .vmem S512x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, true, false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true, false]

abbrev grid4 : Pipeline.Grid := ⟨3, ![1, 10, 1], ![false, false, false]⟩

def k4_cond2 (i : grid4.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S64x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S64x6400 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1x6400 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true, false]

abbrev stage4_3 : Fin 2 → Memref sig .tc .vmem S64x6400 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true, false]

abbrev grid5 : Pipeline.Grid := ⟨3, ![8, 1, 1], ![false, false, false]⟩

def k5_cond2 (i : grid5.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, true, false]

abbrev stage5_3 : Fin 2 → Memref sig .tc .vmem S8000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

class Facts₀ : Prop where
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  concatenates_S1000000_S64000_S1064000_d0 : Shape.Concatenates [S1000000, S64000] S1064000 0
  bcast_S_S1064000 : S_.BroadcastsInDim S1064000 (![] : Fin 0 → Fin S1064000.rank)
  bcast_S_S64000 : S_.BroadcastsInDim S64000 (![] : Fin 0 → Fin S64000.rank)
  bcast_S1064000_S1064000x1_0 : S1064000.BroadcastsInDim S1064000x1 (![0] : Fin 1 → Fin S1064000x1.rank)
  bcast_S64000_S64000x1_0 : S64000.BroadcastsInDim S64000x1 (![0] : Fin 1 → Fin S64000x1.rank)
  bcast_S64000x1_S64000x64_0_1 : S64000x1.BroadcastsInDim S64000x64 (![0, 1] : Fin 2 → Fin S64000x64.rank)
  bcast_S_S64000x64 : S_.BroadcastsInDim S64000x64 (![] : Fin 0 → Fin S64000x64.rank)
  shapeCasts_S64000x64_S64x64000 : S64000x64.ShapeCasts S64x64000
  shapeCasts_S512_S1x512 : S512.ShapeCasts S1x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x3200_S64x3200_0_0 : ∀ a, (![0, 0] : Fin 2 → Nat) a + S64x3200.size a ≤ S64x3200.size a
  h_S64x3200 : 0 < S64x3200.numel
  shapeCasts_S64x3200_S64x3200 : S64x3200.ShapeCasts S64x3200
  inb_S3200x512_S3200x512_0_0 : ∀ a, (![0, 0] : Fin 2 → Nat) a + S3200x512.size a ≤ S3200x512.size a
  h_S3200x512 : 0 < S3200x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  shapeCasts_S64x64_S64x64 : S64x64.ShapeCasts S64x64
  inb_S512x64_S512x64_0_0 : ∀ a, (![0, 0] : Fin 2 → Nat) a + S512x64.size a ≤ S512x64.size a
  h_S512x64 : 0 < S512x64.numel
  broadcasts_S1x64_S64x64 : S1x64.Broadcasts S64x64
  shapeCasts_S64000_S1x64000 : S64000.ShapeCasts S1x64000
  inb_S64x6400_S64x6400_0_0 : ∀ a, (![0, 0] : Fin 2 → Nat) a + S64x6400.size a ≤ S64x6400.size a
  h_S64x6400 : 0 < S64x6400.numel
  shapeCasts_S64x6400_S64x6400 : S64x6400.ShapeCasts S64x6400
  inb_S1x6400_S1x6400_0_0 : ∀ a, (![0, 0] : Fin 2 → Nat) a + S1x6400.size a ≤ S1x6400.size a
  h_S1x6400 : 0 < S1x6400.numel
  shapeCasts_S1x6400_S1x6400 : S1x6400.ShapeCasts S1x6400
  broadcasts_S1x6400_S64x6400 : S1x6400.Broadcasts S64x6400
  shapeCasts_S64x64000_S64000x64 : S64x64000.ShapeCasts S64000x64
  shapeCasts_S32_S1x32 : S32.ShapeCasts S1x32
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64000x1_S64000x32_0_1 : S64000x1.BroadcastsInDim S64000x32 (![0, 1] : Fin 2 → Fin S64000x32.rank)
  bcast_S_S64000x32 : S_.BroadcastsInDim S64000x32 (![] : Fin 0 → Fin S64000x32.rank)
  dot_S8000x64_S64x64_S8000x64_1_0_0_1_n_n_wf : DotDims.WF S8000x64 S64x64 S8000x64 [1] [0] [0] [1] [] []
  scatter_S64000_S1064000x1_S1064000_n_0_0_1_wf : ScatterDims.WF S64000 S1064000x1 S1064000 [] [0] [0] 1
  gather_S64000x64_S1064000x1_S1064000x64_1_0_n_n_0_1_164_wf : GatherDims.WF S64000x64 S1064000x1 S1064000x64 [1] [0] [] [0] [] 1 ![1, 64]
  scatter_S64000x64_S1064000x1_S1064000x64_1_0_0_1_wf : ScatterDims.WF S64000x64 S1064000x1 S1064000x64 [1] [0] [0] 1
  dot_S64x3200_S3200x512_S64x512_1_0_0_1_n_n_wf : DotDims.WF S64x3200 S3200x512 S64x512 [1] [0] [0] [1] [] []
  dot_S64x512_S512x64_S64x64_1_0_0_1_n_n_wf : DotDims.WF S64x512 S512x64 S64x64 [1] [0] [0] [1] [] []
  dot_S64x64_S64x6400_S64x6400_1_0_0_1_n_n_wf : DotDims.WF S64x64 S64x6400 S64x6400 [1] [0] [0] [1] [] []
  dot_S8000x64_S64x32_S8000x32_1_0_0_1_n_n_wf : DotDims.WF S8000x64 S64x32 S8000x32 [1] [0] [0] [1] [] []
  scatter_S64000_S1000000x1_S1000000_n_0_0_1_wf : ScatterDims.WF S64000 S1000000x1 S1000000 [] [0] [0] 1
  gather_S64000x32_S1000000x1_S1000000x32_1_0_n_n_0_1_132_wf : GatherDims.WF S64000x32 S1000000x1 S1000000x32 [1] [0] [] [0] [] 1 ![1, 32]
  scatter_S64000x32_S1000000x1_S1000000x32_1_0_0_1_wf : ScatterDims.WF S64000x32 S1000000x1 S1000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S64000x64.size a
  hwx0_0 : ∀ i : grid0.Coords, EltTy.bits .f32 = 32 ∨ (Rect.block (s := S64000x64) S8000x64.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x64.size a ≤ S64000x64.size a
  hwx0_3 : ∀ i : grid0.Coords, EltTy.bits .f32 = 32 ∨ (Rect.block (s := S64000x64) S8000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x3200.size a ≤ S64x64000.size a
  hwx1_0 : ∀ i : grid1.Coords, EltTy.bits .f32 = 32 ∨ (Rect.block (s := S64x64000) S64x3200.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x512.size a ≤ S64000x512.size a
  hwx1_1 : ∀ i : grid1.Coords, EltTy.bits .f32 = 32 ∨ (Rect.block (s := S64000x512) S3200x512.size (cc1_transform_1 i) (hinb1_1 i)).WholeWords (EltTy.packing .f32)
  hstage1_2 : ∀ j, (stage1_2 j).IsWhole
  nbuf1_2 : grid1.bufCount reads1_2 false = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 1
  hreads1_3 : ∀ i i' : grid1.Coords, (∀ a, reads1_3 a = true → i a = i' a) → cc1_transform_3 i = cc1_transform_3 i'
  hinb1_3 : ∀ (i : grid1.Coords) a, (cc1_transform_3 i a + 1) * S64x512.size a ≤ S64x512.size a
  hwx1_3 : ∀ i : grid1.Coords, EltTy.bits .f32 = 32 ∨ (Rect.block (s := S64x512) S64x512.size (cc1_transform_3 i) (hinb1_3 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S64x512.size a ≤ S64x512.size a
  hwx2_0 : ∀ i : grid2.Coords, EltTy.bits .f32 = 32 ∨ (Rect.block (s := S64x512) S64x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S512x64.size a
  hwx2_1 : ∀ i : grid2.Coords, EltTy.bits .f32 = 32 ∨ (Rect.block (s := S512x64) S512x64.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S64x512.size a ≤ S64x512.size a
  hwx3_0 : ∀ i : grid3.Coords, EltTy.bits .f32 = 32 ∨ (Rect.block (s := S64x512) S64x512.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x64.size a ≤ S512x64.size a
  hwx3_1 : ∀ i : grid3.Coords, EltTy.bits .f32 = 32 ∨ (Rect.block (s := S512x64) S512x64.size (cc3_transform_1 i) (hinb3_1 i)).WholeWords (EltTy.packing .f32)
  hstage3_2 : ∀ j, (stage3_2 j).IsWhole
  nbuf3_2 : grid3.bufCount reads3_2 false = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hrank4 : 0 < grid4.rank
  hstage4_0 : ∀ j, (stage4_0 j).IsWhole
  nbuf4_0 : grid4.bufCount reads4_0 false = 1
  hreads4_0 : ∀ i i' : grid4.Coords, (∀ a, reads4_0 a = true → i a = i' a) → cc4_transform_0 i = cc4_transform_0 i'
  hinb4_0 : ∀ (i : grid4.Coords) a, (cc4_transform_0 i a + 1) * S64x64.size a ≤ S64x64.size a
  hwx4_0 : ∀ i : grid4.Coords, EltTy.bits .f32 = 32 ∨ (Rect.block (s := S64x64) S64x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x6400.size a ≤ S64x64000.size a
  hwx4_1 : ∀ i : grid4.Coords, EltTy.bits .f32 = 32 ∨ (Rect.block (s := S64x64000) S64x6400.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x6400.size a ≤ S1x64000.size a
  hwx4_2 : ∀ i : grid4.Coords, EltTy.bits .f32 = 32 ∨ (Rect.block (s := S1x64000) S1x6400.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S64x6400.size a ≤ S64x64000.size a
  hwx4_3 : ∀ i : grid4.Coords, EltTy.bits .f32 = 32 ∨ (Rect.block (s := S64x64000) S64x6400.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S64000x64.size a
  hwx5_0 : ∀ i : grid5.Coords, EltTy.bits .f32 = 32 ∨ (Rect.block (s := S64000x64) S8000x64.size (cc5_transform_0 i) (hinb5_0 i)).WholeWords (EltTy.packing .f32)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x32.size a ≤ S64000x32.size a
  hwx5_3 : ∀ i : grid5.Coords, EltTy.bits .f32 = 32 ∨ (Rect.block (s := S64000x32) S8000x32.size (cc5_transform_3 i) (hinb5_3 i)).WholeWords (EltTy.packing .f32)

variable [Facts₀]

def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S64000_S1064000x1_S1064000_n_0_0_1 : ScatterDims S64000 S1064000x1 S1064000 where
  updateWindowDims := []
  insertedWindowDims := [0]
  scatterDimsToOperandDims := [0]
  indexVectorDim := 1
  wf := scatter_S64000_S1064000x1_S1064000_n_0_0_1_wf
def gather_S64000x64_S1064000x1_S1064000x64_1_0_n_n_0_1_164 : GatherDims S64000x64 S1064000x1 S1064000x64 where
  offsetDims := [1]
  collapsedSliceDims := [0]
  operandBatchingDims := []
  startIndicesBatchingDims := []
  startIndexMap := [0]
  indexVectorDim := 1
  sliceSizes := ![1, 64]
  wf := gather_S64000x64_S1064000x1_S1064000x64_1_0_n_n_0_1_164_wf
def scatter_S64000x64_S1064000x1_S1064000x64_1_0_0_1 : ScatterDims S64000x64 S1064000x1 S1064000x64 where
  updateWindowDims := [1]
  insertedWindowDims := [0]
  scatterDimsToOperandDims := [0]
  indexVectorDim := 1
  wf := scatter_S64000x64_S1064000x1_S1064000x64_1_0_0_1_wf
def dot_S64x3200_S3200x512_S64x512_1_0_0_1_n_n : DotDims S64x3200 S3200x512 S64x512 where
  lhsContracting := [1]
  rhsContracting := [0]
  lhsNonContracting := [0]
  rhsNonContracting := [1]
  lhsBatch := []
  rhsBatch := []
  wf := dot_S64x3200_S3200x512_S64x512_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x6400_S64x6400_1_0_0_1_n_n : DotDims S64x64 S64x6400 S64x6400 where
  lhsContracting := [1]
  rhsContracting := [0]
  lhsNonContracting := [0]
  rhsNonContracting := [1]
  lhsBatch := []
  rhsBatch := []
  wf := dot_S64x64_S64x6400_S64x6400_1_0_0_1_n_n_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def scatter_S64000_S1000000x1_S1000000_n_0_0_1 : ScatterDims S64000 S1000000x1 S1000000 where
  updateWindowDims := []
  insertedWindowDims := [0]
  scatterDimsToOperandDims := [0]
  indexVectorDim := 1
  wf := scatter_S64000_S1000000x1_S1000000_n_0_0_1_wf
def gather_S64000x32_S1000000x1_S1000000x32_1_0_n_n_0_1_132 : GatherDims S64000x32 S1000000x1 S1000000x32 where
  offsetDims := [1]
  collapsedSliceDims := [0]
  operandBatchingDims := []
  startIndicesBatchingDims := []
  startIndexMap := [0]
  indexVectorDim := 1
  sliceSizes := ![1, 32]
  wf := gather_S64000x32_S1000000x1_S1000000x32_1_0_n_n_0_1_132_wf
def scatter_S64000x32_S1000000x1_S1000000x32_1_0_0_1 : ScatterDims S64000x32 S1000000x1 S1000000x32 where
  updateWindowDims := [1]
  insertedWindowDims := [0]
  scatterDimsToOperandDims := [0]
  indexVectorDim := 1
  wf := scatter_S64000x32_S1000000x1_S1000000x32_1_0_0_1_wf

abbrev win0_0 : Pipeline.Window sig grid0 :=
  Pipeline.Window.ofSpec (Memref.whole main_arg0) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v34) S64x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S3200x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x512.size cc1_transform_2 reads1_2 false false 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64x512.size cc1_transform_3 reads1_3 true false 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v36) S64x512.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S512x64.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S64x64.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v36) S64x512.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S512x64.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false false 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S64x64.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v43) S64x64.size cc4_transform_0 reads4_0 false false 1 stage4_0 sem4_0
    hrank4 hreads4_0 hinb4_0 nbuf4_0 (Memref.isWhole_whole _) hwx4_0 hstage4_0

abbrev win4_1 : Pipeline.Window sig grid4 :=
  Pipeline.Window.ofSpec (Memref.whole main_arg12) S64x6400.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v44) S1x6400.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v45) S64x6400.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v46) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S64x32.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x32.size cc5_transform_2 reads5_2 false false 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S8000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S64000x64 : Shape := ⟨2, ![64000, 64]⟩
abbrev S1000000 : Shape := ⟨1, ![1000000]⟩
abbrev S64x64 : Shape := ⟨2, ![64, 64]⟩
abbrev S64 : Shape := ⟨1, ![64]⟩
abbrev S64000x512 : Shape := ⟨2, ![64000, 512]⟩
abbrev S512 : Shape := ⟨1, ![512]⟩
abbrev S512x64 : Shape := ⟨2, ![512, 64]⟩
abbrev S64x64000 : Shape := ⟨2, ![64, 64000]⟩
abbrev S64000 : Shape := ⟨1, ![64000]⟩
abbrev S64x32 : Shape := ⟨2, ![64, 32]⟩
abbrev S32 : Shape := ⟨1, ![32]⟩
abbrev S1x64 : Shape := ⟨2, ![1, 64]⟩
abbrev S_ : Shape := ⟨0, ![]⟩
abbrev S1064000 : Shape := ⟨1, ![1064000]⟩
abbrev S1064000x1 : Shape := ⟨2, ![1064000, 1]⟩
abbrev S64000x1 : Shape := ⟨2, ![64000, 1]⟩
abbrev S1064000x64 : Shape := ⟨2, ![1064000, 64]⟩
abbrev S64x512 : Shape := ⟨2, ![64, 512]⟩
abbrev S1x512 : Shape := ⟨2, ![1, 512]⟩
abbrev S1x64000 : Shape := ⟨2, ![1, 64000]⟩
abbrev S64000x32 : Shape := ⟨2, ![64000, 32]⟩
abbrev S1x32 : Shape := ⟨2, ![1, 32]⟩
abbrev S1000000x1 : Shape := ⟨2, ![1000000, 1]⟩
abbrev S1000000x32 : Shape := ⟨2, ![1000000, 32]⟩

abbrev nBuf : Space → Nat
  | .hbm => 131
  | .vmem => 0
  | .smem => 0
  | _ => 0

abbrev hbmTy0_0 (i : Nat) : BufTy := match i % 128 with
  | 0 => ⟨S64000x64, .f32⟩
  | 1 => ⟨S1000000, .i32⟩
  | 2 => ⟨S1000000, .i32⟩
  | 3 => ⟨S64x64, .f32⟩
  | 4 => ⟨S64x64, .f32⟩
  | 5 => ⟨S64, .f32⟩
  | 6 => ⟨S64000x512, .f32⟩
  | 7 => ⟨S512, .f32⟩
  | 8 => ⟨S512x64, .f32⟩
  | 9 => ⟨S64, .f32⟩
  | 10 => ⟨S512x64, .f32⟩
  | 11 => ⟨S64, .f32⟩
  | 12 => ⟨S64x64000, .f32⟩
  | 13 => ⟨S64000, .f32⟩
  | 14 => ⟨S64x32, .f32⟩
  | 15 => ⟨S32, .f32⟩
  | 16 => ⟨S64000x64, .f32⟩
  | 17 => ⟨S1x64, .f32⟩
  | 18 => ⟨S64000x64, .f32⟩
  | 19 => ⟨S64000x64, .f32⟩
  | 20 => ⟨S_, .f32⟩
  | 21 => ⟨S64000x64, .f32⟩
  | 22 => ⟨S64000x64, .f32⟩
  | 23 => ⟨S64000, .i32⟩
  | 24 => ⟨S1064000, .i32⟩
  | 25 => ⟨S1064000, .i32⟩
  | 26 => ⟨S_, .f32⟩
  | 27 => ⟨S1064000, .f32⟩
  | 28 => ⟨S_, .f32⟩
  | 29 => ⟨S64000, .f32⟩
  | 30 => ⟨S1064000x1, .i32⟩
  | 31 => ⟨S64000, .f32⟩
  | 32 => ⟨S_, .f32⟩
  | 33 => ⟨S64000, .f32⟩
  | 34 => ⟨S1064000x1, .i32⟩
  | 35 => ⟨S64000, .f32⟩
  | 36 => ⟨S_, .f32⟩
  | 37 => ⟨S64000, .f32⟩
  | 38 => ⟨S64000, .f32⟩
  | 39 => ⟨S64000, .f32⟩
  | 40 => ⟨S64000x1, .f32⟩
  | 41 => ⟨S64000x64, .f32⟩
  | 42 => ⟨S64000x64, .f32⟩
  | 43 => ⟨S_, .i32⟩
  | 44 => ⟨S1064000, .i32⟩
  | 45 => ⟨S1064000, .i1⟩
  | 46 => ⟨S_, .i32⟩
  | 47 => ⟨S1064000, .i32⟩
  | 48 => ⟨S1064000, .i32⟩
  | 49 => ⟨S1064000, .i32⟩
  | 50 => ⟨S1064000x1, .i32⟩
  | 51 => ⟨S1064000x64, .f32⟩
  | 52 => ⟨S_, .f32⟩
  | 53 => ⟨S64000x64, .f32⟩
  | 54 => ⟨S1064000x1, .i32⟩
  | 55 => ⟨S64000x64, .f32⟩
  | 56 => ⟨S_, .f32⟩
  | 57 => ⟨S64000, .f32⟩
  | 58 => ⟨S64000, .f32⟩
  | 59 => ⟨S64000, .f32⟩
  | 60 => ⟨S64000x1, .f32⟩
  | 61 => ⟨S64000x64, .f32⟩
  | 62 => ⟨S64000x64, .f32⟩
  | 63 => ⟨S64x64000, .f32⟩
  | 64 => ⟨S64x512, .f32⟩
  | 65 => ⟨S1x512, .f32⟩
  | 66 => ⟨S64x512, .f32⟩
  | 67 => ⟨S64x512, .f32⟩
  | 68 => ⟨S_, .f32⟩
  | 69 => ⟨S64x512, .f32⟩
  | 70 => ⟨S64x512, .f32⟩
  | 71 => ⟨S64x64, .f32⟩
  | 72 => ⟨S1x64, .f32⟩
  | 73 => ⟨S64x64, .f32⟩
  | 74 => ⟨S64x64, .f32⟩
  | 75 => ⟨S64x64, .f32⟩
  | 76 => ⟨S1x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64000, .f32⟩
  | 83 => ⟨S1x64000, .f32⟩
  | 84 => ⟨S64x64000, .f32⟩
  | 85 => ⟨S64x64000, .f32⟩
  | 86 => ⟨S_, .f32⟩
  | 87 => ⟨S64x64000, .f32⟩
  | 88 => ⟨S64x64000, .f32⟩
  | 89 => ⟨S64000x64, .f32⟩
  | 90 => ⟨S64000x32, .f32⟩
  | 91 => ⟨S1x32, .f32⟩
  | 92 => ⟨S64000x32, .f32⟩
  | 93 => ⟨S64000x32, .f32⟩
  | 94 => ⟨S_, .f32⟩
  | 95 => ⟨S1000000, .f32⟩
  | 96 => ⟨S_, .f32⟩
  | 97 => ⟨S64000, .f32⟩
  | 98 => ⟨S1000000x1, .i32⟩
  | 99 => ⟨S64000, .f32⟩
  | 100 => ⟨S_, .f32⟩
  | 101 => ⟨S64000, .f32⟩
  | 102 => ⟨S1000000x1, .i32⟩
  | 103 => ⟨S64000, .f32⟩
  | 104 => ⟨S_, .f32⟩
  | 105 => ⟨S64000, .f32⟩
  | 106 => ⟨S64000, .f32⟩
  | 107 => ⟨S64000, .f32⟩
  | 108 => ⟨S64000x1, .f32⟩
  | 109 => ⟨S64000x32, .f32⟩
  | 110 => ⟨S64000x32, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x32, .f32⟩
  | 120 => ⟨S_, .f32⟩
  | 121 => ⟨S64000x32, .f32⟩
  | 122 => ⟨S1000000x1, .i32⟩
  | 123 => ⟨S64000x32, .f32⟩
  | 124 => ⟨S_, .f32⟩
  | 125 => ⟨S64000, .f32⟩
  | 126 => ⟨S64000, .f32⟩
  | 127 => ⟨S64000, .f32⟩
  | _ => ⟨S64000x64, .f32⟩

abbrev hbmTy0_1 (i : Nat) : BufTy := match i % 128 with
  | 0 => ⟨S64000x1, .f32⟩
  | 1 => ⟨S64000x32, .f32⟩
  | 2 => ⟨S64000x32, .f32⟩
  | _ => ⟨S64000x64, .f32⟩

abbrev hbmTy (i : Nat) : BufTy := match i / 128 with
  | 0 => hbmTy0_0 i
  | 1 => hbmTy0_1 i
  | _ => ⟨S64000x64, .f32⟩

abbrev bufTy : (tb : Table) → Fin (tcTables nBuf tb) → BufTy
  | .hbm, ⟨i, _⟩ => hbmTy i
  | _, _ => ⟨S64000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_c : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_5 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call1_cst : Ref sig .tc := ⟨.hbm, 68, rfl⟩
abbrev main_call1_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_cst : Ref sig .tc := ⟨.hbm, 86, rfl⟩
abbrev main_call2_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_6 : Ref sig .tc := ⟨.hbm, 94, rfl⟩
abbrev main_v64 : Ref sig .tc := ⟨.hbm, 95, rfl⟩
abbrev main_cst_7 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_8 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_9 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_10 : Ref sig .tc := ⟨.hbm, 111, rfl⟩
abbrev main_v77 : Ref sig .tc := ⟨.hbm, 112, rfl⟩
abbrev main_v78 : Ref sig .tc := ⟨.hbm, 113, rfl⟩
abbrev main_c_11 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_12 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_13 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S64000x64_0_1 : S1x64.BroadcastsInDim S64000x64 (![0, 1] : Fin 2 → Fin S64000x64.rank)
  bcast_S_S64000x64 : S_.BroadcastsInDim S64000x64 (![] : Fin 0 → Fin S64000x64.rank)
  concatenates_S1000000_S64000_S1064000_d0 : Shape.Concatenates [S1000000, S64000] S1064000 0
  bcast_S_S1064000 : S_.BroadcastsInDim S1064000 (![] : Fin 0 → Fin S1064000.rank)
  bcast_S_S64000 : S_.BroadcastsInDim S64000 (![] : Fin 0 → Fin S64000.rank)
  bcast_S1064000_S1064000x1_0 : S1064000.BroadcastsInDim S1064000x1 (![0] : Fin 1 → Fin S1064000x1.rank)
  bcast_S64000_S64000x1_0 : S64000.BroadcastsInDim S64000x1 (![0] : Fin 1 → Fin S64000x1.rank)
  bcast_S64000x1_S64000x64_0_1 : S64000x1.BroadcastsInDim S64000x64 (![0, 1] : Fin 2 → Fin S64000x64.rank)
  shapeCasts_S64000x64_S64x64000 : S64000x64.ShapeCasts S64x64000
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S1x64_S64x64_0_1 : S1x64.BroadcastsInDim S64x64 (![0, 1] : Fin 2 → Fin S64x64.rank)
  bcast_S64000_S1x64000_1 : S64000.BroadcastsInDim S1x64000 (![1] : Fin 1 → Fin S1x64000.rank)
  bcast_S1x64000_S64x64000_0_1 : S1x64000.BroadcastsInDim S64x64000 (![0, 1] : Fin 2 → Fin S64x64000.rank)
  bcast_S_S64x64000 : S_.BroadcastsInDim S64x64000 (![] : Fin 0 → Fin S64x64000.rank)
  shapeCasts_S64x64000_S64000x64 : S64x64000.ShapeCasts S64000x64
  bcast_S32_S1x32_1 : S32.BroadcastsInDim S1x32 (![1] : Fin 1 → Fin S1x32.rank)
  bcast_S1x32_S64000x32_0_1 : S1x32.BroadcastsInDim S64000x32 (![0, 1] : Fin 2 → Fin S64000x32.rank)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S64000x1_S64000x32_0_1 : S64000x1.BroadcastsInDim S64000x32 (![0, 1] : Fin 2 → Fin S64000x32.rank)
  bcast_S_S64000x32 : S_.BroadcastsInDim S64000x32 (![] : Fin 0 → Fin S64000x32.rank)
  dot_S64000x64_S64x64_S64000x64_1_0_0_1_n_n_wf : DotDims.WF S64000x64 S64x64 S64000x64 [1] [0] [0] [1] [] []
  scatter_S64000_S1064000x1_S1064000_n_0_0_1_wf : ScatterDims.WF S64000 S1064000x1 S1064000 [] [0] [0] 1
  gather_S64000x64_S1064000x1_S1064000x64_1_0_n_n_0_1_164_wf : GatherDims.WF S64000x64 S1064000x1 S1064000x64 [1] [0] [] [0] [] 1 ![1, 64]
  scatter_S64000x64_S1064000x1_S1064000x64_1_0_0_1_wf : ScatterDims.WF S64000x64 S1064000x1 S1064000x64 [1] [0] [0] 1
  dot_S64x64000_S64000x512_S64x512_1_0_0_1_n_n_wf : DotDims.WF S64x64000 S64000x512 S64x512 [1] [0] [0] [1] [] []
  dot_S64x512_S512x64_S64x64_1_0_0_1_n_n_wf : DotDims.WF S64x512 S512x64 S64x64 [1] [0] [0] [1] [] []
  dot_S64x64_S64x64000_S64x64000_1_0_0_1_n_n_wf : DotDims.WF S64x64 S64x64000 S64x64000 [1] [0] [0] [1] [] []
  dot_S64000x64_S64x32_S64000x32_1_0_0_1_n_n_wf : DotDims.WF S64000x64 S64x32 S64000x32 [1] [0] [0] [1] [] []
  scatter_S64000_S1000000x1_S1000000_n_0_0_1_wf : ScatterDims.WF S64000 S1000000x1 S1000000 [] [0] [0] 1
  gather_S64000x32_S1000000x1_S1000000x32_1_0_n_n_0_1_132_wf : GatherDims.WF S64000x32 S1000000x1 S1000000x32 [1] [0] [] [0] [] 1 ![1, 32]
  scatter_S64000x32_S1000000x1_S1000000x32_1_0_0_1_wf : ScatterDims.WF S64000x32 S1000000x1 S1000000x32 [1] [0] [0] 1

variable [Facts₀]

def dot_S64000x64_S64x64_S64000x64_1_0_0_1_n_n : DotDims S64000x64 S64x64 S64000x64 where
  lhsContracting := [1]
  rhsContracting := [0]
  lhsNonContracting := [0]
  rhsNonContracting := [1]
  lhsBatch := []
  rhsBatch := []
  wf := dot_S64000x64_S64x64_S64000x64_1_0_0_1_n_n_wf
def scatter_S64000_S1064000x1_S1064000_n_0_0_1 : ScatterDims S64000 S1064000x1 S1064000 where
  updateWindowDims := []
  insertedWindowDims := [0]
  scatterDimsToOperandDims := [0]
  indexVectorDim := 1
  wf := scatter_S64000_S1064000x1_S1064000_n_0_0_1_wf
def gather_S64000x64_S1064000x1_S1064000x64_1_0_n_n_0_1_164 : GatherDims S64000x64 S1064000x1 S1064000x64 where
  offsetDims := [1]
  collapsedSliceDims := [0]
  operandBatchingDims := []
  startIndicesBatchingDims := []
  startIndexMap := [0]
  indexVectorDim := 1
  sliceSizes := ![1, 64]
  wf := gather_S64000x64_S1064000x1_S1064000x64_1_0_n_n_0_1_164_wf
def scatter_S64000x64_S1064000x1_S1064000x64_1_0_0_1 : ScatterDims S64000x64 S1064000x1 S1064000x64 where
  updateWindowDims := [1]
  insertedWindowDims := [0]
  scatterDimsToOperandDims := [0]
  indexVectorDim := 1
  wf := scatter_S64000x64_S1064000x1_S1064000x64_1_0_0_1_wf
def dot_S64x64000_S64000x512_S64x512_1_0_0_1_n_n : DotDims S64x64000 S64000x512 S64x512 where
  lhsContracting := [1]
  rhsContracting := [0]
  lhsNonContracting := [0]
  rhsNonContracting := [1]
  lhsBatch := []
  rhsBatch := []
  wf := dot_S64x64000_S64000x512_S64x512_1_0_0_1_n_n_wf
def dot_S64x512_S512x64_S64x64_1_0_0_1_n_n : DotDims S64x512 S512x64 S64x64 where
  lhsContracting := [1]
  rhsContracting := [0]
  lhsNonContracting := [0]
  rhsNonContracting := [1]
  lhsBatch := []
  rhsBatch := []
  wf := dot_S64x512_S512x64_S64x64_1_0_0_1_n_n_wf
def dot_S64x64_S64x64000_S64x64000_1_0_0_1_n_n : DotDims S64x64 S64x64000 S64x64000 where
  lhsContracting := [1]
  rhsContracting := [0]
  lhsNonContracting := [0]
  rhsNonContracting := [1]
  lhsBatch := []
  rhsBatch := []
  wf := dot_S64x64_S64x64000_S64x64000_1_0_0_1_n_n_wf
def dot_S64000x64_S64x32_S64000x32_1_0_0_1_n_n : DotDims S64000x64 S64x32 S64000x32 where
  lhsContracting := [1]
  rhsContracting := [0]
  lhsNonContracting := [0]
  rhsNonContracting := [1]
  lhsBatch := []
  rhsBatch := []
  wf := dot_S64000x64_S64x32_S64000x32_1_0_0_1_n_n_wf
def scatter_S64000_S1000000x1_S1000000_n_0_0_1 : ScatterDims S64000 S1000000x1 S1000000 where
  updateWindowDims := []
  insertedWindowDims := [0]
  scatterDimsToOperandDims := [0]
  indexVectorDim := 1
  wf := scatter_S64000_S1000000x1_S1000000_n_0_0_1_wf
def gather_S64000x32_S1000000x1_S1000000x32_1_0_n_n_0_1_132 : GatherDims S64000x32 S1000000x1 S1000000x32 where
  offsetDims := [1]
  collapsedSliceDims := [0]
  operandBatchingDims := []
  startIndicesBatchingDims := []
  startIndexMap := [0]
  indexVectorDim := 1
  sliceSizes := ![1, 32]
  wf := gather_S64000x32_S1000000x1_S1000000x32_1_0_n_n_0_1_132_wf
def scatter_S64000x32_S1000000x1_S1000000x32_1_0_0_1 : ScatterDims S64000x32 S1000000x1 S1000000x32 where
  updateWindowDims := [1]
  insertedWindowDims := [0]
  scatterDimsToOperandDims := [0]
  indexVectorDim := 1
  wf := scatter_S64000x32_S1000000x1_S1000000x32_1_0_0_1_wf

class Facts : Prop extends Facts₀ where

variable [Facts]
-- ==== Proof.KB.Body0.lean ====
/-
  Region 0 of the program as printed: the dense layer  h = max(nodes · W_gcn1 + b_gcn1, 0)  over f32[64000, 64] × f32[64, 64], eight row blocks of 8000;
  eight grid points, one per block of 8000 rows, one step along the reduction axis. The body zeroes its accumulator, adds the product of its two
  input blocks into it, and stores the accumulator plus the bias row (broadcast over the rows) and the maximum with zero into the
  output block. Here: the two conditions of the body (first reduction step, last reduction step) hold at every
  point, and the body's run on whole staging buffers, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond0_0 (i : grid0.Coords) : Prop :=
  (Scalar.cmpi .ne (Scalar.extui (Scalar.cmpi .eq (BitVec.ofNat 32 (i 2).val) 0#32)) 0#32) = 1#1
/-- The reduction axis has one step, so every point is the first. -/
theorem hcond0_0 : ∀ t : Fin cfg0.N, cond0_0 (grid0.coords t) :=
  (by decide +kernel : ∀ t : Fin grid0.N, cond0_0 (grid0.coords t))

/-- "This is the last step along the reduction axis": the body's second branch condition. -/
abbrev cond0_1 (i : grid0.Coords) : Prop := k0_cond2 i = 1#1
/-- ... and every point is the last. -/
theorem hcond0_1 : ∀ t : Fin cfg0.N, cond0_1 (grid0.coords t) :=
  (by decide +kernel : ∀ t : Fin grid0.N, cond0_1 (grid0.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun0 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) :
    Σ' (L3 : List (View.Piece (Elt F) S8000x64 .f32)), { LS0 : List (View.Piece (Elt F) S8000x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__dense_kernel i arg3 harg3 arg4 harg4 arg5 harg5 arg6 harg6 arg7 harg7) K } := by
  refine ⟨?_, ?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half0.lean ====
/-
  Region 0 (h = max(nodes · W_gcn1 + b_gcn1, 0)  over f32[64000, 64] × f32[64, 64], eight row blocks of 8000): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KB.Body0

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the accumulator. -/
abbrev ms0_0 (t : Fin cfg0.N) : Memref sig .tc .vmem S8000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8000x64 .f32 := win0_3.stage (cfg0.slots t 3)
abbrev hs0_3 (t : Fin cfg0.N) : (ms0_3 t).IsWhole := hstage0_3 ((cfg0.slots t 3).cast nbuf0_3)
abbrev scM0 : Memref sig .tc .vmem S8000x64 .f32 := Memref.whole cc0_scratch0
/-- A view of the output block's shape, through which contents are stated (which one does not matter). -/
abbrev VO0 : View sig .tc .vmem S8000x64 .f32 := scM0.view

/-- No window is idle at any point: the inputs are read and the output is stored at each. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The invariant with the accumulator taken out of the scoped rest, as a whole buffer owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The stores into the output block tile it, so they cover it. -/
theorem cover0_3 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) (y : S8000x64.Idx) :
    ∃ pc ∈ (kernelRun0 c i arg3 harg3 arg4 harg4 arg5 harg5 arg6 harg6 arg7 harg7 hc0 hc1 x0 x1 x2).1, y ∈ pc.1.set :=
  View.cover_of_tiledL (kernelRun0 c i arg3 harg3 arg4 harg4 arg5 harg5 arg6 harg6 arg7 harg7 hc0 hc1 x0 x1 x2).1 S8000x64.size (by sl_kernel_rfl) y

/-- What the body leaves in the output's staging buffer: its stores read back. -/
def out0_3 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) : Vec F S8000x64 .f32 :=
  VO0.read (Elt F) (VO0.writes (Elt F) VO0.junk (kernelRun0 c i arg3 harg3 arg4 harg4 arg5 harg5 arg6 harg6 arg7 harg7 hc0 hc1 x0 x1 x2).1)

/-- The output block after point `t`, from the three input blocks there. -/
def outAt0 (c : Dev nD) (t : Fin cfg0.N) : Vec F S8000x64 .f32 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-- The proof data of pipeline 0 on core `c`: the arrays as the region finds them; after the body each input's
    buffer at its block and the output's at `outAt0`; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the inputs' buffers hold their blocks, both conditions hold, so the run applies; the
    invariant hands the body the accumulator at anything and takes it back at anything; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outAt0 out0_3
  rw [PhiA0_eq]
  iintro ⟨⟨⟨HS, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Dense

end
-- ==== Proof.KB.Body1.lean ====
/-
  Region 1 of the program as printed: the dense layer  max(x · W_fc + b_fc, 0)  over f32[64, 64000] × f32[64000, 512],
  the contracted axis cut into 20 blocks of 3200, one grid point per block. At the first step the body zeroes its
  64 × 512 accumulator and adds the first block's product into it; at each later step it adds that block's product
  onto what the step before left; at the last step it then stores the accumulator plus the bias row, and the
  maximum with zero, into the output block. Here: the two conditions in closed form over the grid, and the body's
  run in each of the three cases, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the contracted axis": the body's first branch condition, from the grid coordinates. -/
abbrev cond1_0 (i : grid1.Coords) : Prop :=
  (Scalar.cmpi .ne (Scalar.extui (Scalar.cmpi .eq (BitVec.ofNat 32 (i 2).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- "This is the last step along the contracted axis": the body's second branch condition. -/
abbrev cond1_1 (i : grid1.Coords) : Prop := k1_cond2 i = 1#1
/-- It holds at the last point only. -/
theorem hcond1_1 : ∀ t : Fin cfg1.N, cond1_1 (grid1.coords t) ↔ t.val = 19 :=
  (by decide +kernel : ∀ t : Fin grid1.N, cond1_1 (grid1.coords t) ↔ t.val = 19)

set_option maxHeartbeats 1000000 in
/-- THE FIRST STEP. On whole staging buffers — the two matrix blocks at their contents, the bias row and the output
    untouched, the accumulator at anything — the body runs to the continuation with the accumulator holding its
    stores (the zero fill, then the first product added), as pieces the symbolic run finds. -/
noncomputable def kernelRun1_A (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) :
    { LS0 : List (View.Piece (Elt F) S64x512 .f32) //
      ∀ (x2 : Vec F S1x512 .f32) (xi3 : Vec F S64x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, fun x2 xi3 E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A MIDDLE STEP. The accumulator at the contents `xs` the step before left: the body adds this block's product
    onto it. -/
noncomputable def kernelRun1_B (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) :
    { LS0 : List (View.Piece (Elt F) S64x512 .f32) //
      ∀ (x2 : Vec F S1x512 .f32) (xi3 : Vec F S64x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, fun x2 xi3 E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE LAST STEP. The accumulator at what the step before left, the bias row at its contents, the output at
    anything: the body adds the last product, then stores the result plus the bias, cut at zero, into the output. -/
noncomputable def kernelRun1_C (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) :
    Σ' (L3 : List (View.Piece (Elt F) S64x512 .f32)), { LS0 : List (View.Piece (Elt F) S64x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, ?_, fun E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half1.lean ====
/-
  Region 1 (max(x · W_fc + b_fc, 0), the contracted axis in 20 blocks of 3200): the pipeline's proof data and the
  body obligation. The accumulator IS carried from step to step: after step n it holds `accAt1 n`, defined by
  recursion — the first step's stores over anything, each later step's over what the step before left. The
  invariant before step 0 is the plain one (the accumulator at anything); before step n + 1 it holds the
  accumulator at `accAt1 n`. The output block is stored at the last step only: at the other steps the window
  is idle and its buffer goes back as it came.
-/
import proofs.«179658_j2465311228054_1_alg».proof.Proof.KB.Body1

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, as the pipeline passes it to the body, and the accumulator. -/
abbrev ms1_0 (t : Fin cfg1.N) : Memref sig .tc .vmem S64x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x512 .f32 := win1_3.stage (cfg1.slots t 3)
abbrev hs1_3 (t : Fin cfg1.N) : (ms1_3 t).IsWhole := hstage1_3 ((cfg1.slots t 3).cast nbuf1_3)
abbrev scM1 : Memref sig .tc .vmem S64x512 .f32 := Memref.whole cc1_scratch0
/-- A view of the accumulator's (and the output block's) shape, through which contents are stated. -/
abbrev VO1 : View sig .tc .vmem S64x512 .f32 := scM1.view

/-- The inputs are never idle; the output is idle and not written back at every step but the last, live at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, t.val ≠ 19 → cfg1.idle 3 (grid1.coords t) = true := by decide +kernel
theorem noFlush1_3 : ∀ t : Fin cfg1.N, t.val ≠ 19 → (cfg1.win 3).flush t = false := by decide +kernel
theorem liveAt1_3 : ∀ t : Fin cfg1.N, t.val = 19 → cfg1.idle 3 (grid1.coords t) = false := by decide +kernel

/-- The invariant with the accumulator taken out of the scoped rest, as a whole buffer owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves in the accumulator and in the output block -/

theorem scover1_A (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) (y : S64x512.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S64x512.size (by sl_kernel_rfl) y
/-- The accumulator after the first step. -/
def sout1_A (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) : Vec F S64x512 .f32 :=
  VO1.read (Elt F) (VO1.writes (Elt F) VO1.junk (kernelRun1_A c i arg3 harg3 arg4 harg4 arg5 harg5 arg6 harg6 arg7 harg7 hc0 hc1 x0 x1).1)

theorem scover1_B (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) (y : S64x512.Idx) :
    ∃ pc ∈ (kernelRun1_B c i arg3 harg3 arg4 harg4 arg5 harg5 arg6 harg6 arg7 harg7 hc0 hc1 x0 x1 xs).1, y ∈ pc.1.set :=
  View.cover_of_tiledL (kernelRun1_B c i arg3 harg3 arg4 harg4 arg5 harg5 arg6 harg6 arg7 harg7 hc0 hc1 x0 x1 xs).1 S64x512.size (by sl_kernel_rfl) y
/-- The accumulator after a middle step, over what the step before left. -/
def sout1_B (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) : Vec F S64x512 .f32 :=
  VO1.read (Elt F) (VO1.writes (Elt F) VO1.junk (kernelRun1_B c i arg3 harg3 arg4 harg4 arg5 harg5 arg6 harg6 arg7 harg7 hc0 hc1 x0 x1 xs).1)

theorem scover1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) (y : S64x512.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S64x512.size (by sl_kernel_rfl) y
/-- The accumulator after the last step. -/
def sout1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) : Vec F S64x512 .f32 :=
  VO1.read (Elt F) (VO1.writes (Elt F) VO1.junk (kernelRun1_C c i arg3 harg3 arg4 harg4 arg5 harg5 arg6 harg6 arg7 harg7 hc0 hc1 x0 x1 x2 xs).2.1)
theorem cover1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) (y : S64x512.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S64x512.size (by sl_kernel_rfl) y
/-- The output block after the last step. -/
def out1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) : Vec F S64x512 .f32 :=
  VO1.read (Elt F) (VO1.writes (Elt F) VO1.junk (kernelRun1_C c i arg3 harg3 arg4 harg4 arg5 harg5 arg6 harg6 arg7 harg7 hc0 hc1 x0 x1 x2 xs).1)

/-! ## The accumulation -/

theorem N1_eq : cfg1.N = 20 := N_1

/-- THE ACCUMULATION: what the accumulator holds after step `n`. -/
def accAt1 (c : Dev nD) : (n : ℕ) → n < cfg1.N → Vec F S64x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _)
      ((hcond1_0 ⟨0, hn⟩).mpr rfl) (fun h => absurd ((hcond1_1 ⟨0, hn⟩).mp h) (by decide : ¬ (0 : ℕ) = 19)) (iblk1 V c 0 ⟨0, hn⟩) (iblk1 V c 1 ⟨0, hn⟩)
  | n + 1, hn =>
    if h19 : n + 1 = 19 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => absurd ((hcond1_0 ⟨n + 1, hn⟩).mp h) (Nat.succ_ne_zero n)) ((hcond1_1 ⟨n + 1, hn⟩).mpr h19)
        (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => absurd ((hcond1_0 ⟨n + 1, hn⟩).mp h) (Nat.succ_ne_zero n)) (fun h => h19 ((hcond1_1 ⟨n + 1, hn⟩).mp h))
        (iblk1 V c 0 ⟨n + 1, hn⟩) (iblk1 V c 1 ⟨n + 1, hn⟩) (accAt1 c n (Nat.lt_of_succ_lt hn))

/-- At the first step: the first case's contents. -/
theorem accAt1_A (c : Dev nD) (t : Fin cfg1.N) (h0 : t.val = 0) (h1 : ¬t.val = 19) :
    accAt1 V c t.val t.isLt = sout1_A c (grid1.coords t) (ms1_0 t) (hs1_0 t) (ms1_1 t) (hs1_1 t) (ms1_2 t) (hs1_2 t) (ms1_3 t) (hs1_3 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact absurd h0 (Nat.succ_ne_zero n)

/-- At a middle step: the middle case's contents over what the step before left. -/
theorem accAt1_B (c : Dev nD) (t : Fin cfg1.N) (h0 : ¬t.val = 0) (h1 : ¬t.val = 19) :
    accAt1 V c t.val t.isLt = sout1_B c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) (fun h => h1 ((hcond1_1 t).mp h)) (iblk1 V c 0 t) (iblk1 V c 1 t)
      (accAt1 V c (t.val - 1) (Nat.lt_of_le_of_lt (Nat.sub_le _ _) t.isLt)) := by
  obtain ⟨n, hn⟩ := t
  cases n with
  | zero => exact absurd rfl h0
  | succ n => exact (dif_neg h1).trans rfl

/-- At the last step: the last case's contents over what the step before left. -/
theorem accAt1_C (c : Dev nD) (t : Fin cfg1.N) (h0 : ¬t.val = 0) (h1 : t.val = 19) :
    accAt1 V c t.val t.isLt = sout1_C c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) ((hcond1_1 t).mpr h1) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last step what that step stores, over the accumulator the step
    before left; at the other steps nothing is stored and the value here is a placeholder nothing consults. -/
def outAt1 (c : Dev nD) (t : Fin cfg1.N) : Vec F S64x512 .f32 :=
  if h19 : t.val = 19 then
    out1_C c (grid1.coords t) (ms1_0 t) (hs1_0 t) (ms1_1 t) (hs1_1 t) (ms1_2 t) (hs1_2 t) (ms1_3 t) (hs1_3 t) scM1 (Memref.isWhole_whole _)
      (fun h => absurd ((hcond1_0 t).mp h) (by omega)) ((hcond1_1 t).mpr h19) (iblk1 V c 0 t) (iblk1 V c 1 t) (iblk1 V c 2 t)
      (accAt1 V c (t.val - 1) (Nat.lt_of_le_of_lt (Nat.sub_le _ _) t.isLt))
  else VO1.read (Elt F) VO1.junk

/-- The region invariant before step `n`: before the first the plain one; afterwards the accumulator at what the
    step before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point, by the three cases of the step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 20 := lt_of_lt_of_eq t.isLt N1_eq
  by_cases h0 : t.val = 0
  · have h1 : ¬t.val = 19 := by omega
    rw [Dat.leavesExact_idle (dat1 V c) 3 t (idleAt1_3 t h1) (noFlush1_3 t h1)]
    rw [accAt1_A V c t h0 h1]
    unfold sout1_A
    rw [PhiS1_castSucc V c t, PhiS1_zero V c _ _ h0, PhiA1_eq]
    iintro ⟨⟨⟨HS, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR Hg]
    · isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 19
    · rw [show (dat1 V c).leavesExact 3 t = owns (c : Thread nD τ) (ms1_3 t) fullShare ((dat1 V c).after 3 t) from by
        unfold Dat.leavesExact; rw [liveAt1_3 t h1], after1_3]
      rw [accAt1_C V c t h0 h1]
      unfold sout1_C outAt1
      rw [dif_pos h1]
      unfold out1_C
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t h1) (noFlush1_3 t h1)]
      rw [accAt1_B V c t h0 h1]
      unfold sout1_B
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first step, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last step the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have := N1_eq; omega), PhiA1_eq]
  iintro ⟨⟨HS, HR⟩, Hg⟩
  isplitl [HS HR]
  · isplitl [HS]; · iexists _; iexact HS
    iexact HR
  iexact Hg

end

end Cert.Kernel.Dense

end
-- ==== Proof.KB.Body2.lean ====
/-
  Region 2 of the program as printed: the dense layer  mean = x · W_mean + b_mean  over f32[64, 512] × f32[512, 64],
  one grid point. The body zeroes its 64 × 64 accumulator, adds the product of its two input blocks into it, and
  stores the accumulator plus the bias row (broadcast over the 64 rows) into the output block. Here: the two
  conditions of the body (first reduction step, last reduction step) hold at the one point, and the body's run
  on whole staging buffers, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond2_0 (i : grid2.Coords) : Prop :=
  (Scalar.cmpi .ne (Scalar.extui (Scalar.cmpi .eq (BitVec.ofNat 32 (i 2).val) 0#32)) 0#32) = 1#1
/-- The reduction axis has one step, so every point is the first. -/
theorem hcond2_0 : ∀ t : Fin cfg2.N, cond2_0 (grid2.coords t) :=
  (by decide +kernel : ∀ t : Fin grid2.N, cond2_0 (grid2.coords t))

/-- "This is the last step along the reduction axis": the body's second branch condition. -/
abbrev cond2_1 (i : grid2.Coords) : Prop := k2_cond2 i = 1#1
/-- ... and every point is the last. -/
theorem hcond2_1 : ∀ t : Fin cfg2.N, cond2_1 (grid2.coords t) :=
  (by decide +kernel : ∀ t : Fin grid2.N, cond2_1 (grid2.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun2 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) :
    Σ' (L3 : List (View.Piece (Elt F) S64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__dense_kernel i arg3 harg3 arg4 harg4 arg5 harg5 arg6 harg6 arg7 harg7) K } := by
  refine ⟨?_, ?_, fun E K => ?run⟩
  case run =>
    simp only [cc2__dense_kernel_eq_skeleton]; unfold cc2__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half2.lean ====
/-
  Region 2 (mean = x · W_mean + b_mean, one grid point): the pipeline's proof data and the body obligation.
  After the body each input's staging buffer still holds its block of the array, and the output's holds what the
  body's stores leave there; the accumulator is zeroed at the start of the point, so nothing is carried from a
  point to the next and the invariant is the plain one: every scoped buffer that is no staging buffer of this
  region at some contents, and the generator register at some state.
-/
import proofs.«179658_j2465311228054_1_alg».proof.Proof.KB.Body2

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at point `t`, as the pipeline passes it to the body, and the accumulator. -/
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev scM2 : Memref sig .tc .vmem S64x64 .f32 := Memref.whole cc2_scratch0
/-- A view of the output block's shape, through which contents are stated (which one does not matter). -/
abbrev VO2 : View sig .tc .vmem S64x64 .f32 := scM2.view

/-- No window is idle at any point: the inputs are read and the output is stored at each. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- The invariant with the accumulator taken out of the scoped rest, as a whole buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The stores into the output block tile it, so they cover it. -/
theorem cover2_3 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) (y : S64x64.Idx) :
    ∃ pc ∈ (kernelRun2 c i arg3 harg3 arg4 harg4 arg5 harg5 arg6 harg6 arg7 harg7 hc0 hc1 x0 x1 x2).1, y ∈ pc.1.set :=
  View.cover_of_tiledL (kernelRun2 c i arg3 harg3 arg4 harg4 arg5 harg5 arg6 harg6 arg7 harg7 hc0 hc1 x0 x1 x2).1 S64x64.size (by sl_kernel_rfl) y

/-- What the body leaves in the output's staging buffer: its stores read back. -/
def out2_3 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) : Vec F S64x64 .f32 :=
  VO2.read (Elt F) (VO2.writes (Elt F) VO2.junk (kernelRun2 c i arg3 harg3 arg4 harg4 arg5 harg5 arg6 harg6 arg7 harg7 hc0 hc1 x0 x1 x2).1)

/-- The output block after point `t`, from the three input blocks there. -/
def outAt2 (c : Dev nD) (t : Fin cfg2.N) : Vec F S64x64 .f32 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-- The proof data of pipeline 2 on core `c`: the arrays as the region finds them; after the body each input's
    buffer at its block and the output's at `outAt2`; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4800000 in
/-- The body at any point: the inputs' buffers hold their blocks, both conditions hold, so the run applies; the
    invariant hands the body the accumulator at anything and takes it back at anything; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2_3
  rw [PhiA2_eq]
  iintro ⟨⟨⟨HS, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Dense

end
-- ==== Proof.KB.Body3.lean ====
/-
  Region 3 of the program as printed: the dense layer  log_std = x · W_logstd + b_logstd  over f32[64, 512] × f32[512, 64];
  one grid point, one step along the reduction axis. The body zeroes its accumulator, adds the product of its two
  input blocks into it, and stores the accumulator plus the bias row (broadcast over the rows) into the
  output block. Here: the two conditions of the body (first reduction step, last reduction step) hold at every
  point, and the body's run on whole staging buffers, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond3_0 (i : grid3.Coords) : Prop :=
  (Scalar.cmpi .ne (Scalar.extui (Scalar.cmpi .eq (BitVec.ofNat 32 (i 2).val) 0#32)) 0#32) = 1#1
/-- The reduction axis has one step, so every point is the first. -/
theorem hcond3_0 : ∀ t : Fin cfg3.N, cond3_0 (grid3.coords t) :=
  (by decide +kernel : ∀ t : Fin grid3.N, cond3_0 (grid3.coords t))

/-- "This is the last step along the reduction axis": the body's second branch condition. -/
abbrev cond3_1 (i : grid3.Coords) : Prop := k3_cond2 i = 1#1
/-- ... and every point is the last. -/
theorem hcond3_1 : ∀ t : Fin cfg3.N, cond3_1 (grid3.coords t) :=
  (by decide +kernel : ∀ t : Fin grid3.N, cond3_1 (grid3.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) :
    Σ' (L3 : List (View.Piece (Elt F) S64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc3__dense_kernel i arg3 harg3 arg4 harg4 arg5 harg5 arg6 harg6 arg7 harg7) K } := by
  refine ⟨?_, ?_, fun E K => ?run⟩
  case run =>
    simp only [cc3__dense_kernel_eq_skeleton]; unfold cc3__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half3.lean ====
/-
  Region 3 (log_std = x · W_logstd + b_logstd  over f32[64, 512] × f32[512, 64]): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KB.Body3

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging buffer at point `t`, as the pipeline passes it to the body, and the accumulator. -/
abbrev ms3_0 (t : Fin cfg3.N) : Memref sig .tc .vmem S64x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .f32 := win3_3.stage (cfg3.slots t 3)
abbrev hs3_3 (t : Fin cfg3.N) : (ms3_3 t).IsWhole := hstage3_3 ((cfg3.slots t 3).cast nbuf3_3)
abbrev scM3 : Memref sig .tc .vmem S64x64 .f32 := Memref.whole cc3_scratch0
/-- A view of the output block's shape, through which contents are stated (which one does not matter). -/
abbrev VO3 : View sig .tc .vmem S64x64 .f32 := scM3.view

/-- No window is idle at any point: the inputs are read and the output is stored at each. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-- The invariant with the accumulator taken out of the scoped rest, as a whole buffer owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The stores into the output block tile it, so they cover it. -/
theorem cover3_3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) (y : S64x64.Idx) :
    ∃ pc ∈ (kernelRun3 c i arg3 harg3 arg4 harg4 arg5 harg5 arg6 harg6 arg7 harg7 hc0 hc1 x0 x1 x2).1, y ∈ pc.1.set :=
  View.cover_of_tiledL (kernelRun3 c i arg3 harg3 arg4 harg4 arg5 harg5 arg6 harg6 arg7 harg7 hc0 hc1 x0 x1 x2).1 S64x64.size (by sl_kernel_rfl) y

/-- What the body leaves in the output's staging buffer: its stores read back. -/
def out3_3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) : Vec F S64x64 .f32 :=
  VO3.read (Elt F) (VO3.writes (Elt F) VO3.junk (kernelRun3 c i arg3 harg3 arg4 harg4 arg5 harg5 arg6 harg6 arg7 harg7 hc0 hc1 x0 x1 x2).1)

/-- The output block after point `t`, from the three input blocks there. -/
def outAt3 (c : Dev nD) (t : Fin cfg3.N) : Vec F S64x64 .f32 :=
  out3_3 c (grid3.coords t) (ms3_0 t) (hs3_0 t) (ms3_1 t) (hs3_1 t) (ms3_2 t) (hs3_2 t) (ms3_3 t) (hs3_3 t) scM3 (Memref.isWhole_whole _)
    (hcond3_0 t) (hcond3_1 t) (iblk3 V c 0 t) (iblk3 V c 1 t) (iblk3 V c 2 t)

/-- The proof data of pipeline 3 on core `c`: the arrays as the region finds them; after the body each input's
    buffer at its block and the output's at `outAt3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 4800000 in
/-- The body at any point: the inputs' buffers hold their blocks, both conditions hold, so the run applies; the
    invariant hands the body the accumulator at anything and takes it back at anything; nothing is owed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  unfold outAt3 out3_3
  rw [PhiA3_eq]
  iintro ⟨⟨⟨HS, HR⟩, Hg⟩, Ho, ⟨%d0, H0⟩, ⟨%d1, H1⟩, ⟨%d2, H2⟩, ⟨%d3, H3⟩⟩
  iapply ((kernelRun3 c (grid3.coords t) _ _ _ _ _ _ _ _ _ _ (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end

end Cert.Kernel.Dense

end
-- ==== Proof.KB.Body4.lean ====
/-
  Region 4 of the program as printed: the dense layer  d = max(z · W_dec_fc + b_dec_fc, 0)  over f32[64, 64] × f32[64, 64000], ten column blocks of 6400;
  ten grid points, one per block of 6400 columns, one step along the reduction axis. The body zeroes its accumulator, adds the product of its two
  input blocks into it, and stores the accumulator plus the bias row (broadcast over the rows) and the maximum with zero into the
  output block. Here: the two conditions of the body (first reduction step, last reduction step) hold at every
  point, and the body's run on whole staging buffers, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond4_0 (i : grid4.Coords) : Prop :=
  (Scalar.cmpi .ne (Scalar.extui (Scalar.cmpi .eq (BitVec.ofNat 32 (i 2).val) 0#32)) 0#32) = 1#1
/-- The reduction axis has one step, so every point is the first. -/
theorem hcond4_0 : ∀ t : Fin cfg4.N, cond4_0 (grid4.coords t) :=
  (by decide +kernel : ∀ t : Fin grid4.N, cond4_0 (grid4.coords t))

/-- "This is the last step along the reduction axis": the body's second branch condition. -/
abbrev cond4_1 (i : grid4.Coords) : Prop := k4_cond2 i = 1#1
/-- ... and every point is the last. -/
theorem hcond4_1 : ∀ t : Fin cfg4.N, cond4_1 (grid4.coords t) :=
  (by decide +kernel : ∀ t : Fin grid4.N, cond4_1 (grid4.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun4 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) :
    Σ' (L3 : List (View.Piece (Elt F) S64x6400 .f32)), { LS0 : List (View.Piece (Elt F) S64x6400 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__dense_kernel i arg3 harg3 arg4 harg4 arg5 harg5 arg6 harg6 arg7 harg7) K } := by
  refine ⟨?_, ?_, fun E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half4.lean ====
/-
  Region 4 (d = max(z · W_dec_fc + b_dec_fc, 0)  over f32[64, 64] × f32[64, 64000], ten column blocks of 6400): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KB.Body4

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging buffer at point `t`, as the pipeline passes it to the body, and the accumulator. -/
abbrev ms4_0 (t : Fin cfg4.N) : Memref sig .tc .vmem S64x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x6400 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x6400 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x6400 .f32 := win4_3.stage (cfg4.slots t 3)
abbrev hs4_3 (t : Fin cfg4.N) : (ms4_3 t).IsWhole := hstage4_3 ((cfg4.slots t 3).cast nbuf4_3)
abbrev scM4 : Memref sig .tc .vmem S64x6400 .f32 := Memref.whole cc4_scratch0
/-- A view of the output block's shape, through which contents are stated (which one does not matter). -/
abbrev VO4 : View sig .tc .vmem S64x6400 .f32 := scM4.view

/-- No window is idle at any point: the inputs are read and the output is stored at each. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-- The invariant with the accumulator taken out of the scoped rest, as a whole buffer owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The stores into the output block tile it, so they cover it. -/
theorem cover4_3 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) (y : S64x6400.Idx) :
    ∃ pc ∈ (kernelRun4 c i arg3 harg3 arg4 harg4 arg5 harg5 arg6 harg6 arg7 harg7 hc0 hc1 x0 x1 x2).1, y ∈ pc.1.set :=
  View.cover_of_tiledL (kernelRun4 c i arg3 harg3 arg4 harg4 arg5 harg5 arg6 harg6 arg7 harg7 hc0 hc1 x0 x1 x2).1 S64x6400.size (by sl_kernel_rfl) y

/-- What the body leaves in the output's staging buffer: its stores read back. -/
def out4_3 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) : Vec F S64x6400 .f32 :=
  VO4.read (Elt F) (VO4.writes (Elt F) VO4.junk (kernelRun4 c i arg3 harg3 arg4 harg4 arg5 harg5 arg6 harg6 arg7 harg7 hc0 hc1 x0 x1 x2).1)

/-- The output block after point `t`, from the three input blocks there. -/
def outAt4 (c : Dev nD) (t : Fin cfg4.N) : Vec F S64x6400 .f32 :=
  out4_3 c (grid4.coords t) (ms4_0 t) (hs4_0 t) (ms4_1 t) (hs4_1 t) (ms4_2 t) (hs4_2 t) (ms4_3 t) (hs4_3 t) scM4 (Memref.isWhole_whole _)
    (hcond4_0 t) (hcond4_1 t) (iblk4 V c 0 t) (iblk4 V c 1 t) (iblk4 V c 2 t)

/-- The proof data of pipeline 4 on core `c`: the arrays as the region finds them; after the body each input's
    buffer at its block and the output's at `outAt4`; the plain invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t)

set_option maxHeartbeats 4800000 in
/-- The body at any point: the inputs' buffers hold their blocks, both conditions hold, so the run applies; the
    invariant hands the body the accumulator at anything and takes it back at anything; nothing is owed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outAt4 out4_3
  rw [PhiA4_eq]
  iintro ⟨⟨⟨HS, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Dense

end
-- ==== Proof.KB.Body5.lean ====
/-
  Region 5 of the program as printed: the dense layer  out = d · W_dec_out + b_dec_out  over f32[64000, 64] × f32[64, 32], eight row blocks of 8000;
  eight grid points, one per block of 8000 rows, one step along the reduction axis. The body zeroes its accumulator, adds the product of its two
  input blocks into it, and stores the accumulator plus the bias row (broadcast over the rows) into the
  output block. Here: the two conditions of the body (first reduction step, last reduction step) hold at every
  point, and the body's run on whole staging buffers, with the stores each buffer ends with found by the symbolic run.
-/
import proofs.«179658_j2465311228054_1_alg».proof.Proof.Gen.Kernel.Launch
import proofs.«179658_j2465311228054_1_alg».proof.Proof.Gen.Kernel.Skeleton
import proofs.«179658_j2465311228054_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond5_0 (i : grid5.Coords) : Prop :=
  (Scalar.cmpi .ne (Scalar.extui (Scalar.cmpi .eq (BitVec.ofNat 32 (i 2).val) 0#32)) 0#32) = 1#1
/-- The reduction axis has one step, so every point is the first. -/
theorem hcond5_0 : ∀ t : Fin cfg5.N, cond5_0 (grid5.coords t) :=
  (by decide +kernel : ∀ t : Fin grid5.N, cond5_0 (grid5.coords t))

/-- "This is the last step along the reduction axis": the body's second branch condition. -/
abbrev cond5_1 (i : grid5.Coords) : Prop := k5_cond2 i = 1#1
/-- ... and every point is the last. -/
theorem hcond5_1 : ∀ t : Fin cfg5.N, cond5_1 (grid5.coords t) :=
  (by decide +kernel : ∀ t : Fin grid5.N, cond5_1 (grid5.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun5 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) :
    Σ' (L3 : List (View.Piece (Elt F) S8000x32 .f32)), { LS0 : List (View.Piece (Elt F) S8000x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc5__dense_kernel i arg3 harg3 arg4 harg4 arg5 harg5 arg6 harg6 arg7 harg7) K } := by
  refine ⟨?_, ?_, fun E K => ?run⟩
  case run =>
    simp only [cc5__dense_kernel_eq_skeleton]; unfold cc5__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.Kernel.Dense

end
-- ==== Proof.KB.Half5.lean ====
/-
  Region 5 (out = d · W_dec_out + b_dec_out  over f32[64000, 64] × f32[64, 32], eight row blocks of 8000): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KB.Body5

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Each window's current staging buffer at point `t`, as the pipeline passes it to the body, and the accumulator. -/
abbrev ms5_0 (t : Fin cfg5.N) : Memref sig .tc .vmem S8000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S64x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8000x32 .f32 := win5_3.stage (cfg5.slots t 3)
abbrev hs5_3 (t : Fin cfg5.N) : (ms5_3 t).IsWhole := hstage5_3 ((cfg5.slots t 3).cast nbuf5_3)
abbrev scM5 : Memref sig .tc .vmem S8000x32 .f32 := Memref.whole cc5_scratch0
/-- A view of the output block's shape, through which contents are stated (which one does not matter). -/
abbrev VO5 : View sig .tc .vmem S8000x32 .f32 := scM5.view

/-- No window is idle at any point: the inputs are read and the output is stored at each. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

/-- The invariant with the accumulator taken out of the scoped rest, as a whole buffer owned at some contents. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The stores into the output block tile it, so they cover it. -/
theorem cover5_3 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) (y : S8000x32.Idx) :
    ∃ pc ∈ (kernelRun5 c i arg3 harg3 arg4 harg4 arg5 harg5 arg6 harg6 arg7 harg7 hc0 hc1 x0 x1 x2).1, y ∈ pc.1.set :=
  View.cover_of_tiledL (kernelRun5 c i arg3 harg3 arg4 harg4 arg5 harg5 arg6 harg6 arg7 harg7 hc0 hc1 x0 x1 x2).1 S8000x32.size (by sl_kernel_rfl) y

/-- What the body leaves in the output's staging buffer: its stores read back. -/
def out5_3 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) : Vec F S8000x32 .f32 :=
  VO5.read (Elt F) (VO5.writes (Elt F) VO5.junk (kernelRun5 c i arg3 harg3 arg4 harg4 arg5 harg5 arg6 harg6 arg7 harg7 hc0 hc1 x0 x1 x2).1)

/-- The output block after point `t`, from the three input blocks there. -/
def outAt5 (c : Dev nD) (t : Fin cfg5.N) : Vec F S8000x32 .f32 :=
  out5_3 c (grid5.coords t) (ms5_0 t) (hs5_0 t) (ms5_1 t) (hs5_1 t) (ms5_2 t) (hs5_2 t) (ms5_3 t) (hs5_3 t) scM5 (Memref.isWhole_whole _)
    (hcond5_0 t) (hcond5_1 t) (iblk5 V c 0 t) (iblk5 V c 1 t) (iblk5 V c 2 t)

/-- The proof data of pipeline 5 on core `c`: the arrays as the region finds them; after the body each input's
    buffer at its block and the output's at `outAt5`; the plain invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outAt5 V c t := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4800000 in
/-- The body at any point: the inputs' buffers hold their blocks, both conditions hold, so the run applies; the
    invariant hands the body the accumulator at anything and takes it back at anything; nothing is owed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  unfold outAt5 out5_3
  rw [PhiA5_eq]
  iintro ⟨⟨⟨HS, HR⟩, Hg⟩, Ho, ⟨%d0, H0⟩, ⟨%d1, H1⟩, ⟨%d2, H2⟩, ⟨%d3, H3⟩⟩
  iapply ((kernelRun5 c (grid5.coords t) _ _ _ _ _ _ _ _ _ _ (hcond5_0 t) (hcond5_1 t) (iblk5 V c 0 t) (iblk5 V c 1 t) (iblk5 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.Kernel.Dense

end
-- ==== Proof.KB.Run.lean ====
/-
  The run of the printed program's @main: seven stretches of host operations with the six dense regions
  between them. The contents of every unscoped buffer are followed from the launch memory through each item:
  a stretch of host operations applies them in order; a region changes exactly one buffer, its output array, to
  what its pipeline's write-backs leave there (the proof data's array after the last point). Each region is a
  segment entered with every unscoped buffer at the contents before it and left with them at the contents after
  it, the generator register at some state and nothing owed riding along. The run theorem says: every weakly
  fair execution terminates, and at the end every unscoped buffer holds the last contents. The three frame-style
  facts (the arguments end as launched) and the result values are read off it.
-/
import proofs.«179658_j2465311228054_1_alg».proof.Proof.KB.Half0
import proofs.«179658_j2465311228054_1_alg».proof.Proof.KB.Half1
import proofs.«179658_j2465311228054_1_alg».proof.Proof.KB.Half2
import proofs.«179658_j2465311228054_1_alg».proof.Proof.KB.Half3
import proofs.«179658_j2465311228054_1_alg».proof.Proof.KB.Half4
import proofs.«179658_j2465311228054_1_alg».proof.Proof.KB.Half5
import proofs.«179658_j2465311228054_1_alg».proof.Proof.Gen.Kernel.Regions

set_option maxRecDepth 16384

noncomputable section

namespace Cert.Kernel.Dense

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- After the first stretch of host operations (region 0's entry). -/
abbrev U1 (c : Dev nD) : Valuation τ sig (Elt F) := V1 m c
abbrev R1 : (c : Dev nD) → (b : Ref sig .tc) → Buf (Elt F) ((c : Thread nD τ).loc b) := fun c b => U1 m c b

/-- What region 0 leaves in its output array `main_v1`: the pipeline's write-backs folded. -/
def o2 (c : Dev nD) : Buf (Elt F) ((c : Thread nD τ).loc main_v1) := (dat0 (R1 m) c).arrAt 3 cfg0.N
/-- After region 0. -/
abbrev U2 (c : Dev nD) : Valuation τ sig (Elt F) := Function.update (U1 m c) main_v1 (o2 m c)
abbrev R2 : (c : Dev nD) → (b : Ref sig .tc) → Buf (Elt F) ((c : Thread nD τ).loc b) := fun c b => U2 m c b
/-- After the next stretch of host operations. -/
abbrev U3 (c : Dev nD) : Valuation τ sig (Elt F) := StableHlo.after hostOps1 (U2 m c)
abbrev R3 : (c : Dev nD) → (b : Ref sig .tc) → Buf (Elt F) ((c : Thread nD τ).loc b) := fun c b => U3 m c b

/-- What region 1 leaves in its output array `main_v36`: the pipeline's write-backs folded. -/
def o4 (c : Dev nD) : Buf (Elt F) ((c : Thread nD τ).loc main_v36) := (dat1 (R3 m) c).arrAt 3 cfg1.N
/-- After region 1. -/
abbrev U4 (c : Dev nD) : Valuation τ sig (Elt F) := Function.update (U3 m c) main_v36 (o4 m c)
abbrev R4 : (c : Dev nD) → (b : Ref sig .tc) → Buf (Elt F) ((c : Thread nD τ).loc b) := fun c b => U4 m c b
/-- After the next stretch of host operations. -/
abbrev U5 (c : Dev nD) : Valuation τ sig (Elt F) := StableHlo.after hostOps2 (U4 m c)
abbrev R5 : (c : Dev nD) → (b : Ref sig .tc) → Buf (Elt F) ((c : Thread nD τ).loc b) := fun c b => U5 m c b

/-- What region 2 leaves in its output array `main_v38`: the pipeline's write-backs folded. -/
def o6 (c : Dev nD) : Buf (Elt F) ((c : Thread nD τ).loc main_v38) := (dat2 (R5 m) c).arrAt 3 cfg2.N
/-- After region 2. -/
abbrev U6 (c : Dev nD) : Valuation τ sig (Elt F) := Function.update (U5 m c) main_v38 (o6 m c)
abbrev R6 : (c : Dev nD) → (b : Ref sig .tc) → Buf (Elt F) ((c : Thread nD τ).loc b) := fun c b => U6 m c b
/-- After the next stretch of host operations. -/
abbrev U7 (c : Dev nD) : Valuation τ sig (Elt F) := StableHlo.after hostOps3 (U6 m c)
abbrev R7 : (c : Dev nD) → (b : Ref sig .tc) → Buf (Elt F) ((c : Thread nD τ).loc b) := fun c b => U7 m c b

/-- What region 3 leaves in its output array `main_v40`: the pipeline's write-backs folded. -/
def o8 (c : Dev nD) : Buf (Elt F) ((c : Thread nD τ).loc main_v40) := (dat3 (R7 m) c).arrAt 3 cfg3.N
/-- After region 3. -/
abbrev U8 (c : Dev nD) : Valuation τ sig (Elt F) := Function.update (U7 m c) main_v40 (o8 m c)
abbrev R8 : (c : Dev nD) → (b : Ref sig .tc) → Buf (Elt F) ((c : Thread nD τ).loc b) := fun c b => U8 m c b
/-- After the next stretch of host operations. -/
abbrev U9 (c : Dev nD) : Valuation τ sig (Elt F) := StableHlo.after hostOps4 (U8 m c)
abbrev R9 : (c : Dev nD) → (b : Ref sig .tc) → Buf (Elt F) ((c : Thread nD τ).loc b) := fun c b => U9 m c b

/-- What region 4 leaves in its output array `main_v45`: the pipeline's write-backs folded. -/
def o10 (c : Dev nD) : Buf (Elt F) ((c : Thread nD τ).loc main_v45) := (dat4 (R9 m) c).arrAt 3 cfg4.N
/-- After region 4. -/
abbrev U10 (c : Dev nD) : Valuation τ sig (Elt F) := Function.update (U9 m c) main_v45 (o10 m c)
abbrev R10 : (c : Dev nD) → (b : Ref sig .tc) → Buf (Elt F) ((c : Thread nD τ).loc b) := fun c b => U10 m c b
/-- After the next stretch of host operations. -/
abbrev U11 (c : Dev nD) : Valuation τ sig (Elt F) := StableHlo.after hostOps5 (U10 m c)
abbrev R11 : (c : Dev nD) → (b : Ref sig .tc) → Buf (Elt F) ((c : Thread nD τ).loc b) := fun c b => U11 m c b

/-- What region 5 leaves in its output array `main_v48`: the pipeline's write-backs folded. -/
def o12 (c : Dev nD) : Buf (Elt F) ((c : Thread nD τ).loc main_v48) := (dat5 (R11 m) c).arrAt 3 cfg5.N
/-- After region 5. -/
abbrev U12 (c : Dev nD) : Valuation τ sig (Elt F) := Function.update (U11 m c) main_v48 (o12 m c)
abbrev R12 : (c : Dev nD) → (b : Ref sig .tc) → Buf (Elt F) ((c : Thread nD τ).loc b) := fun c b => U12 m c b
/-- After the next stretch of host operations. -/
abbrev U13 (c : Dev nD) : Valuation τ sig (Elt F) := StableHlo.after hostOps6 (U12 m c)
abbrev R13 : (c : Dev nD) → (b : Ref sig .tc) → Buf (Elt F) ((c : Thread nD τ).loc b) := fun c b => U13 m c b

/-- The regions' outputs as the family the generated host-side lemmas are stated over. -/
def outsU : Outs (F := F) := fun J r c => match J with
  | 2 => U2 m c r | 4 => U4 m c r | 6 => U6 m c r | 8 => U8 m c r | 10 => U10 m c r | 12 => U12 m c r | _ => V0 m c r

/-- The generated valuations at that family are these contents. -/
theorem VU1 (c : Dev nD) : V1 m c = U1 m c := rfl
theorem VU2 (c : Dev nD) : V2 m (outsU m) c = U2 m c := by
  show Function.update (V1 m c) main_v1 (U2 m c main_v1) = U2 m c
  rw [VU1 m c]; show Function.update (U1 m c) main_v1 (Function.update (U1 m c) main_v1 (o2 m c) main_v1) = _
  rw [Function.update_self]
theorem VU3 (c : Dev nD) : V3 m (outsU m) c = U3 m c := by
  show StableHlo.after hostOps1 (V2 m (outsU m) c) = _; rw [VU2 m c]
theorem VU4 (c : Dev nD) : V4 m (outsU m) c = U4 m c := by
  show Function.update (V3 m (outsU m) c) main_v36 (U4 m c main_v36) = U4 m c
  rw [VU3 m c]; show Function.update (U3 m c) main_v36 (Function.update (U3 m c) main_v36 (o4 m c) main_v36) = _
  rw [Function.update_self]
theorem VU5 (c : Dev nD) : V5 m (outsU m) c = U5 m c := by
  show StableHlo.after hostOps2 (V4 m (outsU m) c) = _; rw [VU4 m c]
theorem VU6 (c : Dev nD) : V6 m (outsU m) c = U6 m c := by
  show Function.update (V5 m (outsU m) c) main_v38 (U6 m c main_v38) = U6 m c
  rw [VU5 m c]; show Function.update (U5 m c) main_v38 (Function.update (U5 m c) main_v38 (o6 m c) main_v38) = _
  rw [Function.update_self]
theorem VU7 (c : Dev nD) : V7 m (outsU m) c = U7 m c := by
  show StableHlo.after hostOps3 (V6 m (outsU m) c) = _; rw [VU6 m c]
theorem VU8 (c : Dev nD) : V8 m (outsU m) c = U8 m c := by
  show Function.update (V7 m (outsU m) c) main_v40 (U8 m c main_v40) = U8 m c
  rw [VU7 m c]; show Function.update (U7 m c) main_v40 (Function.update (U7 m c) main_v40 (o8 m c) main_v40) = _
  rw [Function.update_self]
theorem VU9 (c : Dev nD) : V9 m (outsU m) c = U9 m c := by
  show StableHlo.after hostOps4 (V8 m (outsU m) c) = _; rw [VU8 m c]
theorem VU10 (c : Dev nD) : V10 m (outsU m) c = U10 m c := by
  show Function.update (V9 m (outsU m) c) main_v45 (U10 m c main_v45) = U10 m c
  rw [VU9 m c]; show Function.update (U9 m c) main_v45 (Function.update (U9 m c) main_v45 (o10 m c) main_v45) = _
  rw [Function.update_self]
theorem VU11 (c : Dev nD) : V11 m (outsU m) c = U11 m c := by
  show StableHlo.after hostOps5 (V10 m (outsU m) c) = _; rw [VU10 m c]
theorem VU12 (c : Dev nD) : V12 m (outsU m) c = U12 m c := by
  show Function.update (V11 m (outsU m) c) main_v48 (U12 m c main_v48) = U12 m c
  rw [VU11 m c]; show Function.update (U11 m c) main_v48 (Function.update (U11 m c) main_v48 (o12 m c) main_v48) = _
  rw [Function.update_self]
theorem VU13 (c : Dev nD) : V13 m (outsU m) c = U13 m c := by
  show StableHlo.after hostOps6 (V12 m (outsU m) c) = _; rw [VU12 m c]

/-! ## What a region leaves unchanged, and its arrays at the exit -/

set_option maxHeartbeats 2000000 in
/-- Region 0's arrays after its last point, over ANY entry contents `W`: the three inputs as entered, the output its
    write-backs; stated as the entry contents updated at the output array. -/
theorem hF0_gen (W : Dev nD → Valuation τ sig (Elt F)) (c : Dev nD) (w : Fin cfg0.W) :
    (dat0 (fun c b => W c b) c).arrAt w cfg0.N
      = Function.update (W c) main_v1 ((dat0 (fun c b => W c b) c).arrAt 3 cfg0.N) (Pipeline.arrRef spec0 w) := by
  have hne : ∀ r : Ref sig .tc, r ≠ main_v1 → Function.update (W c) main_v1 ((dat0 (fun c b => W c b) c).arrAt 3 cfg0.N) r = W c r := fun r h => by
    simp only [Function.update_of_ne (StableHlo.devRef_ne_of_ne h : (Proc.devRef .tc r : DevRef τ sig) ≠ Proc.devRef .tc main_v1)]
  match w with
  | ⟨0, _⟩ => exact (((dat0 (fun c b => W c b) c).arrAt_in 0 rfl _).trans (A_eq0 (fun c b => W c b) c 0)).trans (hne _ (by decide)).symm
  | ⟨1, _⟩ => exact (((dat0 (fun c b => W c b) c).arrAt_in 1 rfl _).trans (A_eq0 (fun c b => W c b) c 1)).trans (hne _ (by decide)).symm
  | ⟨2, _⟩ => exact (((dat0 (fun c b => W c b) c).arrAt_in 2 rfl _).trans (A_eq0 (fun c b => W c b) c 2)).trans (hne _ (by decide)).symm
  | ⟨3, _⟩ =>
    show (dat0 (fun c b => W c b) c).arrAt 3 cfg0.N = Function.update (W c) main_v1 ((dat0 (fun c b => W c b) c).arrAt 3 cfg0.N) main_v1
    rw [Function.update_self]
theorem hF0 (c : Dev nD) (w : Fin cfg0.W) : (dat0 (R1 m) c).arrAt w cfg0.N = R2 m c (Pipeline.arrRef spec0 w) :=
  hF0_gen (U1 m) c w
/-- ... and every other buffer what it held at entry. -/
theorem hrest0_gen (W : Dev nD → Valuation τ sig (Elt F)) (c : Dev nD) (x : Buf (Elt F) ((c : Thread nD τ).loc main_v1)) :
    ∀ b : Ref sig .tc, b ∉ Finset.univ.image (Pipeline.arrRef spec0) → Function.update (W c) main_v1 x b = W c b :=
  fun b hb => by
    have h : b ≠ main_v1 := fun e => hb (Finset.mem_image.mpr ⟨3, Finset.mem_univ _, e.symm⟩)
    simp only [Function.update_of_ne (StableHlo.devRef_ne_of_ne h : (Proc.devRef .tc b : DevRef τ sig) ≠ Proc.devRef .tc main_v1)]
theorem hrest0 (c : Dev nD) : ∀ b, b ∉ Finset.univ.image (Pipeline.arrRef spec0) → R2 m c b = R1 m c b :=
  hrest0_gen (U1 m) c (o2 m c)

set_option maxHeartbeats 2000000 in
/-- Region 1's arrays after its last point, over ANY entry contents `W`: the three inputs as entered, the output its
    write-backs; stated as the entry contents updated at the output array. -/
theorem hF1_gen (W : Dev nD → Valuation τ sig (Elt F)) (c : Dev nD) (w : Fin cfg1.W) :
    (dat1 (fun c b => W c b) c).arrAt w cfg1.N
      = Function.update (W c) main_v36 ((dat1 (fun c b => W c b) c).arrAt 3 cfg1.N) (Pipeline.arrRef spec1 w) := by
  have hne : ∀ r : Ref sig .tc, r ≠ main_v36 → Function.update (W c) main_v36 ((dat1 (fun c b => W c b) c).arrAt 3 cfg1.N) r = W c r := fun r h => by
    simp only [Function.update_of_ne (StableHlo.devRef_ne_of_ne h : (Proc.devRef .tc r : DevRef τ sig) ≠ Proc.devRef .tc main_v36)]
  match w with
  | ⟨0, _⟩ => exact (((dat1 (fun c b => W c b) c).arrAt_in 0 rfl _).trans (A_eq1 (fun c b => W c b) c 0)).trans (hne _ (by decide)).symm
  | ⟨1, _⟩ => exact (((dat1 (fun c b => W c b) c).arrAt_in 1 rfl _).trans (A_eq1 (fun c b => W c b) c 1)).trans (hne _ (by decide)).symm
  | ⟨2, _⟩ => exact (((dat1 (fun c b => W c b) c).arrAt_in 2 rfl _).trans (A_eq1 (fun c b => W c b) c 2)).trans (hne _ (by decide)).symm
  | ⟨3, _⟩ =>
    show (dat1 (fun c b => W c b) c).arrAt 3 cfg1.N = Function.update (W c) main_v36 ((dat1 (fun c b => W c b) c).arrAt 3 cfg1.N) main_v36
    rw [Function.update_self]
theorem hF1 (c : Dev nD) (w : Fin cfg1.W) : (dat1 (R3 m) c).arrAt w cfg1.N = R4 m c (Pipeline.arrRef spec1 w) :=
  hF1_gen (U3 m) c w
/-- ... and every other buffer what it held at entry. -/
theorem hrest1_gen (W : Dev nD → Valuation τ sig (Elt F)) (c : Dev nD) (x : Buf (Elt F) ((c : Thread nD τ).loc main_v36)) :
    ∀ b : Ref sig .tc, b ∉ Finset.univ.image (Pipeline.arrRef spec1) → Function.update (W c) main_v36 x b = W c b :=
  fun b hb => by
    have h : b ≠ main_v36 := fun e => hb (Finset.mem_image.mpr ⟨3, Finset.mem_univ _, e.symm⟩)
    simp only [Function.update_of_ne (StableHlo.devRef_ne_of_ne h : (Proc.devRef .tc b : DevRef τ sig) ≠ Proc.devRef .tc main_v36)]
theorem hrest1 (c : Dev nD) : ∀ b, b ∉ Finset.univ.image (Pipeline.arrRef spec1) → R4 m c b = R3 m c b :=
  hrest1_gen (U3 m) c (o4 m c)

set_option maxHeartbeats 2000000 in
/-- Region 2's arrays after its last point, over ANY entry contents `W`: the three inputs as entered, the output its
    write-backs; stated as the entry contents updated at the output array. -/
theorem hF2_gen (W : Dev nD → Valuation τ sig (Elt F)) (c : Dev nD) (w : Fin cfg2.W) :
    (dat2 (fun c b => W c b) c).arrAt w cfg2.N
      = Function.update (W c) main_v38 ((dat2 (fun c b => W c b) c).arrAt 3 cfg2.N) (Pipeline.arrRef spec2 w) := by
  have hne : ∀ r : Ref sig .tc, r ≠ main_v38 → Function.update (W c) main_v38 ((dat2 (fun c b => W c b) c).arrAt 3 cfg2.N) r = W c r := fun r h => by
    simp only [Function.update_of_ne (StableHlo.devRef_ne_of_ne h : (Proc.devRef .tc r : DevRef τ sig) ≠ Proc.devRef .tc main_v38)]
  match w with
  | ⟨0, _⟩ => exact (((dat2 (fun c b => W c b) c).arrAt_in 0 rfl _).trans (A_eq2 (fun c b => W c b) c 0)).trans (hne _ (by decide)).symm
  | ⟨1, _⟩ => exact (((dat2 (fun c b => W c b) c).arrAt_in 1 rfl _).trans (A_eq2 (fun c b => W c b) c 1)).trans (hne _ (by decide)).symm
  | ⟨2, _⟩ => exact (((dat2 (fun c b => W c b) c).arrAt_in 2 rfl _).trans (A_eq2 (fun c b => W c b) c 2)).trans (hne _ (by decide)).symm
  | ⟨3, _⟩ =>
    show (dat2 (fun c b => W c b) c).arrAt 3 cfg2.N = Function.update (W c) main_v38 ((dat2 (fun c b => W c b) c).arrAt 3 cfg2.N) main_v38
    rw [Function.update_self]
theorem hF2 (c : Dev nD) (w : Fin cfg2.W) : (dat2 (R5 m) c).arrAt w cfg2.N = R6 m c (Pipeline.arrRef spec2 w) :=
  hF2_gen (U5 m) c w
/-- ... and every other buffer what it held at entry. -/
theorem hrest2_gen (W : Dev nD → Valuation τ sig (Elt F)) (c : Dev nD) (x : Buf (Elt F) ((c : Thread nD τ).loc main_v38)) :
    ∀ b : Ref sig .tc, b ∉ Finset.univ.image (Pipeline.arrRef spec2) → Function.update (W c) main_v38 x b = W c b :=
  fun b hb => by
    have h : b ≠ main_v38 := fun e => hb (Finset.mem_image.mpr ⟨3, Finset.mem_univ _, e.symm⟩)
    simp only [Function.update_of_ne (StableHlo.devRef_ne_of_ne h : (Proc.devRef .tc b : DevRef τ sig) ≠ Proc.devRef .tc main_v38)]
theorem hrest2 (c : Dev nD) : ∀ b, b ∉ Finset.univ.image (Pipeline.arrRef spec2) → R6 m c b = R5 m c b :=
  hrest2_gen (U5 m) c (o6 m c)

set_option maxHeartbeats 2000000 in
/-- Region 3's arrays after its last point, over ANY entry contents `W`: the three inputs as entered, the output its
    write-backs; stated as the entry contents updated at the output array. -/
theorem hF3_gen (W : Dev nD → Valuation τ sig (Elt F)) (c : Dev nD) (w : Fin cfg3.W) :
    (dat3 (fun c b => W c b) c).arrAt w cfg3.N
      = Function.update (W c) main_v40 ((dat3 (fun c b => W c b) c).arrAt 3 cfg3.N) (Pipeline.arrRef spec3 w) := by
  have hne : ∀ r : Ref sig .tc, r ≠ main_v40 → Function.update (W c) main_v40 ((dat3 (fun c b => W c b) c).arrAt 3 cfg3.N) r = W c r := fun r h => by
    simp only [Function.update_of_ne (StableHlo.devRef_ne_of_ne h : (Proc.devRef .tc r : DevRef τ sig) ≠ Proc.devRef .tc main_v40)]
  match w with
  | ⟨0, _⟩ => exact (((dat3 (fun c b => W c b) c).arrAt_in 0 rfl _).trans (A_eq3 (fun c b => W c b) c 0)).trans (hne _ (by decide)).symm
  | ⟨1, _⟩ => exact (((dat3 (fun c b => W c b) c).arrAt_in 1 rfl _).trans (A_eq3 (fun c b => W c b) c 1)).trans (hne _ (by decide)).symm
  | ⟨2, _⟩ => exact (((dat3 (fun c b => W c b) c).arrAt_in 2 rfl _).trans (A_eq3 (fun c b => W c b) c 2)).trans (hne _ (by decide)).symm
  | ⟨3, _⟩ =>
    show (dat3 (fun c b => W c b) c).arrAt 3 cfg3.N = Function.update (W c) main_v40 ((dat3 (fun c b => W c b) c).arrAt 3 cfg3.N) main_v40
    rw [Function.update_self]
theorem hF3 (c : Dev nD) (w : Fin cfg3.W) : (dat3 (R7 m) c).arrAt w cfg3.N = R8 m c (Pipeline.arrRef spec3 w) :=
  hF3_gen (U7 m) c w
/-- ... and every other buffer what it held at entry. -/
theorem hrest3_gen (W : Dev nD → Valuation τ sig (Elt F)) (c : Dev nD) (x : Buf (Elt F) ((c : Thread nD τ).loc main_v40)) :
    ∀ b : Ref sig .tc, b ∉ Finset.univ.image (Pipeline.arrRef spec3) → Function.update (W c) main_v40 x b = W c b :=
  fun b hb => by
    have h : b ≠ main_v40 := fun e => hb (Finset.mem_image.mpr ⟨3, Finset.mem_univ _, e.symm⟩)
    simp only [Function.update_of_ne (StableHlo.devRef_ne_of_ne h : (Proc.devRef .tc b : DevRef τ sig) ≠ Proc.devRef .tc main_v40)]
theorem hrest3 (c : Dev nD) : ∀ b, b ∉ Finset.univ.image (Pipeline.arrRef spec3) → R8 m c b = R7 m c b :=
  hrest3_gen (U7 m) c (o8 m c)

set_option maxHeartbeats 2000000 in
/-- Region 4's arrays after its last point, over ANY entry contents `W`: the three inputs as entered, the output its
    write-backs; stated as the entry contents updated at the output array. -/
theorem hF4_gen (W : Dev nD → Valuation τ sig (Elt F)) (c : Dev nD) (w : Fin cfg4.W) :
    (dat4 (fun c b => W c b) c).arrAt w cfg4.N
      = Function.update (W c) main_v45 ((dat4 (fun c b => W c b) c).arrAt 3 cfg4.N) (Pipeline.arrRef spec4 w) := by
  have hne : ∀ r : Ref sig .tc, r ≠ main_v45 → Function.update (W c) main_v45 ((dat4 (fun c b => W c b) c).arrAt 3 cfg4.N) r = W c r := fun r h => by
    simp only [Function.update_of_ne (StableHlo.devRef_ne_of_ne h : (Proc.devRef .tc r : DevRef τ sig) ≠ Proc.devRef .tc main_v45)]
  match w with
  | ⟨0, _⟩ => exact (((dat4 (fun c b => W c b) c).arrAt_in 0 rfl _).trans (A_eq4 (fun c b => W c b) c 0)).trans (hne _ (by decide)).symm
  | ⟨1, _⟩ => exact (((dat4 (fun c b => W c b) c).arrAt_in 1 rfl _).trans (A_eq4 (fun c b => W c b) c 1)).trans (hne _ (by decide)).symm
  | ⟨2, _⟩ => exact (((dat4 (fun c b => W c b) c).arrAt_in 2 rfl _).trans (A_eq4 (fun c b => W c b) c 2)).trans (hne _ (by decide)).symm
  | ⟨3, _⟩ =>
    show (dat4 (fun c b => W c b) c).arrAt 3 cfg4.N = Function.update (W c) main_v45 ((dat4 (fun c b => W c b) c).arrAt 3 cfg4.N) main_v45
    rw [Function.update_self]
theorem hF4 (c : Dev nD) (w : Fin cfg4.W) : (dat4 (R9 m) c).arrAt w cfg4.N = R10 m c (Pipeline.arrRef spec4 w) :=
  hF4_gen (U9 m) c w
/-- ... and every other buffer what it held at entry. -/
theorem hrest4_gen (W : Dev nD → Valuation τ sig (Elt F)) (c : Dev nD) (x : Buf (Elt F) ((c : Thread nD τ).loc main_v45)) :
    ∀ b : Ref sig .tc, b ∉ Finset.univ.image (Pipeline.arrRef spec4) → Function.update (W c) main_v45 x b = W c b :=
  fun b hb => by
    have h : b ≠ main_v45 := fun e => hb (Finset.mem_image.mpr ⟨3, Finset.mem_univ _, e.symm⟩)
    simp only [Function.update_of_ne (StableHlo.devRef_ne_of_ne h : (Proc.devRef .tc b : DevRef τ sig) ≠ Proc.devRef .tc main_v45)]
theorem hrest4 (c : Dev nD) : ∀ b, b ∉ Finset.univ.image (Pipeline.arrRef spec4) → R10 m c b = R9 m c b :=
  hrest4_gen (U9 m) c (o10 m c)

set_option maxHeartbeats 2000000 in
/-- Region 5's arrays after its last point, over ANY entry contents `W`: the three inputs as entered, the output its
    write-backs; stated as the entry contents updated at the output array. -/
theorem hF5_gen (W : Dev nD → Valuation τ sig (Elt F)) (c : Dev nD) (w : Fin cfg5.W) :
    (dat5 (fun c b => W c b) c).arrAt w cfg5.N
      = Function.update (W c) main_v48 ((dat5 (fun c b => W c b) c).arrAt 3 cfg5.N) (Pipeline.arrRef spec5 w) := by
  have hne : ∀ r : Ref sig .tc, r ≠ main_v48 → Function.update (W c) main_v48 ((dat5 (fun c b => W c b) c).arrAt 3 cfg5.N) r = W c r := fun r h => by
    simp only [Function.update_of_ne (StableHlo.devRef_ne_of_ne h : (Proc.devRef .tc r : DevRef τ sig) ≠ Proc.devRef .tc main_v48)]
  match w with
  | ⟨0, _⟩ => exact (((dat5 (fun c b => W c b) c).arrAt_in 0 rfl _).trans (A_eq5 (fun c b => W c b) c 0)).trans (hne _ (by decide)).symm
  | ⟨1, _⟩ => exact (((dat5 (fun c b => W c b) c).arrAt_in 1 rfl _).trans (A_eq5 (fun c b => W c b) c 1)).trans (hne _ (by decide)).symm
  | ⟨2, _⟩ => exact (((dat5 (fun c b => W c b) c).arrAt_in 2 rfl _).trans (A_eq5 (fun c b => W c b) c 2)).trans (hne _ (by decide)).symm
  | ⟨3, _⟩ =>
    show (dat5 (fun c b => W c b) c).arrAt 3 cfg5.N = Function.update (W c) main_v48 ((dat5 (fun c b => W c b) c).arrAt 3 cfg5.N) main_v48
    rw [Function.update_self]
theorem hF5 (c : Dev nD) (w : Fin cfg5.W) : (dat5 (R11 m) c).arrAt w cfg5.N = R12 m c (Pipeline.arrRef spec5 w) :=
  hF5_gen (U11 m) c w
/-- ... and every other buffer what it held at entry. -/
theorem hrest5_gen (W : Dev nD → Valuation τ sig (Elt F)) (c : Dev nD) (x : Buf (Elt F) ((c : Thread nD τ).loc main_v48)) :
    ∀ b : Ref sig .tc, b ∉ Finset.univ.image (Pipeline.arrRef spec5) → Function.update (W c) main_v48 x b = W c b :=
  fun b hb => by
    have h : b ≠ main_v48 := fun e => hb (Finset.mem_image.mpr ⟨3, Finset.mem_univ _, e.symm⟩)
    simp only [Function.update_of_ne (StableHlo.devRef_ne_of_ne h : (Proc.devRef .tc b : DevRef τ sig) ≠ Proc.devRef .tc main_v48)]
theorem hrest5 (c : Dev nD) : ∀ b, b ∉ Finset.univ.image (Pipeline.arrRef spec5) → R12 m c b = R11 m c b :=
  hrest5_gen (U11 m) c (o12 m c)
/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
  | ⟨5, _⟩ => fun c => dat5 (R11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 7 → Dev nD → sProp 𝕄 := fun _ c => Rst (F := F) c

/-! ## The regions as segments -/

/-- The two parts of an invariant handed back in the other order, with nothing in between. -/
theorem sep_swap_emp (P Q : sProp 𝕄) : iprop(P ∗ Q) ⊢ iprop(Q ∗ BI.emp ∗ P) := by
  iintro ⟨Hp, Hq⟩
  isplitl [Hq]; · iexact Hq
  isplitr; · iempintro
  iexact Hp

set_option backward.isDefEq.respectTransparency.types false in
/-- REGION 0: entered from every unscoped buffer at the contents before it, left at the contents after it. Its arrays
    are split out of the unscoped buffers at entry and put back at exit; the generator register goes into the
    invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at the contents before it, left at the contents after it. Its arrays
    are split out of the unscoped buffers at entry and put back at exit; the generator register goes into the
    invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from
      (show (pdats m 1 c).Φ 0 = PhiS1 (R3 m) c 0 (Nat.zero_le _) from rfl).trans (PhiS1_zero (R3 m) c 0 _ rfl)]
    unfold Pipeline.ΦA
    iintro ⟨Hp, -, Hr⟩
    isplitl [Hr]; · iexact Hr
    iexact Hp
  hout c := by
    rw [Pipeline.ownSems0_none, show (pdats m 1 c).Φ (Fin.last _) = (dat1 (R3 m) c).Φ (Fin.last cfg1.N) from rfl]
    have h := hout1 (R3 m) c
    unfold Pipeline.ΦA at h
    exact h.trans (sep_swap_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from every unscoped buffer at the contents before it, left at the contents after it. Its arrays
    are split out of the unscoped buffers at entry and put back at exit; the generator register goes into the
    invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: entered from every unscoped buffer at the contents before it, left at the contents after it. Its arrays
    are split out of the unscoped buffers at entry and put back at exit; the generator register goes into the
    invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R7 m) c).loose
  hwaits := Pipeline.hwaits_of_owed_zero _ _ _ _ L lv 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m c) (R8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4: entered from every unscoped buffer at the contents before it, left at the contents after it. Its arrays
    are split out of the unscoped buffers at entry and put back at exit; the generator register goes into the
    invariant and comes back; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R9 m) c).loose
  hwaits := Pipeline.hwaits_of_owed_zero _ _ _ _ L lv 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9 m c) (R10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5: entered from every unscoped buffer at the contents before it, left at the contents after it. Its arrays
    are split out of the unscoped buffers at entry and put back at exit; the generator register goes into the
    invariant and comes back; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R11 m) c).loose
  hwaits := Pipeline.hwaits_of_owed_zero _ _ _ _ L lv 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (R11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (R11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (R11 m c) (R12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A stretch of host operations as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- @main's thirteen items in order. -/
abbrev segs : List (Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main on the TensorCores terminates,
    nothing faulting, and every final state has every unscoped buffer at the last contents `U13`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = U13 m c b) := by
  refine Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (U13 m c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨Hh, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

/-! ## The arguments end as launched -/

theorem U13_main_arg0 (c : Dev nD) : U13 m c main_arg0 = m ((c : Thread nD τ).loc main_arg0) :=
  (congrFun (VU13 m c) (Proc.devRef .tc main_arg0)).symm.trans (V13_main_arg0 m (outsU m) c)
theorem U13_main_arg1 (c : Dev nD) : U13 m c main_arg1 = m ((c : Thread nD τ).loc main_arg1) :=
  (congrFun (VU13 m c) (Proc.devRef .tc main_arg1)).symm.trans (V13_main_arg1 m (outsU m) c)
theorem U13_main_arg2 (c : Dev nD) : U13 m c main_arg2 = m ((c : Thread nD τ).loc main_arg2) :=
  (congrFun (VU13 m c) (Proc.devRef .tc main_arg2)).symm.trans (V13_main_arg2 m (outsU m) c)
theorem U13_main_arg3 (c : Dev nD) : U13 m c main_arg3 = m ((c : Thread nD τ).loc main_arg3) :=
  (congrFun (VU13 m c) (Proc.devRef .tc main_arg3)).symm.trans (V13_main_arg3 m (outsU m) c)
theorem U13_main_arg4 (c : Dev nD) : U13 m c main_arg4 = m ((c : Thread nD τ).loc main_arg4) :=
  (congrFun (VU13 m c) (Proc.devRef .tc main_arg4)).symm.trans (V13_main_arg4 m (outsU m) c)
theorem U13_main_arg5 (c : Dev nD) : U13 m c main_arg5 = m ((c : Thread nD τ).loc main_arg5) :=
  (congrFun (VU13 m c) (Proc.devRef .tc main_arg5)).symm.trans (V13_main_arg5 m (outsU m) c)
theorem U13_main_arg6 (c : Dev nD) : U13 m c main_arg6 = m ((c : Thread nD τ).loc main_arg6) :=
  (congrFun (VU13 m c) (Proc.devRef .tc main_arg6)).symm.trans (V13_main_arg6 m (outsU m) c)
theorem U13_main_arg7 (c : Dev nD) : U13 m c main_arg7 = m ((c : Thread nD τ).loc main_arg7) :=
  (congrFun (VU13 m c) (Proc.devRef .tc main_arg7)).symm.trans (V13_main_arg7 m (outsU m) c)
theorem U13_main_arg8 (c : Dev nD) : U13 m c main_arg8 = m ((c : Thread nD τ).loc main_arg8) :=
  (congrFun (VU13 m c) (Proc.devRef .tc main_arg8)).symm.trans (V13_main_arg8 m (outsU m) c)
theorem U13_main_arg9 (c : Dev nD) : U13 m c main_arg9 = m ((c : Thread nD τ).loc main_arg9) :=
  (congrFun (VU13 m c) (Proc.devRef .tc main_arg9)).symm.trans (V13_main_arg9 m (outsU m) c)
theorem U13_main_arg10 (c : Dev nD) : U13 m c main_arg10 = m ((c : Thread nD τ).loc main_arg10) :=
  (congrFun (VU13 m c) (Proc.devRef .tc main_arg10)).symm.trans (V13_main_arg10 m (outsU m) c)
theorem U13_main_arg11 (c : Dev nD) : U13 m c main_arg11 = m ((c : Thread nD τ).loc main_arg11) :=
  (congrFun (VU13 m c) (Proc.devRef .tc main_arg11)).symm.trans (V13_main_arg11 m (outsU m) c)
theorem U13_main_arg12 (c : Dev nD) : U13 m c main_arg12 = m ((c : Thread nD τ).loc main_arg12) :=
  (congrFun (VU13 m c) (Proc.devRef .tc main_arg12)).symm.trans (V13_main_arg12 m (outsU m) c)
theorem U13_main_arg13 (c : Dev nD) : U13 m c main_arg13 = m ((c : Thread nD τ).loc main_arg13) :=
  (congrFun (VU13 m c) (Proc.devRef .tc main_arg13)).symm.trans (V13_main_arg13 m (outsU m) c)
theorem U13_main_arg14 (c : Dev nD) : U13 m c main_arg14 = m ((c : Thread nD τ).loc main_arg14) :=
  (congrFun (VU13 m c) (Proc.devRef .tc main_arg14)).symm.trans (V13_main_arg14 m (outsU m) c)
theorem U13_main_arg15 (c : Dev nD) : U13 m c main_arg15 = m ((c : Thread nD τ).loc main_arg15) :=
  (congrFun (VU13 m c) (Proc.devRef .tc main_arg15)).symm.trans (V13_main_arg15 m (outsU m) c)

/-- THE FRAME of the program, at any instance: it runs to the end, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (U13_main_arg0 m c),
    (h c _ (mem_uc main_arg1 (by decide))).trans (U13_main_arg1 m c),
    (h c _ (mem_uc main_arg2 (by decide))).trans (U13_main_arg2 m c),
    (h c _ (mem_uc main_arg3 (by decide))).trans (U13_main_arg3 m c),
    (h c _ (mem_uc main_arg4 (by decide))).trans (U13_main_arg4 m c),
    (h c _ (mem_uc main_arg5 (by decide))).trans (U13_main_arg5 m c),
    (h c _ (mem_uc main_arg6 (by decide))).trans (U13_main_arg6 m c),
    (h c _ (mem_uc main_arg7 (by decide))).trans (U13_main_arg7 m c),
    (h c _ (mem_uc main_arg8 (by decide))).trans (U13_main_arg8 m c),
    (h c _ (mem_uc main_arg9 (by decide))).trans (U13_main_arg9 m c),
    (h c _ (mem_uc main_arg10 (by decide))).trans (U13_main_arg10 m c),
    (h c _ (mem_uc main_arg11 (by decide))).trans (U13_main_arg11 m c),
    (h c _ (mem_uc main_arg12 (by decide))).trans (U13_main_arg12 m c),
    (h c _ (mem_uc main_arg13 (by decide))).trans (U13_main_arg13 m c),
    (h c _ (mem_uc main_arg14 (by decide))).trans (U13_main_arg14 m c),
    (h c _ (mem_uc main_arg15 (by decide))).trans (U13_main_arg15 m c)⟩) (run_all m ρ)

end Cert.Kernel.Dense

end
-- ==== Proof.KI.Body0.lean ====
/-
  Region 0 of the idealized program: the dense layer  h = max(nodes · W_gcn1 + b_gcn1, 0)  over f32[64000, 64] × f32[64, 64], eight row blocks of 8000;
  eight grid points, one per block of 8000 rows, one step along the reduction axis. The body zeroes its accumulator, adds the product of its two
  input blocks into it, and stores the accumulator plus the bias row (broadcast over the rows) and the maximum with zero into the
  output block. Here: the two conditions of the body (first reduction step, last reduction step) hold at every
  point, and the body's run on whole staging buffers, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond0_0 (i : grid0.Coords) : Prop :=
  (Scalar.cmpi .ne (Scalar.extui (Scalar.cmpi .eq (BitVec.ofNat 32 (i 2).val) 0#32)) 0#32) = 1#1
/-- The reduction axis has one step, so every point is the first. -/
theorem hcond0_0 : ∀ t : Fin cfg0.N, cond0_0 (grid0.coords t) :=
  (by decide +kernel : ∀ t : Fin grid0.N, cond0_0 (grid0.coords t))

/-- "This is the last step along the reduction axis": the body's second branch condition. -/
abbrev cond0_1 (i : grid0.Coords) : Prop := k0_cond2 i = 1#1
/-- ... and every point is the last. -/
theorem hcond0_1 : ∀ t : Fin cfg0.N, cond0_1 (grid0.coords t) :=
  (by decide +kernel : ∀ t : Fin grid0.N, cond0_1 (grid0.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun0 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) :
    Σ' (L3 : List (View.Piece (Elt F) S8000x64 .f32)), { LS0 : List (View.Piece (Elt F) S8000x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__dense_kernel i arg3 harg3 arg4 harg4 arg5 harg5 arg6 harg6 arg7 harg7) K } := by
  refine ⟨?_, ?_, fun E K => ?run⟩
  case run =>
    simp only [cc0__dense_kernel_eq_skeleton]; unfold cc0__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half0.lean ====
/-
  Region 0 (h = max(nodes · W_gcn1 + b_gcn1, 0)  over f32[64000, 64] × f32[64, 64], eight row blocks of 8000): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KI.Body0

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Each window's current staging buffer at point `t`, as the pipeline passes it to the body, and the accumulator. -/
abbrev ms0_0 (t : Fin cfg0.N) : Memref sig .tc .vmem S8000x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8000x64 .f32 := win0_3.stage (cfg0.slots t 3)
abbrev hs0_3 (t : Fin cfg0.N) : (ms0_3 t).IsWhole := hstage0_3 ((cfg0.slots t 3).cast nbuf0_3)
abbrev scM0 : Memref sig .tc .vmem S8000x64 .f32 := Memref.whole cc0_scratch0
/-- A view of the output block's shape, through which contents are stated (which one does not matter). -/
abbrev VO0 : View sig .tc .vmem S8000x64 .f32 := scM0.view

/-- No window is idle at any point: the inputs are read and the output is stored at each. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- The invariant with the accumulator taken out of the scoped rest, as a whole buffer owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The stores into the output block tile it, so they cover it. -/
theorem cover0_3 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) (y : S8000x64.Idx) :
    ∃ pc ∈ (kernelRun0 c i arg3 harg3 arg4 harg4 arg5 harg5 arg6 harg6 arg7 harg7 hc0 hc1 x0 x1 x2).1, y ∈ pc.1.set :=
  View.cover_of_tiledL (kernelRun0 c i arg3 harg3 arg4 harg4 arg5 harg5 arg6 harg6 arg7 harg7 hc0 hc1 x0 x1 x2).1 S8000x64.size (by sl_kernel_rfl) y

/-- What the body leaves in the output's staging buffer: its stores read back. -/
def out0_3 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) : Vec F S8000x64 .f32 :=
  VO0.read (Elt F) (VO0.writes (Elt F) VO0.junk (kernelRun0 c i arg3 harg3 arg4 harg4 arg5 harg5 arg6 harg6 arg7 harg7 hc0 hc1 x0 x1 x2).1)

/-- The output block after point `t`, from the three input blocks there. -/
def outAt0 (c : Dev nD) (t : Fin cfg0.N) : Vec F S8000x64 .f32 :=
  out0_3 c (grid0.coords t) (ms0_0 t) (hs0_0 t) (ms0_1 t) (hs0_1 t) (ms0_2 t) (hs0_2 t) (ms0_3 t) (hs0_3 t) scM0 (Memref.isWhole_whole _)
    (hcond0_0 t) (hcond0_1 t) (iblk0 V c 0 t) (iblk0 V c 1 t) (iblk0 V c 2 t)

/-- The proof data of pipeline 0 on core `c`: the arrays as the region finds them; after the body each input's
    buffer at its block and the output's at `outAt0`; the plain invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the inputs' buffers hold their blocks, both conditions hold, so the run applies; the
    invariant hands the body the accumulator at anything and takes it back at anything; nothing is owed. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Pipeline.ΦA spec0 c from rfl, show (dat0 V c).Φ t.castSucc = Pipeline.ΦA spec0 c from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  unfold outAt0 out0_3
  rw [PhiA0_eq]
  iintro ⟨⟨⟨HS, HR⟩, Hg⟩, Ho, ⟨%d0, H0⟩, ⟨%d1, H1⟩, ⟨%d2, H2⟩, ⟨%d3, H3⟩⟩
  iapply ((kernelRun0 c (grid0.coords t) _ _ _ _ _ _ _ _ _ _ (hcond0_0 t) (hcond0_1 t) (iblk0 V c 0 t) (iblk0 V c 1 t) (iblk0 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Dense

end
-- ==== Proof.KI.Body1.lean ====
/-
  Region 1 of the idealized program: the dense layer  max(x · W_fc + b_fc, 0)  over f32[64, 64000] × f32[64000, 512],
  the contracted axis cut into 20 blocks of 3200, one grid point per block. At the first step the body zeroes its
  64 × 512 accumulator and adds the first block's product into it; at each later step it adds that block's product
  onto what the step before left; at the last step it then stores the accumulator plus the bias row, and the
  maximum with zero, into the output block. Here: the two conditions in closed form over the grid, and the body's
  run in each of the three cases, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the contracted axis": the body's first branch condition, from the grid coordinates. -/
abbrev cond1_0 (i : grid1.Coords) : Prop :=
  (Scalar.cmpi .ne (Scalar.extui (Scalar.cmpi .eq (BitVec.ofNat 32 (i 2).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- "This is the last step along the contracted axis": the body's second branch condition. -/
abbrev cond1_1 (i : grid1.Coords) : Prop := k1_cond2 i = 1#1
/-- It holds at the last point only. -/
theorem hcond1_1 : ∀ t : Fin cfg1.N, cond1_1 (grid1.coords t) ↔ t.val = 19 :=
  (by decide +kernel : ∀ t : Fin grid1.N, cond1_1 (grid1.coords t) ↔ t.val = 19)

set_option maxHeartbeats 1000000 in
/-- THE FIRST STEP. On whole staging buffers — the two matrix blocks at their contents, the bias row and the output
    untouched, the accumulator at anything — the body runs to the continuation with the accumulator holding its
    stores (the zero fill, then the first product added), as pieces the symbolic run finds. -/
noncomputable def kernelRun1_A (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) :
    { LS0 : List (View.Piece (Elt F) S64x512 .f32) //
      ∀ (x2 : Vec F S1x512 .f32) (xi3 : Vec F S64x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, fun x2 xi3 E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- A MIDDLE STEP. The accumulator at the contents `xs` the step before left: the body adds this block's product
    onto it. -/
noncomputable def kernelRun1_B (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) :
    { LS0 : List (View.Piece (Elt F) S64x512 .f32) //
      ∀ (x2 : Vec F S1x512 .f32) (xi3 : Vec F S64x512 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, fun x2 xi3 E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg3.eq_unread hf0; obtain rfl := harg4.eq_unread hf1; obtain rfl := harg5.eq_unread hf2; obtain rfl := harg6.eq_unread hf3
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS

set_option maxHeartbeats 1000000 in
/-- THE LAST STEP. The accumulator at what the step before left, the bias row at its contents, the output at
    anything: the body adds the last product, then stores the result plus the bias, cut at zero, into the output. -/
noncomputable def kernelRun1_C (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) :
    Σ' (L3 : List (View.Piece (Elt F) S64x512 .f32)), { LS0 : List (View.Piece (Elt F) S64x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__dense_kernel i arg3 harg3 arg4 harg4 arg5 harg5 arg6 harg6 arg7 harg7) K } := by
  refine ⟨?_, ?_, fun E K => ?run⟩
  case run =>
    simp only [cc1__dense_kernel_eq_skeleton]; unfold cc1__dense_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg3.eq_unread hf0; obtain rfl := harg4.eq_unread hf1; obtain rfl := harg5.eq_unread hf2
    obtain rfl := harg7.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half1.lean ====
/-
  Region 1 (max(x · W_fc + b_fc, 0), the contracted axis in 20 blocks of 3200): the pipeline's proof data and the
  body obligation. The accumulator IS carried from step to step: after step n it holds `accAt1 n`, defined by
  recursion — the first step's stores over anything, each later step's over what the step before left. The
  invariant before step 0 is the plain one (the accumulator at anything); before step n + 1 it holds the
  accumulator at `accAt1 n`. The output block is stored at the last step only: at the other steps the window
  is idle and its buffer goes back as it came.
-/
import proofs.«179658_j2465311228054_1_alg».proof.Proof.KI.Body1

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging buffer at point `t`, as the pipeline passes it to the body, and the accumulator. -/
abbrev ms1_0 (t : Fin cfg1.N) : Memref sig .tc .vmem S64x3200 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x512 .f32 := win1_3.stage (cfg1.slots t 3)
abbrev hs1_3 (t : Fin cfg1.N) : (ms1_3 t).IsWhole := hstage1_3 ((cfg1.slots t 3).cast nbuf1_3)
abbrev scM1 : Memref sig .tc .vmem S64x512 .f32 := Memref.whole cc1_scratch0
/-- A view of the accumulator's (and the output block's) shape, through which contents are stated. -/
abbrev VO1 : View sig .tc .vmem S64x512 .f32 := scM1.view

/-- The inputs are never idle; the output is idle and not written back at every step but the last, live at the last. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, t.val ≠ 19 → cfg1.idle 3 (grid1.coords t) = true := by decide +kernel
theorem noFlush1_3 : ∀ t : Fin cfg1.N, t.val ≠ 19 → (cfg1.win 3).flush t = false := by decide +kernel
theorem liveAt1_3 : ∀ t : Fin cfg1.N, t.val = 19 → cfg1.idle 3 (grid1.coords t) = false := by decide +kernel

/-- The invariant with the accumulator taken out of the scoped rest, as a whole buffer owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## What each case leaves in the accumulator and in the output block -/

theorem scover1_A (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) (y : S64x512.Idx) :
    ∃ pc ∈ (kernelRun1_A c i arg3 harg3 arg4 harg4 arg5 harg5 arg6 harg6 arg7 harg7 hc0 hc1 x0 x1).1, y ∈ pc.1.set :=
  View.cover_of_tiledL (kernelRun1_A c i arg3 harg3 arg4 harg4 arg5 harg5 arg6 harg6 arg7 harg7 hc0 hc1 x0 x1).1 S64x512.size (by sl_kernel_rfl) y
/-- The accumulator after the first step. -/
def sout1_A (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) : Vec F S64x512 .f32 :=
  VO1.read (Elt F) (VO1.writes (Elt F) VO1.junk (kernelRun1_A c i arg3 harg3 arg4 harg4 arg5 harg5 arg6 harg6 arg7 harg7 hc0 hc1 x0 x1).1)

theorem scover1_B (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) (y : S64x512.Idx) :
    ∃ pc ∈ (kernelRun1_B c i arg3 harg3 arg4 harg4 arg5 harg5 arg6 harg6 arg7 harg7 hc0 hc1 x0 x1 xs).1, y ∈ pc.1.set :=
  View.cover_of_tiledL (kernelRun1_B c i arg3 harg3 arg4 harg4 arg5 harg5 arg6 harg6 arg7 harg7 hc0 hc1 x0 x1 xs).1 S64x512.size (by sl_kernel_rfl) y
/-- The accumulator after a middle step, over what the step before left. -/
def sout1_B (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) : Vec F S64x512 .f32 :=
  VO1.read (Elt F) (VO1.writes (Elt F) VO1.junk (kernelRun1_B c i arg3 harg3 arg4 harg4 arg5 harg5 arg6 harg6 arg7 harg7 hc0 hc1 x0 x1 xs).1)

theorem scover1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) (y : S64x512.Idx) :
    ∃ pc ∈ (kernelRun1_C c i arg3 harg3 arg4 harg4 arg5 harg5 arg6 harg6 arg7 harg7 hc0 hc1 x0 x1 x2 xs).2.1, y ∈ pc.1.set :=
  View.cover_of_tiledL (kernelRun1_C c i arg3 harg3 arg4 harg4 arg5 harg5 arg6 harg6 arg7 harg7 hc0 hc1 x0 x1 x2 xs).2.1 S64x512.size (by sl_kernel_rfl) y
/-- The accumulator after the last step. -/
def sout1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) : Vec F S64x512 .f32 :=
  VO1.read (Elt F) (VO1.writes (Elt F) VO1.junk (kernelRun1_C c i arg3 harg3 arg4 harg4 arg5 harg5 arg6 harg6 arg7 harg7 hc0 hc1 x0 x1 x2 xs).2.1)
theorem cover1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) (y : S64x512.Idx) :
    ∃ pc ∈ (kernelRun1_C c i arg3 harg3 arg4 harg4 arg5 harg5 arg6 harg6 arg7 harg7 hc0 hc1 x0 x1 x2 xs).1, y ∈ pc.1.set :=
  View.cover_of_tiledL (kernelRun1_C c i arg3 harg3 arg4 harg4 arg5 harg5 arg6 harg6 arg7 harg7 hc0 hc1 x0 x1 x2 xs).1 S64x512.size (by sl_kernel_rfl) y
/-- The output block after the last step. -/
def out1_C (c : Dev nD) (i : grid1.Coords) (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) : Vec F S64x512 .f32 :=
  VO1.read (Elt F) (VO1.writes (Elt F) VO1.junk (kernelRun1_C c i arg3 harg3 arg4 harg4 arg5 harg5 arg6 harg6 arg7 harg7 hc0 hc1 x0 x1 x2 xs).1)

/-! ## The accumulation -/

theorem N1_eq : cfg1.N = 20 := N_1

/-- THE ACCUMULATION: what the accumulator holds after step `n`. -/
def accAt1 (c : Dev nD) : (n : ℕ) → n < cfg1.N → Vec F S64x512 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _)
      ((hcond1_0 ⟨0, hn⟩).mpr rfl) (fun h => absurd ((hcond1_1 ⟨0, hn⟩).mp h) (by decide : ¬ (0 : ℕ) = 19)) (iblk1 V c 0 ⟨0, hn⟩) (iblk1 V c 1 ⟨0, hn⟩)
  | n + 1, hn =>
    if h19 : n + 1 = 19 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => absurd ((hcond1_0 ⟨n + 1, hn⟩).mp h) (Nat.succ_ne_zero n)) ((hcond1_1 ⟨n + 1, hn⟩).mpr h19)
        (iblk1 V c 0 ⟨n + 1, hn⟩) (iblk1 V c 1 ⟨n + 1, hn⟩) (iblk1 V c 2 ⟨n + 1, hn⟩) (accAt1 c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _)
        (fun h => absurd ((hcond1_0 ⟨n + 1, hn⟩).mp h) (Nat.succ_ne_zero n)) (fun h => h19 ((hcond1_1 ⟨n + 1, hn⟩).mp h))
        (iblk1 V c 0 ⟨n + 1, hn⟩) (iblk1 V c 1 ⟨n + 1, hn⟩) (accAt1 c n (Nat.lt_of_succ_lt hn))

/-- At the first step: the first case's contents. -/
theorem accAt1_A (c : Dev nD) (t : Fin cfg1.N) (h0 : t.val = 0) (h1 : ¬t.val = 19) :
    accAt1 V c t.val t.isLt = sout1_A c (grid1.coords t) (ms1_0 t) (hs1_0 t) (ms1_1 t) (hs1_1 t) (ms1_2 t) (hs1_2 t) (ms1_3 t) (hs1_3 t) scM1 (Memref.isWhole_whole _)
      ((hcond1_0 t).mpr h0) (fun h => h1 ((hcond1_1 t).mp h)) (iblk1 V c 0 t) (iblk1 V c 1 t) := by
  obtain ⟨n, hn⟩ := t
  cases n with
  | zero => exact rfl
  | succ n => exact absurd h0 (Nat.succ_ne_zero n)

/-- At a middle step: the middle case's contents over what the step before left. -/
theorem accAt1_B (c : Dev nD) (t : Fin cfg1.N) (h0 : ¬t.val = 0) (h1 : ¬t.val = 19) :
    accAt1 V c t.val t.isLt = sout1_B c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) (fun h => h1 ((hcond1_1 t).mp h)) (iblk1 V c 0 t) (iblk1 V c 1 t)
      (accAt1 V c (t.val - 1) (Nat.lt_of_le_of_lt (Nat.sub_le _ _) t.isLt)) := by
  obtain ⟨n, hn⟩ := t
  cases n with
  | zero => exact absurd rfl h0
  | succ n => exact (dif_neg h1).trans rfl

/-- At the last step: the last case's contents over what the step before left. -/
theorem accAt1_C (c : Dev nD) (t : Fin cfg1.N) (h0 : ¬t.val = 0) (h1 : t.val = 19) :
    accAt1 V c t.val t.isLt = sout1_C c (grid1.coords t) (ms1_0 t) (hs1_0 t) (ms1_1 t) (hs1_1 t) (ms1_2 t) (hs1_2 t) (ms1_3 t) (hs1_3 t) scM1 (Memref.isWhole_whole _)
      (fun h => h0 ((hcond1_0 t).mp h)) ((hcond1_1 t).mpr h1) (iblk1 V c 0 t) (iblk1 V c 1 t) (iblk1 V c 2 t)
      (accAt1 V c (t.val - 1) (Nat.lt_of_le_of_lt (Nat.sub_le _ _) t.isLt)) := by
  obtain ⟨n, hn⟩ := t
  cases n with
  | zero => exact absurd rfl h0
  | succ n => exact (dif_pos h1).trans rfl

/-- The output block after point `t`: at the last step what that step stores, over the accumulator the step
    before left; at the other steps nothing is stored and the value here is a placeholder nothing consults. -/
def outAt1 (c : Dev nD) (t : Fin cfg1.N) : Vec F S64x512 .f32 :=
  if h19 : t.val = 19 then
    out1_C c (grid1.coords t) (ms1_0 t) (hs1_0 t) (ms1_1 t) (hs1_1 t) (ms1_2 t) (hs1_2 t) (ms1_3 t) (hs1_3 t) scM1 (Memref.isWhole_whole _)
      (fun h => absurd ((hcond1_0 t).mp h) (by omega)) ((hcond1_1 t).mpr h19) (iblk1 V c 0 t) (iblk1 V c 1 t) (iblk1 V c 2 t)
      (accAt1 V c (t.val - 1) (Nat.lt_of_le_of_lt (Nat.sub_le _ _) t.isLt))
  else VO1.read (Elt F) VO1.junk

/-- The region invariant before step `n`: before the first the plain one; afterwards the accumulator at what the
    step before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn)
      ∗ Pipeline.scopedRestBut (Ix := Unit) (Name := ℕ) (U := UR sig nD τ) (Lvl := ℕ) (Val := Elt F) spec1 c [cc1_scratch0]) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point, by the three cases of the step. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 20 := lt_of_lt_of_eq t.isLt N1_eq
  by_cases h0 : t.val = 0
  · have h1 : ¬t.val = 19 := by omega
    rw [Dat.leavesExact_idle (dat1 V c) 3 t (idleAt1_3 t h1) (noFlush1_3 t h1)]
    rw [accAt1_A V c t h0 h1]
    unfold sout1_A
    rw [PhiS1_castSucc V c t, PhiS1_zero V c _ _ h0, PhiA1_eq]
    iintro ⟨⟨⟨HS, HR⟩, Hg⟩, Ho, ⟨%d0, H0⟩, ⟨%d1, H1⟩, ⟨%d2, H2⟩, ⟨%d3, H3⟩⟩
    iapply ((kernelRun1_A c (grid1.coords t) _ _ _ _ _ _ _ _ _ _ ((hcond1_0 t).mpr h0) (fun h => h1 ((hcond1_1 t).mp h)) (iblk1 V c 0 t) (iblk1 V c 1 t)).2 _ _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS HR Hg]
    · isplitl [HS HR]
      · isplitl [HS]
        · unfold owns; iexists _; isplitr
          swap; · iexact HS
          ipureintro; exact View.read_writes_of_cover _ _ _ _ _ (scover1_A c _ _ _ _ _ _ _ _ _ _ _ _ _ _ _)
        iexact HR
      iexact Hg
    isplitl [Ho]; · iexact Ho
    isplitl [H0]; · iexact H0
    isplitl [H1]; · iexact H1
    isplitl [H2]; · iexact H2
    iexists _; iexact H3
  · by_cases h1 : t.val = 19
    · rw [show (dat1 V c).leavesExact 3 t = owns (c : Thread nD τ) (ms1_3 t) fullShare ((dat1 V c).after 3 t) from by
        unfold Dat.leavesExact; rw [liveAt1_3 t h1], after1_3]
      rw [accAt1_C V c t h0 h1]
      unfold sout1_C outAt1
      rw [dif_pos h1]
      unfold out1_C
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover1_C c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · rw [Dat.leavesExact_idle (dat1 V c) 3 t (idleAt1_3 t h1) (noFlush1_3 t h1)]
      rw [accAt1_B V c t h0 h1]
      unfold sout1_B
      rw [PhiS1_castSucc V c t, PhiS1_pos V c _ _ h0]
      iintro ⟨⟨⟨HS, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) _).2 _ _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS HR Hg]
      · isplitl [HS HR]
        · isplitl [HS]
          · unfold owns; iexists _; isplitr
            swap; · iexact HS
            ipureintro; exact View.read_writes_of_cover _ _ _ _ _ (scover1_B c _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first step, -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- and after the last step the invariant gives the plain one back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have := N1_eq; omega), PhiA1_eq]
  iintro ⟨⟨HS, HR⟩, Hg⟩
  isplitl [HS HR]
  · isplitl [HS]; · iexists _; iexact HS
    iexact HR
  iexact Hg

end

end Cert.KernelIdeal.Dense

end
-- ==== Proof.KI.Body2.lean ====
/-
  Region 2 of the idealized program: the dense layer  mean = x · W_mean + b_mean  over f32[64, 512] × f32[512, 64],
  one grid point. The body zeroes its 64 × 64 accumulator, adds the product of its two input blocks into it, and
  stores the accumulator plus the bias row (broadcast over the 64 rows) into the output block. Here: the two
  conditions of the body (first reduction step, last reduction step) hold at the one point, and the body's run
  on whole staging buffers, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond2_0 (i : grid2.Coords) : Prop :=
  (Scalar.cmpi .ne (Scalar.extui (Scalar.cmpi .eq (BitVec.ofNat 32 (i 2).val) 0#32)) 0#32) = 1#1
/-- The reduction axis has one step, so every point is the first. -/
theorem hcond2_0 : ∀ t : Fin cfg2.N, cond2_0 (grid2.coords t) :=
  (by decide +kernel : ∀ t : Fin grid2.N, cond2_0 (grid2.coords t))

/-- "This is the last step along the reduction axis": the body's second branch condition. -/
abbrev cond2_1 (i : grid2.Coords) : Prop := k2_cond2 i = 1#1
/-- ... and every point is the last. -/
theorem hcond2_1 : ∀ t : Fin cfg2.N, cond2_1 (grid2.coords t) :=
  (by decide +kernel : ∀ t : Fin grid2.N, cond2_1 (grid2.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun2 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) :
    Σ' (L3 : List (View.Piece (Elt F) S64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__dense_kernel i arg3 harg3 arg4 harg4 arg5 harg5 arg6 harg6 arg7 harg7) K } := by
  refine ⟨?_, ?_, fun E K => ?run⟩
  case run =>
    simp only [cc2__dense_kernel_eq_skeleton]; unfold cc2__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half2.lean ====
/-
  Region 2 (mean = x · W_mean + b_mean, one grid point): the pipeline's proof data and the body obligation.
  After the body each input's staging buffer still holds its block of the array, and the output's holds what the
  body's stores leave there; the accumulator is zeroed at the start of the point, so nothing is carried from a
  point to the next and the invariant is the plain one: every scoped buffer that is no staging buffer of this
  region at some contents, and the generator register at some state.
-/
import proofs.«179658_j2465311228054_1_alg».proof.Proof.KI.Body2

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Each window's current staging buffer at point `t`, as the pipeline passes it to the body, and the accumulator. -/
abbrev ms2_0 (t : Fin cfg2.N) : Memref sig .tc .vmem S64x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S64x64 .f32 := win2_3.stage (cfg2.slots t 3)
abbrev hs2_3 (t : Fin cfg2.N) : (ms2_3 t).IsWhole := hstage2_3 ((cfg2.slots t 3).cast nbuf2_3)
abbrev scM2 : Memref sig .tc .vmem S64x64 .f32 := Memref.whole cc2_scratch0
/-- A view of the output block's shape, through which contents are stated (which one does not matter). -/
abbrev VO2 : View sig .tc .vmem S64x64 .f32 := scM2.view

/-- No window is idle at any point: the inputs are read and the output is stored at each. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- The invariant with the accumulator taken out of the scoped rest, as a whole buffer owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The stores into the output block tile it, so they cover it. -/
theorem cover2_3 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) (y : S64x64.Idx) :
    ∃ pc ∈ (kernelRun2 c i arg3 harg3 arg4 harg4 arg5 harg5 arg6 harg6 arg7 harg7 hc0 hc1 x0 x1 x2).1, y ∈ pc.1.set :=
  View.cover_of_tiledL (kernelRun2 c i arg3 harg3 arg4 harg4 arg5 harg5 arg6 harg6 arg7 harg7 hc0 hc1 x0 x1 x2).1 S64x64.size (by sl_kernel_rfl) y

/-- What the body leaves in the output's staging buffer: its stores read back. -/
def out2_3 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) : Vec F S64x64 .f32 :=
  VO2.read (Elt F) (VO2.writes (Elt F) VO2.junk (kernelRun2 c i arg3 harg3 arg4 harg4 arg5 harg5 arg6 harg6 arg7 harg7 hc0 hc1 x0 x1 x2).1)

/-- The output block after point `t`, from the three input blocks there. -/
def outAt2 (c : Dev nD) (t : Fin cfg2.N) : Vec F S64x64 .f32 :=
  out2_3 c (grid2.coords t) (ms2_0 t) (hs2_0 t) (ms2_1 t) (hs2_1 t) (ms2_2 t) (hs2_2 t) (ms2_3 t) (hs2_3 t) scM2 (Memref.isWhole_whole _)
    (hcond2_0 t) (hcond2_1 t) (iblk2 V c 0 t) (iblk2 V c 1 t) (iblk2 V c 2 t)

/-- The proof data of pipeline 2 on core `c`: the arrays as the region finds them; after the body each input's
    buffer at its block and the output's at `outAt2`; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t)

set_option maxHeartbeats 4800000 in
/-- The body at any point: the inputs' buffers hold their blocks, both conditions hold, so the run applies; the
    invariant hands the body the accumulator at anything and takes it back at anything; nothing is owed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Pipeline.ΦA spec2 c from rfl, show (dat2 V c).Φ t.castSucc = Pipeline.ΦA spec2 c from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  unfold outAt2 out2_3
  rw [PhiA2_eq]
  iintro ⟨⟨⟨HS, HR⟩, Hg⟩, Ho, ⟨%d0, H0⟩, ⟨%d1, H1⟩, ⟨%d2, H2⟩, ⟨%d3, H3⟩⟩
  iapply ((kernelRun2 c (grid2.coords t) _ _ _ _ _ _ _ _ _ _ (hcond2_0 t) (hcond2_1 t) (iblk2 V c 0 t) (iblk2 V c 1 t) (iblk2 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover2_3 c _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Dense

end
-- ==== Proof.KI.Body3.lean ====
/-
  Region 3 of the idealized program: the dense layer  log_std = x · W_logstd + b_logstd  over f32[64, 512] × f32[512, 64];
  one grid point, one step along the reduction axis. The body zeroes its accumulator, adds the product of its two
  input blocks into it, and stores the accumulator plus the bias row (broadcast over the rows) into the
  output block. Here: the two conditions of the body (first reduction step, last reduction step) hold at every
  point, and the body's run on whole staging buffers, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond3_0 (i : grid3.Coords) : Prop :=
  (Scalar.cmpi .ne (Scalar.extui (Scalar.cmpi .eq (BitVec.ofNat 32 (i 2).val) 0#32)) 0#32) = 1#1
/-- The reduction axis has one step, so every point is the first. -/
theorem hcond3_0 : ∀ t : Fin cfg3.N, cond3_0 (grid3.coords t) :=
  (by decide +kernel : ∀ t : Fin grid3.N, cond3_0 (grid3.coords t))

/-- "This is the last step along the reduction axis": the body's second branch condition. -/
abbrev cond3_1 (i : grid3.Coords) : Prop := k3_cond2 i = 1#1
/-- ... and every point is the last. -/
theorem hcond3_1 : ∀ t : Fin cfg3.N, cond3_1 (grid3.coords t) :=
  (by decide +kernel : ∀ t : Fin grid3.N, cond3_1 (grid3.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) :
    Σ' (L3 : List (View.Piece (Elt F) S64x64 .f32)), { LS0 : List (View.Piece (Elt F) S64x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc3__dense_kernel i arg3 harg3 arg4 harg4 arg5 harg5 arg6 harg6 arg7 harg7) K } := by
  refine ⟨?_, ?_, fun E K => ?run⟩
  case run =>
    simp only [cc3__dense_kernel_eq_skeleton]; unfold cc3__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half3.lean ====
/-
  Region 3 (log_std = x · W_logstd + b_logstd  over f32[64, 512] × f32[512, 64]): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KI.Body3

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Each window's current staging buffer at point `t`, as the pipeline passes it to the body, and the accumulator. -/
abbrev ms3_0 (t : Fin cfg3.N) : Memref sig .tc .vmem S64x512 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S64x64 .f32 := win3_3.stage (cfg3.slots t 3)
abbrev hs3_3 (t : Fin cfg3.N) : (ms3_3 t).IsWhole := hstage3_3 ((cfg3.slots t 3).cast nbuf3_3)
abbrev scM3 : Memref sig .tc .vmem S64x64 .f32 := Memref.whole cc3_scratch0
/-- A view of the output block's shape, through which contents are stated (which one does not matter). -/
abbrev VO3 : View sig .tc .vmem S64x64 .f32 := scM3.view

/-- No window is idle at any point: the inputs are read and the output is stored at each. -/
theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel

/-- The invariant with the accumulator taken out of the scoped rest, as a whole buffer owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The stores into the output block tile it, so they cover it. -/
theorem cover3_3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) (y : S64x64.Idx) :
    ∃ pc ∈ (kernelRun3 c i arg3 harg3 arg4 harg4 arg5 harg5 arg6 harg6 arg7 harg7 hc0 hc1 x0 x1 x2).1, y ∈ pc.1.set :=
  View.cover_of_tiledL (kernelRun3 c i arg3 harg3 arg4 harg4 arg5 harg5 arg6 harg6 arg7 harg7 hc0 hc1 x0 x1 x2).1 S64x64.size (by sl_kernel_rfl) y

/-- What the body leaves in the output's staging buffer: its stores read back. -/
def out3_3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) : Vec F S64x64 .f32 :=
  VO3.read (Elt F) (VO3.writes (Elt F) VO3.junk (kernelRun3 c i arg3 harg3 arg4 harg4 arg5 harg5 arg6 harg6 arg7 harg7 hc0 hc1 x0 x1 x2).1)

/-- The output block after point `t`, from the three input blocks there. -/
def outAt3 (c : Dev nD) (t : Fin cfg3.N) : Vec F S64x64 .f32 :=
  out3_3 c (grid3.coords t) (ms3_0 t) (hs3_0 t) (ms3_1 t) (hs3_1 t) (ms3_2 t) (hs3_2 t) (ms3_3 t) (hs3_3 t) scM3 (Memref.isWhole_whole _)
    (hcond3_0 t) (hcond3_1 t) (iblk3 V c 0 t) (iblk3 V c 1 t) (iblk3 V c 2 t)

/-- The proof data of pipeline 3 on core `c`: the arrays as the region finds them; after the body each input's
    buffer at its block and the output's at `outAt3`; the plain invariant; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 4800000 in
/-- The body at any point: the inputs' buffers hold their blocks, both conditions hold, so the run applies; the
    invariant hands the body the accumulator at anything and takes it back at anything; nothing is owed. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  unfold outAt3 out3_3
  rw [PhiA3_eq]
  iintro ⟨⟨⟨HS, HR⟩, Hg⟩, Ho, ⟨%d0, H0⟩, ⟨%d1, H1⟩, ⟨%d2, H2⟩, ⟨%d3, H3⟩⟩
  iapply ((kernelRun3 c (grid3.coords t) _ _ _ _ _ _ _ _ _ _ (hcond3_0 t) (hcond3_1 t) (iblk3 V c 0 t) (iblk3 V c 1 t) (iblk3 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover3_3 c _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end

end Cert.KernelIdeal.Dense

end
-- ==== Proof.KI.Body4.lean ====
/-
  Region 4 of the idealized program: the dense layer  d = max(z · W_dec_fc + b_dec_fc, 0)  over f32[64, 64] × f32[64, 64000], ten column blocks of 6400;
  ten grid points, one per block of 6400 columns, one step along the reduction axis. The body zeroes its accumulator, adds the product of its two
  input blocks into it, and stores the accumulator plus the bias row (broadcast over the rows) and the maximum with zero into the
  output block. Here: the two conditions of the body (first reduction step, last reduction step) hold at every
  point, and the body's run on whole staging buffers, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond4_0 (i : grid4.Coords) : Prop :=
  (Scalar.cmpi .ne (Scalar.extui (Scalar.cmpi .eq (BitVec.ofNat 32 (i 2).val) 0#32)) 0#32) = 1#1
/-- The reduction axis has one step, so every point is the first. -/
theorem hcond4_0 : ∀ t : Fin cfg4.N, cond4_0 (grid4.coords t) :=
  (by decide +kernel : ∀ t : Fin grid4.N, cond4_0 (grid4.coords t))

/-- "This is the last step along the reduction axis": the body's second branch condition. -/
abbrev cond4_1 (i : grid4.Coords) : Prop := k4_cond2 i = 1#1
/-- ... and every point is the last. -/
theorem hcond4_1 : ∀ t : Fin cfg4.N, cond4_1 (grid4.coords t) :=
  (by decide +kernel : ∀ t : Fin grid4.N, cond4_1 (grid4.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun4 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) :
    Σ' (L3 : List (View.Piece (Elt F) S64x6400 .f32)), { LS0 : List (View.Piece (Elt F) S64x6400 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc4__dense_kernel i arg3 harg3 arg4 harg4 arg5 harg5 arg6 harg6 arg7 harg7) K } := by
  refine ⟨?_, ?_, fun E K => ?run⟩
  case run =>
    simp only [cc4__dense_kernel_eq_skeleton]; unfold cc4__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half4.lean ====
/-
  Region 4 (d = max(z · W_dec_fc + b_dec_fc, 0)  over f32[64, 64] × f32[64, 64000], ten column blocks of 6400): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KI.Body4

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Each window's current staging buffer at point `t`, as the pipeline passes it to the body, and the accumulator. -/
abbrev ms4_0 (t : Fin cfg4.N) : Memref sig .tc .vmem S64x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S64x6400 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x6400 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x6400 .f32 := win4_3.stage (cfg4.slots t 3)
abbrev hs4_3 (t : Fin cfg4.N) : (ms4_3 t).IsWhole := hstage4_3 ((cfg4.slots t 3).cast nbuf4_3)
abbrev scM4 : Memref sig .tc .vmem S64x6400 .f32 := Memref.whole cc4_scratch0
/-- A view of the output block's shape, through which contents are stated (which one does not matter). -/
abbrev VO4 : View sig .tc .vmem S64x6400 .f32 := scM4.view

/-- No window is idle at any point: the inputs are read and the output is stored at each. -/
theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel

/-- The invariant with the accumulator taken out of the scoped rest, as a whole buffer owned at some contents. -/
theorem PhiA4_eq (c : Dev nD) :
    (Pipeline.ΦA spec4 c : sProp 𝕄)
      = iprop(iprop((∃ d, owns (c : Thread nD τ) scM4 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4, owns_whole]; try rfl

/-- The stores into the output block tile it, so they cover it. -/
theorem cover4_3 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) (y : S64x6400.Idx) :
    ∃ pc ∈ (kernelRun4 c i arg3 harg3 arg4 harg4 arg5 harg5 arg6 harg6 arg7 harg7 hc0 hc1 x0 x1 x2).1, y ∈ pc.1.set :=
  View.cover_of_tiledL (kernelRun4 c i arg3 harg3 arg4 harg4 arg5 harg5 arg6 harg6 arg7 harg7 hc0 hc1 x0 x1 x2).1 S64x6400.size (by sl_kernel_rfl) y

/-- What the body leaves in the output's staging buffer: its stores read back. -/
def out4_3 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) : Vec F S64x6400 .f32 :=
  VO4.read (Elt F) (VO4.writes (Elt F) VO4.junk (kernelRun4 c i arg3 harg3 arg4 harg4 arg5 harg5 arg6 harg6 arg7 harg7 hc0 hc1 x0 x1 x2).1)

/-- The output block after point `t`, from the three input blocks there. -/
def outAt4 (c : Dev nD) (t : Fin cfg4.N) : Vec F S64x6400 .f32 :=
  out4_3 c (grid4.coords t) (ms4_0 t) (hs4_0 t) (ms4_1 t) (hs4_1 t) (ms4_2 t) (hs4_2 t) (ms4_3 t) (hs4_3 t) scM4 (Memref.isWhole_whole _)
    (hcond4_0 t) (hcond4_1 t) (iblk4 V c 0 t) (iblk4 V c 1 t) (iblk4 V c 2 t)

/-- The proof data of pipeline 4 on core `c`: the arrays as the region finds them; after the body each input's
    buffer at its block and the output's at `outAt4`; the plain invariant; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ _ := Pipeline.ΦA spec4 c
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t)

set_option maxHeartbeats 4800000 in
/-- The body at any point: the inputs' buffers hold their blocks, both conditions hold, so the run applies; the
    invariant hands the body the accumulator at anything and takes it back at anything; nothing is owed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = Pipeline.ΦA spec4 c from rfl, show (dat4 V c).Φ t.castSucc = Pipeline.ΦA spec4 c from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  unfold outAt4 out4_3
  rw [PhiA4_eq]
  iintro ⟨⟨⟨HS, HR⟩, Hg⟩, Ho, ⟨%d0, H0⟩, ⟨%d1, H1⟩, ⟨%d2, H2⟩, ⟨%d3, H3⟩⟩
  iapply ((kernelRun4 c (grid4.coords t) _ _ _ _ _ _ _ _ _ _ (hcond4_0 t) (hcond4_1 t) (iblk4 V c 0 t) (iblk4 V c 1 t) (iblk4 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover4_3 c _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Dense

end
-- ==== Proof.KI.Body5.lean ====
/-
  Region 5 of the idealized program: the dense layer  out = d · W_dec_out + b_dec_out  over f32[64000, 64] × f32[64, 32], eight row blocks of 8000;
  eight grid points, one per block of 8000 rows, one step along the reduction axis. The body zeroes its accumulator, adds the product of its two
  input blocks into it, and stores the accumulator plus the bias row (broadcast over the rows) into the
  output block. Here: the two conditions of the body (first reduction step, last reduction step) hold at every
  point, and the body's run on whole staging buffers, with the stores each buffer ends with found by the symbolic run.
-/
import proofs.«179658_j2465311228054_1_alg».proof.Proof.Gen.KernelIdeal.Launch
import proofs.«179658_j2465311228054_1_alg».proof.Proof.Gen.KernelIdeal.Skeleton
import proofs.«179658_j2465311228054_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- "This is the first step along the reduction axis": the body's first branch condition, from the grid coordinates. -/
abbrev cond5_0 (i : grid5.Coords) : Prop :=
  (Scalar.cmpi .ne (Scalar.extui (Scalar.cmpi .eq (BitVec.ofNat 32 (i 2).val) 0#32)) 0#32) = 1#1
/-- The reduction axis has one step, so every point is the first. -/
theorem hcond5_0 : ∀ t : Fin cfg5.N, cond5_0 (grid5.coords t) :=
  (by decide +kernel : ∀ t : Fin grid5.N, cond5_0 (grid5.coords t))

/-- "This is the last step along the reduction axis": the body's second branch condition. -/
abbrev cond5_1 (i : grid5.Coords) : Prop := k5_cond2 i = 1#1
/-- ... and every point is the last. -/
theorem hcond5_1 : ∀ t : Fin cfg5.N, cond5_1 (grid5.coords t) :=
  (by decide +kernel : ∀ t : Fin grid5.N, cond5_1 (grid5.coords t))

set_option maxHeartbeats 1000000 in
/-- The body on whole staging buffers — the three inputs at their contents, the output and the accumulator at
    anything — runs to the continuation with the inputs as they were and the output and the accumulator each
    holding its stores, as a list of pieces (last first) that the symbolic run finds. -/
noncomputable def kernelRun5 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) :
    Σ' (L3 : List (View.Piece (Elt F) S8000x32 .f32)), { LS0 : List (View.Piece (Elt F) S8000x32 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc5__dense_kernel i arg3 harg3 arg4 harg4 arg5 harg5 arg6 harg6 arg7 harg7) K } := by
  refine ⟨?_, ?_, fun E K => ?run⟩
  case run =>
    simp only [cc5__dense_kernel_eq_skeleton]; unfold cc5__dense_kernel_skel
    unfold owns
    iintro ⟨⟨%f0, %hf0, H0⟩, ⟨%f1, %hf1, H1⟩, ⟨%f2, %hf2, H2⟩, ⟨%d3, %f3, -, H3⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS

end Cert.KernelIdeal.Dense

end
-- ==== Proof.KI.Half5.lean ====
/-
  Region 5 (out = d · W_dec_out + b_dec_out  over f32[64000, 64] × f32[64, 32], eight row blocks of 8000): the pipeline's proof data and
  the body obligation. After the body each input's staging buffer still holds its block of the array, and the
  output's holds what the body's stores leave there; the accumulator is zeroed at the start of every point, so
  nothing is carried from a point to the next and the invariant is the plain one: every scoped buffer that is no
  staging buffer of this region at some contents, and the generator register at some state.
-/
import proofs.«179658_j2465311228054_1_alg».proof.Proof.KI.Body5

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Each window's current staging buffer at point `t`, as the pipeline passes it to the body, and the accumulator. -/
abbrev ms5_0 (t : Fin cfg5.N) : Memref sig .tc .vmem S8000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S64x32 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x32 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S8000x32 .f32 := win5_3.stage (cfg5.slots t 3)
abbrev hs5_3 (t : Fin cfg5.N) : (ms5_3 t).IsWhole := hstage5_3 ((cfg5.slots t 3).cast nbuf5_3)
abbrev scM5 : Memref sig .tc .vmem S8000x32 .f32 := Memref.whole cc5_scratch0
/-- A view of the output block's shape, through which contents are stated (which one does not matter). -/
abbrev VO5 : View sig .tc .vmem S8000x32 .f32 := scM5.view

/-- No window is idle at any point: the inputs are read and the output is stored at each. -/
theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

/-- The invariant with the accumulator taken out of the scoped rest, as a whole buffer owned at some contents. -/
theorem PhiA5_eq (c : Dev nD) :
    (Pipeline.ΦA spec5 c : sProp 𝕄)
      = iprop(iprop((∃ d, owns (c : Thread nD τ) scM5 fullShare d)
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5, owns_whole]; try rfl

/-- The stores into the output block tile it, so they cover it. -/
theorem cover5_3 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) (y : S8000x32.Idx) :
    ∃ pc ∈ (kernelRun5 c i arg3 harg3 arg4 harg4 arg5 harg5 arg6 harg6 arg7 harg7 hc0 hc1 x0 x1 x2).1, y ∈ pc.1.set :=
  View.cover_of_tiledL (kernelRun5 c i arg3 harg3 arg4 harg4 arg5 harg5 arg6 harg6 arg7 harg7 hc0 hc1 x0 x1 x2).1 S8000x32.size (by sl_kernel_rfl) y

/-- What the body leaves in the output's staging buffer: its stores read back. -/
def out5_3 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) : Vec F S8000x32 .f32 :=
  VO5.read (Elt F) (VO5.writes (Elt F) VO5.junk (kernelRun5 c i arg3 harg3 arg4 harg4 arg5 harg5 arg6 harg6 arg7 harg7 hc0 hc1 x0 x1 x2).1)

/-- The output block after point `t`, from the three input blocks there. -/
def outAt5 (c : Dev nD) (t : Fin cfg5.N) : Vec F S8000x32 .f32 :=
  out5_3 c (grid5.coords t) (ms5_0 t) (hs5_0 t) (ms5_1 t) (hs5_1 t) (ms5_2 t) (hs5_2 t) (ms5_3 t) (hs5_3 t) scM5 (Memref.isWhole_whole _)
    (hcond5_0 t) (hcond5_1 t) (iblk5 V c 0 t) (iblk5 V c 1 t) (iblk5 V c 2 t)

/-- The proof data of pipeline 5 on core `c`: the arrays as the region finds them; after the body each input's
    buffer at its block and the output's at `outAt5`; the plain invariant; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outAt5 V c t
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outAt5 V c t := by dsimp only [dat5]
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ (dat5 V c).leavesExact 0 t ∗ (dat5 V c).leavesExact 1 t ∗ (dat5 V c).leavesExact 2 t ∗ (dat5 V c).leavesExact 3 t)

set_option maxHeartbeats 4800000 in
/-- The body at any point: the inputs' buffers hold their blocks, both conditions hold, so the run applies; the
    invariant hands the body the accumulator at anything and takes it back at anything; nothing is owed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  unfold outAt5 out5_3
  rw [PhiA5_eq]
  iintro ⟨⟨⟨HS, HR⟩, Hg⟩, Ho, ⟨%d0, H0⟩, ⟨%d1, H1⟩, ⟨%d2, H2⟩, ⟨%d3, H3⟩⟩
  iapply ((kernelRun5 c (grid5.coords t) _ _ _ _ _ _ _ _ _ _ (hcond5_0 t) (hcond5_1 t) (iblk5 V c 0 t) (iblk5 V c 1 t) (iblk5 V c 2 t)).2.2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, ⟨%es, HS⟩⟩
  isplitl [HS HR Hg]
  · isplitl [HS HR]
    · isplitl [HS]
      · iexists _; unfold owns; iexists _; isplitr
        swap; · iexact HS
        ipureintro; rfl
      iexact HR
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end

end Cert.KernelIdeal.Dense

end
-- ==== Proof.KI.Run.lean ====
/-
  The run of the idealized program's @main: seven stretches of host operations with the six dense regions
  between them. The contents of every unscoped buffer are followed from the launch memory through each item:
  a stretch of host operations applies them in order; a region changes exactly one buffer, its output array, to
  what its pipeline's write-backs leave there (the proof data's array after the last point). Each region is a
  segment entered with every unscoped buffer at the contents before it and left with them at the contents after
  it, the generator register at some state and nothing owed riding along. The run theorem says: every weakly
  fair execution terminates, and at the end every unscoped buffer holds the last contents. The three frame-style
  facts (the arguments end as launched) and the result values are read off it.
-/
import proofs.«179658_j2465311228054_1_alg».proof.Proof.KI.Half0
import proofs.«179658_j2465311228054_1_alg».proof.Proof.KI.Half1
import proofs.«179658_j2465311228054_1_alg».proof.Proof.KI.Half2
import proofs.«179658_j2465311228054_1_alg».proof.Proof.KI.Half3
import proofs.«179658_j2465311228054_1_alg».proof.Proof.KI.Half4
import proofs.«179658_j2465311228054_1_alg».proof.Proof.KI.Half5
import proofs.«179658_j2465311228054_1_alg».proof.Proof.Gen.KernelIdeal.Regions

set_option maxRecDepth 16384

noncomputable section

namespace Cert.KernelIdeal.Dense

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents between items -/

/-- After the first stretch of host operations (region 0's entry). -/
abbrev U1 (c : Dev nD) : Valuation τ sig (Elt F) := V1 m c
abbrev R1 : (c : Dev nD) → (b : Ref sig .tc) → Buf (Elt F) ((c : Thread nD τ).loc b) := fun c b => U1 m c b

/-- What region 0 leaves in its output array `main_v1`: the pipeline's write-backs folded. -/
def o2 (c : Dev nD) : Buf (Elt F) ((c : Thread nD τ).loc main_v1) := (dat0 (R1 m) c).arrAt 3 cfg0.N
/-- After region 0. -/
abbrev U2 (c : Dev nD) : Valuation τ sig (Elt F) := Function.update (U1 m c) main_v1 (o2 m c)
abbrev R2 : (c : Dev nD) → (b : Ref sig .tc) → Buf (Elt F) ((c : Thread nD τ).loc b) := fun c b => U2 m c b
/-- After the next stretch of host operations. -/
abbrev U3 (c : Dev nD) : Valuation τ sig (Elt F) := StableHlo.after hostOps1 (U2 m c)
abbrev R3 : (c : Dev nD) → (b : Ref sig .tc) → Buf (Elt F) ((c : Thread nD τ).loc b) := fun c b => U3 m c b

/-- What region 1 leaves in its output array `main_v36`: the pipeline's write-backs folded. -/
def o4 (c : Dev nD) : Buf (Elt F) ((c : Thread nD τ).loc main_v36) := (dat1 (R3 m) c).arrAt 3 cfg1.N
/-- After region 1. -/
abbrev U4 (c : Dev nD) : Valuation τ sig (Elt F) := Function.update (U3 m c) main_v36 (o4 m c)
abbrev R4 : (c : Dev nD) → (b : Ref sig .tc) → Buf (Elt F) ((c : Thread nD τ).loc b) := fun c b => U4 m c b
/-- After the next stretch of host operations. -/
abbrev U5 (c : Dev nD) : Valuation τ sig (Elt F) := StableHlo.after hostOps2 (U4 m c)
abbrev R5 : (c : Dev nD) → (b : Ref sig .tc) → Buf (Elt F) ((c : Thread nD τ).loc b) := fun c b => U5 m c b

/-- What region 2 leaves in its output array `main_v38`: the pipeline's write-backs folded. -/
def o6 (c : Dev nD) : Buf (Elt F) ((c : Thread nD τ).loc main_v38) := (dat2 (R5 m) c).arrAt 3 cfg2.N
/-- After region 2. -/
abbrev U6 (c : Dev nD) : Valuation τ sig (Elt F) := Function.update (U5 m c) main_v38 (o6 m c)
abbrev R6 : (c : Dev nD) → (b : Ref sig .tc) → Buf (Elt F) ((c : Thread nD τ).loc b) := fun c b => U6 m c b
/-- After the next stretch of host operations. -/
abbrev U7 (c : Dev nD) : Valuation τ sig (Elt F) := StableHlo.after hostOps3 (U6 m c)
abbrev R7 : (c : Dev nD) → (b : Ref sig .tc) → Buf (Elt F) ((c : Thread nD τ).loc b) := fun c b => U7 m c b

/-- What region 3 leaves in its output array `main_v40`: the pipeline's write-backs folded. -/
def o8 (c : Dev nD) : Buf (Elt F) ((c : Thread nD τ).loc main_v40) := (dat3 (R7 m) c).arrAt 3 cfg3.N
/-- After region 3. -/
abbrev U8 (c : Dev nD) : Valuation τ sig (Elt F) := Function.update (U7 m c) main_v40 (o8 m c)
abbrev R8 : (c : Dev nD) → (b : Ref sig .tc) → Buf (Elt F) ((c : Thread nD τ).loc b) := fun c b => U8 m c b
/-- After the next stretch of host operations. -/
abbrev U9 (c : Dev nD) : Valuation τ sig (Elt F) := StableHlo.after hostOps4 (U8 m c)
abbrev R9 : (c : Dev nD) → (b : Ref sig .tc) → Buf (Elt F) ((c : Thread nD τ).loc b) := fun c b => U9 m c b

/-- What region 4 leaves in its output array `main_v45`: the pipeline's write-backs folded. -/
def o10 (c : Dev nD) : Buf (Elt F) ((c : Thread nD τ).loc main_v45) := (dat4 (R9 m) c).arrAt 3 cfg4.N
/-- After region 4. -/
abbrev U10 (c : Dev nD) : Valuation τ sig (Elt F) := Function.update (U9 m c) main_v45 (o10 m c)
abbrev R10 : (c : Dev nD) → (b : Ref sig .tc) → Buf (Elt F) ((c : Thread nD τ).loc b) := fun c b => U10 m c b
/-- After the next stretch of host operations. -/
abbrev U11 (c : Dev nD) : Valuation τ sig (Elt F) := StableHlo.after hostOps5 (U10 m c)
abbrev R11 : (c : Dev nD) → (b : Ref sig .tc) → Buf (Elt F) ((c : Thread nD τ).loc b) := fun c b => U11 m c b

/-- What region 5 leaves in its output array `main_v48`: the pipeline's write-backs folded. -/
def o12 (c : Dev nD) : Buf (Elt F) ((c : Thread nD τ).loc main_v48) := (dat5 (R11 m) c).arrAt 3 cfg5.N
/-- After region 5. -/
abbrev U12 (c : Dev nD) : Valuation τ sig (Elt F) := Function.update (U11 m c) main_v48 (o12 m c)
abbrev R12 : (c : Dev nD) → (b : Ref sig .tc) → Buf (Elt F) ((c : Thread nD τ).loc b) := fun c b => U12 m c b
/-- After the next stretch of host operations. -/
abbrev U13 (c : Dev nD) : Valuation τ sig (Elt F) := StableHlo.after hostOps6 (U12 m c)
abbrev R13 : (c : Dev nD) → (b : Ref sig .tc) → Buf (Elt F) ((c : Thread nD τ).loc b) := fun c b => U13 m c b

/-- The regions' outputs as the family the generated host-side lemmas are stated over. -/
def outsU : Outs (F := F) := fun J r c => match J with
  | 2 => U2 m c r | 4 => U4 m c r | 6 => U6 m c r | 8 => U8 m c r | 10 => U10 m c r | 12 => U12 m c r | _ => V0 m c r

/-- The generated valuations at that family are these contents. -/
theorem VU1 (c : Dev nD) : V1 m c = U1 m c := rfl
theorem VU2 (c : Dev nD) : V2 m (outsU m) c = U2 m c := by
  show Function.update (V1 m c) main_v1 (U2 m c main_v1) = U2 m c
  rw [VU1 m c]; show Function.update (U1 m c) main_v1 (Function.update (U1 m c) main_v1 (o2 m c) main_v1) = _
  rw [Function.update_self]
theorem VU3 (c : Dev nD) : V3 m (outsU m) c = U3 m c := by
  show StableHlo.after hostOps1 (V2 m (outsU m) c) = _; rw [VU2 m c]
theorem VU4 (c : Dev nD) : V4 m (outsU m) c = U4 m c := by
  show Function.update (V3 m (outsU m) c) main_v36 (U4 m c main_v36) = U4 m c
  rw [VU3 m c]; show Function.update (U3 m c) main_v36 (Function.update (U3 m c) main_v36 (o4 m c) main_v36) = _
  rw [Function.update_self]
theorem VU5 (c : Dev nD) : V5 m (outsU m) c = U5 m c := by
  show StableHlo.after hostOps2 (V4 m (outsU m) c) = _; rw [VU4 m c]
theorem VU6 (c : Dev nD) : V6 m (outsU m) c = U6 m c := by
  show Function.update (V5 m (outsU m) c) main_v38 (U6 m c main_v38) = U6 m c
  rw [VU5 m c]; show Function.update (U5 m c) main_v38 (Function.update (U5 m c) main_v38 (o6 m c) main_v38) = _
  rw [Function.update_self]
theorem VU7 (c : Dev nD) : V7 m (outsU m) c = U7 m c := by
  show StableHlo.after hostOps3 (V6 m (outsU m) c) = _; rw [VU6 m c]
theorem VU8 (c : Dev nD) : V8 m (outsU m) c = U8 m c := by
  show Function.update (V7 m (outsU m) c) main_v40 (U8 m c main_v40) = U8 m c
  rw [VU7 m c]; show Function.update (U7 m c) main_v40 (Function.update (U7 m c) main_v40 (o8 m c) main_v40) = _
  rw [Function.update_self]
theorem VU9 (c : Dev nD) : V9 m (outsU m) c = U9 m c := by
  show StableHlo.after hostOps4 (V8 m (outsU m) c) = _; rw [VU8 m c]
theorem VU10 (c : Dev nD) : V10 m (outsU m) c = U10 m c := by
  show Function.update (V9 m (outsU m) c) main_v45 (U10 m c main_v45) = U10 m c
  rw [VU9 m c]; show Function.update (U9 m c) main_v45 (Function.update (U9 m c) main_v45 (o10 m c) main_v45) = _
  rw [Function.update_self]
theorem VU11 (c : Dev nD) : V11 m (outsU m) c = U11 m c := by
  show StableHlo.after hostOps5 (V10 m (outsU m) c) = _; rw [VU10 m c]
theorem VU12 (c : Dev nD) : V12 m (outsU m) c = U12 m c := by
  show Function.update (V11 m (outsU m) c) main_v48 (U12 m c main_v48) = U12 m c
  rw [VU11 m c]; show Function.update (U11 m c) main_v48 (Function.update (U11 m c) main_v48 (o12 m c) main_v48) = _
  rw [Function.update_self]
theorem VU13 (c : Dev nD) : V13 m (outsU m) c = U13 m c := by
  show StableHlo.after hostOps6 (V12 m (outsU m) c) = _; rw [VU12 m c]

/-! ## What a region leaves unchanged, and its arrays at the exit -/

set_option maxHeartbeats 2000000 in
/-- Region 0's arrays after its last point, over ANY entry contents `W`: the three inputs as entered, the output its
    write-backs; stated as the entry contents updated at the output array. -/
theorem hF0_gen (W : Dev nD → Valuation τ sig (Elt F)) (c : Dev nD) (w : Fin cfg0.W) :
    (dat0 (fun c b => W c b) c).arrAt w cfg0.N
      = Function.update (W c) main_v1 ((dat0 (fun c b => W c b) c).arrAt 3 cfg0.N) (Pipeline.arrRef spec0 w) := by
  have hne : ∀ r : Ref sig .tc, r ≠ main_v1 → Function.update (W c) main_v1 ((dat0 (fun c b => W c b) c).arrAt 3 cfg0.N) r = W c r := fun r h => by
    simp only [Function.update_of_ne (StableHlo.devRef_ne_of_ne h : (Proc.devRef .tc r : DevRef τ sig) ≠ Proc.devRef .tc main_v1)]
  match w with
  | ⟨0, _⟩ => exact (((dat0 (fun c b => W c b) c).arrAt_in 0 rfl _).trans (A_eq0 (fun c b => W c b) c 0)).trans (hne _ (by decide)).symm
  | ⟨1, _⟩ => exact (((dat0 (fun c b => W c b) c).arrAt_in 1 rfl _).trans (A_eq0 (fun c b => W c b) c 1)).trans (hne _ (by decide)).symm
  | ⟨2, _⟩ => exact (((dat0 (fun c b => W c b) c).arrAt_in 2 rfl _).trans (A_eq0 (fun c b => W c b) c 2)).trans (hne _ (by decide)).symm
  | ⟨3, _⟩ =>
    show (dat0 (fun c b => W c b) c).arrAt 3 cfg0.N = Function.update (W c) main_v1 ((dat0 (fun c b => W c b) c).arrAt 3 cfg0.N) main_v1
    rw [Function.update_self]
theorem hF0 (c : Dev nD) (w : Fin cfg0.W) : (dat0 (R1 m) c).arrAt w cfg0.N = R2 m c (Pipeline.arrRef spec0 w) :=
  hF0_gen (U1 m) c w
/-- ... and every other buffer what it held at entry. -/
theorem hrest0_gen (W : Dev nD → Valuation τ sig (Elt F)) (c : Dev nD) (x : Buf (Elt F) ((c : Thread nD τ).loc main_v1)) :
    ∀ b : Ref sig .tc, b ∉ Finset.univ.image (Pipeline.arrRef spec0) → Function.update (W c) main_v1 x b = W c b :=
  fun b hb => by
    have h : b ≠ main_v1 := fun e => hb (Finset.mem_image.mpr ⟨3, Finset.mem_univ _, e.symm⟩)
    simp only [Function.update_of_ne (StableHlo.devRef_ne_of_ne h : (Proc.devRef .tc b : DevRef τ sig) ≠ Proc.devRef .tc main_v1)]
theorem hrest0 (c : Dev nD) : ∀ b, b ∉ Finset.univ.image (Pipeline.arrRef spec0) → R2 m c b = R1 m c b :=
  hrest0_gen (U1 m) c (o2 m c)

set_option maxHeartbeats 2000000 in
/-- Region 1's arrays after its last point, over ANY entry contents `W`: the three inputs as entered, the output its
    write-backs; stated as the entry contents updated at the output array. -/
theorem hF1_gen (W : Dev nD → Valuation τ sig (Elt F)) (c : Dev nD) (w : Fin cfg1.W) :
    (dat1 (fun c b => W c b) c).arrAt w cfg1.N
      = Function.update (W c) main_v36 ((dat1 (fun c b => W c b) c).arrAt 3 cfg1.N) (Pipeline.arrRef spec1 w) := by
  have hne : ∀ r : Ref sig .tc, r ≠ main_v36 → Function.update (W c) main_v36 ((dat1 (fun c b => W c b) c).arrAt 3 cfg1.N) r = W c r := fun r h => by
    simp only [Function.update_of_ne (StableHlo.devRef_ne_of_ne h : (Proc.devRef .tc r : DevRef τ sig) ≠ Proc.devRef .tc main_v36)]
  match w with
  | ⟨0, _⟩ => exact (((dat1 (fun c b => W c b) c).arrAt_in 0 rfl _).trans (A_eq1 (fun c b => W c b) c 0)).trans (hne _ (by decide)).symm
  | ⟨1, _⟩ => exact (((dat1 (fun c b => W c b) c).arrAt_in 1 rfl _).trans (A_eq1 (fun c b => W c b) c 1)).trans (hne _ (by decide)).symm
  | ⟨2, _⟩ => exact (((dat1 (fun c b => W c b) c).arrAt_in 2 rfl _).trans (A_eq1 (fun c b => W c b) c 2)).trans (hne _ (by decide)).symm
  | ⟨3, _⟩ =>
    show (dat1 (fun c b => W c b) c).arrAt 3 cfg1.N = Function.update (W c) main_v36 ((dat1 (fun c b => W c b) c).arrAt 3 cfg1.N) main_v36
    rw [Function.update_self]
theorem hF1 (c : Dev nD) (w : Fin cfg1.W) : (dat1 (R3 m) c).arrAt w cfg1.N = R4 m c (Pipeline.arrRef spec1 w) :=
  hF1_gen (U3 m) c w
/-- ... and every other buffer what it held at entry. -/
theorem hrest1_gen (W : Dev nD → Valuation τ sig (Elt F)) (c : Dev nD) (x : Buf (Elt F) ((c : Thread nD τ).loc main_v36)) :
    ∀ b : Ref sig .tc, b ∉ Finset.univ.image (Pipeline.arrRef spec1) → Function.update (W c) main_v36 x b = W c b :=
  fun b hb => by
    have h : b ≠ main_v36 := fun e => hb (Finset.mem_image.mpr ⟨3, Finset.mem_univ _, e.symm⟩)
    simp only [Function.update_of_ne (StableHlo.devRef_ne_of_ne h : (Proc.devRef .tc b : DevRef τ sig) ≠ Proc.devRef .tc main_v36)]
theorem hrest1 (c : Dev nD) : ∀ b, b ∉ Finset.univ.image (Pipeline.arrRef spec1) → R4 m c b = R3 m c b :=
  hrest1_gen (U3 m) c (o4 m c)

set_option maxHeartbeats 2000000 in
/-- Region 2's arrays after its last point, over ANY entry contents `W`: the three inputs as entered, the output its
    write-backs; stated as the entry contents updated at the output array. -/
theorem hF2_gen (W : Dev nD → Valuation τ sig (Elt F)) (c : Dev nD) (w : Fin cfg2.W) :
    (dat2 (fun c b => W c b) c).arrAt w cfg2.N
      = Function.update (W c) main_v38 ((dat2 (fun c b => W c b) c).arrAt 3 cfg2.N) (Pipeline.arrRef spec2 w) := by
  have hne : ∀ r : Ref sig .tc, r ≠ main_v38 → Function.update (W c) main_v38 ((dat2 (fun c b => W c b) c).arrAt 3 cfg2.N) r = W c r := fun r h => by
    simp only [Function.update_of_ne (StableHlo.devRef_ne_of_ne h : (Proc.devRef .tc r : DevRef τ sig) ≠ Proc.devRef .tc main_v38)]
  match w with
  | ⟨0, _⟩ => exact (((dat2 (fun c b => W c b) c).arrAt_in 0 rfl _).trans (A_eq2 (fun c b => W c b) c 0)).trans (hne _ (by decide)).symm
  | ⟨1, _⟩ => exact (((dat2 (fun c b => W c b) c).arrAt_in 1 rfl _).trans (A_eq2 (fun c b => W c b) c 1)).trans (hne _ (by decide)).symm
  | ⟨2, _⟩ => exact (((dat2 (fun c b => W c b) c).arrAt_in 2 rfl _).trans (A_eq2 (fun c b => W c b) c 2)).trans (hne _ (by decide)).symm
  | ⟨3, _⟩ =>
    show (dat2 (fun c b => W c b) c).arrAt 3 cfg2.N = Function.update (W c) main_v38 ((dat2 (fun c b => W c b) c).arrAt 3 cfg2.N) main_v38
    rw [Function.update_self]
theorem hF2 (c : Dev nD) (w : Fin cfg2.W) : (dat2 (R5 m) c).arrAt w cfg2.N = R6 m c (Pipeline.arrRef spec2 w) :=
  hF2_gen (U5 m) c w
/-- ... and every other buffer what it held at entry. -/
theorem hrest2_gen (W : Dev nD → Valuation τ sig (Elt F)) (c : Dev nD) (x : Buf (Elt F) ((c : Thread nD τ).loc main_v38)) :
    ∀ b : Ref sig .tc, b ∉ Finset.univ.image (Pipeline.arrRef spec2) → Function.update (W c) main_v38 x b = W c b :=
  fun b hb => by
    have h : b ≠ main_v38 := fun e => hb (Finset.mem_image.mpr ⟨3, Finset.mem_univ _, e.symm⟩)
    simp only [Function.update_of_ne (StableHlo.devRef_ne_of_ne h : (Proc.devRef .tc b : DevRef τ sig) ≠ Proc.devRef .tc main_v38)]
theorem hrest2 (c : Dev nD) : ∀ b, b ∉ Finset.univ.image (Pipeline.arrRef spec2) → R6 m c b = R5 m c b :=
  hrest2_gen (U5 m) c (o6 m c)

set_option maxHeartbeats 2000000 in
/-- Region 3's arrays after its last point, over ANY entry contents `W`: the three inputs as entered, the output its
    write-backs; stated as the entry contents updated at the output array. -/
theorem hF3_gen (W : Dev nD → Valuation τ sig (Elt F)) (c : Dev nD) (w : Fin cfg3.W) :
    (dat3 (fun c b => W c b) c).arrAt w cfg3.N
      = Function.update (W c) main_v40 ((dat3 (fun c b => W c b) c).arrAt 3 cfg3.N) (Pipeline.arrRef spec3 w) := by
  have hne : ∀ r : Ref sig .tc, r ≠ main_v40 → Function.update (W c) main_v40 ((dat3 (fun c b => W c b) c).arrAt 3 cfg3.N) r = W c r := fun r h => by
    simp only [Function.update_of_ne (StableHlo.devRef_ne_of_ne h : (Proc.devRef .tc r : DevRef τ sig) ≠ Proc.devRef .tc main_v40)]
  match w with
  | ⟨0, _⟩ => exact (((dat3 (fun c b => W c b) c).arrAt_in 0 rfl _).trans (A_eq3 (fun c b => W c b) c 0)).trans (hne _ (by decide)).symm
  | ⟨1, _⟩ => exact (((dat3 (fun c b => W c b) c).arrAt_in 1 rfl _).trans (A_eq3 (fun c b => W c b) c 1)).trans (hne _ (by decide)).symm
  | ⟨2, _⟩ => exact (((dat3 (fun c b => W c b) c).arrAt_in 2 rfl _).trans (A_eq3 (fun c b => W c b) c 2)).trans (hne _ (by decide)).symm
  | ⟨3, _⟩ =>
    show (dat3 (fun c b => W c b) c).arrAt 3 cfg3.N = Function.update (W c) main_v40 ((dat3 (fun c b => W c b) c).arrAt 3 cfg3.N) main_v40
    rw [Function.update_self]
theorem hF3 (c : Dev nD) (w : Fin cfg3.W) : (dat3 (R7 m) c).arrAt w cfg3.N = R8 m c (Pipeline.arrRef spec3 w) :=
  hF3_gen (U7 m) c w
/-- ... and every other buffer what it held at entry. -/
theorem hrest3_gen (W : Dev nD → Valuation τ sig (Elt F)) (c : Dev nD) (x : Buf (Elt F) ((c : Thread nD τ).loc main_v40)) :
    ∀ b : Ref sig .tc, b ∉ Finset.univ.image (Pipeline.arrRef spec3) → Function.update (W c) main_v40 x b = W c b :=
  fun b hb => by
    have h : b ≠ main_v40 := fun e => hb (Finset.mem_image.mpr ⟨3, Finset.mem_univ _, e.symm⟩)
    simp only [Function.update_of_ne (StableHlo.devRef_ne_of_ne h : (Proc.devRef .tc b : DevRef τ sig) ≠ Proc.devRef .tc main_v40)]
theorem hrest3 (c : Dev nD) : ∀ b, b ∉ Finset.univ.image (Pipeline.arrRef spec3) → R8 m c b = R7 m c b :=
  hrest3_gen (U7 m) c (o8 m c)

set_option maxHeartbeats 2000000 in
/-- Region 4's arrays after its last point, over ANY entry contents `W`: the three inputs as entered, the output its
    write-backs; stated as the entry contents updated at the output array. -/
theorem hF4_gen (W : Dev nD → Valuation τ sig (Elt F)) (c : Dev nD) (w : Fin cfg4.W) :
    (dat4 (fun c b => W c b) c).arrAt w cfg4.N
      = Function.update (W c) main_v45 ((dat4 (fun c b => W c b) c).arrAt 3 cfg4.N) (Pipeline.arrRef spec4 w) := by
  have hne : ∀ r : Ref sig .tc, r ≠ main_v45 → Function.update (W c) main_v45 ((dat4 (fun c b => W c b) c).arrAt 3 cfg4.N) r = W c r := fun r h => by
    simp only [Function.update_of_ne (StableHlo.devRef_ne_of_ne h : (Proc.devRef .tc r : DevRef τ sig) ≠ Proc.devRef .tc main_v45)]
  match w with
  | ⟨0, _⟩ => exact (((dat4 (fun c b => W c b) c).arrAt_in 0 rfl _).trans (A_eq4 (fun c b => W c b) c 0)).trans (hne _ (by decide)).symm
  | ⟨1, _⟩ => exact (((dat4 (fun c b => W c b) c).arrAt_in 1 rfl _).trans (A_eq4 (fun c b => W c b) c 1)).trans (hne _ (by decide)).symm
  | ⟨2, _⟩ => exact (((dat4 (fun c b => W c b) c).arrAt_in 2 rfl _).trans (A_eq4 (fun c b => W c b) c 2)).trans (hne _ (by decide)).symm
  | ⟨3, _⟩ =>
    show (dat4 (fun c b => W c b) c).arrAt 3 cfg4.N = Function.update (W c) main_v45 ((dat4 (fun c b => W c b) c).arrAt 3 cfg4.N) main_v45
    rw [Function.update_self]
theorem hF4 (c : Dev nD) (w : Fin cfg4.W) : (dat4 (R9 m) c).arrAt w cfg4.N = R10 m c (Pipeline.arrRef spec4 w) :=
  hF4_gen (U9 m) c w
/-- ... and every other buffer what it held at entry. -/
theorem hrest4_gen (W : Dev nD → Valuation τ sig (Elt F)) (c : Dev nD) (x : Buf (Elt F) ((c : Thread nD τ).loc main_v45)) :
    ∀ b : Ref sig .tc, b ∉ Finset.univ.image (Pipeline.arrRef spec4) → Function.update (W c) main_v45 x b = W c b :=
  fun b hb => by
    have h : b ≠ main_v45 := fun e => hb (Finset.mem_image.mpr ⟨3, Finset.mem_univ _, e.symm⟩)
    simp only [Function.update_of_ne (StableHlo.devRef_ne_of_ne h : (Proc.devRef .tc b : DevRef τ sig) ≠ Proc.devRef .tc main_v45)]
theorem hrest4 (c : Dev nD) : ∀ b, b ∉ Finset.univ.image (Pipeline.arrRef spec4) → R10 m c b = R9 m c b :=
  hrest4_gen (U9 m) c (o10 m c)

set_option maxHeartbeats 2000000 in
/-- Region 5's arrays after its last point, over ANY entry contents `W`: the three inputs as entered, the output its
    write-backs; stated as the entry contents updated at the output array. -/
theorem hF5_gen (W : Dev nD → Valuation τ sig (Elt F)) (c : Dev nD) (w : Fin cfg5.W) :
    (dat5 (fun c b => W c b) c).arrAt w cfg5.N
      = Function.update (W c) main_v48 ((dat5 (fun c b => W c b) c).arrAt 3 cfg5.N) (Pipeline.arrRef spec5 w) := by
  have hne : ∀ r : Ref sig .tc, r ≠ main_v48 → Function.update (W c) main_v48 ((dat5 (fun c b => W c b) c).arrAt 3 cfg5.N) r = W c r := fun r h => by
    simp only [Function.update_of_ne (StableHlo.devRef_ne_of_ne h : (Proc.devRef .tc r : DevRef τ sig) ≠ Proc.devRef .tc main_v48)]
  match w with
  | ⟨0, _⟩ => exact (((dat5 (fun c b => W c b) c).arrAt_in 0 rfl _).trans (A_eq5 (fun c b => W c b) c 0)).trans (hne _ (by decide)).symm
  | ⟨1, _⟩ => exact (((dat5 (fun c b => W c b) c).arrAt_in 1 rfl _).trans (A_eq5 (fun c b => W c b) c 1)).trans (hne _ (by decide)).symm
  | ⟨2, _⟩ => exact (((dat5 (fun c b => W c b) c).arrAt_in 2 rfl _).trans (A_eq5 (fun c b => W c b) c 2)).trans (hne _ (by decide)).symm
  | ⟨3, _⟩ =>
    show (dat5 (fun c b => W c b) c).arrAt 3 cfg5.N = Function.update (W c) main_v48 ((dat5 (fun c b => W c b) c).arrAt 3 cfg5.N) main_v48
    rw [Function.update_self]
theorem hF5 (c : Dev nD) (w : Fin cfg5.W) : (dat5 (R11 m) c).arrAt w cfg5.N = R12 m c (Pipeline.arrRef spec5 w) :=
  hF5_gen (U11 m) c w
/-- ... and every other buffer what it held at entry. -/
theorem hrest5_gen (W : Dev nD → Valuation τ sig (Elt F)) (c : Dev nD) (x : Buf (Elt F) ((c : Thread nD τ).loc main_v48)) :
    ∀ b : Ref sig .tc, b ∉ Finset.univ.image (Pipeline.arrRef spec5) → Function.update (W c) main_v48 x b = W c b :=
  fun b hb => by
    have h : b ≠ main_v48 := fun e => hb (Finset.mem_image.mpr ⟨3, Finset.mem_univ _, e.symm⟩)
    simp only [Function.update_of_ne (StableHlo.devRef_ne_of_ne h : (Proc.devRef .tc b : DevRef τ sig) ≠ Proc.devRef .tc main_v48)]
theorem hrest5 (c : Dev nD) : ∀ b, b ∉ Finset.univ.image (Pipeline.arrRef spec5) → R12 m c b = R11 m c b :=
  hrest5_gen (U11 m) c (o12 m c)
/-! ## The proof data family and the thread state -/

/-- Every pipeline's proof data, each at its region's entry contents. -/
def pdats : (p : Fin 6) → (c : Dev nD) → Dat τ (Elt F) Unit ℕ (UR sig nD τ) ℕ (Pipeline.pin (pcfgs (F := F)) adm p) c
  | ⟨0, _⟩ => fun c => dat0 (R1 m) c
  | ⟨1, _⟩ => fun c => dat1 (R3 m) c
  | ⟨2, _⟩ => fun c => dat2 (R5 m) c
  | ⟨3, _⟩ => fun c => dat3 (R7 m) c
  | ⟨4, _⟩ => fun c => dat4 (R9 m) c
  | ⟨5, _⟩ => fun c => dat5 (R11 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rst (c : Dev nD) : sProp 𝕄 := iprop((∃ r, prngReg c r) ∗ ∃ W, owes (c : Thread nD τ) (0 : CellTallies nD τ sig Unit) W)
abbrev Est : Fin 7 → Dev nD → sProp 𝕄 := fun _ c => Rst (F := F) c

/-! ## The regions as segments -/

/-- The two parts of an invariant handed back in the other order, with nothing in between. -/
theorem sep_swap_emp (P Q : sProp 𝕄) : iprop(P ∗ Q) ⊢ iprop(Q ∗ BI.emp ∗ P) := by
  iintro ⟨Hp, Hq⟩
  isplitl [Hq]; · iexact Hq
  isplitr; · iempintro
  iexact Hp

set_option backward.isDefEq.respectTransparency.types false in
/-- REGION 0: entered from every unscoped buffer at the contents before it, left at the contents after it. Its arrays
    are split out of the unscoped buffers at entry and put back at exit; the generator register goes into the
    invariant and comes back; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (R1 m) c).loose
  hwaits := Pipeline.hwaits_of_owed_zero _ _ _ _ L lv 0 fun _ _ => rfl
  pre c := iprop(StableHlo.held (c : Thread nD τ) (Pipeline.ucRefs τ sig) (U1 m c) ∗ Rst c)
  post c := iprop(StableHlo.held (c : Thread nD τ) (Pipeline.ucRefs τ sig) (U2 m c) ∗ Rst c)
  X c := iprop(∃ r, prngReg c r)
  Y c := iprop(∃ r, prngReg c r)
  Z c := Pipeline.unscopedRest (Ix := Unit) (Name := ℕ) (U := UR sig nD τ) (Lvl := ℕ) spec0 c (R1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (R1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (R1 m c) (R2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1: entered from every unscoped buffer at the contents before it, left at the contents after it. Its arrays
    are split out of the unscoped buffers at entry and put back at exit; the generator register goes into the
    invariant and comes back; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (R3 m) c).loose
  hwaits := Pipeline.hwaits_of_owed_zero _ _ _ _ L lv 1 fun _ _ => rfl
  pre c := iprop(StableHlo.held (c : Thread nD τ) (Pipeline.ucRefs τ sig) (U3 m c) ∗ Rst c)
  post c := iprop(StableHlo.held (c : Thread nD τ) (Pipeline.ucRefs τ sig) (U4 m c) ∗ Rst c)
  X c := iprop(∃ r, prngReg c r)
  Y c := iprop(∃ r, prngReg c r)
  Z c := Pipeline.unscopedRest (Ix := Unit) (Name := ℕ) (U := UR sig nD τ) (Lvl := ℕ) spec1 c (R3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (R3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from
      (show (pdats m 1 c).Φ 0 = PhiS1 (R3 m) c 0 (Nat.zero_le _) from rfl).trans (PhiS1_zero (R3 m) c 0 _ rfl)]
    unfold Pipeline.ΦA
    iintro ⟨Hp, -, Hr⟩
    isplitl [Hr]; · iexact Hr
    iexact Hp
  hout c := by
    rw [Pipeline.ownSems0_none, show (pdats m 1 c).Φ (Fin.last _) = (dat1 (R3 m) c).Φ (Fin.last cfg1.N) from rfl]
    have h := hout1 (R3 m) c
    unfold Pipeline.ΦA at h
    exact h.trans (sep_swap_emp _ _)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (R3 m c) (R4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2: entered from every unscoped buffer at the contents before it, left at the contents after it. Its arrays
    are split out of the unscoped buffers at entry and put back at exit; the generator register goes into the
    invariant and comes back; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (R5 m) c).loose
  hwaits := Pipeline.hwaits_of_owed_zero _ _ _ _ L lv 2 fun _ _ => rfl
  pre c := iprop(StableHlo.held (c : Thread nD τ) (Pipeline.ucRefs τ sig) (U5 m c) ∗ Rst c)
  post c := iprop(StableHlo.held (c : Thread nD τ) (Pipeline.ucRefs τ sig) (U6 m c) ∗ Rst c)
  X c := iprop(∃ r, prngReg c r)
  Y c := iprop(∃ r, prngReg c r)
  Z c := Pipeline.unscopedRest (Ix := Unit) (Name := ℕ) (U := UR sig nD τ) (Lvl := ℕ) spec2 c (R5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (R5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (R5 m c) (R6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3: entered from every unscoped buffer at the contents before it, left at the contents after it. Its arrays
    are split out of the unscoped buffers at entry and put back at exit; the generator register goes into the
    invariant and comes back; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (R7 m) c).loose
  hwaits := Pipeline.hwaits_of_owed_zero _ _ _ _ L lv 3 fun _ _ => rfl
  pre c := iprop(StableHlo.held (c : Thread nD τ) (Pipeline.ucRefs τ sig) (U7 m c) ∗ Rst c)
  post c := iprop(StableHlo.held (c : Thread nD τ) (Pipeline.ucRefs τ sig) (U8 m c) ∗ Rst c)
  X c := iprop(∃ r, prngReg c r)
  Y c := iprop(∃ r, prngReg c r)
  Z c := Pipeline.unscopedRest (Ix := Unit) (Name := ℕ) (U := UR sig nD τ) (Lvl := ℕ) spec3 c (R7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (R7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (R7 m c) (R8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4: entered from every unscoped buffer at the contents before it, left at the contents after it. Its arrays
    are split out of the unscoped buffers at entry and put back at exit; the generator register goes into the
    invariant and comes back; nothing is owed; the kernel has no semaphore of its own. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (R9 m) c).loose
  hwaits := Pipeline.hwaits_of_owed_zero _ _ _ _ L lv 4 fun _ _ => rfl
  pre c := iprop(StableHlo.held (c : Thread nD τ) (Pipeline.ucRefs τ sig) (U9 m c) ∗ Rst c)
  post c := iprop(StableHlo.held (c : Thread nD τ) (Pipeline.ucRefs τ sig) (U10 m c) ∗ Rst c)
  X c := iprop(∃ r, prngReg c r)
  Y c := iprop(∃ r, prngReg c r)
  Z c := Pipeline.unscopedRest (Ix := Unit) (Name := ℕ) (U := UR sig nD τ) (Lvl := ℕ) spec4 c (R9 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (R9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (R9 m c) (R10 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5: entered from every unscoped buffer at the contents before it, left at the contents after it. Its arrays
    are split out of the unscoped buffers at entry and put back at exit; the generator register goes into the
    invariant and comes back; nothing is owed; the kernel has no semaphore of its own. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (R11 m) c).loose
  hwaits := Pipeline.hwaits_of_owed_zero _ _ _ _ L lv 5 fun _ _ => rfl
  pre c := iprop(StableHlo.held (c : Thread nD τ) (Pipeline.ucRefs τ sig) (U11 m c) ∗ Rst c)
  post c := iprop(StableHlo.held (c : Thread nD τ) (Pipeline.ucRefs τ sig) (U12 m c) ∗ Rst c)
  X c := iprop(∃ r, prngReg c r)
  Y c := iprop(∃ r, prngReg c r)
  Z c := Pipeline.unscopedRest (Ix := Unit) (Name := ℕ) (U := UR sig nD τ) (Lvl := ℕ) spec5 c (R11 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (R11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (R11 m c) (R12 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- A stretch of host operations as a segment over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- @main's thirteen items in order. -/
abbrev segs : List (Seg (pcfgs (F := F)) adm (pdats m) () defs₀ 𝒱₀ L lv) :=
  [ .host (hseg hostOps0 hostOps0_sub hostOps0_fresh (V0 m)),
    .region (reg0 m),
    .host (hseg hostOps1 hostOps1_sub hostOps1_fresh (U2 m)),
    .region (reg1 m),
    .host (hseg hostOps2 hostOps2_sub hostOps2_fresh (U4 m)),
    .region (reg2 m),
    .host (hseg hostOps3 hostOps3_sub hostOps3_fresh (U6 m)),
    .region (reg3 m),
    .host (hseg hostOps4 hostOps4_sub hostOps4_fresh (U8 m)),
    .region (reg4 m),
    .host (hseg hostOps5 hostOps5_sub hostOps5_fresh (U10 m)),
    .region (reg5 m),
    .host (hseg hostOps6 hostOps6_sub hostOps6_fresh (U12 m)) ]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: from any memory with zero counters every weakly fair execution of @main on the TensorCores terminates,
    nothing faulting, and every final state has every unscoped buffer at the last contents `U13`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = U13 m c b) := by
  refine Pipeline.θ_run_regions_kit_dev (pcfgs (F := F)) adm (pdats m) () cellOf_inj emb₁ defs₀ 𝒱₀ L lv m ρ main (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => StableHlo.held (c : Thread nD τ) (Pipeline.ucRefs τ sig) (U13 m c))
    (hch := fun c => ⟨.rfl, .rfl, .rfl, .rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U13 m c b)
    (hfin := fun c s' => by
      iintro ⟨Hh, HSI⟩
      unfold StableHlo.held
      imodintro
      iapply (pointsTo_read_all (Pipeline.ucRefs τ sig) (fun b => (((c : Thread nD τ)).1, b)) (U13 m c) s')
      isplitl [Hh] <;> iassumption)
    (hQ := fun s h c => h c)

/-! ## The arguments end as launched -/

theorem U13_main_arg0 (c : Dev nD) : U13 m c main_arg0 = m ((c : Thread nD τ).loc main_arg0) :=
  (congrFun (VU13 m c) (Proc.devRef .tc main_arg0)).symm.trans (V13_main_arg0 m (outsU m) c)
theorem U13_main_arg1 (c : Dev nD) : U13 m c main_arg1 = m ((c : Thread nD τ).loc main_arg1) :=
  (congrFun (VU13 m c) (Proc.devRef .tc main_arg1)).symm.trans (V13_main_arg1 m (outsU m) c)
theorem U13_main_arg2 (c : Dev nD) : U13 m c main_arg2 = m ((c : Thread nD τ).loc main_arg2) :=
  (congrFun (VU13 m c) (Proc.devRef .tc main_arg2)).symm.trans (V13_main_arg2 m (outsU m) c)
theorem U13_main_arg3 (c : Dev nD) : U13 m c main_arg3 = m ((c : Thread nD τ).loc main_arg3) :=
  (congrFun (VU13 m c) (Proc.devRef .tc main_arg3)).symm.trans (V13_main_arg3 m (outsU m) c)
theorem U13_main_arg4 (c : Dev nD) : U13 m c main_arg4 = m ((c : Thread nD τ).loc main_arg4) :=
  (congrFun (VU13 m c) (Proc.devRef .tc main_arg4)).symm.trans (V13_main_arg4 m (outsU m) c)
theorem U13_main_arg5 (c : Dev nD) : U13 m c main_arg5 = m ((c : Thread nD τ).loc main_arg5) :=
  (congrFun (VU13 m c) (Proc.devRef .tc main_arg5)).symm.trans (V13_main_arg5 m (outsU m) c)
theorem U13_main_arg6 (c : Dev nD) : U13 m c main_arg6 = m ((c : Thread nD τ).loc main_arg6) :=
  (congrFun (VU13 m c) (Proc.devRef .tc main_arg6)).symm.trans (V13_main_arg6 m (outsU m) c)
theorem U13_main_arg7 (c : Dev nD) : U13 m c main_arg7 = m ((c : Thread nD τ).loc main_arg7) :=
  (congrFun (VU13 m c) (Proc.devRef .tc main_arg7)).symm.trans (V13_main_arg7 m (outsU m) c)
theorem U13_main_arg8 (c : Dev nD) : U13 m c main_arg8 = m ((c : Thread nD τ).loc main_arg8) :=
  (congrFun (VU13 m c) (Proc.devRef .tc main_arg8)).symm.trans (V13_main_arg8 m (outsU m) c)
theorem U13_main_arg9 (c : Dev nD) : U13 m c main_arg9 = m ((c : Thread nD τ).loc main_arg9) :=
  (congrFun (VU13 m c) (Proc.devRef .tc main_arg9)).symm.trans (V13_main_arg9 m (outsU m) c)
theorem U13_main_arg10 (c : Dev nD) : U13 m c main_arg10 = m ((c : Thread nD τ).loc main_arg10) :=
  (congrFun (VU13 m c) (Proc.devRef .tc main_arg10)).symm.trans (V13_main_arg10 m (outsU m) c)
theorem U13_main_arg11 (c : Dev nD) : U13 m c main_arg11 = m ((c : Thread nD τ).loc main_arg11) :=
  (congrFun (VU13 m c) (Proc.devRef .tc main_arg11)).symm.trans (V13_main_arg11 m (outsU m) c)
theorem U13_main_arg12 (c : Dev nD) : U13 m c main_arg12 = m ((c : Thread nD τ).loc main_arg12) :=
  (congrFun (VU13 m c) (Proc.devRef .tc main_arg12)).symm.trans (V13_main_arg12 m (outsU m) c)
theorem U13_main_arg13 (c : Dev nD) : U13 m c main_arg13 = m ((c : Thread nD τ).loc main_arg13) :=
  (congrFun (VU13 m c) (Proc.devRef .tc main_arg13)).symm.trans (V13_main_arg13 m (outsU m) c)
theorem U13_main_arg14 (c : Dev nD) : U13 m c main_arg14 = m ((c : Thread nD τ).loc main_arg14) :=
  (congrFun (VU13 m c) (Proc.devRef .tc main_arg14)).symm.trans (V13_main_arg14 m (outsU m) c)
theorem U13_main_arg15 (c : Dev nD) : U13 m c main_arg15 = m ((c : Thread nD τ).loc main_arg15) :=
  (congrFun (VU13 m c) (Proc.devRef .tc main_arg15)).symm.trans (V13_main_arg15 m (outsU m) c)

/-- THE FRAME of the program, at any instance: it runs to the end, nothing faulting, and every argument array ends
    as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (U13_main_arg0 m c),
    (h c _ (mem_uc main_arg1 (by decide))).trans (U13_main_arg1 m c),
    (h c _ (mem_uc main_arg2 (by decide))).trans (U13_main_arg2 m c),
    (h c _ (mem_uc main_arg3 (by decide))).trans (U13_main_arg3 m c),
    (h c _ (mem_uc main_arg4 (by decide))).trans (U13_main_arg4 m c),
    (h c _ (mem_uc main_arg5 (by decide))).trans (U13_main_arg5 m c),
    (h c _ (mem_uc main_arg6 (by decide))).trans (U13_main_arg6 m c),
    (h c _ (mem_uc main_arg7 (by decide))).trans (U13_main_arg7 m c),
    (h c _ (mem_uc main_arg8 (by decide))).trans (U13_main_arg8 m c),
    (h c _ (mem_uc main_arg9 (by decide))).trans (U13_main_arg9 m c),
    (h c _ (mem_uc main_arg10 (by decide))).trans (U13_main_arg10 m c),
    (h c _ (mem_uc main_arg11 (by decide))).trans (U13_main_arg11 m c),
    (h c _ (mem_uc main_arg12 (by decide))).trans (U13_main_arg12 m c),
    (h c _ (mem_uc main_arg13 (by decide))).trans (U13_main_arg13 m c),
    (h c _ (mem_uc main_arg14 (by decide))).trans (U13_main_arg14 m c),
    (h c _ (mem_uc main_arg15 (by decide))).trans (U13_main_arg15 m c)⟩) (run_all m ρ)

end Cert.KernelIdeal.Dense

end
-- ==== Proof.Ref.Run.lean ====
/-
  The reference program's run: every weakly fair execution terminates, and the three results are the
  composed pure terms of its operations applied to the arguments. The frame claim keeps only the
  termination-and-unchanged-arguments half of that statement.
-/
import proofs.«179658_j2465311228054_1_alg».proof.Defs
import proofs.«179658_j2465311228054_1_alg».proof.Proof.Gen.ReferenceIdeal
import proofs.«179658_j2465311228054_1_alg».proof.Proof.Gen.Pre_finite_inputs
import proofs.«179658_j2465311228054_1_alg».proof.Proof.Gen.ReferenceIdeal.Run
import proofs.«179658_j2465311228054_1_alg».proof.Proof.Gen.ReferenceIdeal.Read

noncomputable section

namespace Cert.ReferenceIdeal.RefValue

open Idealize.ShloMosaic Idealize.SL.Sem

/-- The reference runs to the end and leaves its sixteen arguments as they were: the run's statement with the
    three result equations dropped. -/
theorem frame_ri : Cert.frame_ReferenceIdeal := fun m ρ _ =>
  (θ_run Cert.ReferenceIdeal.defs _ _).mono (fun _ h c => (h c).2.2.2)
    (Cert.ReferenceIdeal.Value.run (F := Ideal) m ρ)

end Cert.ReferenceIdeal.RefValue

end
-- ==== Proof.Spec.lean ====
/-
  What each dense layer computes, as ONE function of its three whole operand arrays, entry by entry, on the
  extended reals:   affine x w b (r, c) = (Σ_k x(r, k) · w(k, c)) + b(0, c),   and the same followed by the maximum
  with zero. x is M × K, w is K × N, the bias a 1 × N row. Both programs' layers are instances: the kernel adds up
  the products block by block (over row blocks, column blocks, or blocks of the contracted axis), the reference
  in one product; as sums over k in a commutative monoid the two agree, with no finiteness needed.
-/
import Idealize.ShloMosaic.PureOps.Ideal
import Idealize.ShloMosaic.Lib.ValueIdx

noncomputable section

namespace Cert.DenseSpec

open Idealize.ShloMosaic Idealize.ShloMosaic.ValueIdx

/-- The product of an M × K by a K × N matrix plus a bias row, at entry (r, c). -/
def affine {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => (∑ k : Fin K, x (ix2 (j 0) k) * w (ix2 k (j 1))) + b (ix2 (0 : Fin 1) (j 1))

/-- The same followed by the maximum with zero. -/
def affineRelu {M K N : Nat} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun j => max (affine x w b j) 0

/-- Layer 0: max(nodes · W_gcn1 + b_gcn1, 0), 64000 × 64 by 64 × 64. -/
abbrev dense0 (x : (⟨2, ![64000, 64]⟩ : Shape).Idx → EReal) (w : (⟨2, ![64, 64]⟩ : Shape).Idx → EReal) (b : (⟨2, ![1, 64]⟩ : Shape).Idx → EReal) :
    (⟨2, ![64000, 64]⟩ : Shape).Idx → EReal := affineRelu x w b
/-- Layer 1: max(x · W_fc + b_fc, 0), 64 × 64000 by 64000 × 512. -/
abbrev dense1 (x : (⟨2, ![64, 64000]⟩ : Shape).Idx → EReal) (w : (⟨2, ![64000, 512]⟩ : Shape).Idx → EReal) (b : (⟨2, ![1, 512]⟩ : Shape).Idx → EReal) :
    (⟨2, ![64, 512]⟩ : Shape).Idx → EReal := affineRelu x w b
/-- Layers 2 and 3: x · W + b, 64 × 512 by 512 × 64 (the mean and the log of the standard deviation). -/
abbrev dense2 (x : (⟨2, ![64, 512]⟩ : Shape).Idx → EReal) (w : (⟨2, ![512, 64]⟩ : Shape).Idx → EReal) (b : (⟨2, ![1, 64]⟩ : Shape).Idx → EReal) :
    (⟨2, ![64, 64]⟩ : Shape).Idx → EReal := affine x w b
/-- Layer 4: max(z · W_dec_fc + b_dec_fc, 0), 64 × 64 by 64 × 64000. -/
abbrev dense4 (x : (⟨2, ![64, 64]⟩ : Shape).Idx → EReal) (w : (⟨2, ![64, 64000]⟩ : Shape).Idx → EReal) (b : (⟨2, ![1, 64000]⟩ : Shape).Idx → EReal) :
    (⟨2, ![64, 64000]⟩ : Shape).Idx → EReal := affineRelu x w b
/-- Layer 5: d · W_dec_out + b_dec_out, 64000 × 64 by 64 × 32. -/
abbrev dense5 (x : (⟨2, ![64000, 64]⟩ : Shape).Idx → EReal) (w : (⟨2, ![64, 32]⟩ : Shape).Idx → EReal) (b : (⟨2, ![1, 32]⟩ : Shape).Idx → EReal) :
    (⟨2, ![64000, 32]⟩ : Shape).Idx → EReal := affine x w b

end Cert.DenseSpec

end
-- ==== Proof.KI.Val0.lean ====
/-
  Region 0 (h = max(nodes · W_gcn1 + b_gcn1, 0) over f32[64000, 64] × f32[64, 64], eight grid points, one per block of 8000 rows): the value of the output array.
  The one store into the output block holds, entry by entry, the zeroed accumulator plus the sum over the contracted
  axis of the products of the two input blocks, plus the bias row's entry of the column, and then the maximum with zero. Each input block is read
  from its array where the output block's rows and columns say, so the block written back at a point is that
  point's block of the whole-array function  (r, c) ↦ max((Σ_k x(r, k) · w(k, c)) + b(0, c), 0);  the output's blocks
  cover its array, so the array ends holding that function.
-/
import proofs.«179658_j2465311228054_1_alg».proof.Proof.KI.Half0
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz0 : (![0, 0] : Fin 2 → Nat) = fun _ => 0 := funext fun a => by fin_cases a <;> rfl

section
variable {F : FTy → Type} [FloatOps F]

/-- What the body leaves in the output block, as one term of the three input blocks: the accumulator is zeroed,
    one product is added into it, and the bias row is added on the way out. -/
theorem piece0 (c : Dev nD) (i : grid0.Coords)
    (arg3 : Memref sig .tc .vmem S8000x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S8000x64 .f32) (harg6 : arg6.IsWhole)
    (arg7 : Memref sig .tc .vmem S8000x64 .f32) (harg7 : arg7.IsWhole) (hc0 : cond0_0 i) (hc1 : cond0_1 i)
    (x0 : Vec F S8000x64 .f32) (x1 : Vec F S64x64 .f32) (x2 : Vec F S1x64 .f32) :
    out0_3 c i arg3 harg3 arg4 harg4 arg5 harg5 arg6 harg6 arg7 harg7 hc0 hc1 x0 x1 x2 = k0_pay3 (k0_pay2 x0 x1 k0_pay1) x2 := by
  unfold out0_3
  rw [View.read_writes_eq_canon _ _ _ (cover0_3 c i arg3 harg3 arg4 harg4 arg5 harg5 arg6 harg6 arg7 harg7 hc0 hc1 x0 x1 x2)]
  unfold kernelRun0
  dsimp only
  try sl_unfold_words
  rw [View.canon_unit_zero hz0]
  rw [View.readCov_eq_canon_ld _ _ _ (fun y => ⟨_, List.mem_cons_self, View.mem_set_unit_zero hz0 inb_S8000x64_S8000x64_0_0 y⟩)]
  rw [View.canon_cons_unit_zero hz0, View.readCov_unit_zero (S := S8000x64) _ hz0]
  simp only [View.readAt_eq_ld, harg3.read_unread, harg4.read_unread, harg5.read_unread,
    View.ld_unit_zero (S := S8000x64) hz0, View.ld_unit_zero (S := S64x64) hz0, View.ld_unit_zero (S := S1x64) hz0]

end

/-! ## The stored term at an entry, on the extended reals -/

/-- The accumulator starts at zero. -/
theorem pay0_1_at (r : Fin 8000) (cc : Fin 64) : k0_pay1 (F := Ideal) (ix2 r cc) = 0 := by
  unfold k0_pay1
  rw [shapeCast_self]
  exact Ideal.ofBits_zero_f32

/-- The product's dimension numbers at an output entry and a position along the contracted axis: the left operand is
    read at (row, position), the right at (position, column). -/
theorem lhs0_0 (i : S8000x64.Idx) (q : dot_S8000x64_S64x64_S8000x64_1_0_0_1_n_n.contr.Idx) :
    (dot_S8000x64_S64x64_S8000x64_1_0_0_1_n_n.lhsIdx i q 0).val = (i 0).val := by
  unfold DotDims.lhsIdx
  rw [dif_neg (show ¬(0 : Fin S8000x64.rank) ∈ dot_S8000x64_S64x64_S8000x64_1_0_0_1_n_n.lhsBatch by decide), dif_pos (show (0 : Fin S8000x64.rank) ∈ dot_S8000x64_S64x64_S8000x64_1_0_0_1_n_n.lhsNonContracting by decide)]
  rfl
theorem lhs0_1 (i : S8000x64.Idx) (q : dot_S8000x64_S64x64_S8000x64_1_0_0_1_n_n.contr.Idx) :
    (dot_S8000x64_S64x64_S8000x64_1_0_0_1_n_n.lhsIdx i q 1).val = (q ⟨0, by decide⟩).val :=
  dot_S8000x64_S64x64_S8000x64_1_0_0_1_n_n.lhsIdx_val_of_single rfl i q
theorem rhs0_0 (i : S8000x64.Idx) (q : dot_S8000x64_S64x64_S8000x64_1_0_0_1_n_n.contr.Idx) :
    (dot_S8000x64_S64x64_S8000x64_1_0_0_1_n_n.rhsIdx i q 0).val = (q ⟨0, by decide⟩).val :=
  dot_S8000x64_S64x64_S8000x64_1_0_0_1_n_n.rhsIdx_val_of_single rfl i q
theorem rhs0_1 (i : S8000x64.Idx) (q : dot_S8000x64_S64x64_S8000x64_1_0_0_1_n_n.contr.Idx) :
    (dot_S8000x64_S64x64_S8000x64_1_0_0_1_n_n.rhsIdx i q 1).val = (i 1).val := by
  unfold DotDims.rhsIdx
  rw [dif_neg (show ¬(1 : Fin S64x64.rank) ∈ dot_S8000x64_S64x64_S8000x64_1_0_0_1_n_n.rhsBatch by decide), dif_pos (show (1 : Fin S64x64.rank) ∈ dot_S8000x64_S64x64_S8000x64_1_0_0_1_n_n.rhsNonContracting by decide)]
  rfl

/-- One accumulation step at an entry: what the accumulator held plus the sum over the contracted axis. -/
theorem pay0_2_at (x0 : Vec Ideal S8000x64 .f32) (x1 : Vec Ideal S64x64 .f32) (v8 : Vec Ideal S8000x64 .f32) (r : Fin 8000) (cc : Fin 64) :
    k0_pay2 (F := Ideal) x0 x1 v8 (ix2 r cc) = v8 (ix2 r cc) + ∑ k : Fin 64, x0 (ix2 r k) * x1 (ix2 k cc) := by
  unfold k0_pay2
  rw [shapeCast_self]
  refine congrArg (v8 (ix2 r cc) + ·) ?_
  refine (Ideal.matmul_constant_zero_apply dot_S8000x64_S64x64_S8000x64_1_0_0_1_n_n none _ _ (ix2 r cc)).trans ?_
  rw [← Equiv.sum_comp (contrEquiv1 dot_S8000x64_S64x64_S8000x64_1_0_0_1_n_n 64 rfl rfl).symm]
  refine Finset.sum_congr rfl fun k _ => ?_
  have hk := contrEquiv1_symm_val dot_S8000x64_S64x64_S8000x64_1_0_0_1_n_n 64 rfl rfl k
  have el : dot_S8000x64_S64x64_S8000x64_1_0_0_1_n_n.lhsIdx (ix2 r cc) ((contrEquiv1 dot_S8000x64_S64x64_S8000x64_1_0_0_1_n_n 64 rfl rfl).symm k) = ix2 r k := funext fun a => Fin.ext (by
    match a with
    | ⟨0, _⟩ => exact lhs0_0 _ _
    | ⟨1, _⟩ => exact (lhs0_1 _ _).trans hk)
  have er : dot_S8000x64_S64x64_S8000x64_1_0_0_1_n_n.rhsIdx (ix2 r cc) ((contrEquiv1 dot_S8000x64_S64x64_S8000x64_1_0_0_1_n_n 64 rfl rfl).symm k) = ix2 k cc := funext fun a => Fin.ext (by
    match a with
    | ⟨0, _⟩ => exact (rhs0_0 _ _).trans hk
    | ⟨1, _⟩ => exact rhs0_1 _ _)
  rw [el, er]
  rfl

/-- The last step at an entry: the accumulator plus the bias row's entry of that column, then the maximum with zero. -/
theorem pay0_3_at (v17 : Vec Ideal S8000x64 .f32) (x2 : Vec Ideal S1x64 .f32) (r : Fin 8000) (cc : Fin 64) :
    k0_pay3 (F := Ideal) v17 x2 (ix2 r cc) = max (v17 (ix2 r cc) + x2 (ix2 (0 : Fin 1) cc)) 0 := by
  unfold k0_pay3
  rw [shapeCast_self]
  exact congrArg₂ max (congrArg (v17 (ix2 r cc) + ·) (broadcastTo_1b_ab_apply x2 broadcasts_S1x64_S8000x64 r cc)) Ideal.ofBits_zero_f32

/-- The output block at entry (r, cc): the layer's function at entry (p, q) of whole arrays X, W, B, wherever the
    blocks' entries along row r and column cc are the arrays' along row p and column q. -/
theorem entry0 (x0 : Vec Ideal S8000x64 .f32) (x1 : Vec Ideal S64x64 .f32) (x2 : Vec Ideal S1x64 .f32)
    (X : S64000x64.Idx → EReal) (W : S64x64.Idx → EReal) (B : S1x64.Idx → EReal)
    (r : Fin 8000) (cc : Fin 64) (p : Fin 64000) (q : Fin 64)
    (hx : ∀ k : Fin 64, x0 (ix2 r k) = X (ix2 p k)) (hw : ∀ k : Fin 64, x1 (ix2 k cc) = W (ix2 k q))
    (hb : x2 (ix2 (0 : Fin 1) cc) = B (ix2 (0 : Fin 1) q)) :
    k0_pay3 (F := Ideal) (k0_pay2 x0 x1 (k0_pay1 (F := Ideal))) x2 (ix2 r cc) = Cert.DenseSpec.dense0 X W B (ix2 p q) := by
  have h3 := pay0_3_at (k0_pay2 (F := Ideal) x0 x1 (k0_pay1 (F := Ideal))) x2 r cc
  have h2 := pay0_2_at x0 x1 (k0_pay1 (F := Ideal)) r cc
  have h1 := pay0_1_at r cc
  refine h3.trans ?_
  show max (k0_pay2 (F := Ideal) x0 x1 (k0_pay1 (F := Ideal)) (ix2 r cc) + x2 (ix2 (0 : Fin 1) cc)) 0
    = max ((∑ k : Fin 64, X (ix2 p k) * W (ix2 k q)) + B (ix2 (0 : Fin 1) q)) 0
  rw [h2, h1, zero_add, hb]
  refine congrArg (max · 0) (congrArg (· + B (ix2 (0 : Fin 1) q)) (Finset.sum_congr rfl fun k _ => ?_))
  rw [hx k, hw k]

/-! ## From the blocks to the array -/

/-- The printed index maps over the grid: the x block moves with the output's rows, the w block and the bias row with
    its columns, and the output's block indices stay in range. -/
theorem idx0_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) < 8 ∧ win0_3.index t (1 : Fin 2) < 1 :=
  (by decide +kernel : ∀ t : Fin grid0.N, _)

/-- Every block of the output is some point's. -/
theorem idx0_onto : ∀ (q0 : Fin 8) (q1 : Fin 1), ∃ t : Fin cfg0.N, win0_3.index t = ![q0.val, q1.val] :=
  (by decide +kernel : ∀ (q0 : Fin 8) (q1 : Fin 1), ∃ t : Fin grid0.N, win0_3.index t = ![q0.val, q1.val])

section
variable (V : (c : Dev nD) → (b : Ref sig .tc) → Buf (Elt Ideal) ((c : Thread nD τ).loc b))

/-- What point t writes back is its block of the layer's whole-array function of the three arrays as the region finds them. -/
theorem flushed0_eq (c : Dev nD) (t : Fin cfg0.N) :
    (dat0 (F := Ideal) V c).flushed 3 t = ((cfg0.win 3).blk t).view.read (Elt Ideal)
      (Cert.DenseSpec.dense0 (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold outAt0
  rw [piece0]
  obtain ⟨e0, e1, e2, e3, e4, e5, e6, e7⟩ := idx0_facts t
  show (k0_pay3 (F := Ideal) (k0_pay2 (iblk0 V c 0 t) (iblk0 V c 1 t) (k0_pay1 (F := Ideal))) (iblk0 V c 2 t) : S8000x64.Idx → EReal)
    = fun y : S8000x64.Idx => Cert.DenseSpec.dense0 (V c (Pipeline.arrRef spec0 0)) (V c (Pipeline.arrRef spec0 1)) (V c (Pipeline.arrRef spec0 2)) (((cfg0.win 3).blk t).view.emb y)
  funext y
  obtain ⟨r, cc, rfl⟩ : ∃ (r : Fin 8000) (cc : Fin 64), y = ix2 r cc := ⟨y 0, y 1, eq_ix2 y⟩
  have hp : win0_3.index t (0 : Fin 2) * 8000 + r.val < 64000 := by have := r.isLt; omega
  have hq : win0_3.index t (1 : Fin 2) * 64 + cc.val < 64 := by have := cc.isLt; omega
  have ee : ((cfg0.win 3).blk t).view.emb (ix2 r cc) = (ix2 (⟨_, hp⟩ : Fin 64000) (⟨_, hq⟩ : Fin 64) : S64000x64.Idx) := funext fun a => Fin.ext (by
    match a with
    | ⟨0, _⟩ => show win0_3.index t (0 : Fin 2) * 8000 + 1 * r.val = win0_3.index t (0 : Fin 2) * 8000 + r.val; omega
    | ⟨1, _⟩ => show win0_3.index t (1 : Fin 2) * 64 + 1 * cc.val = win0_3.index t (1 : Fin 2) * 64 + cc.val; omega)
  rw [ee]
  refine entry0 (iblk0 V c 0 t) (iblk0 V c 1 t) (iblk0 V c 2 t) (V c (Pipeline.arrRef spec0 0)) (V c (Pipeline.arrRef spec0 1)) (V c (Pipeline.arrRef spec0 2))
    r cc ⟨_, hp⟩ ⟨_, hq⟩ (fun k => ?_) (fun k => ?_) ?_
  · show V c (Pipeline.arrRef spec0 0) (((cfg0.win 0).blk t).view.emb (ix2 r k)) = _
    refine congrArg _ (funext fun a => Fin.ext ?_)
    match a with
    | ⟨0, _⟩ => show win0_0.index t (0 : Fin 2) * 8000 + 1 * r.val = win0_3.index t (0 : Fin 2) * 8000 + r.val; rw [e0]; omega
    | ⟨1, _⟩ => show win0_0.index t (1 : Fin 2) * 64 + 1 * k.val = k.val; rw [e1]; omega
  · show V c (Pipeline.arrRef spec0 1) (((cfg0.win 1).blk t).view.emb (ix2 k cc)) = _
    refine congrArg _ (funext fun a => Fin.ext ?_)
    match a with
    | ⟨0, _⟩ => show win0_1.index t (0 : Fin 2) * 64 + 1 * k.val = k.val; rw [e2]; omega
    | ⟨1, _⟩ => show win0_1.index t (1 : Fin 2) * 64 + 1 * cc.val = win0_3.index t (1 : Fin 2) * 64 + cc.val; rw [e3]; omega
  · show V c (Pipeline.arrRef spec0 2) (((cfg0.win 2).blk t).view.emb (ix2 (0 : Fin 1) cc)) = _
    refine congrArg _ (funext fun a => Fin.ext ?_)
    match a with
    | ⟨0, _⟩ => show win0_2.index t (0 : Fin 2) * 1 + 1 * 0 = 0; rw [e4]
    | ⟨1, _⟩ => show win0_2.index t (1 : Fin 2) * 64 + 1 * cc.val = win0_3.index t (1 : Fin 2) * 64 + cc.val; rw [e5]; omega

/-- An index of the output array is in point t's block iff each coordinate is in the block's range on its axis. -/
theorem mem_blk0 (t : Fin cfg0.N) (i : S64000x64.Idx) :
    i ∈ ((cfg0.win 3).blk t).view.set ↔ ∀ a : Fin 2, win0_3.index t a * S8000x64.size a ≤ (i a).val ∧ (i a).val < win0_3.index t a * S8000x64.size a + S8000x64.size a := by
  show i ∈ ((View.whole main_v1).slice (win0_3.rect t)).set ↔ _
  rw [View.set_slice_whole, Rect.mem_set_unit]
  exact Iff.rfl

/-- The output array after the region: the layer's function of the three arrays as the region finds them. The block
    that covers entry (p, q) is the one of row block p / 8000 and column block q / 64. -/
theorem final0 (c : Dev nD) :
    (dat0 (F := Ideal) V c).arrAt 3 cfg0.N
      = Cert.DenseSpec.dense0 (V c (Pipeline.arrRef spec0 0)) (V c (Pipeline.arrRef spec0 1)) (V c (Pipeline.arrRef spec0 2)) :=
  (dat0 (F := Ideal) V c).arrAt_eq_of_cover 3 _ (fun t _ => flushed0_eq V c t) fun i => by
    have hi0 : (i 0).val < 64000 := (i 0).isLt
    have hi1 : (i 1).val < 64 := (i 1).isLt
    obtain ⟨t, ht⟩ := idx0_onto ⟨(i 0).val / 8000, by omega⟩ ⟨(i 1).val / 64, by omega⟩
    have q0 : win0_3.index t (0 : Fin 2) = (i 0).val / 8000 := congrFun ht 0
    have q1 : win0_3.index t (1 : Fin 2) = (i 1).val / 64 := congrFun ht 1
    refine ⟨t, flush0_3 t, ?_⟩
    rw [mem_blk0]
    intro a
    match a with
    | ⟨0, _⟩ => show win0_3.index t (0 : Fin 2) * 8000 ≤ (i 0).val ∧ (i 0).val < win0_3.index t (0 : Fin 2) * 8000 + 8000; omega
    | ⟨1, _⟩ => show win0_3.index t (1 : Fin 2) * 64 ≤ (i 1).val ∧ (i 1).val < win0_3.index t (1 : Fin 2) * 64 + 64; omega

end

end Cert.KernelIdeal.Dense

end
-- ==== Proof.KI.Val1.lean ====
/-
  Region 1 (max(x · W_fc + b_fc, 0) over f32[64, 64000] × f32[64000, 512], the contracted axis in 20 blocks of 3200,
  one grid point per block): the value of the output array. Every step stores into the accumulator what it held
  (zero at the first step) plus the sum, over the block's 3200 positions, of the products of the two input blocks;
  the x block at step t is columns 3200·t … of x and the w block rows 3200·t … of w, so after step n the accumulator
  holds at (r, c) the sum of x(r, k) · w(k, c) over k < 3200·(n + 1), by induction on n (sums in a commutative monoid:
  a range split at 3200·(n + 1)). The last step stores the full sum plus the bias entry, cut at zero, into the one
  output block, which is the whole array.
-/
import proofs.«179658_j2465311228054_1_alg».proof.Proof.KI.Half1
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz1 : (![0, 0] : Fin 2 → Nat) = fun _ => 0 := funext fun a => by fin_cases a <;> rfl

section
variable {F : FTy → Type} [FloatOps F]

/-- The accumulator after the first step: the zero fill, then the first product added into it. -/
theorem pieceA1 (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : cond1_0 i) (hc1 : ¬cond1_1 i)
    (x0 : Vec F S64x3200 .f32) (x1 : Vec F S3200x512 .f32) :
    sout1_A c i arg3 harg3 arg4 harg4 arg5 harg5 arg6 harg6 arg7 harg7 hc0 hc1 x0 x1 = k1_pay2 x0 x1 k1_pay1 := by
  unfold sout1_A
  rw [View.read_writes_eq_canon _ _ _ (scover1_A c i arg3 harg3 arg4 harg4 arg5 harg5 arg6 harg6 arg7 harg7 hc0 hc1 x0 x1)]
  unfold kernelRun1_A
  dsimp only
  try sl_unfold_words
  rw [View.canon_cons_unit_zero hz1, View.readCov_unit_zero (S := S64x512) _ hz1]
  simp only [View.readAt_eq_ld, harg3.read_unread, harg4.read_unread,
    View.ld_unit_zero (S := S64x3200) hz1, View.ld_unit_zero (S := S3200x512) hz1]

/-- The accumulator after a middle step: this block's product added onto what it held. -/
theorem pieceB1 (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : ¬cond1_1 i)
    (x0 : Vec F S64x3200 .f32) (x1 : Vec F S3200x512 .f32) (xs : Vec F S64x512 .f32) :
    sout1_B c i arg3 harg3 arg4 harg4 arg5 harg5 arg6 harg6 arg7 harg7 hc0 hc1 x0 x1 xs = k1_pay2 x0 x1 xs := by
  unfold sout1_B
  rw [View.read_writes_eq_canon _ _ _ (scover1_B c i arg3 harg3 arg4 harg4 arg5 harg5 arg6 harg6 arg7 harg7 hc0 hc1 x0 x1 xs)]
  unfold kernelRun1_B
  dsimp only
  try sl_unfold_words
  rw [View.canon_unit_zero hz1]
  simp only [View.readAt_eq_ld, harg3.read_unread, harg4.read_unread, harg7.read_unread,
    View.ld_unit_zero (S := S64x3200) hz1, View.ld_unit_zero (S := S3200x512) hz1, View.ld_unit_zero (S := S64x512) hz1]

/-- The accumulator after the last step: the same. -/
theorem pieceC1 (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) :
    sout1_C c i arg3 harg3 arg4 harg4 arg5 harg5 arg6 harg6 arg7 harg7 hc0 hc1 x0 x1 x2 xs = k1_pay2 x0 x1 xs := by
  unfold sout1_C
  rw [View.read_writes_eq_canon _ _ _ (scover1_C c i arg3 harg3 arg4 harg4 arg5 harg5 arg6 harg6 arg7 harg7 hc0 hc1 x0 x1 x2 xs)]
  unfold kernelRun1_C
  dsimp only
  try sl_unfold_words
  rw [View.canon_unit_zero hz1]
  simp only [View.readAt_eq_ld, harg3.read_unread, harg4.read_unread, harg7.read_unread,
    View.ld_unit_zero (S := S64x3200) hz1, View.ld_unit_zero (S := S3200x512) hz1, View.ld_unit_zero (S := S64x512) hz1]

/-- The output block after the last step: the accumulator as that step leaves it, plus the bias row, cut at zero. -/
theorem pieceO1 (c : Dev nD) (i : grid1.Coords)
    (arg3 : Memref sig .tc .vmem S64x3200 .f32) (harg3 : arg3.IsWhole) (arg4 : Memref sig .tc .vmem S3200x512 .f32) (harg4 : arg4.IsWhole)
    (arg5 : Memref sig .tc .vmem S1x512 .f32) (harg5 : arg5.IsWhole) (arg6 : Memref sig .tc .vmem S64x512 .f32) (harg6 : arg6.IsWhole)
    (arg7 : Memref sig .tc .vmem S64x512 .f32) (harg7 : arg7.IsWhole) (hc0 : ¬cond1_0 i) (hc1 : cond1_1 i)
    (x0 : Vec F S64x3200 .f32) (x1 : Vec F S3200x512 .f32) (x2 : Vec F S1x512 .f32) (xs : Vec F S64x512 .f32) :
    out1_C c i arg3 harg3 arg4 harg4 arg5 harg5 arg6 harg6 arg7 harg7 hc0 hc1 x0 x1 x2 xs = k1_pay3 (k1_pay2 x0 x1 xs) x2 := by
  unfold out1_C
  rw [View.read_writes_eq_canon _ _ _ (cover1_C c i arg3 harg3 arg4 harg4 arg5 harg5 arg6 harg6 arg7 harg7 hc0 hc1 x0 x1 x2 xs)]
  unfold kernelRun1_C
  dsimp only
  try sl_unfold_words
  rw [View.canon_unit_zero hz1, View.readCov_unit_zero (S := S64x512) _ hz1]
  simp only [View.readAt_eq_ld, harg3.read_unread, harg4.read_unread, harg5.read_unread, harg7.read_unread,
    View.ld_unit_zero (S := S64x3200) hz1, View.ld_unit_zero (S := S3200x512) hz1, View.ld_unit_zero (S := S1x512) hz1,
    View.ld_unit_zero (S := S64x512) hz1]

end

/-! ## The stored terms at an entry, on the extended reals -/

/-- The accumulator starts at zero. -/
theorem pay1_1_at (r : Fin 64) (cc : Fin 512) : k1_pay1 (F := Ideal) (ix2 r cc) = 0 := by
  unfold k1_pay1
  rw [shapeCast_self]
  exact Ideal.ofBits_zero_f32

/-- The product's dimension numbers at an output entry and a position along the contracted axis: the left operand is
    read at (row, position), the right at (position, column). -/
theorem lhs1_0 (i : S64x512.Idx) (q : dot_S64x3200_S3200x512_S64x512_1_0_0_1_n_n.contr.Idx) :
    (dot_S64x3200_S3200x512_S64x512_1_0_0_1_n_n.lhsIdx i q 0).val = (i 0).val := by
  unfold DotDims.lhsIdx
  rw [dif_neg (show ¬(0 : Fin S64x3200.rank) ∈ dot_S64x3200_S3200x512_S64x512_1_0_0_1_n_n.lhsBatch by decide), dif_pos (show (0 : Fin S64x3200.rank) ∈ dot_S64x3200_S3200x512_S64x512_1_0_0_1_n_n.lhsNonContracting by decide)]
  rfl
theorem lhs1_1 (i : S64x512.Idx) (q : dot_S64x3200_S3200x512_S64x512_1_0_0_1_n_n.contr.Idx) :
    (dot_S64x3200_S3200x512_S64x512_1_0_0_1_n_n.lhsIdx i q 1).val = (q ⟨0, by decide⟩).val :=
  dot_S64x3200_S3200x512_S64x512_1_0_0_1_n_n.lhsIdx_val_of_single rfl i q
theorem rhs1_0 (i : S64x512.Idx) (q : dot_S64x3200_S3200x512_S64x512_1_0_0_1_n_n.contr.Idx) :
    (dot_S64x3200_S3200x512_S64x512_1_0_0_1_n_n.rhsIdx i q 0).val = (q ⟨0, by decide⟩).val :=
  dot_S64x3200_S3200x512_S64x512_1_0_0_1_n_n.rhsIdx_val_of_single rfl i q
theorem rhs1_1 (i : S64x512.Idx) (q : dot_S64x3200_S3200x512_S64x512_1_0_0_1_n_n.contr.Idx) :
    (dot_S64x3200_S3200x512_S64x512_1_0_0_1_n_n.rhsIdx i q 1).val = (i 1).val := by
  unfold DotDims.rhsIdx
  rw [dif_neg (show ¬(1 : Fin S3200x512.rank) ∈ dot_S64x3200_S3200x512_S64x512_1_0_0_1_n_n.rhsBatch by decide), dif_pos (show (1 : Fin S3200x512.rank) ∈ dot_S64x3200_S3200x512_S64x512_1_0_0_1_n_n.rhsNonContracting by decide)]
  rfl

/-- One accumulation step at an entry: what the accumulator held plus the sum over the block's positions. -/
theorem pay1_2_at (x0 : Vec Ideal S64x3200 .f32) (x1 : Vec Ideal S3200x512 .f32) (v8 : Vec Ideal S64x512 .f32) (r : Fin 64) (cc : Fin 512) :
    k1_pay2 (F := Ideal) x0 x1 v8 (ix2 r cc) = v8 (ix2 r cc) + ∑ k : Fin 3200, x0 (ix2 r k) * x1 (ix2 k cc) := by
  unfold k1_pay2
  rw [shapeCast_self, shapeCast_self]
  refine congrArg (v8 (ix2 r cc) + ·) ?_
  refine (Ideal.matmul_constant_zero_apply dot_S64x3200_S3200x512_S64x512_1_0_0_1_n_n none _ _ (ix2 r cc)).trans ?_
  rw [← Equiv.sum_comp (contrEquiv1 dot_S64x3200_S3200x512_S64x512_1_0_0_1_n_n 3200 rfl rfl).symm]
  refine Finset.sum_congr rfl fun k _ => ?_
  have hk := contrEquiv1_symm_val dot_S64x3200_S3200x512_S64x512_1_0_0_1_n_n 3200 rfl rfl k
  have el : dot_S64x3200_S3200x512_S64x512_1_0_0_1_n_n.lhsIdx (ix2 r cc) ((contrEquiv1 dot_S64x3200_S3200x512_S64x512_1_0_0_1_n_n 3200 rfl rfl).symm k) = ix2 r k := funext fun a => Fin.ext (by
    match a with
    | ⟨0, _⟩ => exact lhs1_0 _ _
    | ⟨1, _⟩ => exact (lhs1_1 _ _).trans hk)
  have er : dot_S64x3200_S3200x512_S64x512_1_0_0_1_n_n.rhsIdx (ix2 r cc) ((contrEquiv1 dot_S64x3200_S3200x512_S64x512_1_0_0_1_n_n 3200 rfl rfl).symm k) = ix2 k cc := funext fun a => Fin.ext (by
    match a with
    | ⟨0, _⟩ => exact (rhs1_0 _ _).trans hk
    | ⟨1, _⟩ => exact rhs1_1 _ _)
  rw [el, er]
  rfl

/-- The last step's store at an entry: the accumulator plus the bias row's entry of that column, then the maximum with zero. -/
theorem pay1_3_at (v17 : Vec Ideal S64x512 .f32) (x2 : Vec Ideal S1x512 .f32) (r : Fin 64) (cc : Fin 512) :
    k1_pay3 (F := Ideal) v17 x2 (ix2 r cc) = max (v17 (ix2 r cc) + x2 (ix2 (0 : Fin 1) cc)) 0 := by
  unfold k1_pay3
  rw [shapeCast_self]
  exact congrArg₂ max (congrArg (v17 (ix2 r cc) + ·) (broadcastTo_1b_ab_apply x2 broadcasts_S1x512_S64x512 r cc)) Ideal.ofBits_zero_f32

/-! ## The sum along the contracted axis, by positions -/

/-- The product of entry (r, k) of X and entry (k, cc) of W, as a function of the position k along the contracted axis
    (zero past its end). -/
def term1 (X : S64x64000.Idx → EReal) (W : S64000x512.Idx → EReal) (r : Fin 64) (cc : Fin 512) (k : ℕ) : EReal :=
  if h : k < 64000 then X (ix2 r (⟨k, h⟩ : Fin 64000)) * W (ix2 (⟨k, h⟩ : Fin 64000) cc) else 0

/-- The whole contraction as the sum of the positions' products below 64000. -/
theorem sum_term1 (X : S64x64000.Idx → EReal) (W : S64000x512.Idx → EReal) (r : Fin 64) (cc : Fin 512) :
    ∑ k : Fin 64000, X (ix2 r k) * W (ix2 k cc) = ∑ k ∈ Finset.range 64000, term1 X W r cc k := by
  rw [← Fin.sum_univ_eq_sum_range (fun k => term1 X W r cc k) 64000]
  refine Finset.sum_congr rfl fun k _ => ?_
  unfold term1
  rw [dif_pos k.isLt]

/-- One step at an entry, when the x block is columns o … o + 3199 of X and the w block rows o … o + 3199 of W: the
    accumulator gains the products of the positions o … o + 3199. -/
theorem step1_at (x0 : Vec Ideal S64x3200 .f32) (x1 : Vec Ideal S3200x512 .f32) (xs : Vec Ideal S64x512 .f32)
    (X : S64x64000.Idx → EReal) (W : S64000x512.Idx → EReal) (o : ℕ) (ho : o + 3200 ≤ 64000) (r : Fin 64) (cc : Fin 512)
    (hx : ∀ k : Fin 3200, x0 (ix2 r k) = X (ix2 r (⟨o + k.val, by have := k.isLt; omega⟩ : Fin 64000)))
    (hw : ∀ k : Fin 3200, x1 (ix2 k cc) = W (ix2 (⟨o + k.val, by have := k.isLt; omega⟩ : Fin 64000) cc)) :
    k1_pay2 (F := Ideal) x0 x1 xs (ix2 r cc) = xs (ix2 r cc) + ∑ k ∈ Finset.range 3200, term1 X W r cc (o + k) := by
  rw [pay1_2_at]
  refine congrArg (xs (ix2 r cc) + ·) ?_
  rw [← Fin.sum_univ_eq_sum_range (fun k => term1 X W r cc (o + k)) 3200]
  refine Finset.sum_congr rfl fun k _ => ?_
  have hk : o + k.val < 64000 := by have := k.isLt; omega
  unfold term1
  rw [dif_pos hk, hx k, hw k]

/-- The last step's store at an entry, when the accumulator held the products of the positions below o and the
    blocks are the last 3200 positions: the layer's function at that entry. -/
theorem last1_at (x0 : Vec Ideal S64x3200 .f32) (x1 : Vec Ideal S3200x512 .f32) (x2 : Vec Ideal S1x512 .f32) (xs : Vec Ideal S64x512 .f32)
    (X : S64x64000.Idx → EReal) (W : S64000x512.Idx → EReal) (B : S1x512.Idx → EReal) (o : ℕ) (ho : o + 3200 = 64000) (r : Fin 64) (cc : Fin 512)
    (hx : ∀ k : Fin 3200, x0 (ix2 r k) = X (ix2 r (⟨o + k.val, by have := k.isLt; omega⟩ : Fin 64000)))
    (hw : ∀ k : Fin 3200, x1 (ix2 k cc) = W (ix2 (⟨o + k.val, by have := k.isLt; omega⟩ : Fin 64000) cc))
    (hb : x2 (ix2 (0 : Fin 1) cc) = B (ix2 (0 : Fin 1) cc))
    (hs : xs (ix2 r cc) = ∑ k ∈ Finset.range o, term1 X W r cc k) :
    k1_pay3 (F := Ideal) (k1_pay2 (F := Ideal) x0 x1 xs) x2 (ix2 r cc) = Cert.DenseSpec.dense1 X W B (ix2 r cc) := by
  have h3 := pay1_3_at (k1_pay2 (F := Ideal) x0 x1 xs) x2 r cc
  have h2 := step1_at x0 x1 xs X W o (by omega) r cc hx hw
  refine h3.trans ?_
  show max (k1_pay2 (F := Ideal) x0 x1 xs (ix2 r cc) + x2 (ix2 (0 : Fin 1) cc)) 0
    = max ((∑ k : Fin 64000, X (ix2 r k) * W (ix2 k cc)) + B (ix2 (0 : Fin 1) cc)) 0
  rw [h2, hs, hb, sum_term1, ← Finset.sum_range_add, ho]

/-! ## From the blocks to the array -/

/-- The printed index maps over the grid: at step t the x block is column block t, the w block row block t; the bias
    row and the output are one block each. -/
theorem idx1_facts : ∀ t : Fin cfg1.N,
    win1_0.index t (0 : Fin 2) = 0 ∧ win1_0.index t (1 : Fin 2) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Some point writes the output's one block back. -/
theorem idx1_onto : ∃ t : Fin cfg1.N, (cfg1.win 3).flush t = true ∧ win1_3.index t = ![0, 0] :=
  (by decide +kernel : ∃ t : Fin grid1.N, win1_3.flush t = true ∧ win1_3.index t = ![0, 0])

section
variable (V : (c : Dev nD) → (b : Ref sig .tc) → Buf (Elt Ideal) ((c : Thread nD τ).loc b))

/-- The x block at step t is columns 3200·t … of x, -/
theorem blk1_0_read (c : Dev nD) (t : Fin cfg1.N) (r : Fin 64) (k : Fin 3200) (h : 3200 * t.val + k.val < 64000) :
    (iblk1 (F := Ideal) V c 0 t : S64x3200.Idx → EReal) (ix2 r k)
      = ((V c (Pipeline.arrRef spec1 0)) : S64x64000.Idx → EReal) (ix2 r (⟨3200 * t.val + k.val, h⟩ : Fin 64000)) := by
  obtain ⟨e0, e1, e2, e3, e4, e5, e6, e7⟩ := idx1_facts t
  show V c (Pipeline.arrRef spec1 0) (((cfg1.win 0).blk t).view.emb (ix2 r k)) = _
  refine congrArg _ (funext fun a => Fin.ext ?_)
  match a with
  | ⟨0, _⟩ => show win1_0.index t (0 : Fin 2) * 64 + 1 * r.val = r.val; rw [e0]; omega
  | ⟨1, _⟩ => show win1_0.index t (1 : Fin 2) * 3200 + 1 * k.val = 3200 * t.val + k.val; rw [e1]; omega

/-- the w block rows 3200·t … of w, -/
theorem blk1_1_read (c : Dev nD) (t : Fin cfg1.N) (k : Fin 3200) (cc : Fin 512) (h : 3200 * t.val + k.val < 64000) :
    (iblk1 (F := Ideal) V c 1 t : S3200x512.Idx → EReal) (ix2 k cc)
      = ((V c (Pipeline.arrRef spec1 1)) : S64000x512.Idx → EReal) (ix2 (⟨3200 * t.val + k.val, h⟩ : Fin 64000) cc) := by
  obtain ⟨e0, e1, e2, e3, e4, e5, e6, e7⟩ := idx1_facts t
  show V c (Pipeline.arrRef spec1 1) (((cfg1.win 1).blk t).view.emb (ix2 k cc)) = _
  refine congrArg _ (funext fun a => Fin.ext ?_)
  match a with
  | ⟨0, _⟩ => show win1_1.index t (0 : Fin 2) * 3200 + 1 * k.val = 3200 * t.val + k.val; rw [e2]; omega
  | ⟨1, _⟩ => show win1_1.index t (1 : Fin 2) * 512 + 1 * cc.val = cc.val; rw [e3]; omega

/-- and the bias block is the bias row. -/
theorem blk1_2_read (c : Dev nD) (t : Fin cfg1.N) (cc : Fin 512) :
    (iblk1 (F := Ideal) V c 2 t : S1x512.Idx → EReal) (ix2 (0 : Fin 1) cc) = ((V c (Pipeline.arrRef spec1 2)) : S1x512.Idx → EReal) (ix2 (0 : Fin 1) cc) := by
  obtain ⟨e0, e1, e2, e3, e4, e5, e6, e7⟩ := idx1_facts t
  show V c (Pipeline.arrRef spec1 2) (((cfg1.win 2).blk t).view.emb (ix2 (0 : Fin 1) cc)) = _
  refine congrArg _ (funext fun a => Fin.ext ?_)
  match a with
  | ⟨0, _⟩ => show win1_2.index t (0 : Fin 2) * 1 + 1 * 0 = 0; rw [e4]
  | ⟨1, _⟩ => show win1_2.index t (1 : Fin 2) * 512 + 1 * cc.val = cc.val; rw [e5]; omega

/-- THE ACCUMULATION, READ: after step n the accumulator holds at (r, cc) the products of the positions below 3200·(n + 1). -/
theorem acc1_at (c : Dev nD) (n : ℕ) : ∀ (hn : n < cfg1.N) (r : Fin 64) (cc : Fin 512),
    accAt1 (F := Ideal) V c n hn (ix2 r cc) = ∑ k ∈ Finset.range (3200 * (n + 1)), term1 (V c (Pipeline.arrRef spec1 0)) (V c (Pipeline.arrRef spec1 1)) r cc k := by
  induction n with
  | zero =>
    intro hn r cc
    have key : accAt1 (F := Ideal) V c 0 hn = k1_pay2 (F := Ideal) (iblk1 V c 0 ⟨0, hn⟩) (iblk1 V c 1 ⟨0, hn⟩) (k1_pay1 (F := Ideal)) := by
      rw [show accAt1 (F := Ideal) V c 0 hn = accAt1 (F := Ideal) V c (⟨0, hn⟩ : Fin cfg1.N).val (⟨0, hn⟩ : Fin cfg1.N).isLt from rfl,
        accAt1_A V c ⟨0, hn⟩ rfl (by decide : ¬(0 : ℕ) = 19), pieceA1]
    rw [key]
    refine (step1_at (iblk1 V c 0 ⟨0, hn⟩) (iblk1 V c 1 ⟨0, hn⟩) (k1_pay1 (F := Ideal)) (V c (Pipeline.arrRef spec1 0)) (V c (Pipeline.arrRef spec1 1)) (3200 * 0) (by omega) r cc
      (fun k => blk1_0_read V c ⟨0, hn⟩ r k _) (fun k => blk1_1_read V c ⟨0, hn⟩ k cc _)).trans ?_
    rw [pay1_1_at, zero_add, show 3200 * (0 + 1) = 3200 * 0 + 3200 from rfl, Finset.sum_range_add, Nat.mul_zero, Finset.range_zero,
      Finset.sum_empty, zero_add]
  | succ n ih =>
    intro hn r cc
    have hn' : n + 1 < 20 := lt_of_lt_of_eq hn N1_eq
    have h0 : ¬(⟨n + 1, hn⟩ : Fin cfg1.N).val = 0 := Nat.succ_ne_zero n
    have key : accAt1 (F := Ideal) V c (n + 1) hn
        = k1_pay2 (F := Ideal) (iblk1 V c 0 ⟨n + 1, hn⟩) (iblk1 V c 1 ⟨n + 1, hn⟩) (accAt1 (F := Ideal) V c n (Nat.lt_of_succ_lt hn)) := by
      rw [show accAt1 (F := Ideal) V c (n + 1) hn = accAt1 (F := Ideal) V c (⟨n + 1, hn⟩ : Fin cfg1.N).val (⟨n + 1, hn⟩ : Fin cfg1.N).isLt from rfl]
      by_cases h1 : (⟨n + 1, hn⟩ : Fin cfg1.N).val = 19
      · rw [accAt1_C V c ⟨n + 1, hn⟩ h0 h1, pieceC1]; rfl
      · rw [accAt1_B V c ⟨n + 1, hn⟩ h0 h1, pieceB1]; rfl
    rw [key]
    refine (step1_at (iblk1 V c 0 ⟨n + 1, hn⟩) (iblk1 V c 1 ⟨n + 1, hn⟩) (accAt1 (F := Ideal) V c n (Nat.lt_of_succ_lt hn)) (V c (Pipeline.arrRef spec1 0)) (V c (Pipeline.arrRef spec1 1)) (3200 * (n + 1)) (by omega) r cc
      (fun k => blk1_0_read V c ⟨n + 1, hn⟩ r k _) (fun k => blk1_1_read V c ⟨n + 1, hn⟩ k cc _)).trans ?_
    rw [ih (Nat.lt_of_succ_lt hn) r cc, show 3200 * (n + 1 + 1) = 3200 * (n + 1) + 3200 from by omega, Finset.sum_range_add]

/-- What the last point writes back is the layer's whole-array function of the three arrays as the region finds them
    (its one block is the whole array). -/
theorem flushed1_eq (c : Dev nD) (t : Fin cfg1.N) (hf : (cfg1.win 3).flush t = true) :
    (dat1 (F := Ideal) V c).flushed 3 t = ((cfg1.win 3).blk t).view.read (Elt Ideal)
      (Cert.DenseSpec.dense1 (V c (Pipeline.arrRef spec1 0)) (V c (Pipeline.arrRef spec1 1)) (V c (Pipeline.arrRef spec1 2))) := by
  have hN : t.val < 20 := lt_of_lt_of_eq t.isLt N1_eq
  have h19 : t.val = 19 := by have := (flush1_3 t).mp hf; omega
  show (cfg1.win 3).cut (grid1.coords t) ((dat1 (F := Ideal) V c).after 3 t) = _
  rw [after1_3]
  unfold outAt1
  rw [dif_pos h19, pieceO1]
  obtain ⟨e0, e1, e2, e3, e4, e5, e6, e7⟩ := idx1_facts t
  show (k1_pay3 (F := Ideal) (k1_pay2 (F := Ideal) (iblk1 V c 0 t) (iblk1 V c 1 t) (accAt1 (F := Ideal) V c (t.val - 1) (Nat.lt_of_le_of_lt (Nat.sub_le _ _) t.isLt))) (iblk1 V c 2 t) : S64x512.Idx → EReal)
    = fun y : S64x512.Idx => Cert.DenseSpec.dense1 (V c (Pipeline.arrRef spec1 0)) (V c (Pipeline.arrRef spec1 1)) (V c (Pipeline.arrRef spec1 2)) (((cfg1.win 3).blk t).view.emb y)
  funext y
  obtain ⟨r, cc, rfl⟩ : ∃ (r : Fin 64) (cc : Fin 512), y = ix2 r cc := ⟨y 0, y 1, eq_ix2 y⟩
  have ee : ((cfg1.win 3).blk t).view.emb (ix2 r cc) = (ix2 r cc : S64x512.Idx) := funext fun a => Fin.ext (by
    match a with
    | ⟨0, _⟩ => show win1_3.index t (0 : Fin 2) * 64 + 1 * r.val = r.val; rw [e6]; omega
    | ⟨1, _⟩ => show win1_3.index t (1 : Fin 2) * 512 + 1 * cc.val = cc.val; rw [e7]; omega)
  rw [ee]
  refine last1_at (iblk1 V c 0 t) (iblk1 V c 1 t) (iblk1 V c 2 t) (accAt1 (F := Ideal) V c (t.val - 1) (Nat.lt_of_le_of_lt (Nat.sub_le _ _) t.isLt))
    (V c (Pipeline.arrRef spec1 0)) (V c (Pipeline.arrRef spec1 1)) (V c (Pipeline.arrRef spec1 2)) (3200 * t.val) (by omega) r cc
    (fun k => blk1_0_read V c t r k _) (fun k => blk1_1_read V c t k cc _) (blk1_2_read V c t cc) ?_
  rw [acc1_at V c (t.val - 1) _ r cc, show 3200 * (t.val - 1 + 1) = 3200 * t.val from by omega]

/-- An index of the output array is in point t's block iff each coordinate is in the block's range on its axis. -/
theorem mem_blk1 (t : Fin cfg1.N) (i : S64x512.Idx) :
    i ∈ ((cfg1.win 3).blk t).view.set ↔ ∀ a : Fin 2, win1_3.index t a * S64x512.size a ≤ (i a).val ∧ (i a).val < win1_3.index t a * S64x512.size a + S64x512.size a := by
  show i ∈ ((View.whole main_v36).slice (win1_3.rect t)).set ↔ _
  rw [View.set_slice_whole, Rect.mem_set_unit]
  exact Iff.rfl

/-- The output array after the region: the layer's function of the three arrays as the region finds them. -/
theorem final1 (c : Dev nD) :
    (dat1 (F := Ideal) V c).arrAt 3 cfg1.N
      = Cert.DenseSpec.dense1 (V c (Pipeline.arrRef spec1 0)) (V c (Pipeline.arrRef spec1 1)) (V c (Pipeline.arrRef spec1 2)) :=
  (dat1 (F := Ideal) V c).arrAt_eq_of_cover 3 _ (fun t hf => flushed1_eq V c t hf) fun i => by
    have hi0 : (i 0).val < 64 := (i 0).isLt
    have hi1 : (i 1).val < 512 := (i 1).isLt
    obtain ⟨t, hf, ht⟩ := idx1_onto
    have q0 : win1_3.index t (0 : Fin 2) = 0 := congrFun ht 0
    have q1 : win1_3.index t (1 : Fin 2) = 0 := congrFun ht 1
    refine ⟨t, hf, ?_⟩
    rw [mem_blk1]
    intro a
    match a with
    | ⟨0, _⟩ => show win1_3.index t (0 : Fin 2) * 64 ≤ (i 0).val ∧ (i 0).val < win1_3.index t (0 : Fin 2) * 64 + 64; omega
    | ⟨1, _⟩ => show win1_3.index t (1 : Fin 2) * 512 ≤ (i 1).val ∧ (i 1).val < win1_3.index t (1 : Fin 2) * 512 + 512; omega

end

end Cert.KernelIdeal.Dense

end
-- ==== Proof.KI.Val2.lean ====
/-
  Region 2 (mean = x · W_mean + b_mean over f32[64, 512] × f32[512, 64], one grid point): the value of the output array.
  The one store into the output block holds, entry by entry, the zeroed accumulator plus the sum over the contracted
  axis of the products of the two input blocks, plus the bias row's entry of the column. Each input block is read
  from its array where the output block's rows and columns say, so the block written back at a point is that
  point's block of the whole-array function  (r, c) ↦ (Σ_k x(r, k) · w(k, c)) + b(0, c);  the output's blocks
  cover its array, so the array ends holding that function.
-/
import proofs.«179658_j2465311228054_1_alg».proof.Proof.KI.Half2
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz2 : (![0, 0] : Fin 2 → Nat) = fun _ => 0 := funext fun a => by fin_cases a <;> rfl

section
variable {F : FTy → Type} [FloatOps F]

/-- What the body leaves in the output block, as one term of the three input blocks: the accumulator is zeroed,
    one product is added into it, and the bias row is added on the way out. -/
theorem piece2 (c : Dev nD) (i : grid2.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond2_0 i) (hc1 : cond2_1 i)
    (x0 : Vec F S64x512 .f32) (x1 : Vec F S512x64 .f32) (x2 : Vec F S1x64 .f32) :
    out2_3 c i arg3 harg3 arg4 harg4 arg5 harg5 arg6 harg6 arg7 harg7 hc0 hc1 x0 x1 x2 = k2_pay3 (k2_pay2 x0 x1 k2_pay1) x2 := by
  unfold out2_3
  rw [View.read_writes_eq_canon _ _ _ (cover2_3 c i arg3 harg3 arg4 harg4 arg5 harg5 arg6 harg6 arg7 harg7 hc0 hc1 x0 x1 x2)]
  unfold kernelRun2
  dsimp only
  try sl_unfold_words
  rw [View.canon_unit_zero hz2]
  rw [View.readCov_eq_canon_ld _ _ _ (fun y => ⟨_, List.mem_cons_self, View.mem_set_unit_zero hz2 inb_S64x64_S64x64_0_0 y⟩)]
  rw [View.canon_cons_unit_zero hz2, View.readCov_unit_zero (S := S64x64) _ hz2]
  simp only [View.readAt_eq_ld, harg3.read_unread, harg4.read_unread, harg5.read_unread,
    View.ld_unit_zero (S := S64x512) hz2, View.ld_unit_zero (S := S512x64) hz2, View.ld_unit_zero (S := S1x64) hz2,
    View.ld_unit_zero (S := S64x64) hz2]

end

/-! ## The stored term at an entry, on the extended reals -/

/-- The accumulator starts at zero. -/
theorem pay2_1_at (r : Fin 64) (cc : Fin 64) : k2_pay1 (F := Ideal) (ix2 r cc) = 0 := by
  unfold k2_pay1
  rw [shapeCast_self]
  exact Ideal.ofBits_zero_f32

theorem lhs2_0 (i : S64x64.Idx) (q : dot_S64x512_S512x64_S64x64_1_0_0_1_n_n.contr.Idx) :
    (dot_S64x512_S512x64_S64x64_1_0_0_1_n_n.lhsIdx i q 0).val = (i 0).val := by
  unfold DotDims.lhsIdx
  rw [dif_neg (show ¬(0 : Fin S64x512.rank) ∈ dot_S64x512_S512x64_S64x64_1_0_0_1_n_n.lhsBatch by decide), dif_pos (show (0 : Fin S64x512.rank) ∈ dot_S64x512_S512x64_S64x64_1_0_0_1_n_n.lhsNonContracting by decide)]
  rfl
theorem lhs2_1 (i : S64x64.Idx) (q : dot_S64x512_S512x64_S64x64_1_0_0_1_n_n.contr.Idx) :
    (dot_S64x512_S512x64_S64x64_1_0_0_1_n_n.lhsIdx i q 1).val = (q ⟨0, by decide⟩).val :=
  dot_S64x512_S512x64_S64x64_1_0_0_1_n_n.lhsIdx_val_of_single rfl i q
theorem rhs2_0 (i : S64x64.Idx) (q : dot_S64x512_S512x64_S64x64_1_0_0_1_n_n.contr.Idx) :
    (dot_S64x512_S512x64_S64x64_1_0_0_1_n_n.rhsIdx i q 0).val = (q ⟨0, by decide⟩).val :=
  dot_S64x512_S512x64_S64x64_1_0_0_1_n_n.rhsIdx_val_of_single rfl i q
theorem rhs2_1 (i : S64x64.Idx) (q : dot_S64x512_S512x64_S64x64_1_0_0_1_n_n.contr.Idx) :
    (dot_S64x512_S512x64_S64x64_1_0_0_1_n_n.rhsIdx i q 1).val = (i 1).val := by
  unfold DotDims.rhsIdx
  rw [dif_neg (show ¬(1 : Fin S512x64.rank) ∈ dot_S64x512_S512x64_S64x64_1_0_0_1_n_n.rhsBatch by decide), dif_pos (show (1 : Fin S512x64.rank) ∈ dot_S64x512_S512x64_S64x64_1_0_0_1_n_n.rhsNonContracting by decide)]
  rfl

/-- One accumulation step at an entry: what the accumulator held plus the sum over the contracted axis. -/
theorem pay2_2_at (x0 : Vec Ideal S64x512 .f32) (x1 : Vec Ideal S512x64 .f32) (v8 : Vec Ideal S64x64 .f32) (r : Fin 64) (cc : Fin 64) :
    k2_pay2 (F := Ideal) x0 x1 v8 (ix2 r cc) = v8 (ix2 r cc) + ∑ k : Fin 512, x0 (ix2 r k) * x1 (ix2 k cc) := by
  unfold k2_pay2
  rw [shapeCast_self, shapeCast_self]
  refine congrArg (v8 (ix2 r cc) + ·) ?_
  refine (Ideal.matmul_constant_zero_apply dot_S64x512_S512x64_S64x64_1_0_0_1_n_n none _ _ (ix2 r cc)).trans ?_
  rw [← Equiv.sum_comp (contrEquiv1 dot_S64x512_S512x64_S64x64_1_0_0_1_n_n 512 rfl rfl).symm]
  refine Finset.sum_congr rfl fun k _ => ?_
  have hk := contrEquiv1_symm_val dot_S64x512_S512x64_S64x64_1_0_0_1_n_n 512 rfl rfl k
  have el : dot_S64x512_S512x64_S64x64_1_0_0_1_n_n.lhsIdx (ix2 r cc) ((contrEquiv1 dot_S64x512_S512x64_S64x64_1_0_0_1_n_n 512 rfl rfl).symm k) = ix2 r k := funext fun a => Fin.ext (by
    match a with
    | ⟨0, _⟩ => exact lhs2_0 _ _
    | ⟨1, _⟩ => exact (lhs2_1 _ _).trans hk)
  have er : dot_S64x512_S512x64_S64x64_1_0_0_1_n_n.rhsIdx (ix2 r cc) ((contrEquiv1 dot_S64x512_S512x64_S64x64_1_0_0_1_n_n 512 rfl rfl).symm k) = ix2 k cc := funext fun a => Fin.ext (by
    match a with
    | ⟨0, _⟩ => exact (rhs2_0 _ _).trans hk
    | ⟨1, _⟩ => exact rhs2_1 _ _)
  rw [el, er]
  rfl

/-- The last step at an entry: the accumulator plus the bias row's entry of that column. -/
theorem pay2_3_at (v17 : Vec Ideal S64x64 .f32) (x2 : Vec Ideal S1x64 .f32) (r : Fin 64) (cc : Fin 64) :
    k2_pay3 (F := Ideal) v17 x2 (ix2 r cc) = v17 (ix2 r cc) + x2 (ix2 (0 : Fin 1) cc) := by
  unfold k2_pay3
  rw [shapeCast_self]
  exact congrArg (v17 (ix2 r cc) + ·) (broadcastTo_1b_ab_apply x2 broadcasts_S1x64_S64x64 r cc)

/-- The output block at entry (r, cc): the sum over the contracted axis plus the bias entry, read from whole arrays
    X, W, B wherever the blocks' entries are theirs. -/
theorem entry2 (x0 : Vec Ideal S64x512 .f32) (x1 : Vec Ideal S512x64 .f32) (x2 : Vec Ideal S1x64 .f32)
    (X : S64x512.Idx → EReal) (W : S512x64.Idx → EReal) (B : S1x64.Idx → EReal)
    (r : Fin 64) (cc : Fin 64) (p : Fin 64) (q : Fin 64)
    (hx : ∀ k : Fin 512, x0 (ix2 r k) = X (ix2 p k)) (hw : ∀ k : Fin 512, x1 (ix2 k cc) = W (ix2 k q))
    (hb : x2 (ix2 (0 : Fin 1) cc) = B (ix2 (0 : Fin 1) q)) :
    k2_pay3 (F := Ideal) (k2_pay2 x0 x1 (k2_pay1 (F := Ideal))) x2 (ix2 r cc) = Cert.DenseSpec.dense2 X W B (ix2 p q) := by
  have h3 := pay2_3_at (k2_pay2 (F := Ideal) x0 x1 (k2_pay1 (F := Ideal))) x2 r cc
  have h2 := pay2_2_at x0 x1 (k2_pay1 (F := Ideal)) r cc
  have h1 := pay2_1_at r cc
  refine h3.trans ?_
  show k2_pay2 (F := Ideal) x0 x1 (k2_pay1 (F := Ideal)) (ix2 r cc) + x2 (ix2 (0 : Fin 1) cc)
    = (∑ k : Fin 512, X (ix2 p k) * W (ix2 k q)) + B (ix2 (0 : Fin 1) q)
  rw [h2, h1, zero_add, hb]
  refine congrArg (· + B (ix2 (0 : Fin 1) q)) (Finset.sum_congr rfl fun k _ => ?_)
  rw [hx k, hw k]

/-! ## From the blocks to the array -/

/-- The printed index maps over the grid: the x block moves with the output's rows, the w block and the bias row with
    its columns, and the output's block indices stay in range. -/
theorem idx2_facts : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = win2_3.index t (1 : Fin 2)
    ∧ win2_2.index t (0 : Fin 2) = 0 ∧ win2_2.index t (1 : Fin 2) = win2_3.index t (1 : Fin 2)
    ∧ win2_3.index t (0 : Fin 2) < 1 ∧ win2_3.index t (1 : Fin 2) < 1 :=
  (by decide +kernel : ∀ t : Fin grid2.N, _)

/-- Every block of the output is some point's. -/
theorem idx2_onto : ∀ (q0 : Fin 1) (q1 : Fin 1), ∃ t : Fin cfg2.N, win2_3.index t = ![q0.val, q1.val] :=
  (by decide +kernel : ∀ (q0 : Fin 1) (q1 : Fin 1), ∃ t : Fin grid2.N, win2_3.index t = ![q0.val, q1.val])

section
variable (V : (c : Dev nD) → (b : Ref sig .tc) → Buf (Elt Ideal) ((c : Thread nD τ).loc b))

/-- What point t writes back is its block of the layer's whole-array function of the three arrays as the region finds them. -/
theorem flushed2_eq (c : Dev nD) (t : Fin cfg2.N) :
    (dat2 (F := Ideal) V c).flushed 3 t = ((cfg2.win 3).blk t).view.read (Elt Ideal)
      (Cert.DenseSpec.dense2 (V c (Pipeline.arrRef spec2 0)) (V c (Pipeline.arrRef spec2 1)) (V c (Pipeline.arrRef spec2 2))) := by
  show (cfg2.win 3).cut (grid2.coords t) ((dat2 (F := Ideal) V c).after 3 t) = _
  rw [after2_3]
  unfold outAt2
  rw [piece2]
  obtain ⟨e0, e1, e2, e3, e4, e5, e6, e7⟩ := idx2_facts t
  show (k2_pay3 (F := Ideal) (k2_pay2 (iblk2 V c 0 t) (iblk2 V c 1 t) (k2_pay1 (F := Ideal))) (iblk2 V c 2 t) : S64x64.Idx → EReal)
    = fun y : S64x64.Idx => Cert.DenseSpec.dense2 (V c (Pipeline.arrRef spec2 0)) (V c (Pipeline.arrRef spec2 1)) (V c (Pipeline.arrRef spec2 2)) (((cfg2.win 3).blk t).view.emb y)
  funext y
  obtain ⟨r, cc, rfl⟩ : ∃ (r : Fin 64) (cc : Fin 64), y = ix2 r cc := ⟨y 0, y 1, eq_ix2 y⟩
  have hp : win2_3.index t (0 : Fin 2) * 64 + r.val < 64 := by have := r.isLt; omega
  have hq : win2_3.index t (1 : Fin 2) * 64 + cc.val < 64 := by have := cc.isLt; omega
  have ee : ((cfg2.win 3).blk t).view.emb (ix2 r cc) = (ix2 (⟨_, hp⟩ : Fin 64) (⟨_, hq⟩ : Fin 64) : S64x64.Idx) := funext fun a => Fin.ext (by
    match a with
    | ⟨0, _⟩ => show win2_3.index t (0 : Fin 2) * 64 + 1 * r.val = win2_3.index t (0 : Fin 2) * 64 + r.val; omega
    | ⟨1, _⟩ => show win2_3.index t (1 : Fin 2) * 64 + 1 * cc.val = win2_3.index t (1 : Fin 2) * 64 + cc.val; omega)
  rw [ee]
  refine entry2 (iblk2 V c 0 t) (iblk2 V c 1 t) (iblk2 V c 2 t) (V c (Pipeline.arrRef spec2 0)) (V c (Pipeline.arrRef spec2 1)) (V c (Pipeline.arrRef spec2 2))
    r cc ⟨_, hp⟩ ⟨_, hq⟩ (fun k => ?_) (fun k => ?_) ?_
  · show V c (Pipeline.arrRef spec2 0) (((cfg2.win 0).blk t).view.emb (ix2 r k)) = _
    refine congrArg _ (funext fun a => Fin.ext ?_)
    match a with
    | ⟨0, _⟩ => show win2_0.index t (0 : Fin 2) * 64 + 1 * r.val = win2_3.index t (0 : Fin 2) * 64 + r.val; rw [e0]; omega
    | ⟨1, _⟩ => show win2_0.index t (1 : Fin 2) * 512 + 1 * k.val = k.val; rw [e1]; omega
  · show V c (Pipeline.arrRef spec2 1) (((cfg2.win 1).blk t).view.emb (ix2 k cc)) = _
    refine congrArg _ (funext fun a => Fin.ext ?_)
    match a with
    | ⟨0, _⟩ => show win2_1.index t (0 : Fin 2) * 512 + 1 * k.val = k.val; rw [e2]; omega
    | ⟨1, _⟩ => show win2_1.index t (1 : Fin 2) * 64 + 1 * cc.val = win2_3.index t (1 : Fin 2) * 64 + cc.val; rw [e3]; omega
  · show V c (Pipeline.arrRef spec2 2) (((cfg2.win 2).blk t).view.emb (ix2 (0 : Fin 1) cc)) = _
    refine congrArg _ (funext fun a => Fin.ext ?_)
    match a with
    | ⟨0, _⟩ => show win2_2.index t (0 : Fin 2) * 1 + 1 * 0 = 0; rw [e4]
    | ⟨1, _⟩ => show win2_2.index t (1 : Fin 2) * 64 + 1 * cc.val = win2_3.index t (1 : Fin 2) * 64 + cc.val; rw [e5]; omega

/-- An index of the output array is in point t's block iff each coordinate is in the block's range on its axis. -/
theorem mem_blk2 (t : Fin cfg2.N) (i : S64x64.Idx) :
    i ∈ ((cfg2.win 3).blk t).view.set ↔ ∀ a : Fin 2, win2_3.index t a * S64x64.size a ≤ (i a).val ∧ (i a).val < win2_3.index t a * S64x64.size a + S64x64.size a := by
  show i ∈ ((View.whole main_v38).slice (win2_3.rect t)).set ↔ _
  rw [View.set_slice_whole, Rect.mem_set_unit]
  exact Iff.rfl

/-- The output array after the region: the layer's function of the three arrays as the region finds them. -/
theorem final2 (c : Dev nD) :
    (dat2 (F := Ideal) V c).arrAt 3 cfg2.N
      = Cert.DenseSpec.dense2 (V c (Pipeline.arrRef spec2 0)) (V c (Pipeline.arrRef spec2 1)) (V c (Pipeline.arrRef spec2 2)) :=
  (dat2 (F := Ideal) V c).arrAt_eq_of_cover 3 _ (fun t _ => flushed2_eq V c t) fun i => by
    have hi0 : (i 0).val < 64 := (i 0).isLt
    have hi1 : (i 1).val < 64 := (i 1).isLt
    obtain ⟨t, ht⟩ := idx2_onto ⟨(i 0).val / 64, by omega⟩ ⟨(i 1).val / 64, by omega⟩
    have q0 : win2_3.index t (0 : Fin 2) = (i 0).val / 64 := congrFun ht 0
    have q1 : win2_3.index t (1 : Fin 2) = (i 1).val / 64 := congrFun ht 1
    refine ⟨t, flush2_3 t, ?_⟩
    rw [mem_blk2]
    intro a
    match a with
    | ⟨0, _⟩ => show win2_3.index t (0 : Fin 2) * 64 ≤ (i 0).val ∧ (i 0).val < win2_3.index t (0 : Fin 2) * 64 + 64; omega
    | ⟨1, _⟩ => show win2_3.index t (1 : Fin 2) * 64 ≤ (i 1).val ∧ (i 1).val < win2_3.index t (1 : Fin 2) * 64 + 64; omega

end

end Cert.KernelIdeal.Dense

end
-- ==== Proof.KI.Val3.lean ====
/-
  Region 3 (log_std = x · W_logstd + b_logstd over f32[64, 512] × f32[512, 64], one grid point): the value of the output array.
  The one store into the output block holds, entry by entry, the zeroed accumulator plus the sum over the contracted
  axis of the products of the two input blocks, plus the bias row's entry of the column. Each input block is read
  from its array where the output block's rows and columns say, so the block written back at a point is that
  point's block of the whole-array function  (r, c) ↦ (Σ_k x(r, k) · w(k, c)) + b(0, c);  the output's blocks
  cover its array, so the array ends holding that function.
-/
import proofs.«179658_j2465311228054_1_alg».proof.Proof.KI.Half3
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz3 : (![0, 0] : Fin 2 → Nat) = fun _ => 0 := funext fun a => by fin_cases a <;> rfl

section
variable {F : FTy → Type} [FloatOps F]

/-- What the body leaves in the output block, as one term of the three input blocks: the accumulator is zeroed,
    one product is added into it, and the bias row is added on the way out. -/
theorem piece3 (c : Dev nD) (i : grid3.Coords)
    (arg3 : Memref sig .tc .vmem S64x512 .f32) (harg3 : arg3.IsWhole) (arg4 : Memref sig .tc .vmem S512x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S64x64 .f32) (harg7 : arg7.IsWhole) (hc0 : cond3_0 i) (hc1 : cond3_1 i)
    (x0 : Vec F S64x512 .f32) (x1 : Vec F S512x64 .f32) (x2 : Vec F S1x64 .f32) :
    out3_3 c i arg3 harg3 arg4 harg4 arg5 harg5 arg6 harg6 arg7 harg7 hc0 hc1 x0 x1 x2 = k3_pay3 (k3_pay2 x0 x1 k3_pay1) x2 := by
  unfold out3_3
  rw [View.read_writes_eq_canon _ _ _ (cover3_3 c i arg3 harg3 arg4 harg4 arg5 harg5 arg6 harg6 arg7 harg7 hc0 hc1 x0 x1 x2)]
  unfold kernelRun3
  dsimp only
  try sl_unfold_words
  rw [View.canon_unit_zero hz3]
  rw [View.readCov_eq_canon_ld _ _ _ (fun y => ⟨_, List.mem_cons_self, View.mem_set_unit_zero hz3 inb_S64x64_S64x64_0_0 y⟩)]
  rw [View.canon_cons_unit_zero hz3, View.readCov_unit_zero (S := S64x64) _ hz3]
  simp only [View.readAt_eq_ld, harg3.read_unread, harg4.read_unread, harg5.read_unread,
    View.ld_unit_zero (S := S64x512) hz3, View.ld_unit_zero (S := S512x64) hz3, View.ld_unit_zero (S := S1x64) hz3, View.ld_unit_zero (S := S64x64) hz3]

end

/-! ## The stored term at an entry, on the extended reals -/

/-- The accumulator starts at zero. -/
theorem pay3_1_at (r : Fin 64) (cc : Fin 64) : k3_pay1 (F := Ideal) (ix2 r cc) = 0 := by
  unfold k3_pay1
  rw [shapeCast_self]
  exact Ideal.ofBits_zero_f32

/-- The product's dimension numbers at an output entry and a position along the contracted axis: the left operand is
    read at (row, position), the right at (position, column). -/
theorem lhs3_0 (i : S64x64.Idx) (q : dot_S64x512_S512x64_S64x64_1_0_0_1_n_n.contr.Idx) :
    (dot_S64x512_S512x64_S64x64_1_0_0_1_n_n.lhsIdx i q 0).val = (i 0).val := by
  unfold DotDims.lhsIdx
  rw [dif_neg (show ¬(0 : Fin S64x512.rank) ∈ dot_S64x512_S512x64_S64x64_1_0_0_1_n_n.lhsBatch by decide), dif_pos (show (0 : Fin S64x512.rank) ∈ dot_S64x512_S512x64_S64x64_1_0_0_1_n_n.lhsNonContracting by decide)]
  rfl
theorem lhs3_1 (i : S64x64.Idx) (q : dot_S64x512_S512x64_S64x64_1_0_0_1_n_n.contr.Idx) :
    (dot_S64x512_S512x64_S64x64_1_0_0_1_n_n.lhsIdx i q 1).val = (q ⟨0, by decide⟩).val :=
  dot_S64x512_S512x64_S64x64_1_0_0_1_n_n.lhsIdx_val_of_single rfl i q
theorem rhs3_0 (i : S64x64.Idx) (q : dot_S64x512_S512x64_S64x64_1_0_0_1_n_n.contr.Idx) :
    (dot_S64x512_S512x64_S64x64_1_0_0_1_n_n.rhsIdx i q 0).val = (q ⟨0, by decide⟩).val :=
  dot_S64x512_S512x64_S64x64_1_0_0_1_n_n.rhsIdx_val_of_single rfl i q
theorem rhs3_1 (i : S64x64.Idx) (q : dot_S64x512_S512x64_S64x64_1_0_0_1_n_n.contr.Idx) :
    (dot_S64x512_S512x64_S64x64_1_0_0_1_n_n.rhsIdx i q 1).val = (i 1).val := by
  unfold DotDims.rhsIdx
  rw [dif_neg (show ¬(1 : Fin S512x64.rank) ∈ dot_S64x512_S512x64_S64x64_1_0_0_1_n_n.rhsBatch by decide), dif_pos (show (1 : Fin S512x64.rank) ∈ dot_S64x512_S512x64_S64x64_1_0_0_1_n_n.rhsNonContracting by decide)]
  rfl

/-- One accumulation step at an entry: what the accumulator held plus the sum over the contracted axis. -/
theorem pay3_2_at (x0 : Vec Ideal S64x512 .f32) (x1 : Vec Ideal S512x64 .f32) (v8 : Vec Ideal S64x64 .f32) (r : Fin 64) (cc : Fin 64) :
    k3_pay2 (F := Ideal) x0 x1 v8 (ix2 r cc) = v8 (ix2 r cc) + ∑ k : Fin 512, x0 (ix2 r k) * x1 (ix2 k cc) := by
  unfold k3_pay2
  rw [shapeCast_self, shapeCast_self]
  refine congrArg (v8 (ix2 r cc) + ·) ?_
  refine (Ideal.matmul_constant_zero_apply dot_S64x512_S512x64_S64x64_1_0_0_1_n_n none _ _ (ix2 r cc)).trans ?_
  rw [← Equiv.sum_comp (contrEquiv1 dot_S64x512_S512x64_S64x64_1_0_0_1_n_n 512 rfl rfl).symm]
  refine Finset.sum_congr rfl fun k _ => ?_
  have hk := contrEquiv1_symm_val dot_S64x512_S512x64_S64x64_1_0_0_1_n_n 512 rfl rfl k
  have el : dot_S64x512_S512x64_S64x64_1_0_0_1_n_n.lhsIdx (ix2 r cc) ((contrEquiv1 dot_S64x512_S512x64_S64x64_1_0_0_1_n_n 512 rfl rfl).symm k) = ix2 r k := funext fun a => Fin.ext (by
    match a with
    | ⟨0, _⟩ => exact lhs3_0 _ _
    | ⟨1, _⟩ => exact (lhs3_1 _ _).trans hk)
  have er : dot_S64x512_S512x64_S64x64_1_0_0_1_n_n.rhsIdx (ix2 r cc) ((contrEquiv1 dot_S64x512_S512x64_S64x64_1_0_0_1_n_n 512 rfl rfl).symm k) = ix2 k cc := funext fun a => Fin.ext (by
    match a with
    | ⟨0, _⟩ => exact (rhs3_0 _ _).trans hk
    | ⟨1, _⟩ => exact rhs3_1 _ _)
  rw [el, er]
  rfl

/-- The last step at an entry: the accumulator plus the bias row's entry of that column. -/
theorem pay3_3_at (v17 : Vec Ideal S64x64 .f32) (x2 : Vec Ideal S1x64 .f32) (r : Fin 64) (cc : Fin 64) :
    k3_pay3 (F := Ideal) v17 x2 (ix2 r cc) = v17 (ix2 r cc) + x2 (ix2 (0 : Fin 1) cc) := by
  unfold k3_pay3
  rw [shapeCast_self]
  exact congrArg (v17 (ix2 r cc) + ·) (broadcastTo_1b_ab_apply x2 broadcasts_S1x64_S64x64 r cc)

/-- The output block at entry (r, cc): the layer's function at entry (p, q) of whole arrays X, W, B, wherever the
    blocks' entries along row r and column cc are the arrays' along row p and column q. -/
theorem entry3 (x0 : Vec Ideal S64x512 .f32) (x1 : Vec Ideal S512x64 .f32) (x2 : Vec Ideal S1x64 .f32)
    (X : S64x512.Idx → EReal) (W : S512x64.Idx → EReal) (B : S1x64.Idx → EReal)
    (r : Fin 64) (cc : Fin 64) (p : Fin 64) (q : Fin 64)
    (hx : ∀ k : Fin 512, x0 (ix2 r k) = X (ix2 p k)) (hw : ∀ k : Fin 512, x1 (ix2 k cc) = W (ix2 k q))
    (hb : x2 (ix2 (0 : Fin 1) cc) = B (ix2 (0 : Fin 1) q)) :
    k3_pay3 (F := Ideal) (k3_pay2 x0 x1 (k3_pay1 (F := Ideal))) x2 (ix2 r cc) = Cert.DenseSpec.dense2 X W B (ix2 p q) := by
  have h3 := pay3_3_at (k3_pay2 (F := Ideal) x0 x1 (k3_pay1 (F := Ideal))) x2 r cc
  have h2 := pay3_2_at x0 x1 (k3_pay1 (F := Ideal)) r cc
  have h1 := pay3_1_at r cc
  refine h3.trans ?_
  show k3_pay2 (F := Ideal) x0 x1 (k3_pay1 (F := Ideal)) (ix2 r cc) + x2 (ix2 (0 : Fin 1) cc)
    = (∑ k : Fin 512, X (ix2 p k) * W (ix2 k q)) + B (ix2 (0 : Fin 1) q)
  rw [h2, h1, zero_add, hb]
  refine congrArg (· + B (ix2 (0 : Fin 1) q)) (Finset.sum_congr rfl fun k _ => ?_)
  rw [hx k, hw k]

/-! ## From the blocks to the array -/

/-- The printed index maps over the grid: the x block moves with the output's rows, the w block and the bias row with
    its columns, and the output's block indices stay in range. -/
theorem idx3_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = win3_3.index t (1 : Fin 2)
    ∧ win3_2.index t (0 : Fin 2) = 0 ∧ win3_2.index t (1 : Fin 2) = win3_3.index t (1 : Fin 2)
    ∧ win3_3.index t (0 : Fin 2) < 1 ∧ win3_3.index t (1 : Fin 2) < 1 :=
  (by decide +kernel : ∀ t : Fin grid3.N, _)

/-- Every block of the output is some point's. -/
theorem idx3_onto : ∀ (q0 : Fin 1) (q1 : Fin 1), ∃ t : Fin cfg3.N, win3_3.index t = ![q0.val, q1.val] :=
  (by decide +kernel : ∀ (q0 : Fin 1) (q1 : Fin 1), ∃ t : Fin grid3.N, win3_3.index t = ![q0.val, q1.val])

section
variable (V : (c : Dev nD) → (b : Ref sig .tc) → Buf (Elt Ideal) ((c : Thread nD τ).loc b))

/-- What point t writes back is its block of the layer's whole-array function of the three arrays as the region finds them. -/
theorem flushed3_eq (c : Dev nD) (t : Fin cfg3.N) :
    (dat3 (F := Ideal) V c).flushed 3 t = ((cfg3.win 3).blk t).view.read (Elt Ideal)
      (Cert.DenseSpec.dense2 (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold outAt3
  rw [piece3]
  obtain ⟨e0, e1, e2, e3, e4, e5, e6, e7⟩ := idx3_facts t
  show (k3_pay3 (F := Ideal) (k3_pay2 (iblk3 V c 0 t) (iblk3 V c 1 t) (k3_pay1 (F := Ideal))) (iblk3 V c 2 t) : S64x64.Idx → EReal)
    = fun y : S64x64.Idx => Cert.DenseSpec.dense2 (V c (Pipeline.arrRef spec3 0)) (V c (Pipeline.arrRef spec3 1)) (V c (Pipeline.arrRef spec3 2)) (((cfg3.win 3).blk t).view.emb y)
  funext y
  obtain ⟨r, cc, rfl⟩ : ∃ (r : Fin 64) (cc : Fin 64), y = ix2 r cc := ⟨y 0, y 1, eq_ix2 y⟩
  have hp : win3_3.index t (0 : Fin 2) * 64 + r.val < 64 := by have := r.isLt; omega
  have hq : win3_3.index t (1 : Fin 2) * 64 + cc.val < 64 := by have := cc.isLt; omega
  have ee : ((cfg3.win 3).blk t).view.emb (ix2 r cc) = (ix2 (⟨_, hp⟩ : Fin 64) (⟨_, hq⟩ : Fin 64) : S64x64.Idx) := funext fun a => Fin.ext (by
    match a with
    | ⟨0, _⟩ => show win3_3.index t (0 : Fin 2) * 64 + 1 * r.val = win3_3.index t (0 : Fin 2) * 64 + r.val; omega
    | ⟨1, _⟩ => show win3_3.index t (1 : Fin 2) * 64 + 1 * cc.val = win3_3.index t (1 : Fin 2) * 64 + cc.val; omega)
  rw [ee]
  refine entry3 (iblk3 V c 0 t) (iblk3 V c 1 t) (iblk3 V c 2 t) (V c (Pipeline.arrRef spec3 0)) (V c (Pipeline.arrRef spec3 1)) (V c (Pipeline.arrRef spec3 2))
    r cc ⟨_, hp⟩ ⟨_, hq⟩ (fun k => ?_) (fun k => ?_) ?_
  · show V c (Pipeline.arrRef spec3 0) (((cfg3.win 0).blk t).view.emb (ix2 r k)) = _
    refine congrArg _ (funext fun a => Fin.ext ?_)
    match a with
    | ⟨0, _⟩ => show win3_0.index t (0 : Fin 2) * 64 + 1 * r.val = win3_3.index t (0 : Fin 2) * 64 + r.val; rw [e0]; omega
    | ⟨1, _⟩ => show win3_0.index t (1 : Fin 2) * 512 + 1 * k.val = k.val; rw [e1]; omega
  · show V c (Pipeline.arrRef spec3 1) (((cfg3.win 1).blk t).view.emb (ix2 k cc)) = _
    refine congrArg _ (funext fun a => Fin.ext ?_)
    match a with
    | ⟨0, _⟩ => show win3_1.index t (0 : Fin 2) * 512 + 1 * k.val = k.val; rw [e2]; omega
    | ⟨1, _⟩ => show win3_1.index t (1 : Fin 2) * 64 + 1 * cc.val = win3_3.index t (1 : Fin 2) * 64 + cc.val; rw [e3]; omega
  · show V c (Pipeline.arrRef spec3 2) (((cfg3.win 2).blk t).view.emb (ix2 (0 : Fin 1) cc)) = _
    refine congrArg _ (funext fun a => Fin.ext ?_)
    match a with
    | ⟨0, _⟩ => show win3_2.index t (0 : Fin 2) * 1 + 1 * 0 = 0; rw [e4]
    | ⟨1, _⟩ => show win3_2.index t (1 : Fin 2) * 64 + 1 * cc.val = win3_3.index t (1 : Fin 2) * 64 + cc.val; rw [e5]; omega

/-- An index of the output array is in point t's block iff each coordinate is in the block's range on its axis. -/
theorem mem_blk3 (t : Fin cfg3.N) (i : S64x64.Idx) :
    i ∈ ((cfg3.win 3).blk t).view.set ↔ ∀ a : Fin 2, win3_3.index t a * S64x64.size a ≤ (i a).val ∧ (i a).val < win3_3.index t a * S64x64.size a + S64x64.size a := by
  show i ∈ ((View.whole main_v40).slice (win3_3.rect t)).set ↔ _
  rw [View.set_slice_whole, Rect.mem_set_unit]
  exact Iff.rfl

/-- The output array after the region: the layer's function of the three arrays as the region finds them. The block
    that covers entry (p, q) is the one of row block p / 64 and column block q / 64. -/
theorem final3 (c : Dev nD) :
    (dat3 (F := Ideal) V c).arrAt 3 cfg3.N
      = Cert.DenseSpec.dense2 (V c (Pipeline.arrRef spec3 0)) (V c (Pipeline.arrRef spec3 1)) (V c (Pipeline.arrRef spec3 2)) :=
  (dat3 (F := Ideal) V c).arrAt_eq_of_cover 3 _ (fun t _ => flushed3_eq V c t) fun i => by
    have hi0 : (i 0).val < 64 := (i 0).isLt
    have hi1 : (i 1).val < 64 := (i 1).isLt
    obtain ⟨t, ht⟩ := idx3_onto ⟨(i 0).val / 64, by omega⟩ ⟨(i 1).val / 64, by omega⟩
    have q0 : win3_3.index t (0 : Fin 2) = (i 0).val / 64 := congrFun ht 0
    have q1 : win3_3.index t (1 : Fin 2) = (i 1).val / 64 := congrFun ht 1
    refine ⟨t, flush3_3 t, ?_⟩
    rw [mem_blk3]
    intro a
    match a with
    | ⟨0, _⟩ => show win3_3.index t (0 : Fin 2) * 64 ≤ (i 0).val ∧ (i 0).val < win3_3.index t (0 : Fin 2) * 64 + 64; omega
    | ⟨1, _⟩ => show win3_3.index t (1 : Fin 2) * 64 ≤ (i 1).val ∧ (i 1).val < win3_3.index t (1 : Fin 2) * 64 + 64; omega

end

end Cert.KernelIdeal.Dense

end
-- ==== Proof.KI.Val4.lean ====
/-
  Region 4 (d = max(z · W_dec_fc + b_dec_fc, 0) over f32[64, 64] × f32[64, 64000], ten grid points, one per block of 6400 columns): the value of the output array.
  The one store into the output block holds, entry by entry, the zeroed accumulator plus the sum over the contracted
  axis of the products of the two input blocks, plus the bias row's entry of the column, and then the maximum with zero. Each input block is read
  from its array where the output block's rows and columns say, so the block written back at a point is that
  point's block of the whole-array function  (r, c) ↦ max((Σ_k x(r, k) · w(k, c)) + b(0, c), 0);  the output's blocks
  cover its array, so the array ends holding that function.
-/
import proofs.«179658_j2465311228054_1_alg».proof.Proof.KI.Half4
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz4 : (![0, 0] : Fin 2 → Nat) = fun _ => 0 := funext fun a => by fin_cases a <;> rfl

section
variable {F : FTy → Type} [FloatOps F]

/-- What the body leaves in the output block, as one term of the three input blocks: the accumulator is zeroed,
    one product is added into it, and the bias row is added on the way out. -/
theorem piece4 (c : Dev nD) (i : grid4.Coords)
    (arg3 : Memref sig .tc .vmem S64x64 .f32) (harg3 : arg3.IsWhole) (arg4 : Memref sig .tc .vmem S64x6400 .f32) (harg4 : arg4.IsWhole)
    (arg5 : Memref sig .tc .vmem S1x6400 .f32) (harg5 : arg5.IsWhole) (arg6 : Memref sig .tc .vmem S64x6400 .f32) (harg6 : arg6.IsWhole)
    (arg7 : Memref sig .tc .vmem S64x6400 .f32) (harg7 : arg7.IsWhole) (hc0 : cond4_0 i) (hc1 : cond4_1 i)
    (x0 : Vec F S64x64 .f32) (x1 : Vec F S64x6400 .f32) (x2 : Vec F S1x6400 .f32) :
    out4_3 c i arg3 harg3 arg4 harg4 arg5 harg5 arg6 harg6 arg7 harg7 hc0 hc1 x0 x1 x2 = k4_pay3 (k4_pay2 x0 x1 k4_pay1) x2 := by
  unfold out4_3
  rw [View.read_writes_eq_canon _ _ _ (cover4_3 c i arg3 harg3 arg4 harg4 arg5 harg5 arg6 harg6 arg7 harg7 hc0 hc1 x0 x1 x2)]
  unfold kernelRun4
  dsimp only
  try sl_unfold_words
  rw [View.canon_unit_zero hz4]
  rw [View.readCov_eq_canon_ld _ _ _ (fun y => ⟨_, List.mem_cons_self, View.mem_set_unit_zero hz4 inb_S64x6400_S64x6400_0_0 y⟩)]
  rw [View.canon_cons_unit_zero hz4, View.readCov_unit_zero (S := S64x6400) _ hz4]
  simp only [View.readAt_eq_ld, harg3.read_unread, harg4.read_unread, harg5.read_unread,
    View.ld_unit_zero (S := S64x64) hz4, View.ld_unit_zero (S := S64x6400) hz4, View.ld_unit_zero (S := S1x6400) hz4]

end

/-! ## The stored term at an entry, on the extended reals -/

/-- The accumulator starts at zero. -/
theorem pay4_1_at (r : Fin 64) (cc : Fin 6400) : k4_pay1 (F := Ideal) (ix2 r cc) = 0 := by
  unfold k4_pay1
  rw [shapeCast_self]
  exact Ideal.ofBits_zero_f32

/-- The product's dimension numbers at an output entry and a position along the contracted axis: the left operand is
    read at (row, position), the right at (position, column). -/
theorem lhs4_0 (i : S64x6400.Idx) (q : dot_S64x64_S64x6400_S64x6400_1_0_0_1_n_n.contr.Idx) :
    (dot_S64x64_S64x6400_S64x6400_1_0_0_1_n_n.lhsIdx i q 0).val = (i 0).val := by
  unfold DotDims.lhsIdx
  rw [dif_neg (show ¬(0 : Fin S64x64.rank) ∈ dot_S64x64_S64x6400_S64x6400_1_0_0_1_n_n.lhsBatch by decide), dif_pos (show (0 : Fin S64x64.rank) ∈ dot_S64x64_S64x6400_S64x6400_1_0_0_1_n_n.lhsNonContracting by decide)]
  rfl
theorem lhs4_1 (i : S64x6400.Idx) (q : dot_S64x64_S64x6400_S64x6400_1_0_0_1_n_n.contr.Idx) :
    (dot_S64x64_S64x6400_S64x6400_1_0_0_1_n_n.lhsIdx i q 1).val = (q ⟨0, by decide⟩).val :=
  dot_S64x64_S64x6400_S64x6400_1_0_0_1_n_n.lhsIdx_val_of_single rfl i q
theorem rhs4_0 (i : S64x6400.Idx) (q : dot_S64x64_S64x6400_S64x6400_1_0_0_1_n_n.contr.Idx) :
    (dot_S64x64_S64x6400_S64x6400_1_0_0_1_n_n.rhsIdx i q 0).val = (q ⟨0, by decide⟩).val :=
  dot_S64x64_S64x6400_S64x6400_1_0_0_1_n_n.rhsIdx_val_of_single rfl i q
theorem rhs4_1 (i : S64x6400.Idx) (q : dot_S64x64_S64x6400_S64x6400_1_0_0_1_n_n.contr.Idx) :
    (dot_S64x64_S64x6400_S64x6400_1_0_0_1_n_n.rhsIdx i q 1).val = (i 1).val := by
  unfold DotDims.rhsIdx
  rw [dif_neg (show ¬(1 : Fin S64x6400.rank) ∈ dot_S64x64_S64x6400_S64x6400_1_0_0_1_n_n.rhsBatch by decide), dif_pos (show (1 : Fin S64x6400.rank) ∈ dot_S64x64_S64x6400_S64x6400_1_0_0_1_n_n.rhsNonContracting by decide)]
  rfl

/-- One accumulation step at an entry: what the accumulator held plus the sum over the contracted axis. -/
theorem pay4_2_at (x0 : Vec Ideal S64x64 .f32) (x1 : Vec Ideal S64x6400 .f32) (v8 : Vec Ideal S64x6400 .f32) (r : Fin 64) (cc : Fin 6400) :
    k4_pay2 (F := Ideal) x0 x1 v8 (ix2 r cc) = v8 (ix2 r cc) + ∑ k : Fin 64, x0 (ix2 r k) * x1 (ix2 k cc) := by
  unfold k4_pay2
  rw [shapeCast_self, shapeCast_self]
  refine congrArg (v8 (ix2 r cc) + ·) ?_
  refine (Ideal.matmul_constant_zero_apply dot_S64x64_S64x6400_S64x6400_1_0_0_1_n_n none _ _ (ix2 r cc)).trans ?_
  rw [← Equiv.sum_comp (contrEquiv1 dot_S64x64_S64x6400_S64x6400_1_0_0_1_n_n 64 rfl rfl).symm]
  refine Finset.sum_congr rfl fun k _ => ?_
  have hk := contrEquiv1_symm_val dot_S64x64_S64x6400_S64x6400_1_0_0_1_n_n 64 rfl rfl k
  have el : dot_S64x64_S64x6400_S64x6400_1_0_0_1_n_n.lhsIdx (ix2 r cc) ((contrEquiv1 dot_S64x64_S64x6400_S64x6400_1_0_0_1_n_n 64 rfl rfl).symm k) = ix2 r k := funext fun a => Fin.ext (by
    match a with
    | ⟨0, _⟩ => exact lhs4_0 _ _
    | ⟨1, _⟩ => exact (lhs4_1 _ _).trans hk)
  have er : dot_S64x64_S64x6400_S64x6400_1_0_0_1_n_n.rhsIdx (ix2 r cc) ((contrEquiv1 dot_S64x64_S64x6400_S64x6400_1_0_0_1_n_n 64 rfl rfl).symm k) = ix2 k cc := funext fun a => Fin.ext (by
    match a with
    | ⟨0, _⟩ => exact (rhs4_0 _ _).trans hk
    | ⟨1, _⟩ => exact rhs4_1 _ _)
  rw [el, er]
  rfl

/-- The last step at an entry: the accumulator plus the bias row's entry of that column, then the maximum with zero. -/
theorem pay4_3_at (v17 : Vec Ideal S64x6400 .f32) (x2 : Vec Ideal S1x6400 .f32) (r : Fin 64) (cc : Fin 6400) :
    k4_pay3 (F := Ideal) v17 x2 (ix2 r cc) = max (v17 (ix2 r cc) + x2 (ix2 (0 : Fin 1) cc)) 0 := by
  unfold k4_pay3
  rw [shapeCast_self]
  exact congrArg₂ max (congrArg (v17 (ix2 r cc) + ·) (broadcastTo_1b_ab_apply x2 broadcasts_S1x6400_S64x6400 r cc)) Ideal.ofBits_zero_f32

/-- The output block at entry (r, cc): the layer's function at entry (p, q) of whole arrays X, W, B, wherever the
    blocks' entries along row r and column cc are the arrays' along row p and column q. -/
theorem entry4 (x0 : Vec Ideal S64x64 .f32) (x1 : Vec Ideal S64x6400 .f32) (x2 : Vec Ideal S1x6400 .f32)
    (X : S64x64.Idx → EReal) (W : S64x64000.Idx → EReal) (B : S1x64000.Idx → EReal)
    (r : Fin 64) (cc : Fin 6400) (p : Fin 64) (q : Fin 64000)
    (hx : ∀ k : Fin 64, x0 (ix2 r k) = X (ix2 p k)) (hw : ∀ k : Fin 64, x1 (ix2 k cc) = W (ix2 k q))
    (hb : x2 (ix2 (0 : Fin 1) cc) = B (ix2 (0 : Fin 1) q)) :
    k4_pay3 (F := Ideal) (k4_pay2 x0 x1 (k4_pay1 (F := Ideal))) x2 (ix2 r cc) = Cert.DenseSpec.dense4 X W B (ix2 p q) := by
  have h3 := pay4_3_at (k4_pay2 (F := Ideal) x0 x1 (k4_pay1 (F := Ideal))) x2 r cc
  have h2 := pay4_2_at x0 x1 (k4_pay1 (F := Ideal)) r cc
  have h1 := pay4_1_at r cc
  refine h3.trans ?_
  show max (k4_pay2 (F := Ideal) x0 x1 (k4_pay1 (F := Ideal)) (ix2 r cc) + x2 (ix2 (0 : Fin 1) cc)) 0
    = max ((∑ k : Fin 64, X (ix2 p k) * W (ix2 k q)) + B (ix2 (0 : Fin 1) q)) 0
  rw [h2, h1, zero_add, hb]
  refine congrArg (max · 0) (congrArg (· + B (ix2 (0 : Fin 1) q)) (Finset.sum_congr rfl fun k _ => ?_))
  rw [hx k, hw k]

/-! ## From the blocks to the array -/

/-- The printed index maps over the grid: the x block moves with the output's rows, the w block and the bias row with
    its columns, and the output's block indices stay in range. -/
theorem idx4_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = win4_3.index t (1 : Fin 2)
    ∧ win4_2.index t (0 : Fin 2) = 0 ∧ win4_2.index t (1 : Fin 2) = win4_3.index t (1 : Fin 2)
    ∧ win4_3.index t (0 : Fin 2) < 1 ∧ win4_3.index t (1 : Fin 2) < 10 :=
  (by decide +kernel : ∀ t : Fin grid4.N, _)

/-- Every block of the output is some point's. -/
theorem idx4_onto : ∀ (q0 : Fin 1) (q1 : Fin 10), ∃ t : Fin cfg4.N, win4_3.index t = ![q0.val, q1.val] :=
  (by decide +kernel : ∀ (q0 : Fin 1) (q1 : Fin 10), ∃ t : Fin grid4.N, win4_3.index t = ![q0.val, q1.val])

section
variable (V : (c : Dev nD) → (b : Ref sig .tc) → Buf (Elt Ideal) ((c : Thread nD τ).loc b))

/-- What point t writes back is its block of the layer's whole-array function of the three arrays as the region finds them. -/
theorem flushed4_eq (c : Dev nD) (t : Fin cfg4.N) :
    (dat4 (F := Ideal) V c).flushed 3 t = ((cfg4.win 3).blk t).view.read (Elt Ideal)
      (Cert.DenseSpec.dense4 (V c (Pipeline.arrRef spec4 0)) (V c (Pipeline.arrRef spec4 1)) (V c (Pipeline.arrRef spec4 2))) := by
  show (cfg4.win 3).cut (grid4.coords t) ((dat4 (F := Ideal) V c).after 3 t) = _
  rw [after4_3]
  unfold outAt4
  rw [piece4]
  obtain ⟨e0, e1, e2, e3, e4, e5, e6, e7⟩ := idx4_facts t
  show (k4_pay3 (F := Ideal) (k4_pay2 (iblk4 V c 0 t) (iblk4 V c 1 t) (k4_pay1 (F := Ideal))) (iblk4 V c 2 t) : S64x6400.Idx → EReal)
    = fun y : S64x6400.Idx => Cert.DenseSpec.dense4 (V c (Pipeline.arrRef spec4 0)) (V c (Pipeline.arrRef spec4 1)) (V c (Pipeline.arrRef spec4 2)) (((cfg4.win 3).blk t).view.emb y)
  funext y
  obtain ⟨r, cc, rfl⟩ : ∃ (r : Fin 64) (cc : Fin 6400), y = ix2 r cc := ⟨y 0, y 1, eq_ix2 y⟩
  have hp : win4_3.index t (0 : Fin 2) * 64 + r.val < 64 := by have := r.isLt; omega
  have hq : win4_3.index t (1 : Fin 2) * 6400 + cc.val < 64000 := by have := cc.isLt; omega
  have ee : ((cfg4.win 3).blk t).view.emb (ix2 r cc) = (ix2 (⟨_, hp⟩ : Fin 64) (⟨_, hq⟩ : Fin 64000) : S64x64000.Idx) := funext fun a => Fin.ext (by
    match a with
    | ⟨0, _⟩ => show win4_3.index t (0 : Fin 2) * 64 + 1 * r.val = win4_3.index t (0 : Fin 2) * 64 + r.val; omega
    | ⟨1, _⟩ => show win4_3.index t (1 : Fin 2) * 6400 + 1 * cc.val = win4_3.index t (1 : Fin 2) * 6400 + cc.val; omega)
  rw [ee]
  refine entry4 (iblk4 V c 0 t) (iblk4 V c 1 t) (iblk4 V c 2 t) (V c (Pipeline.arrRef spec4 0)) (V c (Pipeline.arrRef spec4 1)) (V c (Pipeline.arrRef spec4 2))
    r cc ⟨_, hp⟩ ⟨_, hq⟩ (fun k => ?_) (fun k => ?_) ?_
  · show V c (Pipeline.arrRef spec4 0) (((cfg4.win 0).blk t).view.emb (ix2 r k)) = _
    refine congrArg _ (funext fun a => Fin.ext ?_)
    match a with
    | ⟨0, _⟩ => show win4_0.index t (0 : Fin 2) * 64 + 1 * r.val = win4_3.index t (0 : Fin 2) * 64 + r.val; rw [e0]; omega
    | ⟨1, _⟩ => show win4_0.index t (1 : Fin 2) * 64 + 1 * k.val = k.val; rw [e1]; omega
  · show V c (Pipeline.arrRef spec4 1) (((cfg4.win 1).blk t).view.emb (ix2 k cc)) = _
    refine congrArg _ (funext fun a => Fin.ext ?_)
    match a with
    | ⟨0, _⟩ => show win4_1.index t (0 : Fin 2) * 64 + 1 * k.val = k.val; rw [e2]; omega
    | ⟨1, _⟩ => show win4_1.index t (1 : Fin 2) * 6400 + 1 * cc.val = win4_3.index t (1 : Fin 2) * 6400 + cc.val; rw [e3]; omega
  · show V c (Pipeline.arrRef spec4 2) (((cfg4.win 2).blk t).view.emb (ix2 (0 : Fin 1) cc)) = _
    refine congrArg _ (funext fun a => Fin.ext ?_)
    match a with
    | ⟨0, _⟩ => show win4_2.index t (0 : Fin 2) * 1 + 1 * 0 = 0; rw [e4]
    | ⟨1, _⟩ => show win4_2.index t (1 : Fin 2) * 6400 + 1 * cc.val = win4_3.index t (1 : Fin 2) * 6400 + cc.val; rw [e5]; omega

/-- An index of the output array is in point t's block iff each coordinate is in the block's range on its axis. -/
theorem mem_blk4 (t : Fin cfg4.N) (i : S64x64000.Idx) :
    i ∈ ((cfg4.win 3).blk t).view.set ↔ ∀ a : Fin 2, win4_3.index t a * S64x6400.size a ≤ (i a).val ∧ (i a).val < win4_3.index t a * S64x6400.size a + S64x6400.size a := by
  show i ∈ ((View.whole main_v45).slice (win4_3.rect t)).set ↔ _
  rw [View.set_slice_whole, Rect.mem_set_unit]
  exact Iff.rfl

/-- The output array after the region: the layer's function of the three arrays as the region finds them. The block
    that covers entry (p, q) is the one of row block p / 64 and column block q / 6400. -/
theorem final4 (c : Dev nD) :
    (dat4 (F := Ideal) V c).arrAt 3 cfg4.N
      = Cert.DenseSpec.dense4 (V c (Pipeline.arrRef spec4 0)) (V c (Pipeline.arrRef spec4 1)) (V c (Pipeline.arrRef spec4 2)) :=
  (dat4 (F := Ideal) V c).arrAt_eq_of_cover 3 _ (fun t _ => flushed4_eq V c t) fun i => by
    have hi0 : (i 0).val < 64 := (i 0).isLt
    have hi1 : (i 1).val < 64000 := (i 1).isLt
    obtain ⟨t, ht⟩ := idx4_onto ⟨(i 0).val / 64, by omega⟩ ⟨(i 1).val / 6400, by omega⟩
    have q0 : win4_3.index t (0 : Fin 2) = (i 0).val / 64 := congrFun ht 0
    have q1 : win4_3.index t (1 : Fin 2) = (i 1).val / 6400 := congrFun ht 1
    refine ⟨t, flush4_3 t, ?_⟩
    rw [mem_blk4]
    intro a
    match a with
    | ⟨0, _⟩ => show win4_3.index t (0 : Fin 2) * 64 ≤ (i 0).val ∧ (i 0).val < win4_3.index t (0 : Fin 2) * 64 + 64; omega
    | ⟨1, _⟩ => show win4_3.index t (1 : Fin 2) * 6400 ≤ (i 1).val ∧ (i 1).val < win4_3.index t (1 : Fin 2) * 6400 + 6400; omega

end

end Cert.KernelIdeal.Dense

end
-- ==== Proof.KI.Val5.lean ====
/-
  Region 5 (out = d · W_dec_out + b_dec_out over f32[64000, 64] × f32[64, 32], eight grid points, one per block of 8000 rows): the value of the output array.
  The one store into the output block holds, entry by entry, the zeroed accumulator plus the sum over the contracted
  axis of the products of the two input blocks, plus the bias row's entry of the column. Each input block is read
  from its array where the output block's rows and columns say, so the block written back at a point is that
  point's block of the whole-array function  (r, c) ↦ (Σ_k x(r, k) · w(k, c)) + b(0, c);  the output's blocks
  cover its array, so the array ends holding that function.
-/
import proofs.«179658_j2465311228054_1_alg».proof.Proof.KI.Half5
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Dense

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window cellOf)

/-- The zero offsets of a whole-block load or store, as the function they are. -/
theorem hz5 : (![0, 0] : Fin 2 → Nat) = fun _ => 0 := funext fun a => by fin_cases a <;> rfl

section
variable {F : FTy → Type} [FloatOps F]

/-- What the body leaves in the output block, as one term of the three input blocks: the accumulator is zeroed,
    one product is added into it, and the bias row is added on the way out. -/
theorem piece5 (c : Dev nD) (i : grid5.Coords)
    (arg3 : Memref sig .tc .vmem S8000x64 .f32) (harg3 : arg3.IsWhole) (arg4 : Memref sig .tc .vmem S64x32 .f32) (harg4 : arg4.IsWhole)
    (arg5 : Memref sig .tc .vmem S1x32 .f32) (harg5 : arg5.IsWhole) (arg6 : Memref sig .tc .vmem S8000x32 .f32) (harg6 : arg6.IsWhole)
    (arg7 : Memref sig .tc .vmem S8000x32 .f32) (harg7 : arg7.IsWhole) (hc0 : cond5_0 i) (hc1 : cond5_1 i)
    (x0 : Vec F S8000x64 .f32) (x1 : Vec F S64x32 .f32) (x2 : Vec F S1x32 .f32) :
    out5_3 c i arg3 harg3 arg4 harg4 arg5 harg5 arg6 harg6 arg7 harg7 hc0 hc1 x0 x1 x2 = k5_pay3 (k5_pay2 x0 x1 k5_pay1) x2 := by
  unfold out5_3
  rw [View.read_writes_eq_canon _ _ _ (cover5_3 c i arg3 harg3 arg4 harg4 arg5 harg5 arg6 harg6 arg7 harg7 hc0 hc1 x0 x1 x2)]
  unfold kernelRun5
  dsimp only
  try sl_unfold_words
  rw [View.canon_unit_zero hz5]
  rw [View.readCov_eq_canon_ld _ _ _ (fun y => ⟨_, List.mem_cons_self, View.mem_set_unit_zero hz5 inb_S8000x32_S8000x32_0_0 y⟩)]
  rw [View.canon_cons_unit_zero hz5, View.readCov_unit_zero (S := S8000x32) _ hz5]
  simp only [View.readAt_eq_ld, harg3.read_unread, harg4.read_unread, harg5.read_unread,
    View.ld_unit_zero (S := S8000x64) hz5, View.ld_unit_zero (S := S64x32) hz5, View.ld_unit_zero (S := S1x32) hz5, View.ld_unit_zero (S := S8000x32) hz5]

end

/-! ## The stored term at an entry, on the extended reals -/

/-- The accumulator starts at zero. -/
theorem pay5_1_at (r : Fin 8000) (cc : Fin 32) : k5_pay1 (F := Ideal) (ix2 r cc) = 0 := by
  unfold k5_pay1
  rw [shapeCast_self]
  exact Ideal.ofBits_zero_f32

/-- The product's dimension numbers at an output entry and a position along the contracted axis: the left operand is
    read at (row, position), the right at (position, column). -/
theorem lhs5_0 (i : S8000x32.Idx) (q : dot_S8000x64_S64x32_S8000x32_1_0_0_1_n_n.contr.Idx) :
    (dot_S8000x64_S64x32_S8000x32_1_0_0_1_n_n.lhsIdx i q 0).val = (i 0).val := by
  unfold DotDims.lhsIdx
  rw [dif_neg (show ¬(0 : Fin S8000x64.rank) ∈ dot_S8000x64_S64x32_S8000x32_1_0_0_1_n_n.lhsBatch by decide), dif_pos (show (0 : Fin S8000x64.rank) ∈ dot_S8000x64_S64x32_S8000x32_1_0_0_1_n_n.lhsNonContracting by decide)]
  rfl
theorem lhs5_1 (i : S8000x32.Idx) (q : dot_S8000x64_S64x32_S8000x32_1_0_0_1_n_n.contr.Idx) :
    (dot_S8000x64_S64x32_S8000x32_1_0_0_1_n_n.lhsIdx i q 1).val = (q ⟨0, by decide⟩).val :=
  dot_S8000x64_S64x32_S8000x32_1_0_0_1_n_n.lhsIdx_val_of_single rfl i q
theorem rhs5_0 (i : S8000x32.Idx) (q : dot_S8000x64_S64x32_S8000x32_1_0_0_1_n_n.contr.Idx) :
    (dot_S8000x64_S64x32_S8000x32_1_0_0_1_n_n.rhsIdx i q 0).val = (q ⟨0, by decide⟩).val :=
  dot_S8000x64_S64x32_S8000x32_1_0_0_1_n_n.rhsIdx_val_of_single rfl i q
theorem rhs5_1 (i : S8000x32.Idx) (q : dot_S8000x64_S64x32_S8000x32_1_0_0_1_n_n.contr.Idx) :
    (dot_S8000x64_S64x32_S8000x32_1_0_0_1_n_n.rhsIdx i q 1).val = (i 1).val := by
  unfold DotDims.rhsIdx
  rw [dif_neg (show ¬(1 : Fin S64x32.rank) ∈ dot_S8000x64_S64x32_S8000x32_1_0_0_1_n_n.rhsBatch by decide), dif_pos (show (1 : Fin S64x32.rank) ∈ dot_S8000x64_S64x32_S8000x32_1_0_0_1_n_n.rhsNonContracting by decide)]
  rfl

/-- One accumulation step at an entry: what the accumulator held plus the sum over the contracted axis. -/
theorem pay5_2_at (x0 : Vec Ideal S8000x64 .f32) (x1 : Vec Ideal S64x32 .f32) (v8 : Vec Ideal S8000x32 .f32) (r : Fin 8000) (cc : Fin 32) :
    k5_pay2 (F := Ideal) x0 x1 v8 (ix2 r cc) = v8 (ix2 r cc) + ∑ k : Fin 64, x0 (ix2 r k) * x1 (ix2 k cc) := by
  unfold k5_pay2
  rw [shapeCast_self, shapeCast_self]
  refine congrArg (v8 (ix2 r cc) + ·) ?_
  refine (Ideal.matmul_constant_zero_apply dot_S8000x64_S64x32_S8000x32_1_0_0_1_n_n none _ _ (ix2 r cc)).trans ?_
  rw [← Equiv.sum_comp (contrEquiv1 dot_S8000x64_S64x32_S8000x32_1_0_0_1_n_n 64 rfl rfl).symm]
  refine Finset.sum_congr rfl fun k _ => ?_
  have hk := contrEquiv1_symm_val dot_S8000x64_S64x32_S8000x32_1_0_0_1_n_n 64 rfl rfl k
  have el : dot_S8000x64_S64x32_S8000x32_1_0_0_1_n_n.lhsIdx (ix2 r cc) ((contrEquiv1 dot_S8000x64_S64x32_S8000x32_1_0_0_1_n_n 64 rfl rfl).symm k) = ix2 r k := funext fun a => Fin.ext (by
    match a with
    | ⟨0, _⟩ => exact lhs5_0 _ _
    | ⟨1, _⟩ => exact (lhs5_1 _ _).trans hk)
  have er : dot_S8000x64_S64x32_S8000x32_1_0_0_1_n_n.rhsIdx (ix2 r cc) ((contrEquiv1 dot_S8000x64_S64x32_S8000x32_1_0_0_1_n_n 64 rfl rfl).symm k) = ix2 k cc := funext fun a => Fin.ext (by
    match a with
    | ⟨0, _⟩ => exact (rhs5_0 _ _).trans hk
    | ⟨1, _⟩ => exact rhs5_1 _ _)
  rw [el, er]
  rfl

/-- The last step at an entry: the accumulator plus the bias row's entry of that column. -/
theorem pay5_3_at (v17 : Vec Ideal S8000x32 .f32) (x2 : Vec Ideal S1x32 .f32) (r : Fin 8000) (cc : Fin 32) :
    k5_pay3 (F := Ideal) v17 x2 (ix2 r cc) = v17 (ix2 r cc) + x2 (ix2 (0 : Fin 1) cc) := by
  unfold k5_pay3
  rw [shapeCast_self]
  exact congrArg (v17 (ix2 r cc) + ·) (broadcastTo_1b_ab_apply x2 broadcasts_S1x32_S8000x32 r cc)

/-- The output block at entry (r, cc): the layer's function at entry (p, q) of whole arrays X, W, B, wherever the
    blocks' entries along row r and column cc are the arrays' along row p and column q. -/
theorem entry5 (x0 : Vec Ideal S8000x64 .f32) (x1 : Vec Ideal S64x32 .f32) (x2 : Vec Ideal S1x32 .f32)
    (X : S64000x64.Idx → EReal) (W : S64x32.Idx → EReal) (B : S1x32.Idx → EReal)
    (r : Fin 8000) (cc : Fin 32) (p : Fin 64000) (q : Fin 32)
    (hx : ∀ k : Fin 64, x0 (ix2 r k) = X (ix2 p k)) (hw : ∀ k : Fin 64, x1 (ix2 k cc) = W (ix2 k q))
    (hb : x2 (ix2 (0 : Fin 1) cc) = B (ix2 (0 : Fin 1) q)) :
    k5_pay3 (F := Ideal) (k5_pay2 x0 x1 (k5_pay1 (F := Ideal))) x2 (ix2 r cc) = Cert.DenseSpec.dense5 X W B (ix2 p q) := by
  have h3 := pay5_3_at (k5_pay2 (F := Ideal) x0 x1 (k5_pay1 (F := Ideal))) x2 r cc
  have h2 := pay5_2_at x0 x1 (k5_pay1 (F := Ideal)) r cc
  have h1 := pay5_1_at r cc
  refine h3.trans ?_
  show k5_pay2 (F := Ideal) x0 x1 (k5_pay1 (F := Ideal)) (ix2 r cc) + x2 (ix2 (0 : Fin 1) cc)
    = (∑ k : Fin 64, X (ix2 p k) * W (ix2 k q)) + B (ix2 (0 : Fin 1) q)
  rw [h2, h1, zero_add, hb]
  refine congrArg (· + B (ix2 (0 : Fin 1) q)) (Finset.sum_congr rfl fun k _ => ?_)
  rw [hx k, hw k]

/-! ## From the blocks to the array -/

/-- The printed index maps over the grid: the x block moves with the output's rows, the w block and the bias row with
    its columns, and the output's block indices stay in range. -/
theorem idx5_facts : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = win5_3.index t (1 : Fin 2)
    ∧ win5_2.index t (0 : Fin 2) = 0 ∧ win5_2.index t (1 : Fin 2) = win5_3.index t (1 : Fin 2)
    ∧ win5_3.index t (0 : Fin 2) < 8 ∧ win5_3.index t (1 : Fin 2) < 1 :=
  (by decide +kernel : ∀ t : Fin grid5.N, _)

/-- Every block of the output is some point's. -/
theorem idx5_onto : ∀ (q0 : Fin 8) (q1 : Fin 1), ∃ t : Fin cfg5.N, win5_3.index t = ![q0.val, q1.val] :=
  (by decide +kernel : ∀ (q0 : Fin 8) (q1 : Fin 1), ∃ t : Fin grid5.N, win5_3.index t = ![q0.val, q1.val])

section
variable (V : (c : Dev nD) → (b : Ref sig .tc) → Buf (Elt Ideal) ((c : Thread nD τ).loc b))

/-- What point t writes back is its block of the layer's whole-array function of the three arrays as the region finds them. -/
theorem flushed5_eq (c : Dev nD) (t : Fin cfg5.N) :
    (dat5 (F := Ideal) V c).flushed 3 t = ((cfg5.win 3).blk t).view.read (Elt Ideal)
      (Cert.DenseSpec.dense5 (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold outAt5
  rw [piece5]
  obtain ⟨e0, e1, e2, e3, e4, e5, e6, e7⟩ := idx5_facts t
  show (k5_pay3 (F := Ideal) (k5_pay2 (iblk5 V c 0 t) (iblk5 V c 1 t) (k5_pay1 (F := Ideal))) (iblk5 V c 2 t) : S8000x32.Idx → EReal)
    = fun y : S8000x32.Idx => Cert.DenseSpec.dense5 (V c (Pipeline.arrRef spec5 0)) (V c (Pipeline.arrRef spec5 1)) (V c (Pipeline.arrRef spec5 2)) (((cfg5.win 3).blk t).view.emb y)
  funext y
  obtain ⟨r, cc, rfl⟩ : ∃ (r : Fin 8000) (cc : Fin 32), y = ix2 r cc := ⟨y 0, y 1, eq_ix2 y⟩
  have hp : win5_3.index t (0 : Fin 2) * 8000 + r.val < 64000 := by have := r.isLt; omega
  have hq : win5_3.index t (1 : Fin 2) * 32 + cc.val < 32 := by have := cc.isLt; omega
  have ee : ((cfg5.win 3).blk t).view.emb (ix2 r cc) = (ix2 (⟨_, hp⟩ : Fin 64000) (⟨_, hq⟩ : Fin 32) : S64000x32.Idx) := funext fun a => Fin.ext (by
    match a with
    | ⟨0, _⟩ => show win5_3.index t (0 : Fin 2) * 8000 + 1 * r.val = win5_3.index t (0 : Fin 2) * 8000 + r.val; omega
    | ⟨1, _⟩ => show win5_3.index t (1 : Fin 2) * 32 + 1 * cc.val = win5_3.index t (1 : Fin 2) * 32 + cc.val; omega)
  rw [ee]
  refine entry5 (iblk5 V c 0 t) (iblk5 V c 1 t) (iblk5 V c 2 t) (V c (Pipeline.arrRef spec5 0)) (V c (Pipeline.arrRef spec5 1)) (V c (Pipeline.arrRef spec5 2))
    r cc ⟨_, hp⟩ ⟨_, hq⟩ (fun k => ?_) (fun k => ?_) ?_
  · show V c (Pipeline.arrRef spec5 0) (((cfg5.win 0).blk t).view.emb (ix2 r k)) = _
    refine congrArg _ (funext fun a => Fin.ext ?_)
    match a with
    | ⟨0, _⟩ => show win5_0.index t (0 : Fin 2) * 8000 + 1 * r.val = win5_3.index t (0 : Fin 2) * 8000 + r.val; rw [e0]; omega
    | ⟨1, _⟩ => show win5_0.index t (1 : Fin 2) * 64 + 1 * k.val = k.val; rw [e1]; omega
  · show V c (Pipeline.arrRef spec5 1) (((cfg5.win 1).blk t).view.emb (ix2 k cc)) = _
    refine congrArg _ (funext fun a => Fin.ext ?_)
    match a with
    | ⟨0, _⟩ => show win5_1.index t (0 : Fin 2) * 64 + 1 * k.val = k.val; rw [e2]; omega
    | ⟨1, _⟩ => show win5_1.index t (1 : Fin 2) * 32 + 1 * cc.val = win5_3.index t (1 : Fin 2) * 32 + cc.val; rw [e3]; omega
  · show V c (Pipeline.arrRef spec5 2) (((cfg5.win 2).blk t).view.emb (ix2 (0 : Fin 1) cc)) = _
    refine congrArg _ (funext fun a => Fin.ext ?_)
    match a with
    | ⟨0, _⟩ => show win5_2.index t (0 : Fin 2) * 1 + 1 * 0 = 0; rw [e4]
    | ⟨1, _⟩ => show win5_2.index t (1 : Fin 2) * 32 + 1 * cc.val = win5_3.index t (1 : Fin 2) * 32 + cc.val; rw [e5]; omega

/-- An index of the output array is in point t's block iff each coordinate is in the block's range on its axis. -/
theorem mem_blk5 (t : Fin cfg5.N) (i : S64000x32.Idx) :
    i ∈ ((cfg5.win 3).blk t).view.set ↔ ∀ a : Fin 2, win5_3.index t a * S8000x32.size a ≤ (i a).val ∧ (i a).val < win5_3.index t a * S8000x32.size a + S8000x32.size a := by
  show i ∈ ((View.whole main_v48).slice (win5_3.rect t)).set ↔ _
  rw [View.set_slice_whole, Rect.mem_set_unit]
  exact Iff.rfl

/-- The output array after the region: the layer's function of the three arrays as the region finds them. The block
    that covers entry (p, q) is the one of row block p / 8000 and column block q / 32. -/
theorem final5 (c : Dev nD) :
    (dat5 (F := Ideal) V c).arrAt 3 cfg5.N
      = Cert.DenseSpec.dense5 (V c (Pipeline.arrRef spec5 0)) (V c (Pipeline.arrRef spec5 1)) (V c (Pipeline.arrRef spec5 2)) :=
  (dat5 (F := Ideal) V c).arrAt_eq_of_cover 3 _ (fun t _ => flushed5_eq V c t) fun i => by
    have hi0 : (i 0).val < 64000 := (i 0).isLt
    have hi1 : (i 1).val < 32 := (i 1).isLt
    obtain ⟨t, ht⟩ := idx5_onto ⟨(i 0).val / 8000, by omega⟩ ⟨(i 1).val / 32, by omega⟩
    have q0 : win5_3.index t (0 : Fin 2) = (i 0).val / 8000 := congrFun ht 0
    have q1 : win5_3.index t (1 : Fin 2) = (i 1).val / 32 := congrFun ht 1
    refine ⟨t, flush5_3 t, ?_⟩
    rw [mem_blk5]
    intro a
    match a with
    | ⟨0, _⟩ => show win5_3.index t (0 : Fin 2) * 8000 ≤ (i 0).val ∧ (i 0).val < win5_3.index t (0 : Fin 2) * 8000 + 8000; omega
    | ⟨1, _⟩ => show win5_3.index t (1 : Fin 2) * 32 ≤ (i 1).val ∧ (i 1).val < win5_3.index t (1 : Fin 2) * 32 + 32; omega

end

end Cert.KernelIdeal.Dense

end
-- ==== Proof.Ref.Dense0.lean ====
/-
  The reference's first layer is the specification's affine map followed by the maximum with zero.
  The reference multiplies the 64000 × 64 node features by the 64 × 64 weights in a single contraction, adds the
  bias after spreading the 64-vector over a unit row axis and then over the 64000 rows, and takes the maximum with
  a zero spread over the whole array. Entry (r, c) is max((Σ_k x(r, k) · w(k, c)) + b(c), 0), and b(c) is entry
  (0, c) of the bias laid out as a 1 × 64 row.
-/
import proofs.«179658_j2465311228054_1_alg».proof.Proof.Gen.ReferenceIdeal
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- In the 64000 × 64 by 64 × 64 contraction the left operand is read at the output's row … -/
theorem lhs_row_64000x64_64x64 (i : S64000x64.Idx) (q : dot_S64000x64_S64x64_S64000x64_1_0_0_1_n_n.contr.Idx) :
    (dot_S64000x64_S64x64_S64000x64_1_0_0_1_n_n.lhsIdx i q 0).val = (i 0).val := by
  unfold DotDims.lhsIdx
  rw [dif_neg (show ¬(0 : Fin S64000x64.rank) ∈ dot_S64000x64_S64x64_S64000x64_1_0_0_1_n_n.lhsBatch by decide),
    dif_pos (show (0 : Fin S64000x64.rank) ∈ dot_S64000x64_S64x64_S64000x64_1_0_0_1_n_n.lhsNonContracting by decide)]
  rfl
/-- … and at the contracted coordinate; -/
theorem lhs_col_64000x64_64x64 (i : S64000x64.Idx) (q : dot_S64000x64_S64x64_S64000x64_1_0_0_1_n_n.contr.Idx) :
    (dot_S64000x64_S64x64_S64000x64_1_0_0_1_n_n.lhsIdx i q 1).val = (q ⟨0, by decide⟩).val :=
  dot_S64000x64_S64x64_S64000x64_1_0_0_1_n_n.lhsIdx_val_of_single rfl i q
/-- the right operand is read at the contracted coordinate … -/
theorem rhs_row_64000x64_64x64 (i : S64000x64.Idx) (q : dot_S64000x64_S64x64_S64000x64_1_0_0_1_n_n.contr.Idx) :
    (dot_S64000x64_S64x64_S64000x64_1_0_0_1_n_n.rhsIdx i q 0).val = (q ⟨0, by decide⟩).val :=
  dot_S64000x64_S64x64_S64000x64_1_0_0_1_n_n.rhsIdx_val_of_single rfl i q
/-- … and at the output's column. -/
theorem rhs_col_64000x64_64x64 (i : S64000x64.Idx) (q : dot_S64000x64_S64x64_S64000x64_1_0_0_1_n_n.contr.Idx) :
    (dot_S64000x64_S64x64_S64000x64_1_0_0_1_n_n.rhsIdx i q 1).val = (i 1).val := by
  unfold DotDims.rhsIdx
  rw [dif_neg (show ¬(1 : Fin S64x64.rank) ∈ dot_S64000x64_S64x64_S64000x64_1_0_0_1_n_n.rhsBatch by decide),
    dif_pos (show (1 : Fin S64x64.rank) ∈ dot_S64000x64_S64x64_S64000x64_1_0_0_1_n_n.rhsNonContracting by decide)]
  rfl

/-- The 64000 × 64 by 64 × 64 contraction at entry (r, c): the sum over the shared axis. -/
theorem dot_64000x64_64x64_apply (x : FVec Ideal S64000x64 .f32) (w : FVec Ideal S64x64 .f32) (r : Fin 64000) (c : Fin 64) :
    Host.dotGeneral (F := Ideal) dot_S64000x64_S64x64_S64000x64_1_0_0_1_n_n none x w (ix2 r c)
      = ∑ k : Fin 64, x (ix2 r k) * w (ix2 k c) := by
  simp only [Host.dotGeneral]
  rw [Ideal.dotGeneral_apply, ← Equiv.sum_comp (contrEquiv1 dot_S64000x64_S64x64_S64000x64_1_0_0_1_n_n 64 rfl rfl).symm]
  refine Finset.sum_congr rfl fun k _ => ?_
  have hk := contrEquiv1_symm_val dot_S64000x64_S64x64_S64000x64_1_0_0_1_n_n 64 rfl rfl k
  have el : dot_S64000x64_S64x64_S64000x64_1_0_0_1_n_n.lhsIdx (ix2 r c) ((contrEquiv1 dot_S64000x64_S64x64_S64000x64_1_0_0_1_n_n 64 rfl rfl).symm k) = ix2 r k :=
    funext fun a => Fin.ext (by
      match a with
      | ⟨0, _⟩ => exact lhs_row_64000x64_64x64 _ _
      | ⟨1, _⟩ => exact (lhs_col_64000x64_64x64 _ _).trans hk)
  have er : dot_S64000x64_S64x64_S64000x64_1_0_0_1_n_n.rhsIdx (ix2 r c) ((contrEquiv1 dot_S64000x64_S64x64_S64000x64_1_0_0_1_n_n 64 rfl rfl).symm k) = ix2 k c :=
    funext fun a => Fin.ext (by
      match a with
      | ⟨0, _⟩ => exact (rhs_row_64000x64_64x64 _ _).trans hk
      | ⟨1, _⟩ => exact rhs_col_64000x64_64x64 _ _)
  rw [el, er]

/-- The bias spread over a unit row axis and then over the 64000 rows reads, at (r, c), the bias at c. -/
theorem bias_64000x64_apply (b : FVec Ideal S64 .f32) (r : Fin 64000) (c : Fin 64) :
    broadcastInDim S64000x64 ![0, 1] bcast_S1x64_S64000x64_0_1 (broadcastInDim S1x64 ![1] bcast_S64_S1x64_1 b) (ix2 r c)
      = b (ix1 c) := by
  refine (broadcastInDim_apply _ bcast_S1x64_S64000x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ bcast_S64_S1x64_1 b (ix2 (0 : Fin 1) c) (ix1 c) (fun a => match a with
    | ⟨0, _⟩ => by show c.val = if (64 : Nat) = 1 then 0 else c.val; rw [if_neg (by decide)])

/-- The scalar zero spread over the whole 64000 × 64 array reads zero everywhere. -/
theorem zero_64000x64_apply (j : S64000x64.Idx) :
    broadcastInDim S64000x64 ![] bcast_S_S64000x64 (constant (F := Ideal) S_ .f32 0x00000000#32) j = 0 := by
  refine (broadcastInDim_apply _ bcast_S_S64000x64 _ j ix0 (fun a => a.elim0)).trans ?_
  rw [constant_apply, Ideal.ofBits_zero_f32]

/-- Layer 0 of the reference, max(nodes · W + b, 0), is the specification's map at the bias re-laid as a 1 × 64 row. -/
theorem ref_dense0 (x : FVec Ideal S64000x64 .f32) (w : FVec Ideal S64x64 .f32) (b : FVec Ideal S64 .f32)
    (h : S64.ShapeCasts S1x64) :
    maximumf (addf (Host.dotGeneral (F := Ideal) dot_S64000x64_S64x64_S64000x64_1_0_0_1_n_n none x w)
        (broadcastInDim S64000x64 ![0, 1] bcast_S1x64_S64000x64_0_1 (broadcastInDim S1x64 ![1] bcast_S64_S1x64_1 b)))
        (broadcastInDim S64000x64 ![] bcast_S_S64000x64 (constant (F := Ideal) S_ .f32 0x00000000#32))
      = Cert.DenseSpec.dense0 x w (shapeCast S1x64 b h) := by
  funext j
  obtain ⟨r, c, rfl⟩ : ∃ (r : Fin 64000) (c : Fin 64), j = ix2 r c := ⟨j 0, j 1, eq_ix2 j⟩
  rw [maximumf_apply, addf_apply, dot_64000x64_64x64_apply, bias_64000x64_apply, zero_64000x64_apply]
  show _ = max ((∑ k : Fin 64, x (ix2 r k) * w (ix2 k c)) + shapeCast S1x64 b h (ix2 (0 : Fin 1) c)) 0
  rw [shapeCast_a_1a_apply b h (0 : Fin 1) c]

end Cert.ReferenceIdeal.RefValue

end
-- ==== Proof.Ref.Dense1.lean ====
/-
  The reference's fully connected encoder layer is the specification's affine map followed by the maximum with zero.
  The reference multiplies the 64 × 64000 flattened features by the 64000 × 512 weights in a single contraction over
  all 64000 terms, adds the bias after spreading the 512-vector over a unit row axis and then over the 64 rows, and
  takes the maximum with a zero spread over the whole array. Entry (r, c) is max((Σ_k x(r, k) · w(k, c)) + b(c), 0),
  and b(c) is entry (0, c) of the bias laid out as a 1 × 512 row.
-/
import proofs.«179658_j2465311228054_1_alg».proof.Proof.Gen.ReferenceIdeal
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- In the 64 × 64000 by 64000 × 512 contraction the left operand is read at the output's row … -/
theorem lhs_row_64x64000_64000x512 (i : S64x512.Idx) (q : dot_S64x64000_S64000x512_S64x512_1_0_0_1_n_n.contr.Idx) :
    (dot_S64x64000_S64000x512_S64x512_1_0_0_1_n_n.lhsIdx i q 0).val = (i 0).val := by
  unfold DotDims.lhsIdx
  rw [dif_neg (show ¬(0 : Fin S64x64000.rank) ∈ dot_S64x64000_S64000x512_S64x512_1_0_0_1_n_n.lhsBatch by decide),
    dif_pos (show (0 : Fin S64x64000.rank) ∈ dot_S64x64000_S64000x512_S64x512_1_0_0_1_n_n.lhsNonContracting by decide)]
  rfl
/-- … and at the contracted coordinate; -/
theorem lhs_col_64x64000_64000x512 (i : S64x512.Idx) (q : dot_S64x64000_S64000x512_S64x512_1_0_0_1_n_n.contr.Idx) :
    (dot_S64x64000_S64000x512_S64x512_1_0_0_1_n_n.lhsIdx i q 1).val = (q ⟨0, by decide⟩).val :=
  dot_S64x64000_S64000x512_S64x512_1_0_0_1_n_n.lhsIdx_val_of_single rfl i q
/-- the right operand is read at the contracted coordinate … -/
theorem rhs_row_64x64000_64000x512 (i : S64x512.Idx) (q : dot_S64x64000_S64000x512_S64x512_1_0_0_1_n_n.contr.Idx) :
    (dot_S64x64000_S64000x512_S64x512_1_0_0_1_n_n.rhsIdx i q 0).val = (q ⟨0, by decide⟩).val :=
  dot_S64x64000_S64000x512_S64x512_1_0_0_1_n_n.rhsIdx_val_of_single rfl i q
/-- … and at the output's column. -/
theorem rhs_col_64x64000_64000x512 (i : S64x512.Idx) (q : dot_S64x64000_S64000x512_S64x512_1_0_0_1_n_n.contr.Idx) :
    (dot_S64x64000_S64000x512_S64x512_1_0_0_1_n_n.rhsIdx i q 1).val = (i 1).val := by
  unfold DotDims.rhsIdx
  rw [dif_neg (show ¬(1 : Fin S64000x512.rank) ∈ dot_S64x64000_S64000x512_S64x512_1_0_0_1_n_n.rhsBatch by decide),
    dif_pos (show (1 : Fin S64000x512.rank) ∈ dot_S64x64000_S64000x512_S64x512_1_0_0_1_n_n.rhsNonContracting by decide)]
  rfl

/-- The 64 × 64000 by 64000 × 512 contraction at entry (r, c): the sum over the shared axis. -/
theorem dot_64x64000_64000x512_apply (x : FVec Ideal S64x64000 .f32) (w : FVec Ideal S64000x512 .f32) (r : Fin 64) (c : Fin 512) :
    Host.dotGeneral (F := Ideal) dot_S64x64000_S64000x512_S64x512_1_0_0_1_n_n none x w (ix2 r c)
      = ∑ k : Fin 64000, x (ix2 r k) * w (ix2 k c) := by
  simp only [Host.dotGeneral]
  rw [Ideal.dotGeneral_apply, ← Equiv.sum_comp (contrEquiv1 dot_S64x64000_S64000x512_S64x512_1_0_0_1_n_n 64000 rfl rfl).symm]
  refine Finset.sum_congr rfl fun k _ => ?_
  have hk := contrEquiv1_symm_val dot_S64x64000_S64000x512_S64x512_1_0_0_1_n_n 64000 rfl rfl k
  have el : dot_S64x64000_S64000x512_S64x512_1_0_0_1_n_n.lhsIdx (ix2 r c) ((contrEquiv1 dot_S64x64000_S64000x512_S64x512_1_0_0_1_n_n 64000 rfl rfl).symm k) = ix2 r k :=
    funext fun a => Fin.ext (by
      match a with
      | ⟨0, _⟩ => exact lhs_row_64x64000_64000x512 _ _
      | ⟨1, _⟩ => exact (lhs_col_64x64000_64000x512 _ _).trans hk)
  have er : dot_S64x64000_S64000x512_S64x512_1_0_0_1_n_n.rhsIdx (ix2 r c) ((contrEquiv1 dot_S64x64000_S64000x512_S64x512_1_0_0_1_n_n 64000 rfl rfl).symm k) = ix2 k c :=
    funext fun a => Fin.ext (by
      match a with
      | ⟨0, _⟩ => exact (rhs_row_64x64000_64000x512 _ _).trans hk
      | ⟨1, _⟩ => exact rhs_col_64x64000_64000x512 _ _)
  rw [el, er]

/-- The bias spread over a unit row axis and then over the 64 rows reads, at (r, c), the bias at c. -/
theorem bias_64x512_apply (b : FVec Ideal S512 .f32) (r : Fin 64) (c : Fin 512) :
    broadcastInDim S64x512 ![0, 1] bcast_S1x512_S64x512_0_1 (broadcastInDim S1x512 ![1] bcast_S512_S1x512_1 b) (ix2 r c)
      = b (ix1 c) := by
  refine (broadcastInDim_apply _ bcast_S1x512_S64x512_0_1 _ (ix2 r c) (ix2 (0 : Fin 1) c) (fun a => match a with
    | ⟨0, _⟩ => by show 0 = if (1 : Nat) = 1 then 0 else r.val; rw [if_pos rfl]
    | ⟨1, _⟩ => by show c.val = if (512 : Nat) = 1 then 0 else c.val; rw [if_neg (by decide)])).trans ?_
  exact broadcastInDim_apply _ bcast_S512_S1x512_1 b (ix2 (0 : Fin 1) c) (ix1 c) (fun a => match a with
    | ⟨0, _⟩ => by show c.val = if (512 : Nat) = 1 then 0 else c.val; rw [if_neg (by decide)])

/-- The scalar zero spread over the whole 64 × 512 array reads zero everywhere. -/
theorem zero_64x512_apply (j : S64x512.Idx) :
    broadcastInDim S64x512 ![] bcast_S_S64x512 (constant (F := Ideal) S_ .f32 0x00000000#32) j = 0 := by
  refine (broadcastInDim_apply _ bcast_S_S64x512 _ j ix0 (fun a => a.elim0)).trans ?_
  rw [constant_apply, Ideal.ofBits_zero_f32]

/-- Layer 1 of the reference, max(x · W_fc + b_fc, 0), is the specification's map at the bias re-laid as a 1 × 512 row. -/
theorem ref_dense1 (x : FVec Ideal S64x64000 .f32) (w : FVec Ideal S64000x512 .f32) (b : FVec Ideal S512 .f32)
    (h : S512.ShapeCasts S1x512) :
    maximumf (addf (Host.dotGeneral (F := Ideal) dot_S64x64000_S64000x512_S64x512_1_0_0_1_n_n none x w)
        (broadcastInDim S64x512 ![0, 1] bcast_S1x512_S64x512_0_1 (broadcastInDim S1x512 ![1] bcast_S512_S1x512_1 b)))
        (broadcastInDim S64x512 ![] bcast_S_S64x512 (constant (F := Ideal) S_ .f32 0x00000000#32))
      = Cert.DenseSpec.dense1 x w (shapeCast S1x512 b h) := by
  funext j
  obtain ⟨r, c, rfl⟩ : ∃ (r : Fin 64) (c : Fin 512), j = ix2 r c := ⟨j 0, j 1, eq_ix2 j⟩
  rw [maximumf_apply, addf_apply, dot_64x64000_64000x512_apply, bias_64x512_apply, zero_64x512_apply]
  show _ = max ((∑ k : Fin 64000, x (ix2 r k) * w (ix2 k c)) + shapeCast S1x512 b h (ix2 (0 : Fin 1) c)) 0
  rw [shapeCast_a_1a_apply b h (0 : Fin 1) c]

end Cert.ReferenceIdeal.RefValue

end
-- ==== Proof.Ref.Dense2.lean ====
/-
  The reference's mean and log-standard-deviation layers are the specification's affine map.
  The reference multiplies a 64 × 512 matrix by a 512 × 64 one in a single contraction, then adds the bias after
  spreading the 64-vector over a unit row axis and then over the 64 rows. Entry (r, c) is therefore
  (Σ_k x(r, k) · w(k, c)) + b(c), and b(c) is entry (0, c) of the bias laid out as a 1 × 64 row.
-/
import proofs.«179658_j2465311228054_1_alg».proof.Proof.Gen.ReferenceIdeal
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- In the 64 × 512 by 512 × 64 contraction the left operand is read at the output's row … -/
theorem lhs_row_64x512_512x64 (i : S64x64.Idx) (q : dot_S64x512_S512x64_S64x64_1_0_0_1_n_n.contr.Idx) :
    (dot_S64x512_S512x64_S64x64_1_0_0_1_n_n.lhsIdx i q 0).val = (i 0).val := by
  unfold DotDims.lhsIdx
  rw [dif_neg (show ¬(0 : Fin S64x512.rank) ∈ dot_S64x512_S512x64_S64x64_1_0_0_1_n_n.lhsBatch by decide),
    dif_pos (show (0 : Fin S64x512.rank) ∈ dot_S64x512_S512x64_S64x64_1_0_0_1_n_n.lhsNonContracting by decide)]
  rfl
/-- … and at the contracted coordinate; -/
theorem lhs_col_64x512_512x64 (i : S64x64.Idx) (q : dot_S64x512_S512x64_S64x64_1_0_0_1_n_n.contr.Idx) :
    (dot_S64x512_S512x64_S64x64_1_0_0_1_n_n.lhsIdx i q 1).val = (q ⟨0, by decide⟩).val :=
  dot_S64x512_S512x64_S64x64_1_0_0_1_n_n.lhsIdx_val_of_single rfl i q
/-- the right operand is read at the contracted coordinate … -/
theorem rhs_row_64x512_512x64 (i : S64x64.Idx) (q : dot_S64x512_S512x64_S64x64_1_0_0_1_n_n.contr.Idx) :
    (dot_S64x512_S512x64_S64x64_1_0_0_1_n_n.rhsIdx i q 0).val = (q ⟨0, by decide⟩).val :=
  dot_S64x512_S512x64_S64x64_1_0_0_1_n_n.rhsIdx_val_of_single rfl i q
/-- … and at the output's column. -/
theorem rhs_col_64x512_512x64 (i : S64x64.Idx) (q : dot_S64x512_S512x64_S64x64_1_0_0_1_n_n.contr.Idx) :
    (dot_S64x512_S512x64_S64x64_1_0_0_1_n_n.rhsIdx i q 1).val = (i 1).val := by
  unfold DotDims.rhsIdx
  rw [dif_neg (show ¬(1 : Fin S512x64.rank) ∈ dot_S64x512_S512x64_S64x64_1_0_0_1_n_n.rhsBatch by decide),
    dif_pos (show (1 : Fin S512x64.rank) ∈ dot_S64x512_S512x64_S64x64_1_0_0_1_n_n.rhsNonContracting by decide)]
  rfl

/-- The 64 × 512 by 512 × 64 contraction at entry (r, c): the sum over the shared axis. -/
theorem dot_64x512_512x64_apply (x : FVec Ideal S64x512 .f32) (w : FVec Ideal S512x64 .f32) (r : Fin 64) (c : Fin 64) :
    Host.dotGeneral (F := Ideal) dot_S64x512_S512x64_S64x64_1_0_0_1_n_n none x w (ix2 r c)
      = ∑ k : Fin 512, x (ix2 r k) * w (ix2 k c) := by
  simp only [Host.dotGeneral]
  rw [Ideal.dotGeneral_apply, ← Equiv.sum_comp (contrEquiv1 dot_S64x512_S512x64_S64x64_1_0_0_1_n_n 512 rfl rfl).symm]
  refine Finset.sum_congr rfl fun k _ => ?_
  have hk := contrEquiv1_symm_val dot_S64x512_S512x64_S64x64_1_0_0_1_n_n 512 rfl rfl k
  have el : dot_S64x512_S512x64_S64x64_1_0_0_1_n_n.lhsIdx (ix2 r c) ((contrEquiv1 dot_S64x512_S512x64_S64x64_1_0_0_1_n_n 512 rfl rfl).symm k) = ix2 r k :=
    funext fun a => Fin.ext (by
      match a with
      | ⟨0, _⟩ => exact lhs_row_64x512_512x64 _ _
      | ⟨1, _⟩ => exact (lhs_col_64x512_512x64 _ _).trans hk)
  have er : dot_S64x512_S512x64_S64x64_1_0_0_1_n_n.rhsIdx (ix2 r c) ((contrEquiv1 dot_S64x512_S512x64_S64x64_1_0_0_1_n_n 512 rfl rfl).symm k) = ix2 k c :=
    funext fun a => Fin.ext (by
      match a with
      | ⟨0, _⟩ => exact (rhs_row_64x512_512x64 _ _).trans hk
      | ⟨1, _⟩ => exact rhs_col_64x512_512x64 _ _)
  rw [el, er]

/-- The bias spread over a unit row axis and then over the 64 rows reads, at (r, c), the bias at c. -/
theorem bias_64x64_apply (b : FVec Ideal S64 .f32) (r c : Fin 64) :
    broadcastInDim S64x64 ![0, 1] bcast_S1x64_S64x64_0_1 (broadcastInDim S1x64 ![1] bcast_S64_S1x64_1 b) (ix2 r c)
      = b (ix1 c) := by
  refine (broadcastInDim_apply _ bcast_S1x64_S64x64_0_1 _ (ix2 r c) (ix2 (0 : Fin 1) c) (fun a => match a with
    | ⟨0, _⟩ => by show 0 = if (1 : Nat) = 1 then 0 else r.val; rw [if_pos rfl]
    | ⟨1, _⟩ => by show c.val = if (64 : Nat) = 1 then 0 else c.val; rw [if_neg (by decide)])).trans ?_
  exact broadcastInDim_apply _ bcast_S64_S1x64_1 b (ix2 (0 : Fin 1) c) (ix1 c) (fun a => match a with
    | ⟨0, _⟩ => by show c.val = if (64 : Nat) = 1 then 0 else c.val; rw [if_neg (by decide)])

/-- Layers 2 and 3 of the reference (x · W_mean + b_mean and x · W_logstd + b_logstd share their dimension
    numbers) are the specification's affine map at the bias re-laid as a 1 × 64 row. -/
theorem ref_dense2 (x : FVec Ideal S64x512 .f32) (w : FVec Ideal S512x64 .f32) (b : FVec Ideal S64 .f32)
    (h : S64.ShapeCasts S1x64) :
    addf (Host.dotGeneral (F := Ideal) dot_S64x512_S512x64_S64x64_1_0_0_1_n_n none x w)
        (broadcastInDim S64x64 ![0, 1] bcast_S1x64_S64x64_0_1 (broadcastInDim S1x64 ![1] bcast_S64_S1x64_1 b))
      = Cert.DenseSpec.dense2 x w (shapeCast S1x64 b h) := by
  funext j
  obtain ⟨r, c, rfl⟩ : ∃ (r : Fin 64) (c : Fin 64), j = ix2 r c := ⟨j 0, j 1, eq_ix2 j⟩
  rw [addf_apply, dot_64x512_512x64_apply, bias_64x64_apply]
  show _ = (∑ k : Fin 512, x (ix2 r k) * w (ix2 k c)) + shapeCast S1x64 b h (ix2 (0 : Fin 1) c)
  rw [shapeCast_a_1a_apply b h (0 : Fin 1) c]

/-- Layer 3 of the reference, x · W_logstd + b_logstd, has the same dimension numbers as layer 2: the same statement
    at its own operands. -/
theorem ref_dense3 (x : FVec Ideal S64x512 .f32) (w : FVec Ideal S512x64 .f32) (b : FVec Ideal S64 .f32)
    (h : S64.ShapeCasts S1x64) :
    addf (Host.dotGeneral (F := Ideal) dot_S64x512_S512x64_S64x64_1_0_0_1_n_n none x w)
        (broadcastInDim S64x64 ![0, 1] bcast_S1x64_S64x64_0_1 (broadcastInDim S1x64 ![1] bcast_S64_S1x64_1 b))
      = Cert.DenseSpec.dense2 x w (shapeCast S1x64 b h) := ref_dense2 x w b h

end Cert.ReferenceIdeal.RefValue

end
-- ==== Proof.Ref.Dense4.lean ====
/-
  The reference's first decoder layer is the specification's affine map followed by the maximum with zero.
  The reference multiplies the 64 × 64 latent codes by the 64 × 64000 weights in a single contraction, adds the bias
  after spreading the 64000-vector over a unit row axis and then over the 64 rows, and takes the maximum with a zero
  spread over the whole array. Entry (r, c) is max((Σ_k x(r, k) · w(k, c)) + b(c), 0), and b(c) is entry (0, c) of
  the bias laid out as a 1 × 64000 row.
-/
import proofs.«179658_j2465311228054_1_alg».proof.Proof.Gen.ReferenceIdeal
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- In the 64 × 64 by 64 × 64000 contraction the left operand is read at the output's row … -/
theorem lhs_row_64x64_64x64000 (i : S64x64000.Idx) (q : dot_S64x64_S64x64000_S64x64000_1_0_0_1_n_n.contr.Idx) :
    (dot_S64x64_S64x64000_S64x64000_1_0_0_1_n_n.lhsIdx i q 0).val = (i 0).val := by
  unfold DotDims.lhsIdx
  rw [dif_neg (show ¬(0 : Fin S64x64.rank) ∈ dot_S64x64_S64x64000_S64x64000_1_0_0_1_n_n.lhsBatch by decide),
    dif_pos (show (0 : Fin S64x64.rank) ∈ dot_S64x64_S64x64000_S64x64000_1_0_0_1_n_n.lhsNonContracting by decide)]
  rfl
/-- … and at the contracted coordinate; -/
theorem lhs_col_64x64_64x64000 (i : S64x64000.Idx) (q : dot_S64x64_S64x64000_S64x64000_1_0_0_1_n_n.contr.Idx) :
    (dot_S64x64_S64x64000_S64x64000_1_0_0_1_n_n.lhsIdx i q 1).val = (q ⟨0, by decide⟩).val :=
  dot_S64x64_S64x64000_S64x64000_1_0_0_1_n_n.lhsIdx_val_of_single rfl i q
/-- the right operand is read at the contracted coordinate … -/
theorem rhs_row_64x64_64x64000 (i : S64x64000.Idx) (q : dot_S64x64_S64x64000_S64x64000_1_0_0_1_n_n.contr.Idx) :
    (dot_S64x64_S64x64000_S64x64000_1_0_0_1_n_n.rhsIdx i q 0).val = (q ⟨0, by decide⟩).val :=
  dot_S64x64_S64x64000_S64x64000_1_0_0_1_n_n.rhsIdx_val_of_single rfl i q
/-- … and at the output's column. -/
theorem rhs_col_64x64_64x64000 (i : S64x64000.Idx) (q : dot_S64x64_S64x64000_S64x64000_1_0_0_1_n_n.contr.Idx) :
    (dot_S64x64_S64x64000_S64x64000_1_0_0_1_n_n.rhsIdx i q 1).val = (i 1).val := by
  unfold DotDims.rhsIdx
  rw [dif_neg (show ¬(1 : Fin S64x64000.rank) ∈ dot_S64x64_S64x64000_S64x64000_1_0_0_1_n_n.rhsBatch by decide),
    dif_pos (show (1 : Fin S64x64000.rank) ∈ dot_S64x64_S64x64000_S64x64000_1_0_0_1_n_n.rhsNonContracting by decide)]
  rfl

/-- The 64 × 64 by 64 × 64000 contraction at entry (r, c): the sum over the shared axis. -/
theorem dot_64x64_64x64000_apply (x : FVec Ideal S64x64 .f32) (w : FVec Ideal S64x64000 .f32) (r : Fin 64) (c : Fin 64000) :
    Host.dotGeneral (F := Ideal) dot_S64x64_S64x64000_S64x64000_1_0_0_1_n_n none x w (ix2 r c)
      = ∑ k : Fin 64, x (ix2 r k) * w (ix2 k c) := by
  simp only [Host.dotGeneral]
  rw [Ideal.dotGeneral_apply, ← Equiv.sum_comp (contrEquiv1 dot_S64x64_S64x64000_S64x64000_1_0_0_1_n_n 64 rfl rfl).symm]
  refine Finset.sum_congr rfl fun k _ => ?_
  have hk := contrEquiv1_symm_val dot_S64x64_S64x64000_S64x64000_1_0_0_1_n_n 64 rfl rfl k
  have el : dot_S64x64_S64x64000_S64x64000_1_0_0_1_n_n.lhsIdx (ix2 r c) ((contrEquiv1 dot_S64x64_S64x64000_S64x64000_1_0_0_1_n_n 64 rfl rfl).symm k) = ix2 r k :=
    funext fun a => Fin.ext (by
      match a with
      | ⟨0, _⟩ => exact lhs_row_64x64_64x64000 _ _
      | ⟨1, _⟩ => exact (lhs_col_64x64_64x64000 _ _).trans hk)
  have er : dot_S64x64_S64x64000_S64x64000_1_0_0_1_n_n.rhsIdx (ix2 r c) ((contrEquiv1 dot_S64x64_S64x64000_S64x64000_1_0_0_1_n_n 64 rfl rfl).symm k) = ix2 k c :=
    funext fun a => Fin.ext (by
      match a with
      | ⟨0, _⟩ => exact (rhs_row_64x64_64x64000 _ _).trans hk
      | ⟨1, _⟩ => exact rhs_col_64x64_64x64000 _ _)
  rw [el, er]

/-- The bias spread over a unit row axis and then over the 64 rows reads, at (r, c), the bias at c. -/
theorem bias_64x64000_apply (b : FVec Ideal S64000 .f32) (r : Fin 64) (c : Fin 64000) :
    broadcastInDim S64x64000 ![0, 1] bcast_S1x64000_S64x64000_0_1 (broadcastInDim S1x64000 ![1] bcast_S64000_S1x64000_1 b) (ix2 r c)
      = b (ix1 c) := by
  refine (broadcastInDim_apply _ bcast_S1x64000_S64x64000_0_1 _ (ix2 r c) (ix2 (0 : Fin 1) c) (fun a => match a with
    | ⟨0, _⟩ => by show 0 = if (1 : Nat) = 1 then 0 else r.val; rw [if_pos rfl]
    | ⟨1, _⟩ => by show c.val = if (64000 : Nat) = 1 then 0 else c.val; rw [if_neg (by decide)])).trans ?_
  exact broadcastInDim_apply _ bcast_S64000_S1x64000_1 b (ix2 (0 : Fin 1) c) (ix1 c) (fun a => match a with
    | ⟨0, _⟩ => by show c.val = if (64000 : Nat) = 1 then 0 else c.val; rw [if_neg (by decide)])

/-- The scalar zero spread over the whole 64 × 64000 array reads zero everywhere. -/
theorem zero_64x64000_apply (j : S64x64000.Idx) :
    broadcastInDim S64x64000 ![] bcast_S_S64x64000 (constant (F := Ideal) S_ .f32 0x00000000#32) j = 0 := by
  refine (broadcastInDim_apply _ bcast_S_S64x64000 _ j ix0 (fun a => a.elim0)).trans ?_
  rw [constant_apply, Ideal.ofBits_zero_f32]

/-- Layer 4 of the reference, max(z · W_dec_fc + b_dec_fc, 0), is the specification's map at the bias re-laid as a 1 × 64000 row. -/
theorem ref_dense4 (x : FVec Ideal S64x64 .f32) (w : FVec Ideal S64x64000 .f32) (b : FVec Ideal S64000 .f32)
    (h : S64000.ShapeCasts S1x64000) :
    maximumf (addf (Host.dotGeneral (F := Ideal) dot_S64x64_S64x64000_S64x64000_1_0_0_1_n_n none x w)
        (broadcastInDim S64x64000 ![0, 1] bcast_S1x64000_S64x64000_0_1 (broadcastInDim S1x64000 ![1] bcast_S64000_S1x64000_1 b)))
        (broadcastInDim S64x64000 ![] bcast_S_S64x64000 (constant (F := Ideal) S_ .f32 0x00000000#32))
      = Cert.DenseSpec.dense4 x w (shapeCast S1x64000 b h) := by
  funext j
  obtain ⟨r, c, rfl⟩ : ∃ (r : Fin 64) (c : Fin 64000), j = ix2 r c := ⟨j 0, j 1, eq_ix2 j⟩
  rw [maximumf_apply, addf_apply, dot_64x64_64x64000_apply, bias_64x64000_apply, zero_64x64000_apply]
  show _ = max ((∑ k : Fin 64, x (ix2 r k) * w (ix2 k c)) + shapeCast S1x64000 b h (ix2 (0 : Fin 1) c)) 0
  rw [shapeCast_a_1a_apply b h (0 : Fin 1) c]

end Cert.ReferenceIdeal.RefValue

end
-- ==== Proof.Ref.Dense5.lean ====
/-
  The reference's output layer is the specification's affine map.
  The reference multiplies the 64000 × 64 decoded features by the 64 × 32 weights in a single contraction, then adds
  the bias after spreading the 32-vector over a unit row axis and then over the 64000 rows. Entry (r, c) is
  (Σ_k x(r, k) · w(k, c)) + b(c), and b(c) is entry (0, c) of the bias laid out as a 1 × 32 row.
-/
import proofs.«179658_j2465311228054_1_alg».proof.Proof.Gen.ReferenceIdeal
import proofs.«179658_j2465311228054_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- In the 64000 × 64 by 64 × 32 contraction the left operand is read at the output's row … -/
theorem lhs_row_64000x64_64x32 (i : S64000x32.Idx) (q : dot_S64000x64_S64x32_S64000x32_1_0_0_1_n_n.contr.Idx) :
    (dot_S64000x64_S64x32_S64000x32_1_0_0_1_n_n.lhsIdx i q 0).val = (i 0).val := by
  unfold DotDims.lhsIdx
  rw [dif_neg (show ¬(0 : Fin S64000x64.rank) ∈ dot_S64000x64_S64x32_S64000x32_1_0_0_1_n_n.lhsBatch by decide),
    dif_pos (show (0 : Fin S64000x64.rank) ∈ dot_S64000x64_S64x32_S64000x32_1_0_0_1_n_n.lhsNonContracting by decide)]
  rfl
/-- … and at the contracted coordinate; -/
theorem lhs_col_64000x64_64x32 (i : S64000x32.Idx) (q : dot_S64000x64_S64x32_S64000x32_1_0_0_1_n_n.contr.Idx) :
    (dot_S64000x64_S64x32_S64000x32_1_0_0_1_n_n.lhsIdx i q 1).val = (q ⟨0, by decide⟩).val :=
  dot_S64000x64_S64x32_S64000x32_1_0_0_1_n_n.lhsIdx_val_of_single rfl i q
/-- the right operand is read at the contracted coordinate … -/
theorem rhs_row_64000x64_64x32 (i : S64000x32.Idx) (q : dot_S64000x64_S64x32_S64000x32_1_0_0_1_n_n.contr.Idx) :
    (dot_S64000x64_S64x32_S64000x32_1_0_0_1_n_n.rhsIdx i q 0).val = (q ⟨0, by decide⟩).val :=
  dot_S64000x64_S64x32_S64000x32_1_0_0_1_n_n.rhsIdx_val_of_single rfl i q
/-- … and at the output's column. -/
theorem rhs_col_64000x64_64x32 (i : S64000x32.Idx) (q : dot_S64000x64_S64x32_S64000x32_1_0_0_1_n_n.contr.Idx) :
    (dot_S64000x64_S64x32_S64000x32_1_0_0_1_n_n.rhsIdx i q 1).val = (i 1).val := by
  unfold DotDims.rhsIdx
  rw [dif_neg (show ¬(1 : Fin S64x32.rank) ∈ dot_S64000x64_S64x32_S64000x32_1_0_0_1_n_n.rhsBatch by decide),
    dif_pos (show (1 : Fin S64x32.rank) ∈ dot_S64000x64_S64x32_S64000x32_1_0_0_1_n_n.rhsNonContracting by decide)]
  rfl

/-- The 64000 × 64 by 64 × 32 contraction at entry (r, c): the sum over the shared axis. -/
theorem dot_64000x64_64x32_apply (x : FVec Ideal S64000x64 .f32) (w : FVec Ideal S64x32 .f32) (r : Fin 64000) (c : Fin 32) :
    Host.dotGeneral (F := Ideal) dot_S64000x64_S64x32_S64000x32_1_0_0_1_n_n none x w (ix2 r c)
      = ∑ k : Fin 64, x (ix2 r k) * w (ix2 k c) := by
  simp only [Host.dotGeneral]
  rw [Ideal.dotGeneral_apply, ← Equiv.sum_comp (contrEquiv1 dot_S64000x64_S64x32_S64000x32_1_0_0_1_n_n 64 rfl rfl).symm]
  refine Finset.sum_congr rfl fun k _ => ?_
  have hk := contrEquiv1_symm_val dot_S64000x64_S64x32_S64000x32_1_0_0_1_n_n 64 rfl rfl k
  have el : dot_S64000x64_S64x32_S64000x32_1_0_0_1_n_n.lhsIdx (ix2 r c) ((contrEquiv1 dot_S64000x64_S64x32_S64000x32_1_0_0_1_n_n 64 rfl rfl).symm k) = ix2 r k :=
    funext fun a => Fin.ext (by
      match a with
      | ⟨0, _⟩ => exact lhs_row_64000x64_64x32 _ _
      | ⟨1, _⟩ => exact (lhs_col_64000x64_64x32 _ _).trans hk)
  have er : dot_S64000x64_S64x32_S64000x32_1_0_0_1_n_n.rhsIdx (ix2 r c) ((contrEquiv1 dot_S64000x64_S64x32_S64000x32_1_0_0_1_n_n 64 rfl rfl).symm k) = ix2 k c :=
    funext fun a => Fin.ext (by
      match a with
      | ⟨0, _⟩ => exact (rhs_row_64000x64_64x32 _ _).trans hk
      | ⟨1, _⟩ => exact rhs_col_64000x64_64x32 _ _)
  rw [el, er]

/-- The bias spread over a unit row axis and then over the 64000 rows reads, at (r, c), the bias at c. -/
theorem bias_64000x32_apply (b : FVec Ideal S32 .f32) (r : Fin 64000) (c : Fin 32) :
    broadcastInDim S64000x32 ![0, 1] bcast_S1x32_S64000x32_0_1 (broadcastInDim S1x32 ![1] bcast_S32_S1x32_1 b) (ix2 r c)
      = b (ix1 c) := by
  refine (broadcastInDim_apply _ bcast_S1x32_S64000x32_0_1 _ (ix2 r c) (ix2 (0 : Fin 1) c) (fun a => match a with
    | ⟨0, _⟩ => by show 0 = if (1 : Nat) = 1 then 0 else r.val; rw [if_pos rfl]
    | ⟨1, _⟩ => by show c.val = if (32 : Nat) = 1 then 0 else c.val; rw [if_neg (by decide)])).trans ?_
  exact broadcastInDim_apply _ bcast_S32_S1x32_1 b (ix2 (0 : Fin 1) c) (ix1 c) (fun a => match a with
    | ⟨0, _⟩ => by show c.val = if (32 : Nat) = 1 then 0 else c.val; rw [if_neg (by decide)])

/-- Layer 5 of the reference, d · W_dec_out + b_dec_out, is the specification's affine map at the bias re-laid as a 1 × 32 row. -/
theorem ref_dense5 (x : FVec Ideal S64000x64 .f32) (w : FVec Ideal S64x32 .f32) (b : FVec Ideal S32 .f32)
    (h : S32.ShapeCasts S1x32) :
    addf (Host.dotGeneral (F := Ideal) dot_S64000x64_S64x32_S64000x32_1_0_0_1_n_n none x w)
        (broadcastInDim S64000x32 ![0, 1] bcast_S1x32_S64000x32_0_1 (broadcastInDim S1x32 ![1] bcast_S32_S1x32_1 b))
      = Cert.DenseSpec.dense5 x w (shapeCast S1x32 b h) := by
  funext j
  obtain ⟨r, c, rfl⟩ : ∃ (r : Fin 64000) (c : Fin 32), j = ix2 r c := ⟨j 0, j 1, eq_ix2 j⟩
  rw [addf_apply, dot_64000x64_64x32_apply, bias_64000x32_apply]
  show _ = (∑ k : Fin 64, x (ix2 r k) * w (ix2 k c)) + shapeCast S1x32 b h (ix2 (0 : Fin 1) c)
  rw [shapeCast_a_1a_apply b h (0 : Fin 1) c]

end Cert.ReferenceIdeal.RefValue

end
-- ==== Proof.Ref.Chain.lean ====
/-
  The reference as a composition of the specification's dense layers and two aggregation stretches.
  Between its six dense layers the reference normalizes by the square roots of the node degrees, gathers along the
  senders and adds up along the receivers; none of that is opened here. The first stretch (self edges added, the
  result re-laid as one row of 64000 features per graph) and the last one are named as two functions of their
  input array and the two edge arrays, and the three results are written over them and the specification's layers.
  The run's three result terms are then these compositions, layer by layer from the innermost one.
-/
import proofs.«179658_j2465311228054_1_alg».proof.Proof.Ref.Run
import proofs.«179658_j2465311228054_1_alg».proof.Proof.Ref.Dense0
import proofs.«179658_j2465311228054_1_alg».proof.Proof.Ref.Dense1
import proofs.«179658_j2465311228054_1_alg».proof.Proof.Ref.Dense2
import proofs.«179658_j2465311228054_1_alg».proof.Proof.Ref.Dense4
import proofs.«179658_j2465311228054_1_alg».proof.Proof.Ref.Dense5

noncomputable section

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo

/-! ## The bias vectors re-laid as rows -/

theorem casts_S64_S1x64 : S64.ShapeCasts S1x64 := by decide
theorem casts_S512_S1x512 : S512.ShapeCasts S1x512 := by decide
theorem casts_S64000_S1x64000 : S64000.ShapeCasts S1x64000 := by decide
theorem casts_S32_S1x32 : S32.ShapeCasts S1x32 := by decide

/-! ## The two aggregation stretches -/

/-- The first aggregation, self edges added: scale each node's row by the inverse square root of its sender degree
    (at least one), gather along the senders, add up along the receivers, scale by the inverse square root of the
    receiver degree, and re-lay the 64000 × 64 result as 64 rows of 64000. -/
def agg1 (h : FVec Ideal S64000x64 .f32) (s r : IVec S1000000 32) : FVec Ideal S64x64000 .f32 :=
  shapeCast _ (mulf (Host.scatterAdd (F := Ideal) scatter_S64000x64_S1064000x1_S1064000x64_1_0_0_1 (broadcastInDim S64000x64 ![] bcast_S_S64000x64 (constant (F := Ideal) S_ .f32 0x00000000#32)) (broadcastInDim S1064000x1 ![0] bcast_S1064000_S1064000x1_0 (concatenate S1064000 0 [⟨S1000000, r⟩, ⟨S64000, (iotaInDim S64000 32 0)⟩] concatenates_S1000000_S64000_S1064000_d0)) (Host.gather gather_S64000x64_S1064000x1_S1064000x64_1_0_n_n_0_1_164 (mulf h (broadcastInDim S64000x64 ![0, 1] bcast_S64000x1_S64000x64_0_1 (broadcastInDim S64000x1 ![0] bcast_S64000_S64000x1_0 (Host.rsqrt (F := Ideal) (maximumf (Host.scatterAdd (F := Ideal) scatter_S64000_S1064000x1_S1064000_n_0_0_1 (broadcastInDim S64000 ![] bcast_S_S64000 (constant (F := Ideal) S_ .f32 0x00000000#32)) (broadcastInDim S1064000x1 ![0] bcast_S1064000_S1064000x1_0 (concatenate S1064000 0 [⟨S1000000, s⟩, ⟨S64000, (iotaInDim S64000 32 0)⟩] concatenates_S1000000_S64000_S1064000_d0)) (broadcastInDim S1064000 ![] bcast_S_S1064000 (constant (F := Ideal) S_ .f32 0x3F800000#32))) (broadcastInDim S64000 ![] bcast_S_S64000 (constant (F := Ideal) S_ .f32 0x3F800000#32))))))) (broadcastInDim S1064000x1 ![0] bcast_S1064000_S1064000x1_0 (select (cmpi .slt (concatenate S1064000 0 [⟨S1000000, s⟩, ⟨S64000, (iotaInDim S64000 32 0)⟩] concatenates_S1000000_S64000_S1064000_d0) (broadcastInDim S1064000 ![] bcast_S_S1064000 (constantI S_ 32 0#32))) (addi (concatenate S1064000 0 [⟨S1000000, s⟩, ⟨S64000, (iotaInDim S64000 32 0)⟩] concatenates_S1000000_S64000_S1064000_d0) (broadcastInDim S1064000 ![] bcast_S_S1064000 (constantI S_ 32 64000#32))) (concatenate S1064000 0 [⟨S1000000, s⟩, ⟨S64000, (iotaInDim S64000 32 0)⟩] concatenates_S1000000_S64000_S1064000_d0))))) (broadcastInDim S64000x64 ![0, 1] bcast_S64000x1_S64000x64_0_1 (broadcastInDim S64000x1 ![0] bcast_S64000_S64000x1_0 (Host.rsqrt (F := Ideal) (maximumf (Host.scatterAdd (F := Ideal) scatter_S64000_S1064000x1_S1064000_n_0_0_1 (broadcastInDim S64000 ![] bcast_S_S64000 (constant (F := Ideal) S_ .f32 0x00000000#32)) (broadcastInDim S1064000x1 ![0] bcast_S1064000_S1064000x1_0 (concatenate S1064000 0 [⟨S1000000, r⟩, ⟨S64000, (iotaInDim S64000 32 0)⟩] concatenates_S1000000_S64000_S1064000_d0)) (broadcastInDim S1064000 ![] bcast_S_S1064000 (constant (F := Ideal) S_ .f32 0x3F800000#32))) (broadcastInDim S64000 ![] bcast_S_S64000 (constant (F := Ideal) S_ .f32 0x3F800000#32))))))) shapeCasts_S64000x64_S64x64000

/-- The last aggregation, without self edges, on the 64000 × 32 output features. -/
def agg2 (d : FVec Ideal S64000x32 .f32) (s r : IVec S1000000 32) : FVec Ideal S64000x32 .f32 :=
  mulf (Host.scatterAdd (F := Ideal) scatter_S64000x32_S1000000x1_S1000000x32_1_0_0_1 (broadcastInDim S64000x32 ![] bcast_S_S64000x32 (constant (F := Ideal) S_ .f32 0x00000000#32)) (broadcastInDim S1000000x1 ![0] bcast_S1000000_S1000000x1_0 r) (Host.gather gather_S64000x32_S1000000x1_S1000000x32_1_0_n_n_0_1_132 (mulf d (broadcastInDim S64000x32 ![0, 1] bcast_S64000x1_S64000x32_0_1 (broadcastInDim S64000x1 ![0] bcast_S64000_S64000x1_0 (Host.rsqrt (F := Ideal) (maximumf (Host.scatterAdd (F := Ideal) scatter_S64000_S1000000x1_S1000000_n_0_0_1 (broadcastInDim S64000 ![] bcast_S_S64000 (constant (F := Ideal) S_ .f32 0x00000000#32)) (broadcastInDim S1000000x1 ![0] bcast_S1000000_S1000000x1_0 s) (broadcastInDim S1000000 ![] bcast_S_S1000000 (constant (F := Ideal) S_ .f32 0x3F800000#32))) (broadcastInDim S64000 ![] bcast_S_S64000 (constant (F := Ideal) S_ .f32 0x3F800000#32))))))) (broadcastInDim S1000000x1 ![0] bcast_S1000000_S1000000x1_0 (select (cmpi .slt s (broadcastInDim S1000000 ![] bcast_S_S1000000 (constantI S_ 32 0#32))) (addi s (broadcastInDim S1000000 ![] bcast_S_S1000000 (constantI S_ 32 64000#32))) s)))) (broadcastInDim S64000x32 ![0, 1] bcast_S64000x1_S64000x32_0_1 (broadcastInDim S64000x1 ![0] bcast_S64000_S64000x1_0 (Host.rsqrt (F := Ideal) (maximumf (Host.scatterAdd (F := Ideal) scatter_S64000_S1000000x1_S1000000_n_0_0_1 (broadcastInDim S64000 ![] bcast_S_S64000 (constant (F := Ideal) S_ .f32 0x00000000#32)) (broadcastInDim S1000000x1 ![0] bcast_S1000000_S1000000x1_0 r) (broadcastInDim S1000000 ![] bcast_S_S1000000 (constant (F := Ideal) S_ .f32 0x3F800000#32))) (broadcastInDim S64000 ![] bcast_S_S64000 (constant (F := Ideal) S_ .f32 0x3F800000#32))))))

/-! ## The three results over the specification's layers -/

/-- Layer 0 on the node features. -/
def specH0 (a0 : FVec Ideal S64000x64 .f32) (a4 : FVec Ideal S64x64 .f32) (a5 : FVec Ideal S64 .f32) : FVec Ideal S64000x64 .f32 :=
  Cert.DenseSpec.dense0 a0 a4 (shapeCast S1x64 a5 casts_S64_S1x64)
/-- Layer 1 on the aggregated, flattened features. -/
def specX1 (a0 : FVec Ideal S64000x64 .f32) (a1 : IVec S1000000 32) (a2 : IVec S1000000 32) (a4 : FVec Ideal S64x64 .f32) (a5 : FVec Ideal S64 .f32) (a6 : FVec Ideal S64000x512 .f32) (a7 : FVec Ideal S512 .f32) : FVec Ideal S64x512 .f32 :=
  Cert.DenseSpec.dense1 (agg1 (specH0 a0 a4 a5) a1 a2) a6 (shapeCast S1x512 a7 casts_S512_S1x512)
/-- The mean: layer 2. -/
def specMean (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64x64 .f32 :=
  Cert.DenseSpec.dense2 (specX1 a0 a1 a2 a4 a5 a6 a7) a8 (shapeCast S1x64 a9 casts_S64_S1x64)
/-- The logarithm of the standard deviation: layer 3. -/
def specLogstd (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64x64 .f32 :=
  Cert.DenseSpec.dense2 (specX1 a0 a1 a2 a4 a5 a6 a7) a10 (shapeCast S1x64 a11 casts_S64_S1x64)
/-- The latent code: mean + exp(log std) · eps. -/
def specZ (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64x64 .f32 :=
  addf (specMean a0 a1 a2 a3 a4 a5 a6 a7 a8 a9 a10 a11 a12 a13 a14 a15) (mulf (Host.exp (F := Ideal) (specLogstd a0 a1 a2 a3 a4 a5 a6 a7 a8 a9 a10 a11 a12 a13 a14 a15)) a3)
/-- Layer 4 on the latent code. -/
def specD4 (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64x64000 .f32 :=
  Cert.DenseSpec.dense4 (specZ a0 a1 a2 a3 a4 a5 a6 a7 a8 a9 a10 a11 a12 a13 a14 a15) a12 (shapeCast S1x64000 a13 casts_S64000_S1x64000)
/-- Layer 5 on the decoded features re-laid as 64000 rows of 64. -/
def specOut5 (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64000x32 .f32 :=
  Cert.DenseSpec.dense5 (shapeCast S64000x64 (specD4 a0 a1 a2 a3 a4 a5 a6 a7 a8 a9 a10 a11 a12 a13 a14 a15) shapeCasts_S64x64000_S64000x64) a14 (shapeCast S1x32 a15 casts_S32_S1x32)
/-- The output nodes: the last aggregation of layer 5's result. -/
def specOut (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32) : FVec Ideal S64000x32 .f32 :=
  agg2 (specOut5 a0 a1 a2 a3 a4 a5 a6 a7 a8 a9 a10 a11 a12 a13 a14 a15) a1 a2

/-! ## The reference's stages are these, from the innermost layer out -/

section Stages
variable (a0 : FVec Ideal S64000x64 .f32) (a1 : IVec S1000000 32) (a2 : IVec S1000000 32) (a3 : FVec Ideal S64x64 .f32) (a4 : FVec Ideal S64x64 .f32) (a5 : FVec Ideal S64 .f32) (a6 : FVec Ideal S64000x512 .f32) (a7 : FVec Ideal S512 .f32) (a8 : FVec Ideal S512x64 .f32) (a9 : FVec Ideal S64 .f32) (a10 : FVec Ideal S512x64 .f32) (a11 : FVec Ideal S64 .f32) (a12 : FVec Ideal S64x64000 .f32) (a13 : FVec Ideal S64000 .f32) (a14 : FVec Ideal S64x32 .f32) (a15 : FVec Ideal S32 .f32)

theorem stage_h0 : val_main_v4 (F := Ideal) a0 a4 a5 = specH0 a0 a4 a5 :=
  ref_dense0 a0 a4 a5 casts_S64_S1x64

theorem stage_agg1 : val_main_v37 (F := Ideal) a0 a1 a2 a4 a5 = agg1 (val_main_v4 (F := Ideal) a0 a4 a5) a1 a2 := rfl

theorem stage_x1_val : val_main_v42 (F := Ideal) a0 a1 a2 a4 a5 a6 a7
    = Cert.DenseSpec.dense1 (val_main_v37 (F := Ideal) a0 a1 a2 a4 a5) a6 (shapeCast S1x512 a7 casts_S512_S1x512) :=
  ref_dense1 (val_main_v37 (F := Ideal) a0 a1 a2 a4 a5) a6 a7 casts_S512_S1x512

theorem stage_x1 : val_main_v42 (F := Ideal) a0 a1 a2 a4 a5 a6 a7 = specX1 a0 a1 a2 a4 a5 a6 a7 := by
  rw [stage_x1_val, stage_agg1, stage_h0]; rfl

theorem stage_mean : val_main_v46 (F := Ideal) a0 a1 a2 a4 a5 a6 a7 a8 a9 = specMean a0 a1 a2 a3 a4 a5 a6 a7 a8 a9 a10 a11 a12 a13 a14 a15 := by
  refine (ref_dense2 (val_main_v42 (F := Ideal) a0 a1 a2 a4 a5 a6 a7) a8 a9 casts_S64_S1x64).trans ?_
  rw [stage_x1]; rfl

theorem stage_logstd : val_main_v50 (F := Ideal) a0 a1 a2 a4 a5 a6 a7 a10 a11 = specLogstd a0 a1 a2 a3 a4 a5 a6 a7 a8 a9 a10 a11 a12 a13 a14 a15 := by
  refine (ref_dense3 (val_main_v42 (F := Ideal) a0 a1 a2 a4 a5 a6 a7) a10 a11 casts_S64_S1x64).trans ?_
  rw [stage_x1]; rfl

theorem stage_z_val : val_main_v53 (F := Ideal) a0 a1 a2 a3 a4 a5 a6 a7 a8 a9 a10 a11
    = addf (val_main_v46 (F := Ideal) a0 a1 a2 a4 a5 a6 a7 a8 a9) (mulf (Host.exp (F := Ideal) (val_main_v50 (F := Ideal) a0 a1 a2 a4 a5 a6 a7 a10 a11)) a3) := rfl

theorem stage_z : val_main_v53 (F := Ideal) a0 a1 a2 a3 a4 a5 a6 a7 a8 a9 a10 a11 = specZ a0 a1 a2 a3 a4 a5 a6 a7 a8 a9 a10 a11 a12 a13 a14 a15 := by
  rw [stage_z_val, stage_mean, stage_logstd]; rfl

theorem stage_d4 : val_main_v58 (F := Ideal) a0 a1 a2 a3 a4 a5 a6 a7 a8 a9 a10 a11 a12 a13 = specD4 a0 a1 a2 a3 a4 a5 a6 a7 a8 a9 a10 a11 a12 a13 a14 a15 := by
  refine (ref_dense4 (val_main_v53 (F := Ideal) a0 a1 a2 a3 a4 a5 a6 a7 a8 a9 a10 a11) a12 a13 casts_S64000_S1x64000).trans ?_
  rw [stage_z]; rfl

theorem stage_d4_relaid : val_main_v59 (F := Ideal) a0 a1 a2 a3 a4 a5 a6 a7 a8 a9 a10 a11 a12 a13
    = shapeCast S64000x64 (val_main_v58 (F := Ideal) a0 a1 a2 a3 a4 a5 a6 a7 a8 a9 a10 a11 a12 a13) shapeCasts_S64x64000_S64000x64 := rfl

theorem stage_out5 : val_main_v63 (F := Ideal) a0 a1 a2 a3 a4 a5 a6 a7 a8 a9 a10 a11 a12 a13 a14 a15 = specOut5 a0 a1 a2 a3 a4 a5 a6 a7 a8 a9 a10 a11 a12 a13 a14 a15 := by
  refine (ref_dense5 (val_main_v59 (F := Ideal) a0 a1 a2 a3 a4 a5 a6 a7 a8 a9 a10 a11 a12 a13) a14 a15 casts_S32_S1x32).trans ?_
  rw [stage_d4_relaid, stage_d4]; rfl

theorem stage_agg2 : val_main_v92 (F := Ideal) a0 a1 a2 a3 a4 a5 a6 a7 a8 a9 a10 a11 a12 a13 a14 a15 = agg2 (val_main_v63 (F := Ideal) a0 a1 a2 a3 a4 a5 a6 a7 a8 a9 a10 a11 a12 a13 a14 a15) a1 a2 := rfl

theorem stage_out : val_main_v92 (F := Ideal) a0 a1 a2 a3 a4 a5 a6 a7 a8 a9 a10 a11 a12 a13 a14 a15 = specOut a0 a1 a2 a3 a4 a5 a6 a7 a8 a9 a10 a11 a12 a13 a14 a15 := by
  rw [stage_agg2, stage_out5]; rfl

end Stages

/-! ## The run, with its three results as those compositions -/

set_option maxRecDepth 8192 in
/-- Every weakly fair execution of the reference terminates with the mean, the log standard deviation and the
    output nodes at the compositions above of the arguments' launch contents, and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v46) = specMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v50) = specLogstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_v92) = specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c =>
    ⟨((h c).1.trans (val_main_v46_eq (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))).trans (stage_mean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))),
      ((h c).2.1.trans (val_main_v50_eq (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)))).trans (stage_logstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))),
      ((h c).2.2.1.trans (val_main_v92_eq (F := Ideal) m c)).trans (stage_out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))),
      (h c).2.2.2⟩)
    (Cert.ReferenceIdeal.Value.run (F := Ideal) m ρ)

end Cert.ReferenceIdeal.RefValue

end
-- ==== Proof.KI.Stretch.lean ====
/-
  What the kernel program's host operations between its six dense layers leave in the buffers the layers read.
  Before each layer the bias vector is re-laid as a one-row matrix; between the first and second layers the
  degree-normalized aggregation with self edges runs and its result is re-laid as one row per graph; before the
  fifth layer the latent code mean + exp(log std) · eps is formed; before the last one the decoded features are
  re-laid as one row per node; and after it the last aggregation runs. Each is stated for arbitrary buffer contents
  before the stretch, in the words the reference side uses for the same operations, so that the two programs'
  results can be compared stage by stage.
-/
import proofs.«179658_j2465311228054_1_alg».proof.Proof.Gen.KernelIdeal.Launch
import proofs.«179658_j2465311228054_1_alg».proof.Proof.Ref.Chain
import Idealize.ShloMosaic.Lib.StableHlo.Run

noncomputable section

namespace Cert.KernelIdeal.Dense

open Cert.KernelIdeal Cert.KernelIdeal.Gen Idealize.ShloMosaic Idealize.ShloMosaic.TcCoe Idealize.SL.Sem
  Idealize.ShloMosaic.StableHlo
open Cert.ReferenceIdeal.RefValue (agg1 agg2 casts_S64_S1x64 casts_S512_S1x512 casts_S64000_S1x64000 casts_S32_S1x32)

variable (W : Valuation τ sig (Elt Ideal))

/-- Before layer 0: the bias as a 1 × 64 row. -/
theorem stretch0 : StableHlo.after (hostOps0 (F := Ideal)) W main_v0
    = shapeCast Cert.ReferenceIdeal.S1x64 (W main_arg5) casts_S64_S1x64 := by
  after_results; rfl

/-- Before layer 1: the first aggregation of layer 0's result, re-laid as 64 rows of 64000 … -/
theorem stretch1_x : StableHlo.after (hostOps1 (F := Ideal)) W main_v34
    = agg1 (W main_v1) (W main_arg1) (W main_arg2) := by
  after_results_simp; rfl

/-- … and the bias as a 1 × 512 row. -/
theorem stretch1_b : StableHlo.after (hostOps1 (F := Ideal)) W main_v35
    = shapeCast Cert.ReferenceIdeal.S1x512 (W main_arg7) casts_S512_S1x512 := by
  after_results_simp; rfl

/-- Before layer 2: the bias as a 1 × 64 row. -/
theorem stretch2 : StableHlo.after (hostOps2 (F := Ideal)) W main_v37
    = shapeCast Cert.ReferenceIdeal.S1x64 (W main_arg9) casts_S64_S1x64 := by
  after_results; rfl

/-- Before layer 3: the bias as a 1 × 64 row. -/
theorem stretch3 : StableHlo.after (hostOps3 (F := Ideal)) W main_v39
    = shapeCast Cert.ReferenceIdeal.S1x64 (W main_arg11) casts_S64_S1x64 := by
  after_results; rfl

/-- Before layer 4: the latent code, mean + exp(log std) · eps … -/
theorem stretch4_z : StableHlo.after (hostOps4 (F := Ideal)) W main_v43
    = addf (F := Ideal) (s := Cert.ReferenceIdeal.S64x64) (φ := .f32) (W main_v38)
        (mulf (F := Ideal) (s := Cert.ReferenceIdeal.S64x64) (φ := .f32)
          (Host.exp (F := Ideal) (s := Cert.ReferenceIdeal.S64x64) (φ := .f32) (W main_v40)) (W main_arg3)) := by
  after_results <;> rfl

/-- … and the bias as a 1 × 64000 row. -/
theorem stretch4_b : StableHlo.after (hostOps4 (F := Ideal)) W main_v44
    = shapeCast Cert.ReferenceIdeal.S1x64000 (W main_arg13) casts_S64000_S1x64000 := by
  after_results; rfl

/-- Before layer 5: layer 4's result re-laid as 64000 rows of 64 … -/
theorem stretch5_x : StableHlo.after (hostOps5 (F := Ideal)) W main_v46
    = shapeCast Cert.ReferenceIdeal.S64000x64 (W main_v45) Cert.ReferenceIdeal.Gen.shapeCasts_S64x64000_S64000x64 := by
  after_results; rfl

/-- … and the bias as a 1 × 32 row. -/
theorem stretch5_b : StableHlo.after (hostOps5 (F := Ideal)) W main_v47
    = shapeCast Cert.ReferenceIdeal.S1x32 (W main_arg15) casts_S32_S1x32 := by
  after_results; rfl

/-- After layer 5: the last aggregation of its result. -/
theorem stretch6 : StableHlo.after (hostOps6 (F := Ideal)) W main_v77
    = agg2 (W main_v48) (W main_arg1) (W main_arg2) := by
  after_results_simp; rfl

end Cert.KernelIdeal.Dense

end
-- ==== Proof.KI.Chain.lean ====
/-
  The kernel program's three results as the same compositions of the specification's dense layers and the two
  aggregation stretches that the reference's results are.
  The buffers' contents are followed item by item: a stretch of host operations changes only the buffers it writes,
  a region only its output array; no item writes an argument array. Each region's output is the specification's
  layer of the three arrays its windows stage (the layer's input, the weights, the bias row), and each of those is
  read back to the arguments: the bias rows and the re-laid arrays by what the host stretches leave, the layer inputs
  by the previous region's output or an aggregation of it.
-/
import proofs.«179658_j2465311228054_1_alg».proof.Proof.KI.Run
import proofs.«179658_j2465311228054_1_alg».proof.Proof.KI.Val0
import proofs.«179658_j2465311228054_1_alg».proof.Proof.KI.Val1
import proofs.«179658_j2465311228054_1_alg».proof.Proof.KI.Val2
import proofs.«179658_j2465311228054_1_alg».proof.Proof.KI.Val3
import proofs.«179658_j2465311228054_1_alg».proof.Proof.KI.Val4
import proofs.«179658_j2465311228054_1_alg».proof.Proof.KI.Val5
import proofs.«179658_j2465311228054_1_alg».proof.Proof.KI.Stretch
import proofs.«179658_j2465311228054_1_alg».proof.Proof.Ref.Chain

set_option maxRecDepth 16384

noncomputable section

namespace Cert.KernelIdeal.Dense

open Cert.KernelIdeal Cert.KernelIdeal.Gen Idealize.ShloMosaic Idealize.ShloMosaic.TcCoe Idealize.SL.Sem
open Cert.ReferenceIdeal.RefValue (agg1 agg2 casts_S64_S1x64 casts_S512_S1x512 casts_S64000_S1x64000 casts_S32_S1x32
  specH0 specX1 specMean specLogstd specZ specD4 specOut5 specOut)

variable (m : (ℓ : Loc nD τ sig) → Buf (Elt Ideal) ℓ) (c : Dev nD)

/-! ## What each item leaves unchanged -/

/-- A buffer the stretch before region 0 does not write keeps its contents. -/
theorem kept1 (r : Ref sig .tc) (h : r ∉ hostOps0_W) : U1 m c r = V0 m c r :=
  StableHlo.after_of_writes_sub hostOps0 _ hostOps0_writes h
/-- Region 0 changes only its output array … -/
theorem kept2 (r : Ref sig .tc) (h : r ≠ main_v1) : U2 m c r = U1 m c r :=
  Function.update_of_ne (StableHlo.devRef_ne_of_ne h : (Proc.devRef .tc r : DevRef τ sig) ≠ Proc.devRef .tc main_v1) _ _
/-- … which then holds the region's result. -/
theorem atOut2 : U2 m c main_v1 = o2 m c := Function.update_self ..
/-- A buffer the stretch before region 1 does not write keeps its contents. -/
theorem kept3 (r : Ref sig .tc) (h : r ∉ hostOps1_W) : U3 m c r = U2 m c r :=
  StableHlo.after_of_writes_sub hostOps1 _ hostOps1_writes h
/-- Region 1 changes only its output array … -/
theorem kept4 (r : Ref sig .tc) (h : r ≠ main_v36) : U4 m c r = U3 m c r :=
  Function.update_of_ne (StableHlo.devRef_ne_of_ne h : (Proc.devRef .tc r : DevRef τ sig) ≠ Proc.devRef .tc main_v36) _ _
/-- … which then holds the region's result. -/
theorem atOut4 : U4 m c main_v36 = o4 m c := Function.update_self ..
/-- A buffer the stretch before region 2 does not write keeps its contents. -/
theorem kept5 (r : Ref sig .tc) (h : r ∉ hostOps2_W) : U5 m c r = U4 m c r :=
  StableHlo.after_of_writes_sub hostOps2 _ hostOps2_writes h
/-- Region 2 changes only its output array … -/
theorem kept6 (r : Ref sig .tc) (h : r ≠ main_v38) : U6 m c r = U5 m c r :=
  Function.update_of_ne (StableHlo.devRef_ne_of_ne h : (Proc.devRef .tc r : DevRef τ sig) ≠ Proc.devRef .tc main_v38) _ _
/-- … which then holds the region's result. -/
theorem atOut6 : U6 m c main_v38 = o6 m c := Function.update_self ..
/-- A buffer the stretch before region 3 does not write keeps its contents. -/
theorem kept7 (r : Ref sig .tc) (h : r ∉ hostOps3_W) : U7 m c r = U6 m c r :=
  StableHlo.after_of_writes_sub hostOps3 _ hostOps3_writes h
/-- Region 3 changes only its output array … -/
theorem kept8 (r : Ref sig .tc) (h : r ≠ main_v40) : U8 m c r = U7 m c r :=
  Function.update_of_ne (StableHlo.devRef_ne_of_ne h : (Proc.devRef .tc r : DevRef τ sig) ≠ Proc.devRef .tc main_v40) _ _
/-- … which then holds the region's result. -/
theorem atOut8 : U8 m c main_v40 = o8 m c := Function.update_self ..
/-- A buffer the stretch before region 4 does not write keeps its contents. -/
theorem kept9 (r : Ref sig .tc) (h : r ∉ hostOps4_W) : U9 m c r = U8 m c r :=
  StableHlo.after_of_writes_sub hostOps4 _ hostOps4_writes h
/-- Region 4 changes only its output array … -/
theorem kept10 (r : Ref sig .tc) (h : r ≠ main_v45) : U10 m c r = U9 m c r :=
  Function.update_of_ne (StableHlo.devRef_ne_of_ne h : (Proc.devRef .tc r : DevRef τ sig) ≠ Proc.devRef .tc main_v45) _ _
/-- … which then holds the region's result. -/
theorem atOut10 : U10 m c main_v45 = o10 m c := Function.update_self ..
/-- A buffer the stretch before region 5 does not write keeps its contents. -/
theorem kept11 (r : Ref sig .tc) (h : r ∉ hostOps5_W) : U11 m c r = U10 m c r :=
  StableHlo.after_of_writes_sub hostOps5 _ hostOps5_writes h
/-- Region 5 changes only its output array … -/
theorem kept12 (r : Ref sig .tc) (h : r ≠ main_v48) : U12 m c r = U11 m c r :=
  Function.update_of_ne (StableHlo.devRef_ne_of_ne h : (Proc.devRef .tc r : DevRef τ sig) ≠ Proc.devRef .tc main_v48) _ _
/-- … which then holds the region's result. -/
theorem atOut12 : U12 m c main_v48 = o12 m c := Function.update_self ..
/-- A buffer the stretch before the end (after region 5) does not write keeps its contents. -/
theorem kept13 (r : Ref sig .tc) (h : r ∉ hostOps6_W) : U13 m c r = U12 m c r :=
  StableHlo.after_of_writes_sub hostOps6 _ hostOps6_writes h

/-! ## No item writes an argument -/

/-- The sixteen argument arrays. -/
abbrev argRefs : List (Ref sig .tc) :=
  [main_arg0, main_arg1, main_arg2, main_arg3, main_arg4, main_arg5, main_arg6, main_arg7, main_arg8, main_arg9, main_arg10,
    main_arg11, main_arg12, main_arg13, main_arg14, main_arg15]
theorem argKept1 (r : Ref sig .tc) (hr : r ∈ argRefs) : U1 m c r = V0 m c r :=
  (kept1 m c r ((by decide : ∀ r ∈ argRefs, r ∉ hostOps0_W) r hr)).trans rfl
theorem argKept2 (r : Ref sig .tc) (hr : r ∈ argRefs) : U2 m c r = V0 m c r :=
  (kept2 m c r ((by decide : ∀ r ∈ argRefs, r ≠ main_v1) r hr)).trans (argKept1 m c r hr)
theorem argKept3 (r : Ref sig .tc) (hr : r ∈ argRefs) : U3 m c r = V0 m c r :=
  (kept3 m c r ((by decide : ∀ r ∈ argRefs, r ∉ hostOps1_W) r hr)).trans (argKept2 m c r hr)
theorem argKept4 (r : Ref sig .tc) (hr : r ∈ argRefs) : U4 m c r = V0 m c r :=
  (kept4 m c r ((by decide : ∀ r ∈ argRefs, r ≠ main_v36) r hr)).trans (argKept3 m c r hr)
theorem argKept5 (r : Ref sig .tc) (hr : r ∈ argRefs) : U5 m c r = V0 m c r :=
  (kept5 m c r ((by decide : ∀ r ∈ argRefs, r ∉ hostOps2_W) r hr)).trans (argKept4 m c r hr)
theorem argKept6 (r : Ref sig .tc) (hr : r ∈ argRefs) : U6 m c r = V0 m c r :=
  (kept6 m c r ((by decide : ∀ r ∈ argRefs, r ≠ main_v38) r hr)).trans (argKept5 m c r hr)
theorem argKept7 (r : Ref sig .tc) (hr : r ∈ argRefs) : U7 m c r = V0 m c r :=
  (kept7 m c r ((by decide : ∀ r ∈ argRefs, r ∉ hostOps3_W) r hr)).trans (argKept6 m c r hr)
theorem argKept8 (r : Ref sig .tc) (hr : r ∈ argRefs) : U8 m c r = V0 m c r :=
  (kept8 m c r ((by decide : ∀ r ∈ argRefs, r ≠ main_v40) r hr)).trans (argKept7 m c r hr)
theorem argKept9 (r : Ref sig .tc) (hr : r ∈ argRefs) : U9 m c r = V0 m c r :=
  (kept9 m c r ((by decide : ∀ r ∈ argRefs, r ∉ hostOps4_W) r hr)).trans (argKept8 m c r hr)
theorem argKept10 (r : Ref sig .tc) (hr : r ∈ argRefs) : U10 m c r = V0 m c r :=
  (kept10 m c r ((by decide : ∀ r ∈ argRefs, r ≠ main_v45) r hr)).trans (argKept9 m c r hr)
theorem argKept11 (r : Ref sig .tc) (hr : r ∈ argRefs) : U11 m c r = V0 m c r :=
  (kept11 m c r ((by decide : ∀ r ∈ argRefs, r ∉ hostOps5_W) r hr)).trans (argKept10 m c r hr)
theorem argKept12 (r : Ref sig .tc) (hr : r ∈ argRefs) : U12 m c r = V0 m c r :=
  (kept12 m c r ((by decide : ∀ r ∈ argRefs, r ≠ main_v48) r hr)).trans (argKept11 m c r hr)
theorem argKept13 (r : Ref sig .tc) (hr : r ∈ argRefs) : U13 m c r = V0 m c r :=
  (kept13 m c r ((by decide : ∀ r ∈ argRefs, r ∉ hostOps6_W) r hr)).trans (argKept12 m c r hr)

/-! ## The regions' outputs, one layer at a time -/

/-- Region 0 leaves layer 0 of the node features. -/
theorem o2_eq : o2 m c = specH0 (m ((c.tc : Thread nD τ).loc main_arg0)) (m ((c.tc : Thread nD τ).loc main_arg4)) (m ((c.tc : Thread nD τ).loc main_arg5)) := by
  have e0 : R1 m c (Pipeline.arrRef spec0 0) = (m ((c.tc : Thread nD τ).loc main_arg0)) := argKept1 m c main_arg0 (by decide)
  have e1 : R1 m c (Pipeline.arrRef spec0 1) = (m ((c.tc : Thread nD τ).loc main_arg4)) := argKept1 m c main_arg4 (by decide)
  have e2 : R1 m c (Pipeline.arrRef spec0 2) = shapeCast Cert.ReferenceIdeal.S1x64 (m ((c.tc : Thread nD τ).loc main_arg5)) casts_S64_S1x64 :=
    stretch0 (V0 m c)
  refine (final0 (R1 m) c).trans ?_
  rw [e0, e1, e2] <;> rfl

/-- The first aggregation's result, re-laid, is region 1's input. -/
theorem x1in_eq : U3 m c main_v34 = agg1 (specH0 (m ((c.tc : Thread nD τ).loc main_arg0)) (m ((c.tc : Thread nD τ).loc main_arg4)) (m ((c.tc : Thread nD τ).loc main_arg5))) (m ((c.tc : Thread nD τ).loc main_arg1)) (m ((c.tc : Thread nD τ).loc main_arg2)) := by
  refine (stretch1_x (U2 m c)).trans ?_
  rw [atOut2 m c, o2_eq m c, argKept2 m c main_arg1 (by decide), argKept2 m c main_arg2 (by decide)] <;> rfl

/-- Region 1 leaves layer 1. -/
theorem o4_eq : o4 m c = specX1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := by
  have e0 : R3 m c (Pipeline.arrRef spec1 0) = agg1 (specH0 (m ((c.tc : Thread nD τ).loc main_arg0)) (m ((c.tc : Thread nD τ).loc main_arg4)) (m ((c.tc : Thread nD τ).loc main_arg5))) (m ((c.tc : Thread nD τ).loc main_arg1)) (m ((c.tc : Thread nD τ).loc main_arg2)) := x1in_eq m c
  have e1 : R3 m c (Pipeline.arrRef spec1 1) = (m ((c.tc : Thread nD τ).loc main_arg6)) := argKept3 m c main_arg6 (by decide)
  have e2 : R3 m c (Pipeline.arrRef spec1 2) = shapeCast Cert.ReferenceIdeal.S1x512 (m ((c.tc : Thread nD τ).loc main_arg7)) casts_S512_S1x512 := by
    refine (stretch1_b (U2 m c)).trans ?_
    rw [argKept2 m c main_arg7 (by decide)] <;> rfl
  refine (final1 (R3 m) c).trans ?_
  rw [e0, e1, e2] <;> rfl

/-- Layer 1's result is still in its buffer when regions 2 and 3 read it. -/
theorem x_at5 : U5 m c main_v36 = o4 m c := (kept5 m c main_v36 (by decide)).trans (atOut4 m c)
theorem x_at7 : U7 m c main_v36 = o4 m c :=
  (kept7 m c main_v36 (by decide)).trans ((kept6 m c main_v36 (by decide)).trans (x_at5 m c))

/-- Region 2 leaves the mean. -/
theorem o6_eq : o6 m c = specMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have e0 : R5 m c (Pipeline.arrRef spec2 0) = specX1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := (x_at5 m c).trans (o4_eq m c)
  have e1 : R5 m c (Pipeline.arrRef spec2 1) = (m ((c.tc : Thread nD τ).loc main_arg8)) := argKept5 m c main_arg8 (by decide)
  have e2 : R5 m c (Pipeline.arrRef spec2 2) = shapeCast Cert.ReferenceIdeal.S1x64 (m ((c.tc : Thread nD τ).loc main_arg9)) casts_S64_S1x64 := by
    refine (stretch2 (U4 m c)).trans ?_
    rw [argKept4 m c main_arg9 (by decide)] <;> rfl
  refine (final2 (R5 m) c).trans ?_
  rw [e0, e1, e2] <;> rfl

/-- Region 3 leaves the logarithm of the standard deviation. -/
theorem o8_eq : o8 m c = specLogstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have e0 : R7 m c (Pipeline.arrRef spec3 0) = specX1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) := (x_at7 m c).trans (o4_eq m c)
  have e1 : R7 m c (Pipeline.arrRef spec3 1) = (m ((c.tc : Thread nD τ).loc main_arg10)) := argKept7 m c main_arg10 (by decide)
  have e2 : R7 m c (Pipeline.arrRef spec3 2) = shapeCast Cert.ReferenceIdeal.S1x64 (m ((c.tc : Thread nD τ).loc main_arg11)) casts_S64_S1x64 := by
    refine (stretch3 (U6 m c)).trans ?_
    rw [argKept6 m c main_arg11 (by decide)] <;> rfl
  refine (final3 (R7 m) c).trans ?_
  rw [e0, e1, e2] <;> rfl

/-- The mean is still in its buffer after region 3. -/
theorem mean_at8 : U8 m c main_v38 = o6 m c :=
  (kept8 m c main_v38 (by decide)).trans ((kept7 m c main_v38 (by decide)).trans (atOut6 m c))

/-- The latent code is region 4's input. -/
theorem z_eq : U9 m c main_v43 = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (stretch4_z (U8 m c)).trans ?_
  rw [mean_at8 m c, o6_eq m c, atOut8 m c, o8_eq m c, argKept8 m c main_arg3 (by decide)] <;> rfl

/-- Region 4 leaves layer 4. -/
theorem o10_eq : o10 m c = specD4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have e0 : R9 m c (Pipeline.arrRef spec4 0) = specZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := z_eq m c
  have e1 : R9 m c (Pipeline.arrRef spec4 1) = (m ((c.tc : Thread nD τ).loc main_arg12)) := argKept9 m c main_arg12 (by decide)
  have e2 : R9 m c (Pipeline.arrRef spec4 2) = shapeCast Cert.ReferenceIdeal.S1x64000 (m ((c.tc : Thread nD τ).loc main_arg13)) casts_S64000_S1x64000 := by
    refine (stretch4_b (U8 m c)).trans ?_
    rw [argKept8 m c main_arg13 (by decide)] <;> rfl
  refine (final4 (R9 m) c).trans ?_
  rw [e0, e1, e2] <;> rfl

/-- Region 5 leaves layer 5 of layer 4's result re-laid as one row per node. -/
theorem o12_eq : o12 m c = specOut5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  have e0 : R11 m c (Pipeline.arrRef spec5 0)
      = shapeCast Cert.ReferenceIdeal.S64000x64 (specD4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) Cert.ReferenceIdeal.Gen.shapeCasts_S64x64000_S64000x64 := by
    refine (stretch5_x (U10 m c)).trans ?_
    rw [atOut10 m c, o10_eq m c]
  have e1 : R11 m c (Pipeline.arrRef spec5 1) = (m ((c.tc : Thread nD τ).loc main_arg14)) := argKept11 m c main_arg14 (by decide)
  have e2 : R11 m c (Pipeline.arrRef spec5 2) = shapeCast Cert.ReferenceIdeal.S1x32 (m ((c.tc : Thread nD τ).loc main_arg15)) casts_S32_S1x32 := by
    refine (stretch5_b (U10 m c)).trans ?_
    rw [argKept10 m c main_arg15 (by decide)] <;> rfl
  refine (final5 (R11 m) c).trans ?_
  rw [e0, e1, e2] <;> rfl

/-! ## The three results at the end -/

/-- The mean, as the program ends. -/
theorem chain_mean : U13 m c main_v38 = specMean (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (kept13 m c main_v38 (by decide)).trans <| (kept12 m c main_v38 (by decide)).trans <|
    (kept11 m c main_v38 (by decide)).trans <| (kept10 m c main_v38 (by decide)).trans <|
    (kept9 m c main_v38 (by decide)).trans <| (mean_at8 m c).trans (o6_eq m c)

/-- The logarithm of the standard deviation, as the program ends. -/
theorem chain_logstd : U13 m c main_v40 = specLogstd (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (kept13 m c main_v40 (by decide)).trans <| (kept12 m c main_v40 (by decide)).trans <|
    (kept11 m c main_v40 (by decide)).trans <| (kept10 m c main_v40 (by decide)).trans <|
    (kept9 m c main_v40 (by decide)).trans <| (atOut8 m c).trans (o8_eq m c)

/-- The output nodes: the last aggregation of layer 5's result. -/
theorem chain_out : U13 m c main_v77 = specOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  refine (stretch6 (U12 m c)).trans ?_
  rw [atOut12 m c, o12_eq m c, argKept12 m c main_arg1 (by decide), argKept12 m c main_arg2 (by decide)] <;> rfl

end Cert.KernelIdeal.Dense

end
-- ==== Proof.Alg.lean ====
/-
  The algebraic claim: on the extended reals both programs end with the same three results. The kernel program's
  run leaves, in the buffers of the mean, the log standard deviation and the output nodes, the same compositions of
  the sixteen arguments' launch contents as the reference's run leaves in its own result buffers (each dense layer
  one whole-array function of its operands, the gathers and scatters between the layers the same host operations),
  and leaves the arguments as launched; so from memories that agree on the arguments the results are equal, entry by
  entry. No finiteness is used: the two sides are the same term of the arguments.
-/
import proofs.«179658_j2465311228054_1_alg».proof.Defs
import proofs.«179658_j2465311228054_1_alg».proof.Proof.KI.Run
import proofs.«179658_j2465311228054_1_alg».proof.Proof.KI.Chain
import proofs.«179658_j2465311228054_1_alg».proof.Proof.Ref.Chain
import proofs.«179658_j2465311228054_1_alg».proof.Proof.Gen.KernelIdeal
import proofs.«179658_j2465311228054_1_alg».proof.Proof.Gen.ReferenceIdeal
import proofs.«179658_j2465311228054_1_alg».proof.Proof.Gen.Pre_finite_inputs

set_option maxRecDepth 16384

noncomputable section

namespace Cert.Proof.Alg

open Idealize.ShloMosaic Idealize.ShloMosaic.TcCoe Idealize.SL.Sem

/-- The kernel program's run, as the reference's is stated: every weakly fair execution terminates with the three
    results at the same compositions of the arguments' launch contents, and the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
    (fun r => ∀ c : Dev Cert.KernelIdeal.nD,
      r.2.mem ((c.tc : Thread Cert.KernelIdeal.nD Cert.KernelIdeal.τ).loc Cert.KernelIdeal.main_v38) = Cert.ReferenceIdeal.RefValue.specMean (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v40) = Cert.ReferenceIdeal.RefValue.specLogstd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_v77) = Cert.ReferenceIdeal.RefValue.specOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run Cert.KernelIdeal.defs _ _).mono (fun r h c =>
    ⟨(h c _ (Cert.KernelIdeal.Dense.mem_uc Cert.KernelIdeal.main_v38 (by decide))).trans (Cert.KernelIdeal.Dense.chain_mean m c),
      (h c _ (Cert.KernelIdeal.Dense.mem_uc Cert.KernelIdeal.main_v40 (by decide))).trans (Cert.KernelIdeal.Dense.chain_logstd m c),
      (h c _ (Cert.KernelIdeal.Dense.mem_uc Cert.KernelIdeal.main_v77 (by decide))).trans (Cert.KernelIdeal.Dense.chain_out m c),
      (h c _ (Cert.KernelIdeal.Dense.mem_uc Cert.KernelIdeal.main_arg0 (by decide))).trans (Cert.KernelIdeal.Dense.U13_main_arg0 m c),
      (h c _ (Cert.KernelIdeal.Dense.mem_uc Cert.KernelIdeal.main_arg1 (by decide))).trans (Cert.KernelIdeal.Dense.U13_main_arg1 m c),
      (h c _ (Cert.KernelIdeal.Dense.mem_uc Cert.KernelIdeal.main_arg2 (by decide))).trans (Cert.KernelIdeal.Dense.U13_main_arg2 m c),
      (h c _ (Cert.KernelIdeal.Dense.mem_uc Cert.KernelIdeal.main_arg3 (by decide))).trans (Cert.KernelIdeal.Dense.U13_main_arg3 m c),
      (h c _ (Cert.KernelIdeal.Dense.mem_uc Cert.KernelIdeal.main_arg4 (by decide))).trans (Cert.KernelIdeal.Dense.U13_main_arg4 m c),
      (h c _ (Cert.KernelIdeal.Dense.mem_uc Cert.KernelIdeal.main_arg5 (by decide))).trans (Cert.KernelIdeal.Dense.U13_main_arg5 m c),
      (h c _ (Cert.KernelIdeal.Dense.mem_uc Cert.KernelIdeal.main_arg6 (by decide))).trans (Cert.KernelIdeal.Dense.U13_main_arg6 m c),
      (h c _ (Cert.KernelIdeal.Dense.mem_uc Cert.KernelIdeal.main_arg7 (by decide))).trans (Cert.KernelIdeal.Dense.U13_main_arg7 m c),
      (h c _ (Cert.KernelIdeal.Dense.mem_uc Cert.KernelIdeal.main_arg8 (by decide))).trans (Cert.KernelIdeal.Dense.U13_main_arg8 m c),
      (h c _ (Cert.KernelIdeal.Dense.mem_uc Cert.KernelIdeal.main_arg9 (by decide))).trans (Cert.KernelIdeal.Dense.U13_main_arg9 m c),
      (h c _ (Cert.KernelIdeal.Dense.mem_uc Cert.KernelIdeal.main_arg10 (by decide))).trans (Cert.KernelIdeal.Dense.U13_main_arg10 m c),
      (h c _ (Cert.KernelIdeal.Dense.mem_uc Cert.KernelIdeal.main_arg11 (by decide))).trans (Cert.KernelIdeal.Dense.U13_main_arg11 m c),
      (h c _ (Cert.KernelIdeal.Dense.mem_uc Cert.KernelIdeal.main_arg12 (by decide))).trans (Cert.KernelIdeal.Dense.U13_main_arg12 m c),
      (h c _ (Cert.KernelIdeal.Dense.mem_uc Cert.KernelIdeal.main_arg13 (by decide))).trans (Cert.KernelIdeal.Dense.U13_main_arg13 m c),
      (h c _ (Cert.KernelIdeal.Dense.mem_uc Cert.KernelIdeal.main_arg14 (by decide))).trans (Cert.KernelIdeal.Dense.U13_main_arg14 m c),
      (h c _ (Cert.KernelIdeal.Dense.mem_uc Cert.KernelIdeal.main_arg15 (by decide))).trans (Cert.KernelIdeal.Dense.U13_main_arg15 m c)⟩)
    (Cert.KernelIdeal.Dense.run_all (F := Ideal) m ρ)

/-- Both programs end with the same three compositions of their arguments; where the arguments agree the results do. -/
theorem algebraic : Cert.algebraic_KernelIdeal_ReferenceIdeal := by
  intro m ρ m' ρ' _ hagree
  refine ⟨fun c => Cert.ReferenceIdeal.RefValue.specMean (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)),
    fun c => Cert.ReferenceIdeal.RefValue.specLogstd (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)),
    fun c => Cert.ReferenceIdeal.RefValue.specOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)), ?_, Cert.ReferenceIdeal.RefValue.ref_run m' ρ'⟩
  refine (θ_run Cert.KernelIdeal.defs _ _).mono (fun r h c => ?_) (kernel_run m ρ)
  obtain ⟨e0, e1, e2, e3, e4, e5, e6, e7, e8, e9, e10, e11, e12, e13, e14, e15⟩ := hagree c
  dsimp only
  rw [e0, e1, e2, e3, e4, e5, e6, e7, e8, e9, e10, e11, e12, e13, e14, e15]
  exact h c

end Cert.Proof.Alg

end
-- ==== Proof.lean ====
/- The proof of `Cert.Claim` (proofs.«179658_j2465311228054_1_alg».proof.Defs): a graph-convolutional variational auto-encoder's forward pass, whose six
   dense layers are kernels launched over a grid of blocks in the program and plain matrix products in the reference, with the same
   scatter/gather aggregation between them on both sides.

   Each kernel computes  act(x · W + b)  block by block: at a grid point it zeroes an accumulator at the first step
   along the contracted axis, adds the product of the point's two input blocks into it, and at the last step
   stores the accumulator plus the bias row (for layers 0, 1 and 4 cut below at zero) into the output block. Five
   layers have one step per point; layer 1 contracts 64000 entries in 20 steps of 3200 and carries its accumulator
   from step to step.

   The frames (Proof/KB/Run.lean for the program as printed, Proof/KI/Run.lean for its idealization: the same
   text, generic in the float instance; Proof/Ref/Run.lean for the reference): @main is seven stretches of host
   operations with the six regions between them; every region's body runs at every grid point without fault
   (Proof/K?/Body*.lean), each region changes only its output array (Proof/K?/Half*.lean), and no item writes
   an argument. The idealization rewrote nothing, so `preserves` asks nothing.

   The values (at the ideal instance: floats are extended reals, changes of format the identity, a matrix
   product the exact sum): each region's output array is  act(x · W + b)  as ONE function of its operand arrays,
   entry by entry (Proof/Spec.lean; Proof/KI/Val*.lean) — over row blocks, column blocks, or, for layer 1, the
   sum over 64000 regrouped into 20 sums of 3200, which needs only that addition of extended reals is
   commutative and associative (no finiteness); the reference's  x @ W + b  is the same function
   (Proof/Ref/Dense*.lean); the host operations between the layers are the same on both sides
   (Proof/KI/Stretch.lean, Proof/Ref/Chain.lean), so the three results agree (Proof/KI/Chain.lean, Proof/Alg.lean). -/
import proofs.«179658_j2465311228054_1_alg».proof.Defs
import proofs.«179658_j2465311228054_1_alg».proof.Proof.Gen.Kernel
import proofs.«179658_j2465311228054_1_alg».proof.Proof.Gen.Kernel.Skeleton
import proofs.«179658_j2465311228054_1_alg».proof.Proof.Gen.Kernel.Launch
import proofs.«179658_j2465311228054_1_alg».proof.Proof.Gen.Kernel.Regions
import proofs.«179658_j2465311228054_1_alg».proof.Proof.Gen.Kernel.Points
import proofs.«179658_j2465311228054_1_alg».proof.Proof.Gen.KernelIdeal
import proofs.«179658_j2465311228054_1_alg».proof.Proof.Gen.KernelIdeal.Skeleton
import proofs.«179658_j2465311228054_1_alg».proof.Proof.Gen.KernelIdeal.Launch
import proofs.«179658_j2465311228054_1_alg».proof.Proof.Gen.KernelIdeal.Regions
import proofs.«179658_j2465311228054_1_alg».proof.Proof.Gen.KernelIdeal.Points
import proofs.«179658_j2465311228054_1_alg».proof.Proof.Gen.ReferenceIdeal
import proofs.«179658_j2465311228054_1_alg».proof.Proof.Gen.Pre_finite_inputs
import proofs.«179658_j2465311228054_1_alg».proof.Proof.KB.Run
import proofs.«179658_j2465311228054_1_alg».proof.Proof.KI.Run
import proofs.«179658_j2465311228054_1_alg».proof.Proof.Ref.Run
import proofs.«179658_j2465311228054_1_alg».proof.Proof.Alg
import Idealize.ShloMosaic.Adequacy
import Idealize.ShloMosaic.Init

noncomputable section

namespace Cert.Proof

open Idealize.ShloMosaic Idealize.SL.Sem

/-- The program as printed runs to the end, nothing faulting, its arguments unchanged. -/
theorem frame_k : Cert.frame_Kernel := fun m ρ _ => Cert.Kernel.Dense.frame (F := Bits) m ρ
/-- So does its idealization. -/
theorem frame_ki : Cert.frame_KernelIdeal := fun m ρ _ => Cert.KernelIdeal.Dense.frame (F := Ideal) m ρ

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, trivial, Cert.Proof.Alg.algebraic⟩

end Cert.Proof

end
